-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S8x2048x8192 : Shape := ⟨3, ![8, 2048, 8192]⟩
abbrev S8x2048 : Shape := ⟨2, ![8, 2048]⟩
abbrev S_ : Shape := ⟨0, ![]⟩

class Facts : Prop where
  bcast_S_S8x2048x8192 : S_.BroadcastsInDim S8x2048x8192 (![] : Fin 0 → Fin S8x2048x8192.rank)
  reducesTo_S8x2048x8192_S_d0_1_2 : S8x2048x8192.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S8x2048x8192 .f32) (main_arg1 : IVec S8x2048 32) : IVec S_ 1 :=
  let main_v0 : FVec F S8x2048x8192 .f32 := Host.absf main_arg0
  let main_cst : FVec F S_ .f32 := constant S_ .f32 0x7F800000#32
  let main_v1 : FVec F S8x2048x8192 .f32 := broadcastInDim S8x2048x8192 ![] bcast_S_S8x2048x8192 main_cst
  let main_v2 : IVec S8x2048x8192 1 := cmpf .olt main_v0 main_v1
  let main_c : IVec S_ 1 := constantI S_ 1 1#1
  let main_v3 : IVec S_ 1 := (fun x v => Host.reduce IntOp.andi x v reducesTo_S8x2048x8192_S_d0_1_2 h_S_) main_v2 main_c
  let main_c_0 : IVec S_ 32 := constantI S_ 32 0#32
  let main_v4 : IVec S8x2048 32 := broadcastInDim S8x2048 ![] bcast_S_S8x2048 main_c_0
  let main_v5 : IVec S8x2048 1 := cmpi .sge main_arg1 main_v4
  let main_c_1 : IVec S_ 32 := constantI S_ 32 8191#32
  let main_v6 : IVec S8x2048 32 := broadcastInDim S8x2048 ![] bcast_S_S8x2048 main_c_1
  let main_v7 : IVec S8x2048 1 := cmpi .sle main_arg1 main_v6
  let main_v8 : IVec S8x2048 1 := andi main_v5 main_v7
  let main_c_2 : IVec S_ 1 := constantI S_ 1 1#1
  let main_v9 : IVec S_ 1 := (fun x v => Host.reduce IntOp.andi x v reducesTo_S8x2048_S_d0_1 h_S_) main_v8 main_c_2
  let main_v10 : IVec S_ 1 := andi main_v3 main_v9
  main_v10
-- ==== Kernel.lean ====
abbrev S8x2048x8192 : Shape := ⟨3, ![8, 2048, 8192]⟩
abbrev S8x2048 : Shape := ⟨2, ![8, 2048]⟩
abbrev S32x512 : Shape := ⟨2, ![32, 512]⟩
abbrev S528 : Shape := ⟨1, ![528]⟩
abbrev S32x8x128 : Shape := ⟨3, ![32, 8, 128]⟩
abbrev S512 : Shape := ⟨1, ![512]⟩
abbrev S_ : Shape := ⟨0, ![]⟩
abbrev S1x512 : Shape := ⟨2, ![1, 512]⟩
abbrev S16 : Shape := ⟨1, ![16]⟩
abbrev S1 : Shape := ⟨1, ![1]⟩
abbrev S1x8x128 : Shape := ⟨3, ![1, 8, 128]⟩
abbrev S8x128 : Shape := ⟨2, ![8, 128]⟩
abbrev S1x1 : Shape := ⟨2, ![1, 1]⟩
abbrev S32 : Shape := ⟨1, ![32]⟩
abbrev S32x32 : Shape := ⟨2, ![32, 32]⟩
abbrev S1x32 : Shape := ⟨2, ![1, 32]⟩
abbrev S32x1 : Shape := ⟨2, ![32, 1]⟩
abbrev S1x32x512 : Shape := ⟨3, ![1, 32, 512]⟩
abbrev S1x1x1 : Shape := ⟨3, ![1, 1, 1]⟩

abbrev nBuf : Table → Nat
  | .hbm => 6
  | .local .tc .vmem => 2
  | .local .tc .smem => 1
  | .local .scVector .vmem => 4
  | _ => 0

abbrev bufTy : (tb : Table) → Fin (nBuf tb) → BufTy
  | .hbm, ⟨0, _⟩ => ⟨S8x2048x8192, .f32⟩
  | .hbm, ⟨1, _⟩ => ⟨S8x2048, .i32⟩
  | .hbm, ⟨2, _⟩ => ⟨S32x512, .f32⟩
  | .hbm, ⟨3, _⟩ => ⟨S32x512, .i32⟩
  | .hbm, ⟨4, _⟩ => ⟨S1x1, .f32⟩
  | .hbm, ⟨5, _⟩ => ⟨S_, .f32⟩
  | .local .tc .vmem, ⟨0, _⟩ => ⟨S32x512, .f32⟩
  | .local .tc .vmem, ⟨1, _⟩ => ⟨S32x512, .i32⟩
  | .local .tc .smem, ⟨0, _⟩ => ⟨S1x1, .f32⟩
  | .local .scVector .vmem, ⟨0, _⟩ => ⟨S528, .i32⟩
  | .local .scVector .vmem, ⟨1, _⟩ => ⟨S32x8x128, .f32⟩
  | .local .scVector .vmem, ⟨2, _⟩ => ⟨S32x8x128, .f32⟩
  | .local .scVector .vmem, ⟨3, _⟩ => ⟨S512, .f32⟩
  | _, _ => ⟨S8x2048x8192, .f32⟩

abbrev bufScoped : (cs : CoreSpace) → Fin (nBuf (.local .tc cs)) → Bool
  | .vmem, ⟨0, _⟩ => true
  | .vmem, ⟨1, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg1_0 : Ref sig .tc := ⟨.vmem, 1, rfl⟩
abbrev cc1_stg2_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem1_0 : DmaSem sig := 5
abbrev cc1_sem2_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  ![v18.toNat, v29.toNat]
@[reducible] def k0_t1_loop : Scf.Loop 32 :=
  let c0_i32_10 : BitVec 32 := 0#32
  let c32_i32 : BitVec 32 := 32#32
  let v31 : BitVec 32 := Scalar.addi c0_i32_10 c32_i32
  let c1_i32_11 : BitVec 32 := 1#32
  ⟨c0_i32_10, v31, c1_i32_11⟩
def k0_off2 (k0_t1 : Fin k0_t1_loop.trips) : Fin 1 → Nat :=
  let c0_i32_16 : BitVec 32 := 0#32
  let c0_i32_10 : BitVec 32 := 0#32
  let c1_i32_11 : BitVec 32 := 1#32
  let arg11 : BitVec 32 := Scf.iv c0_i32_10 c1_i32_11 k0_t1
  let v33 : BitVec 32 := Scalar.addi c0_i32_16 arg11
  let v34 : Index := Scalar.indexCast v33
  ![v34.toNat]
def k0_mult1 (v37 : BitVec 32) : BitVec 32 :=
  let c7_i32 : BitVec 32 := 7#32
  let v38 : BitVec 32 := Scalar.shrsi v37 c7_i32
  let c7_i32_17 : BitVec 32 := 7#32
  let v39 : BitVec 32 := Scalar.shli v38 c7_i32_17
  v39

def k0_mult2 (i : grid0.Coords) (k0_t1 : Fin k0_t1_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c0_i32_18 : BitVec 32 := 0#32
  let v41 : BitVec 32 := Scalar.addi v29 c0_i32_18
  let c0_i32_10 : BitVec 32 := 0#32
  let c1_i32_11 : BitVec 32 := 1#32
  let arg11 : BitVec 32 := Scf.iv c0_i32_10 c1_i32_11 k0_t1
  let c_m8_i32 : BitVec 32 := 4294967288#32
  let v42 : BitVec 32 := Scalar.andi arg11 c_m8_i32
  let v43 : BitVec 32 := Scalar.addi v41 v42
  v43
def k0_off3 (k0_t1 : Fin k0_t1_loop.trips) : Fin 3 → Nat :=
  let c0_i32_10 : BitVec 32 := 0#32
  let c1_i32_11 : BitVec 32 := 1#32
  let arg11 : BitVec 32 := Scf.iv c0_i32_10 c1_i32_11 k0_t1
  let c0_i32_19 : BitVec 32 := 0#32
  let c0_i32_20 : BitVec 32 := 0#32
  ![arg11.toNat, 0, 0]
def k0_off4 (i : grid0.Coords) (k0_t1 : Fin k0_t1_loop.trips) (v37 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c0_i32_18 : BitVec 32 := 0#32
  let v41 : BitVec 32 := Scalar.addi v29 c0_i32_18
  let c0_i32_10 : BitVec 32 := 0#32
  let c1_i32_11 : BitVec 32 := 1#32
  let arg11 : BitVec 32 := Scf.iv c0_i32_10 c1_i32_11 k0_t1
  let c_m8_i32 : BitVec 32 := 4294967288#32
  let v42 : BitVec 32 := Scalar.andi arg11 c_m8_i32
  let v43 : BitVec 32 := Scalar.addi v41 v42
  let v44 : BitVec 32 := v43
  let c7_i32 : BitVec 32 := 7#32
  let v38 : BitVec 32 := Scalar.shrsi v37 c7_i32
  let c7_i32_17 : BitVec 32 := 7#32
  let v39 : BitVec 32 := Scalar.shli v38 c7_i32_17
  let v40 : BitVec 32 := v39
  ![v18.toNat, v44.toNat, v40.toNat]

def k0_chk1 (i : grid0.Coords) (k0_t1 : Fin k0_t1_loop.trips) (v37 : BitVec 32) : Prop :=
  (128 ∣ (k0_mult1 v37).toNat) ∧
  (∀ a, (k0_off4 i k0_t1 v37) a + S1x8x128.size a ≤ S8x2048x8192.size a)
instance k0_chk1.dec : ∀ (i : grid0.Coords) (k0_t1 : Fin k0_t1_loop.trips) (v37 : BitVec 32), Decidable (k0_chk1 i k0_t1 v37) := fun i k0_t1 v37 => decidable_of_iff' _ (Iff.of_eq (k0_chk1.eq_1 i k0_t1 v37))
theorem k0_mult1_dvd : ∀ (i : grid0.Coords) (k0_t1 : Fin k0_t1_loop.trips) (v37 : BitVec 32) (k0_hw1 : k0_chk1 i k0_t1 v37), 128 ∣ (k0_mult1 v37).toNat := fun i k0_t1 v37 k0_hw1 => k0_hw1.1
theorem k0_off4_inb : ∀ (i : grid0.Coords) (k0_t1 : Fin k0_t1_loop.trips) (v37 : BitVec 32) (k0_hw1 : k0_chk1 i k0_t1 v37), ∀ a, (k0_off4 i k0_t1 v37) a + S1x8x128.size a ≤ S8x2048x8192.size a := fun i k0_t1 v37 k0_hw1 => k0_hw1.2

@[reducible] def k0_t2_loop : Scf.Loop 32 :=
  let c0_i32_13 : BitVec 32 := 0#32
  let c8_i32 : BitVec 32 := 8#32
  let v32 : BitVec 32 := Scalar.addi c0_i32_13 c8_i32
  let c1_i32_14 : BitVec 32 := 1#32
  ⟨c0_i32_13, v32, c1_i32_14⟩
@[reducible] def k0_t3_loop : Scf.Loop 32 :=
  let c0_i32_18 : BitVec 32 := 0#32
  let c32_i32_19 : BitVec 32 := 32#32
  let v36 : BitVec 32 := Scalar.addi c0_i32_18 c32_i32_19
  let c1_i32_20 : BitVec 32 := 1#32
  ⟨c0_i32_18, v36, c1_i32_20⟩
def k0_off5 (k0_t2 : Fin k0_t2_loop.trips) (k0_t3 : Fin k0_t3_loop.trips) : Fin 1 → Nat :=
  let c2_i32 : BitVec 32 := 2#32
  let c0_i32_13 : BitVec 32 := 0#32
  let c1_i32_14 : BitVec 32 := 1#32
  let arg11 : BitVec 32 := Scf.iv c0_i32_13 c1_i32_14 k0_t2
  let v33 : BitVec 32 := Scalar.muli c2_i32 arg11
  let c32_i32_16 : BitVec 32 := 32#32
  let v34 : BitVec 32 := Scalar.muli v33 c32_i32_16
  let c32_i32_17 : BitVec 32 := 32#32
  let v35 : BitVec 32 := Scalar.addi v34 c32_i32_17
  let c0_i32_18 : BitVec 32 := 0#32
  let c1_i32_20 : BitVec 32 := 1#32
  let arg12 : BitVec 32 := Scf.iv c0_i32_18 c1_i32_20 k0_t3
  let v96 : BitVec 32 := Scalar.addi v35 arg12
  let v97 : Index := Scalar.indexCast v96
  ![v97.toNat]
def k0_mult3 (v100 : BitVec 32) : BitVec 32 :=
  let c7_i32_51 : BitVec 32 := 7#32
  let v101 : BitVec 32 := Scalar.shrsi v100 c7_i32_51
  let c7_i32_52 : BitVec 32 := 7#32
  let v102 : BitVec 32 := Scalar.shli v101 c7_i32_52
  v102

def k0_mult4 (i : grid0.Coords) (k0_t2 : Fin k0_t2_loop.trips) (k0_t3 : Fin k0_t3_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2_i32 : BitVec 32 := 2#32
  let c0_i32_13 : BitVec 32 := 0#32
  let c1_i32_14 : BitVec 32 := 1#32
  let arg11 : BitVec 32 := Scf.iv c0_i32_13 c1_i32_14 k0_t2
  let v33 : BitVec 32 := Scalar.muli c2_i32 arg11
  let c32_i32_16 : BitVec 32 := 32#32
  let v34 : BitVec 32 := Scalar.muli v33 c32_i32_16
  let c32_i32_17 : BitVec 32 := 32#32
  let v35 : BitVec 32 := Scalar.addi v34 c32_i32_17
  let v104 : BitVec 32 := Scalar.addi v29 v35
  let c0_i32_18 : BitVec 32 := 0#32
  let c1_i32_20 : BitVec 32 := 1#32
  let arg12 : BitVec 32 := Scf.iv c0_i32_18 c1_i32_20 k0_t3
  let c_m8_i32 : BitVec 32 := 4294967288#32
  let v105 : BitVec 32 := Scalar.andi arg12 c_m8_i32
  let v106 : BitVec 32 := Scalar.addi v104 v105
  v106
def k0_off6 (k0_t3 : Fin k0_t3_loop.trips) : Fin 3 → Nat :=
  let c0_i32_18 : BitVec 32 := 0#32
  let c1_i32_20 : BitVec 32 := 1#32
  let arg12 : BitVec 32 := Scf.iv c0_i32_18 c1_i32_20 k0_t3
  let c0_i32_53 : BitVec 32 := 0#32
  let c0_i32_54 : BitVec 32 := 0#32
  ![arg12.toNat, 0, 0]
def k0_off7 (i : grid0.Coords) (k0_t2 : Fin k0_t2_loop.trips) (k0_t3 : Fin k0_t3_loop.trips) (v100 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2_i32 : BitVec 32 := 2#32
  let c0_i32_13 : BitVec 32 := 0#32
  let c1_i32_14 : BitVec 32 := 1#32
  let arg11 : BitVec 32 := Scf.iv c0_i32_13 c1_i32_14 k0_t2
  let v33 : BitVec 32 := Scalar.muli c2_i32 arg11
  let c32_i32_16 : BitVec 32 := 32#32
  let v34 : BitVec 32 := Scalar.muli v33 c32_i32_16
  let c32_i32_17 : BitVec 32 := 32#32
  let v35 : BitVec 32 := Scalar.addi v34 c32_i32_17
  let v104 : BitVec 32 := Scalar.addi v29 v35
  let c0_i32_18 : BitVec 32 := 0#32
  let c1_i32_20 : BitVec 32 := 1#32
  let arg12 : BitVec 32 := Scf.iv c0_i32_18 c1_i32_20 k0_t3
  let c_m8_i32 : BitVec 32 := 4294967288#32
  let v105 : BitVec 32 := Scalar.andi arg12 c_m8_i32
  let v106 : BitVec 32 := Scalar.addi v104 v105
  let v107 : BitVec 32 := v106
  let c7_i32_51 : BitVec 32 := 7#32
  let v101 : BitVec 32 := Scalar.shrsi v100 c7_i32_51
  let c7_i32_52 : BitVec 32 := 7#32
  let v102 : BitVec 32 := Scalar.shli v101 c7_i32_52
  let v103 : BitVec 32 := v102
  ![v18.toNat, v107.toNat, v103.toNat]

def k0_chk2 (i : grid0.Coords) (k0_t2 : Fin k0_t2_loop.trips) (k0_t3 : Fin k0_t3_loop.trips) (v100 : BitVec 32) : Prop :=
  (128 ∣ (k0_mult3 v100).toNat) ∧
  (∀ a, (k0_off7 i k0_t2 k0_t3 v100) a + S1x8x128.size a ≤ S8x2048x8192.size a)
instance k0_chk2.dec : ∀ (i : grid0.Coords) (k0_t2 : Fin k0_t2_loop.trips) (k0_t3 : Fin k0_t3_loop.trips) (v100 : BitVec 32), Decidable (k0_chk2 i k0_t2 k0_t3 v100) := fun i k0_t2 k0_t3 v100 => decidable_of_iff' _ (Iff.of_eq (k0_chk2.eq_1 i k0_t2 k0_t3 v100))
theorem k0_mult3_dvd : ∀ (i : grid0.Coords) (k0_t2 : Fin k0_t2_loop.trips) (k0_t3 : Fin k0_t3_loop.trips) (v100 : BitVec 32) (k0_hw2 : k0_chk2 i k0_t2 k0_t3 v100), 128 ∣ (k0_mult3 v100).toNat := fun i k0_t2 k0_t3 v100 k0_hw2 => k0_hw2.1
theorem k0_off7_inb : ∀ (i : grid0.Coords) (k0_t2 : Fin k0_t2_loop.trips) (k0_t3 : Fin k0_t3_loop.trips) (v100 : BitVec 32) (k0_hw2 : k0_chk2 i k0_t2 k0_t3 v100), ∀ a, (k0_off7 i k0_t2 k0_t3 v100) a + S1x8x128.size a ≤ S8x2048x8192.size a := fun i k0_t2 k0_t3 v100 k0_hw2 => k0_hw2.2

@[reducible] def k0_t4_loop : Scf.Loop 32 :=
  let c0_i32_22 : BitVec 32 := 0#32
  let c32_i32_23 : BitVec 32 := 32#32
  let v37 : BitVec 32 := Scalar.addi c0_i32_22 c32_i32_23
  let c1_i32_24 : BitVec 32 := 1#32
  ⟨c0_i32_22, v37, c1_i32_24⟩
def k0_off8 (k0_t4 : Fin k0_t4_loop.trips) : Fin 3 → Nat :=
  let c0_i32_22 : BitVec 32 := 0#32
  let c1_i32_24 : BitVec 32 := 1#32
  let arg12 : BitVec 32 := Scf.iv c0_i32_22 c1_i32_24 k0_t4
  let c0_i32_51 : BitVec 32 := 0#32
  let c0_i32_52 : BitVec 32 := 0#32
  ![arg12.toNat, 0, 0]
def k0_off9 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_53 : BitVec 32 := 0#32
  let c0_i32_54 : BitVec 32 := 0#32
  ![v18.toNat, 0, 0]
def k0_off10 (k0_t2 : Fin k0_t2_loop.trips) : Fin 1 → Nat :=
  let c2_i32 : BitVec 32 := 2#32
  let c0_i32_13 : BitVec 32 := 0#32
  let c1_i32_14 : BitVec 32 := 1#32
  let arg11 : BitVec 32 := Scf.iv c0_i32_13 c1_i32_14 k0_t2
  let v33 : BitVec 32 := Scalar.muli c2_i32 arg11
  let c32_i32_16 : BitVec 32 := 32#32
  let v34 : BitVec 32 := Scalar.muli v33 c32_i32_16
  let c0_i32_26 : BitVec 32 := 0#32
  let v38 : BitVec 32 := Scalar.addi v34 c0_i32_26
  let v39 : Index := Scalar.indexCast v38
  ![v39.toNat]

def k0_chk3 (v42 : IVec S16 32) (v44 : IVec S16 32) (v46 : IVec S16 32) : Prop :=
  (∀ a x, ((![v42, v44, v46] : Fin 3 → IVec S16 32) a x).toNat < S32x8x128.size a)
instance k0_chk3.dec : ∀ (v42 : IVec S16 32) (v44 : IVec S16 32) (v46 : IVec S16 32), Decidable (k0_chk3 v42 v44 v46) := fun v42 v44 v46 => decidable_of_iff' _ (Iff.of_eq (k0_chk3.eq_1 v42 v44 v46))
theorem k0_idx1_inb : ∀ (v42 : IVec S16 32) (v44 : IVec S16 32) (v46 : IVec S16 32) (k0_hw3 : k0_chk3 v42 v44 v46), ∀ a x, ((![v42, v44, v46] : Fin 3 → IVec S16 32) a x).toNat < S32x8x128.size a := fun v42 v44 v46 k0_hw3 => k0_hw3
def k0_off11 (k0_t2 : Fin k0_t2_loop.trips) : Fin 1 → Nat :=
  let c2_i32 : BitVec 32 := 2#32
  let c0_i32_13 : BitVec 32 := 0#32
  let c1_i32_14 : BitVec 32 := 1#32
  let arg11 : BitVec 32 := Scf.iv c0_i32_13 c1_i32_14 k0_t2
  let v33 : BitVec 32 := Scalar.muli c2_i32 arg11
  let c32_i32_16 : BitVec 32 := 32#32
  let v34 : BitVec 32 := Scalar.muli v33 c32_i32_16
  let c0_i32_28 : BitVec 32 := 0#32
  let v48 : BitVec 32 := Scalar.addi v34 c0_i32_28
  let v49 : Index := Scalar.indexCast v48
  ![v49.toNat]
def k0_off12 (k0_t2 : Fin k0_t2_loop.trips) : Fin 1 → Nat :=
  let c2_i32 : BitVec 32 := 2#32
  let c0_i32_13 : BitVec 32 := 0#32
  let c1_i32_14 : BitVec 32 := 1#32
  let arg11 : BitVec 32 := Scf.iv c0_i32_13 c1_i32_14 k0_t2
  let v33 : BitVec 32 := Scalar.muli c2_i32 arg11
  let c32_i32_16 : BitVec 32 := 32#32
  let v34 : BitVec 32 := Scalar.muli v33 c32_i32_16
  let c16_i32_29 : BitVec 32 := 16#32
  let v51 : BitVec 32 := Scalar.addi v34 c16_i32_29
  let v52 : Index := Scalar.indexCast v51
  ![v52.toNat]

def k0_chk4 (v55 : IVec S16 32) (v57 : IVec S16 32) (v59 : IVec S16 32) : Prop :=
  (∀ a x, ((![v55, v57, v59] : Fin 3 → IVec S16 32) a x).toNat < S32x8x128.size a)
instance k0_chk4.dec : ∀ (v55 : IVec S16 32) (v57 : IVec S16 32) (v59 : IVec S16 32), Decidable (k0_chk4 v55 v57 v59) := fun v55 v57 v59 => decidable_of_iff' _ (Iff.of_eq (k0_chk4.eq_1 v55 v57 v59))
theorem k0_idx2_inb : ∀ (v55 : IVec S16 32) (v57 : IVec S16 32) (v59 : IVec S16 32) (k0_hw4 : k0_chk4 v55 v57 v59), ∀ a x, ((![v55, v57, v59] : Fin 3 → IVec S16 32) a x).toNat < S32x8x128.size a := fun v55 v57 v59 k0_hw4 => k0_hw4
def k0_off13 (k0_t2 : Fin k0_t2_loop.trips) : Fin 1 → Nat :=
  let c2_i32 : BitVec 32 := 2#32
  let c0_i32_13 : BitVec 32 := 0#32
  let c1_i32_14 : BitVec 32 := 1#32
  let arg11 : BitVec 32 := Scf.iv c0_i32_13 c1_i32_14 k0_t2
  let v33 : BitVec 32 := Scalar.muli c2_i32 arg11
  let c32_i32_16 : BitVec 32 := 32#32
  let v34 : BitVec 32 := Scalar.muli v33 c32_i32_16
  let c16_i32_33 : BitVec 32 := 16#32
  let v61 : BitVec 32 := Scalar.addi v34 c16_i32_33
  let v62 : Index := Scalar.indexCast v61
  ![v62.toNat]
def k0_cond1 (k0_t2 : Fin k0_t2_loop.trips) : BitVec 1 :=
  let c2_i32 : BitVec 32 := 2#32
  let c0_i32_13 : BitVec 32 := 0#32
  let c1_i32_14 : BitVec 32 := 1#32
  let arg11 : BitVec 32 := Scf.iv c0_i32_13 c1_i32_14 k0_t2
  let v33 : BitVec 32 := Scalar.muli c2_i32 arg11
  let c32_i32_16 : BitVec 32 := 32#32
  let v34 : BitVec 32 := Scalar.muli v33 c32_i32_16
  let c64_i32 : BitVec 32 := 64#32
  let v64 : BitVec 32 := Scalar.addi v34 c64_i32
  let c512_i32_34 : BitVec 32 := 512#32
  let v65 : BitVec 1 := Scalar.cmpi .slt v64 c512_i32_34
  let v66 : BitVec 32 := Scalar.extui v65
  let c0_i32_35 : BitVec 32 := 0#32
  let v67 : BitVec 1 := Scalar.cmpi .ne v66 c0_i32_35
  v67

@[reducible] def k0_t5_loop : Scf.Loop 32 :=
  let c0_i32_52 : BitVec 32 := 0#32
  let c32_i32_53 : BitVec 32 := 32#32
  let v97 : BitVec 32 := Scalar.addi c0_i32_52 c32_i32_53
  let c1_i32_54 : BitVec 32 := 1#32
  ⟨c0_i32_52, v97, c1_i32_54⟩
def k0_off14 (k0_t2 : Fin k0_t2_loop.trips) (k0_t5 : Fin k0_t5_loop.trips) : Fin 1 → Nat :=
  let c2_i32 : BitVec 32 := 2#32
  let c0_i32_13 : BitVec 32 := 0#32
  let c1_i32_14 : BitVec 32 := 1#32
  let arg11 : BitVec 32 := Scf.iv c0_i32_13 c1_i32_14 k0_t2
  let v33 : BitVec 32 := Scalar.muli c2_i32 arg11
  let c32_i32_16 : BitVec 32 := 32#32
  let v34 : BitVec 32 := Scalar.muli v33 c32_i32_16
  let c64_i32_51 : BitVec 32 := 64#32
  let v96 : BitVec 32 := Scalar.addi v34 c64_i32_51
  let c0_i32_52 : BitVec 32 := 0#32
  let c1_i32_54 : BitVec 32 := 1#32
  let arg12 : BitVec 32 := Scf.iv c0_i32_52 c1_i32_54 k0_t5
  let v98 : BitVec 32 := Scalar.addi v96 arg12
  let v99 : Index := Scalar.indexCast v98
  ![v99.toNat]
def k0_mult5 (v102 : BitVec 32) : BitVec 32 :=
  let c7_i32_56 : BitVec 32 := 7#32
  let v103 : BitVec 32 := Scalar.shrsi v102 c7_i32_56
  let c7_i32_57 : BitVec 32 := 7#32
  let v104 : BitVec 32 := Scalar.shli v103 c7_i32_57
  v104

def k0_mult6 (i : grid0.Coords) (k0_t2 : Fin k0_t2_loop.trips) (k0_t5 : Fin k0_t5_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2_i32 : BitVec 32 := 2#32
  let c0_i32_13 : BitVec 32 := 0#32
  let c1_i32_14 : BitVec 32 := 1#32
  let arg11 : BitVec 32 := Scf.iv c0_i32_13 c1_i32_14 k0_t2
  let v33 : BitVec 32 := Scalar.muli c2_i32 arg11
  let c32_i32_16 : BitVec 32 := 32#32
  let v34 : BitVec 32 := Scalar.muli v33 c32_i32_16
  let c64_i32_51 : BitVec 32 := 64#32
  let v96 : BitVec 32 := Scalar.addi v34 c64_i32_51
  let v106 : BitVec 32 := Scalar.addi v29 v96
  let c0_i32_52 : BitVec 32 := 0#32
  let c1_i32_54 : BitVec 32 := 1#32
  let arg12 : BitVec 32 := Scf.iv c0_i32_52 c1_i32_54 k0_t5
  let c_m8_i32 : BitVec 32 := 4294967288#32
  let v107 : BitVec 32 := Scalar.andi arg12 c_m8_i32
  let v108 : BitVec 32 := Scalar.addi v106 v107
  v108
def k0_off15 (k0_t5 : Fin k0_t5_loop.trips) : Fin 3 → Nat :=
  let c0_i32_52 : BitVec 32 := 0#32
  let c1_i32_54 : BitVec 32 := 1#32
  let arg12 : BitVec 32 := Scf.iv c0_i32_52 c1_i32_54 k0_t5
  let c0_i32_58 : BitVec 32 := 0#32
  let c0_i32_59 : BitVec 32 := 0#32
  ![arg12.toNat, 0, 0]
def k0_off16 (i : grid0.Coords) (k0_t2 : Fin k0_t2_loop.trips) (k0_t5 : Fin k0_t5_loop.trips) (v102 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2_i32 : BitVec 32 := 2#32
  let c0_i32_13 : BitVec 32 := 0#32
  let c1_i32_14 : BitVec 32 := 1#32
  let arg11 : BitVec 32 := Scf.iv c0_i32_13 c1_i32_14 k0_t2
  let v33 : BitVec 32 := Scalar.muli c2_i32 arg11
  let c32_i32_16 : BitVec 32 := 32#32
  let v34 : BitVec 32 := Scalar.muli v33 c32_i32_16
  let c64_i32_51 : BitVec 32 := 64#32
  let v96 : BitVec 32 := Scalar.addi v34 c64_i32_51
  let v106 : BitVec 32 := Scalar.addi v29 v96
  let c0_i32_52 : BitVec 32 := 0#32
  let c1_i32_54 : BitVec 32 := 1#32
  let arg12 : BitVec 32 := Scf.iv c0_i32_52 c1_i32_54 k0_t5
  let c_m8_i32 : BitVec 32 := 4294967288#32
  let v107 : BitVec 32 := Scalar.andi arg12 c_m8_i32
  let v108 : BitVec 32 := Scalar.addi v106 v107
  let v109 : BitVec 32 := v108
  let c7_i32_56 : BitVec 32 := 7#32
  let v103 : BitVec 32 := Scalar.shrsi v102 c7_i32_56
  let c7_i32_57 : BitVec 32 := 7#32
  let v104 : BitVec 32 := Scalar.shli v103 c7_i32_57
  let v105 : BitVec 32 := v104
  ![v18.toNat, v109.toNat, v105.toNat]

def k0_chk5 (i : grid0.Coords) (k0_t2 : Fin k0_t2_loop.trips) (k0_t5 : Fin k0_t5_loop.trips) (v102 : BitVec 32) : Prop :=
  (∀ (k0_h1 : k0_cond1 k0_t2 = 1#1), 128 ∣ (k0_mult5 v102).toNat) ∧
  (∀ (k0_h1 : k0_cond1 k0_t2 = 1#1), ∀ a, (k0_off16 i k0_t2 k0_t5 v102) a + S1x8x128.size a ≤ S8x2048x8192.size a)
instance k0_chk5.dec : ∀ (i : grid0.Coords) (k0_t2 : Fin k0_t2_loop.trips) (k0_t5 : Fin k0_t5_loop.trips) (v102 : BitVec 32), Decidable (k0_chk5 i k0_t2 k0_t5 v102) := fun i k0_t2 k0_t5 v102 => decidable_of_iff' _ (Iff.of_eq (k0_chk5.eq_1 i k0_t2 k0_t5 v102))
theorem k0_mult5_dvd : ∀ (i : grid0.Coords) (k0_t2 : Fin k0_t2_loop.trips) (k0_t5 : Fin k0_t5_loop.trips) (v102 : BitVec 32) (k0_hw5 : k0_chk5 i k0_t2 k0_t5 v102), ∀ (k0_h1 : k0_cond1 k0_t2 = 1#1), 128 ∣ (k0_mult5 v102).toNat := fun i k0_t2 k0_t5 v102 k0_hw5 k0_h1 => k0_hw5.1 k0_h1
theorem k0_off16_inb : ∀ (i : grid0.Coords) (k0_t2 : Fin k0_t2_loop.trips) (k0_t5 : Fin k0_t5_loop.trips) (v102 : BitVec 32) (k0_hw5 : k0_chk5 i k0_t2 k0_t5 v102), ∀ (k0_h1 : k0_cond1 k0_t2 = 1#1), ∀ a, (k0_off16 i k0_t2 k0_t5 v102) a + S1x8x128.size a ≤ S8x2048x8192.size a := fun i k0_t2 k0_t5 v102 k0_hw5 k0_h1 => k0_hw5.2 k0_h1

@[reducible] def k0_t6_loop : Scf.Loop 32 :=
  let c0_i32_36 : BitVec 32 := 0#32
  let c32_i32_37 : BitVec 32 := 32#32
  let v68 : BitVec 32 := Scalar.addi c0_i32_36 c32_i32_37
  let c1_i32_38 : BitVec 32 := 1#32
  ⟨c0_i32_36, v68, c1_i32_38⟩
def k0_off17 (k0_t6 : Fin k0_t6_loop.trips) : Fin 3 → Nat :=
  let c0_i32_36 : BitVec 32 := 0#32
  let c1_i32_38 : BitVec 32 := 1#32
  let arg12 : BitVec 32 := Scf.iv c0_i32_36 c1_i32_38 k0_t6
  let c0_i32_51 : BitVec 32 := 0#32
  let c0_i32_52 : BitVec 32 := 0#32
  ![arg12.toNat, 0, 0]
def k0_off18 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_53 : BitVec 32 := 0#32
  let c0_i32_54 : BitVec 32 := 0#32
  ![v18.toNat, 0, 0]
def k0_off19 (k0_t2 : Fin k0_t2_loop.trips) : Fin 1 → Nat :=
  let c2_i32 : BitVec 32 := 2#32
  let c0_i32_13 : BitVec 32 := 0#32
  let c1_i32_14 : BitVec 32 := 1#32
  let arg11 : BitVec 32 := Scf.iv c0_i32_13 c1_i32_14 k0_t2
  let v33 : BitVec 32 := Scalar.muli c2_i32 arg11
  let c32_i32_16 : BitVec 32 := 32#32
  let v34 : BitVec 32 := Scalar.muli v33 c32_i32_16
  let c32_i32_40 : BitVec 32 := 32#32
  let v69 : BitVec 32 := Scalar.addi v34 c32_i32_40
  let c0_i32_41 : BitVec 32 := 0#32
  let v70 : BitVec 32 := Scalar.addi v69 c0_i32_41
  let v71 : Index := Scalar.indexCast v70
  ![v71.toNat]

def k0_chk6 (v74 : IVec S16 32) (v76 : IVec S16 32) (v78 : IVec S16 32) : Prop :=
  (∀ a x, ((![v74, v76, v78] : Fin 3 → IVec S16 32) a x).toNat < S32x8x128.size a)
instance k0_chk6.dec : ∀ (v74 : IVec S16 32) (v76 : IVec S16 32) (v78 : IVec S16 32), Decidable (k0_chk6 v74 v76 v78) := fun v74 v76 v78 => decidable_of_iff' _ (Iff.of_eq (k0_chk6.eq_1 v74 v76 v78))
theorem k0_idx3_inb : ∀ (v74 : IVec S16 32) (v76 : IVec S16 32) (v78 : IVec S16 32) (k0_hw6 : k0_chk6 v74 v76 v78), ∀ a x, ((![v74, v76, v78] : Fin 3 → IVec S16 32) a x).toNat < S32x8x128.size a := fun v74 v76 v78 k0_hw6 => k0_hw6
def k0_off20 (k0_t2 : Fin k0_t2_loop.trips) : Fin 1 → Nat :=
  let c2_i32 : BitVec 32 := 2#32
  let c0_i32_13 : BitVec 32 := 0#32
  let c1_i32_14 : BitVec 32 := 1#32
  let arg11 : BitVec 32 := Scf.iv c0_i32_13 c1_i32_14 k0_t2
  let v33 : BitVec 32 := Scalar.muli c2_i32 arg11
  let c32_i32_16 : BitVec 32 := 32#32
  let v34 : BitVec 32 := Scalar.muli v33 c32_i32_16
  let c32_i32_40 : BitVec 32 := 32#32
  let v69 : BitVec 32 := Scalar.addi v34 c32_i32_40
  let c0_i32_45 : BitVec 32 := 0#32
  let v80 : BitVec 32 := Scalar.addi v69 c0_i32_45
  let v81 : Index := Scalar.indexCast v80
  ![v81.toNat]
def k0_off21 (k0_t2 : Fin k0_t2_loop.trips) : Fin 1 → Nat :=
  let c2_i32 : BitVec 32 := 2#32
  let c0_i32_13 : BitVec 32 := 0#32
  let c1_i32_14 : BitVec 32 := 1#32
  let arg11 : BitVec 32 := Scf.iv c0_i32_13 c1_i32_14 k0_t2
  let v33 : BitVec 32 := Scalar.muli c2_i32 arg11
  let c32_i32_16 : BitVec 32 := 32#32
  let v34 : BitVec 32 := Scalar.muli v33 c32_i32_16
  let c32_i32_40 : BitVec 32 := 32#32
  let v69 : BitVec 32 := Scalar.addi v34 c32_i32_40
  let c16_i32_46 : BitVec 32 := 16#32
  let v83 : BitVec 32 := Scalar.addi v69 c16_i32_46
  let v84 : Index := Scalar.indexCast v83
  ![v84.toNat]

def k0_chk7 (v87 : IVec S16 32) (v89 : IVec S16 32) (v91 : IVec S16 32) : Prop :=
  (∀ a x, ((![v87, v89, v91] : Fin 3 → IVec S16 32) a x).toNat < S32x8x128.size a)
instance k0_chk7.dec : ∀ (v87 : IVec S16 32) (v89 : IVec S16 32) (v91 : IVec S16 32), Decidable (k0_chk7 v87 v89 v91) := fun v87 v89 v91 => decidable_of_iff' _ (Iff.of_eq (k0_chk7.eq_1 v87 v89 v91))
theorem k0_idx4_inb : ∀ (v87 : IVec S16 32) (v89 : IVec S16 32) (v91 : IVec S16 32) (k0_hw7 : k0_chk7 v87 v89 v91), ∀ a x, ((![v87, v89, v91] : Fin 3 → IVec S16 32) a x).toNat < S32x8x128.size a := fun v87 v89 v91 k0_hw7 => k0_hw7
def k0_off22 (k0_t2 : Fin k0_t2_loop.trips) : Fin 1 → Nat :=
  let c2_i32 : BitVec 32 := 2#32
  let c0_i32_13 : BitVec 32 := 0#32
  let c1_i32_14 : BitVec 32 := 1#32
  let arg11 : BitVec 32 := Scf.iv c0_i32_13 c1_i32_14 k0_t2
  let v33 : BitVec 32 := Scalar.muli c2_i32 arg11
  let c32_i32_16 : BitVec 32 := 32#32
  let v34 : BitVec 32 := Scalar.muli v33 c32_i32_16
  let c32_i32_40 : BitVec 32 := 32#32
  let v69 : BitVec 32 := Scalar.addi v34 c32_i32_40
  let c16_i32_50 : BitVec 32 := 16#32
  let v93 : BitVec 32 := Scalar.addi v69 c16_i32_50
  let v94 : Index := Scalar.indexCast v93
  ![v94.toNat]
def k0_off23 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_16_r1 : BitVec 32 := 0#32
  ![v1.toNat, 0]
abbrev grid1 : Pipeline.Grid := .none

abbrev stage1_0 : Fin 1 → Memref sig .tc .vmem S32x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x512 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S528_S512_0 : ∀ a, (![0] : Fin 1 → Nat) a + S512.size a ≤ S528.size a
  squeezes_S1x512_S512 : S1x512.Squeezes S512
  iota_S16_d0_w32_scVector : S16.Iotas .scVector 32 [0]
  h_S16 : 0 < S16.numel
  slices_S16_o0_S1 : S16.Slices ![0] S1
  inpos_S1_p0 : ∀ a, (![0] : Fin 1 → Nat) a < S1.size a
  squeezes_S1x8x128_S8x128 : S1x8x128.Squeezes S8x128
  h_S32x8x128 : 0 < S32x8x128.numel
  shapeCasts_S8x2048_S32x512 : S8x2048.ShapeCasts S32x512
  inb_S32x512_S32x512_0_0 : ∀ a, (![0, 0] : Fin 2 → Nat) a + S32x512.size a ≤ S32x512.size a
  h_S32x512 : 0 < S32x512.numel
  shapeCasts_S32x512_S32x512 : S32x512.ShapeCasts S32x512
  iota_S32x512_d0_w32 : S32x512.Iotas .tc 32 [0]
  iota_S32x512_d1_w32 : S32x512.Iotas .tc 32 [1]
  broadcasts_S32x512_S32x512 : S32x512.Broadcasts S32x512
  natLt_1_32 : 1 < 32
  reduces_S32x512_S32 : S32x512.Reduces [1] S32
  iota_S32x32_d0_w32 : S32x32.Iotas .tc 32 [0]
  iota_S32x32_d1_w32 : S32x32.Iotas .tc 32 [1]
  shapeCasts_S32_S1x32 : S32.ShapeCasts S1x32
  shapeCasts_S1x32_S1x32 : S1x32.ShapeCasts S1x32
  broadcasts_S1x32_S32x32 : S1x32.Broadcasts S32x32
  reduces_S32x32_S32 : S32x32.Reduces [1] S32
  shapeCasts_S32_S32x1 : S32.ShapeCasts S32x1
  broadcasts_S32x1_S32x512 : S32x1.Broadcasts S32x512
  shapeCasts_S32x512_S1x32x512 : S32x512.ShapeCasts S1x32x512
  reduces_S1x32x512_S1 : S1x32x512.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  numel1_S1x1 : S1x1.numel = 1
  shapeCasts_S1x1_S_ : S1x1.ShapeCasts S_
  hcc0_scratch4 : 0 + S_.numel ≤ 7
  hcc0_scratch5 : 1 + S_.numel ≤ 7
  hcc0_scoped0 : 2 + S_.numel ≤ 7
  hcc0_scoped1 : 3 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x512.size a ≤ S8x2048.size a
  k0_t1_ok : k0_t1_loop.OK
  k0_off2_inb : ∀ k0_t1 : Fin k0_t1_loop.trips, ∀ a, (k0_off2 k0_t1) a + S16.size a ≤ S528.size a
  k0_mult2_dvd : ∀ (i : grid0.Coords) (k0_t1 : Fin k0_t1_loop.trips), 8 ∣ (k0_mult2 i k0_t1).toNat
  k0_off3_inb : ∀ k0_t1 : Fin k0_t1_loop.trips, ∀ a, (k0_off3 k0_t1) a + S1x8x128.size a ≤ S32x8x128.size a
  k0_t2_ok : k0_t2_loop.OK
  k0_t3_ok : k0_t3_loop.OK
  k0_off5_inb : ∀ (k0_t2 : Fin k0_t2_loop.trips) (k0_t3 : Fin k0_t3_loop.trips), ∀ a, (k0_off5 k0_t2 k0_t3) a + S16.size a ≤ S528.size a
  k0_mult4_dvd : ∀ (i : grid0.Coords) (k0_t2 : Fin k0_t2_loop.trips) (k0_t3 : Fin k0_t3_loop.trips), 8 ∣ (k0_mult4 i k0_t2 k0_t3).toNat
  k0_off6_inb : ∀ k0_t3 : Fin k0_t3_loop.trips, ∀ a, (k0_off6 k0_t3) a + S1x8x128.size a ≤ S32x8x128.size a
  k0_t4_ok : k0_t4_loop.OK
  k0_off8_inb : ∀ k0_t4 : Fin k0_t4_loop.trips, ∀ a, (k0_off8 k0_t4) a + S1x8x128.size a ≤ S32x8x128.size a
  k0_off9_inb : ∀ i : grid0.Coords, ∀ a, (k0_off9 i) a + S1x8x128.size a ≤ S8x2048x8192.size a
  k0_off10_inb : ∀ k0_t2 : Fin k0_t2_loop.trips, ∀ a, (k0_off10 k0_t2) a + S16.size a ≤ S528.size a
  k0_off11_inb : ∀ k0_t2 : Fin k0_t2_loop.trips, ∀ a, (k0_off11 k0_t2) a + S16.size a ≤ S512.size a
  k0_off12_inb : ∀ k0_t2 : Fin k0_t2_loop.trips, ∀ a, (k0_off12 k0_t2) a + S16.size a ≤ S528.size a
  k0_off13_inb : ∀ k0_t2 : Fin k0_t2_loop.trips, ∀ a, (k0_off13 k0_t2) a + S16.size a ≤ S512.size a
  k0_t5_ok : ∀ k0_t2 : Fin k0_t2_loop.trips, ∀ (k0_h1 : k0_cond1 k0_t2 = 1#1), k0_t5_loop.OK
  k0_off14_inb : ∀ (k0_t2 : Fin k0_t2_loop.trips) (k0_t5 : Fin k0_t5_loop.trips), ∀ (k0_h1 : k0_cond1 k0_t2 = 1#1), ∀ a, (k0_off14 k0_t2 k0_t5) a + S16.size a ≤ S528.size a
  k0_mult6_dvd : ∀ (i : grid0.Coords) (k0_t2 : Fin k0_t2_loop.trips) (k0_t5 : Fin k0_t5_loop.trips), ∀ (k0_h1 : k0_cond1 k0_t2 = 1#1), 8 ∣ (k0_mult6 i k0_t2 k0_t5).toNat
  k0_off15_inb : ∀ (k0_t2 : Fin k0_t2_loop.trips) (k0_t5 : Fin k0_t5_loop.trips), ∀ (k0_h1 : k0_cond1 k0_t2 = 1#1), ∀ a, (k0_off15 k0_t5) a + S1x8x128.size a ≤ S32x8x128.size a
  k0_t6_ok : k0_t6_loop.OK
  k0_off17_inb : ∀ k0_t6 : Fin k0_t6_loop.trips, ∀ a, (k0_off17 k0_t6) a + S1x8x128.size a ≤ S32x8x128.size a
  k0_off18_inb : ∀ i : grid0.Coords, ∀ a, (k0_off18 i) a + S1x8x128.size a ≤ S8x2048x8192.size a
  k0_off19_inb : ∀ k0_t2 : Fin k0_t2_loop.trips, ∀ a, (k0_off19 k0_t2) a + S16.size a ≤ S528.size a
  k0_off20_inb : ∀ k0_t2 : Fin k0_t2_loop.trips, ∀ a, (k0_off20 k0_t2) a + S16.size a ≤ S512.size a
  k0_off21_inb : ∀ k0_t2 : Fin k0_t2_loop.trips, ∀ a, (k0_off21 k0_t2) a + S16.size a ≤ S528.size a
  k0_off22_inb : ∀ k0_t2 : Fin k0_t2_loop.trips, ∀ a, (k0_off22 k0_t2) a + S16.size a ≤ S512.size a
  k0_off23_inb : ∀ i : grid0.Coords, ∀ a, (k0_off23 i) a + S1x512.size a ≤ S32x512.size a
  hstage1_0 : ∀ j, (stage1_0 j).IsWhole
  hstage1_1 : ∀ j, (stage1_1 j).IsWhole
  hstage1_2 : ∀ j, (stage1_2 j).IsWhole

variable [Facts₀]

abbrev cc0_scratch4 : DmaSems sig S_ := SemArray.consecutive 0 S_ hcc0_scratch4
abbrev cc0_scratch5 : DmaSems sig S_ := SemArray.consecutive 1 S_ hcc0_scratch5
abbrev cc0_scoped0 : DmaSems sig S_ := SemArray.consecutive 2 S_ hcc0_scoped0
abbrev cc0_scoped1 : DmaSems sig S_ := SemArray.consecutive 3 S_ hcc0_scoped1

abbrev win1_0 : Pipeline.Window sig grid1 :=
  Pipeline.Window.whole (Memref.whole main_v0) false false (stage1_0 0) (sem1_0 0) (Memref.isWhole_whole _) (hstage1_0 0)

abbrev win1_1 : Pipeline.Window sig grid1 :=
  Pipeline.Window.whole (Memref.whole main_v1) false false (stage1_1 0) (sem1_1 0) (Memref.isWhole_whole _) (hstage1_1 0)

abbrev win1_2 : Pipeline.Window sig grid1 :=
  Pipeline.Window.whole (Memref.whole main_v2) true false (stage1_2 0) (sem1_2 0) (Memref.isWhole_whole _) (hstage1_2 0)

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x2048x8192 : Shape := ⟨3, ![8, 2048, 8192]⟩
abbrev S8x2048 : Shape := ⟨2, ![8, 2048]⟩
abbrev S_ : Shape := ⟨0, ![]⟩
abbrev S8 : Shape := ⟨1, ![8]⟩
abbrev S2048 : Shape := ⟨1, ![2048]⟩
abbrev S1x2048 : Shape := ⟨2, ![1, 2048]⟩
abbrev S8x1 : Shape := ⟨2, ![8, 1]⟩
abbrev S8x2048x1 : Shape := ⟨3, ![8, 2048, 1]⟩
abbrev S8x2048x1x1 : Shape := ⟨4, ![8, 2048, 1, 1]⟩
abbrev S1 : Shape := ⟨1, ![1]⟩
abbrev S1x1x1x1 : Shape := ⟨4, ![1, 1, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x8192, .f32⟩
  | .hbm, ⟨1, _⟩ => ⟨S8x2048, .i32⟩
  | .hbm, ⟨2, _⟩ => ⟨S_, .i32⟩
  | .hbm, ⟨3, _⟩ => ⟨S8x2048, .i32⟩
  | .hbm, ⟨4, _⟩ => ⟨S8x2048, .i1⟩
  | .hbm, ⟨5, _⟩ => ⟨S8x2048, .i32⟩
  | .hbm, ⟨6, _⟩ => ⟨S_, .i32⟩
  | .hbm, ⟨7, _⟩ => ⟨S8, .i32⟩
  | .hbm, ⟨8, _⟩ => ⟨S2048, .i32⟩
  | .hbm, ⟨9, _⟩ => ⟨S1x2048, .i32⟩
  | .hbm, ⟨10, _⟩ => ⟨S8x1, .i32⟩
  | .hbm, ⟨11, _⟩ => ⟨S8x2048, .i32⟩
  | .hbm, ⟨12, _⟩ => ⟨S8x2048, .i32⟩
  | .hbm, ⟨13, _⟩ => ⟨S8x2048, .i1⟩
  | .hbm, ⟨14, _⟩ => ⟨S8x2048x1, .i32⟩
  | .hbm, ⟨15, _⟩ => ⟨S_, .i32⟩
  | .hbm, ⟨16, _⟩ => ⟨S8x2048x1, .i32⟩
  | .hbm, ⟨17, _⟩ => ⟨S8x2048x1, .i1⟩
  | .hbm, ⟨18, _⟩ => ⟨S_, .i32⟩
  | .hbm, ⟨19, _⟩ => ⟨S8x2048x1, .i32⟩
  | .hbm, ⟨20, _⟩ => ⟨S8x2048x1, .i32⟩
  | .hbm, ⟨21, _⟩ => ⟨S8x2048x1, .i32⟩
  | .hbm, ⟨22, _⟩ => ⟨S8x2048x1x1, .i32⟩
  | .hbm, ⟨23, _⟩ => ⟨S1, .i32⟩
  | .hbm, ⟨24, _⟩ => ⟨S_, .i32⟩
  | .hbm, ⟨25, _⟩ => ⟨S8x2048x1x1, .i32⟩
  | .hbm, ⟨26, _⟩ => ⟨S8x2048x1x1, .i1⟩
  | .hbm, ⟨27, _⟩ => ⟨S1x1x1x1, .i32⟩
  | .hbm, ⟨28, _⟩ => ⟨S8x2048x1x1, .i32⟩
  | .hbm, ⟨29, _⟩ => ⟨S8x2048x1x1, .i1⟩
  | .hbm, ⟨30, _⟩ => ⟨S8x2048x1x1, .i1⟩
  | .hbm, ⟨31, _⟩ => ⟨S_, .i1⟩
  | .hbm, ⟨32, _⟩ => ⟨S8x2048x1, .i1⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S8x2048, .f32⟩
  | .hbm, ⟨38, _⟩ => ⟨S8x2048, .f32⟩
  | .hbm, ⟨39, _⟩ => ⟨S8x2048, .i32⟩
  | .hbm, ⟨40, _⟩ => ⟨S_, .i32⟩
  | .hbm, ⟨41, _⟩ => ⟨S_, .i32⟩
  | .hbm, ⟨42, _⟩ => ⟨S_, .f32⟩
  | .hbm, ⟨43, _⟩ => ⟨S_, .f32⟩
  | .hbm, ⟨44, _⟩ => ⟨S8x2048, .f32⟩
  | .hbm, ⟨45, _⟩ => ⟨S8x2048, .f32⟩
  | .hbm, ⟨46, _⟩ => ⟨S_, .f32⟩
  | .hbm, ⟨47, _⟩ => ⟨S_, .f32⟩
  | .hbm, ⟨48, _⟩ => ⟨S_, .f32⟩
  | _, _ => ⟨S8x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_1 : Ref sig .tc := ⟨.hbm, 40, rfl⟩
abbrev main_v15 : Ref sig .tc := ⟨.hbm, 41, rfl⟩
abbrev main_v16 : Ref sig .tc := ⟨.hbm, 42, rfl⟩
abbrev main_cst : Ref sig .tc := ⟨.hbm, 43, rfl⟩
abbrev main_v17 : Ref sig .tc := ⟨.hbm, 44, rfl⟩
abbrev main_v18 : Ref sig .tc := ⟨.hbm, 45, rfl⟩
abbrev main_cst_2 : Ref sig .tc := ⟨.hbm, 46, rfl⟩
abbrev main_v19 : Ref sig .tc := ⟨.hbm, 47, rfl⟩
abbrev main_v20 : Ref sig .tc := ⟨.hbm, 48, rfl⟩

abbrev nD : Nat := 1
abbrev τ : Topo := Topo.v7x

variable {F : FTy → Type} [FloatOps F]

class Facts₀ : Prop where
  bcast_S_S8x2048 : S_.BroadcastsInDim S8x2048 (![] : Fin 0 → Fin S8x2048.rank)
  natLt_1_32 : 1 < 32
  reducesTo_S8x2048_S8_d1 : S8x2048.ReducesTo [1] S8
  h_S_ : 0 < S_.numel
  bcast_S2048_S1x2048_1 : S2048.BroadcastsInDim S1x2048 (![1] : Fin 1 → Fin S1x2048.rank)
  bcast_S8_S8x1_0 : S8.BroadcastsInDim S8x1 (![0] : Fin 1 → Fin S8x1.rank)
  bcast_S1x2048_S8x2048_0_1 : S1x2048.BroadcastsInDim S8x2048 (![0, 1] : Fin 2 → Fin S8x2048.rank)
  bcast_S8x1_S8x2048_0_1 : S8x1.BroadcastsInDim S8x2048 (![0, 1] : Fin 2 → Fin S8x2048.rank)
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  shapeCasts_S8x2048x1_S8x2048x1x1 : S8x2048x1.ShapeCasts S8x2048x1x1
  bcast_S_S8x2048x1x1 : S_.BroadcastsInDim S8x2048x1x1 (![] : Fin 0 → Fin S8x2048x1x1.rank)
  bcast_S1_S1x1x1x1_3 : S1.BroadcastsInDim S1x1x1x1 (![3] : Fin 1 → Fin S1x1x1x1.rank)
  bcast_S1x1x1x1_S8x2048x1x1_0_1_2_3 : S1x1x1x1.BroadcastsInDim S8x2048x1x1 (![0, 1, 2, 3] : Fin 4 → Fin S8x2048x1x1.rank)
  reducesTo_S8x2048x1x1_S8x2048x1_d3 : S8x2048x1x1.ReducesTo [3] S8x2048x1
  shapeCasts_S8x2048x1_S8x2048 : S8x2048x1.ShapeCasts S8x2048
  reducesTo_S8x2048_S_d0_1 : S8x2048.ReducesTo [0, 1] S_
  gather_S8x2048x8192_S8x2048x1x1_S8x2048x1_n_2_01_01_2_3_111_wf : GatherDims.WF S8x2048x8192 S8x2048x1x1 S8x2048x1 [] [2] [0, 1] [2] [0, 1] 3 ![1, 1, 1]

variable [Facts₀]

def gather_S8x2048x8192_S8x2048x1x1_S8x2048x1_n_2_01_01_2_3_111 : GatherDims S8x2048x8192 S8x2048x1x1 S8x2048x1 where
  offsetDims := []
  collapsedSliceDims := [2]
  operandBatchingDims := [0, 1]
  startIndicesBatchingDims := [0, 1]
  startIndexMap := [2]
  indexVectorDim := 3
  sliceSizes := ![1, 1, 1]
  wf := gather_S8x2048x8192_S8x2048x1x1_S8x2048x1_n_2_01_01_2_3_111_wf

class Facts : Prop extends Facts₀ where

variable [Facts]
-- ==== Proof.PreFacts.lean ====
/-
  What the precondition says of the two argument arrays: every token is a word between 0 and 8191, and every
  probability is a real number (neither an infinity nor the junk value).

  The precondition is two "all" tests joined by "and": |pred| < +infinity at every entry, and 0 ≤ act ≤ 8191 (signed)
  at every entry. A reduction by "and" started at 1 that comes out 1 met a 1 at every entry; a signed word between 0 and
  8191 reads the same unsigned; an extended real whose absolute value is below +infinity is a real.
-/
import proofs.«212842_g47828755808845_cont_8to1c4_577_40_alg».proof.Pre_input_domain
import proofs.«212842_g47828755808845_cont_8to1c4_577_40_alg».proof.Proof.Gen.Pre_input_domain
import Idealize.ShloMosaic.Lib.ReduceAll
import Idealize.ShloMosaic.Lib.ValueIdx
import Idealize.ShloMosaic.PureOps.Ideal

noncomputable section

namespace Cert.Proof.PreFacts

open Idealize.ShloMosaic Cert.Pre_input_domain

/-- The rank-0 shape has one index. -/
instance : Subsingleton S_.Idx := ⟨fun a b => funext fun d => d.elim0⟩

/-- A 32-bit word that is, read signed, between 0 and 8191 is at most 8191 read unsigned. -/
theorem toNat_le_of_signed_range (a : BitVec 32) (h0 : (0#32 : BitVec 32).toInt ≤ a.toInt)
    (h1 : a.toInt ≤ (8191#32 : BitVec 32).toInt) : a.toNat ≤ 8191 := by
  have e0 : (0#32 : BitVec 32).toInt = 0 := by decide
  have e1 : (8191#32 : BitVec 32).toInt = 8191 := by decide
  rw [e0] at h0
  rw [e1] at h1
  have hlt := a.isLt
  rw [BitVec.toInt_eq_toNat_cond] at h0 h1
  split at h0 <;> omega

/-- Every token is at most 8191: the second half of the precondition, read at an entry. -/
theorem tokens_le {F : FTy → Type} [FloatOps F] [Cert.Pre_input_domain.Facts]
    (pred : FVec F Cert.Pre_input_domain.S8x2048x8192 .f32) (act : IVec Cert.Pre_input_domain.S8x2048 32)
    (h : Cert.Pre_input_domain.fn (F := F) pred act = fun _ => 1#1) : ∀ i, (act i).toNat ≤ 8191 := by
  intro i
  have h0 := congrFun h ValueIdx.ix0
  dsimp only [Cert.Pre_input_domain.fn] at h0
  have h2 := (IntOp.andi_eq_one.1 h0).2
  have h3 := Host.reduce_andi_all _ _ _ _ _ h2 i
  obtain ⟨hge, hle⟩ := IntOp.andi_eq_one.1 h3
  exact toNat_le_of_signed_range (act i) (IntOp.cmpi_sge.1 hge) (IntOp.cmpi_sle.1 hle)

/-- An extended real whose absolute value is below +infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Every probability is a real number: the first half of the precondition, read at an entry. -/
theorem probs_finite [Cert.Pre_input_domain.Facts]
    (pred : FVec Ideal Cert.Pre_input_domain.S8x2048x8192 .f32) (act : IVec Cert.Pre_input_domain.S8x2048 32)
    (h : Cert.Pre_input_domain.fn (F := Ideal) pred act = fun _ => 1#1) : ∀ i, ∃ r : ℝ, pred i = (r : EReal) := by
  intro i
  have h0 := congrFun h ValueIdx.ix0
  dsimp only [Cert.Pre_input_domain.fn] at h0
  have h1 := (IntOp.andi_eq_one.1 h0).1
  have h3 := Host.reduce_andi_all _ _ _ _ _ h1 i
  have h4 : Ideal.cmp .olt (max (pred i) (-(pred i))) (Ideal.ofBits .f32 0x7F800000#32) = 1#1 := h3
  have e : Ideal.ofBits .f32 0x7F800000#32 = ⊤ := by simp [Ideal.ofBits, Ideal.ieee]
  rw [e] at h4
  have h5 : BitVec.ofBool (decide (max (pred i) (-(pred i)) < ⊤)) = 1#1 := h4
  cases hd : decide (max (pred i) (-(pred i)) < ⊤) with
  | true => exact real_of_abs_lt_top (pred i) (of_decide_eq_true hd)
  | false => rw [hd] at h5; exact absurd h5 (by decide)

end Cert.Proof.PreFacts

end
-- ==== Proof.RefRun.lean ====
/-
  The reference program as the list of its 47 host operations, and its run: every weakly fair execution terminates, the
  result buffer holds the operations' composed term of the two argument arrays as the program was launched, and the
  arguments are unchanged.

  The operations of the two outlined functions (the gather along the last axis with its index normalisation and range
  test, and the masked choice between the negated values and zero) are listed at their call sites, over the buffers of
  that call, each at the tensor types the function states for it. The program is that list run in order; the composed
  term is read off the list one operation at a time.
-/
import proofs.«212842_g47828755808845_cont_8to1c4_577_40_alg».proof.Proof.Gen.ReferenceIdeal
import Idealize.ShloMosaic.Lib.StableHlo.Run

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ nullary main_c (constantI S_ 32 0#32),
    unary main_c main_v0 (broadcastInDim S8x2048 ![] bcast_S_S8x2048 : (⟨S_, .i32⟩ : BufTy).Contents (Elt F) → (⟨S8x2048, .i32⟩ : BufTy).Contents (Elt F)),
    binary main_arg1 main_v0 main_v1 (cmpi .ne : (⟨S8x2048, .i32⟩ : BufTy).Contents (Elt F) → (⟨S8x2048, .i32⟩ : BufTy).Contents (Elt F) → (⟨S8x2048, .i1⟩ : BufTy).Contents (Elt F)),
    unary main_v1 main_v2 ((extui 32 · natLt_1_32) : (⟨S8x2048, .i1⟩ : BufTy).Contents (Elt F) → (⟨S8x2048, .i32⟩ : BufTy).Contents (Elt F)),
    nullary main_c_0 (constantI S_ 32 0#32),
    binary main_v2 main_c_0 main_v3 ((fun x v => Host.reduce IntOp.addi x v reducesTo_S8x2048_S8_d1 h_S_) : (⟨S8x2048, .i32⟩ : BufTy).Contents (Elt F) → (⟨S_, .i32⟩ : BufTy).Contents (Elt F) → (⟨S8, .i32⟩ : BufTy).Contents (Elt F)),
    nullary main_v4 (iotaInDim S2048 32 0),
    unary main_v4 main_v5 (broadcastInDim S1x2048 ![1] bcast_S2048_S1x2048_1 : (⟨S2048, .i32⟩ : BufTy).Contents (Elt F) → (⟨S1x2048, .i32⟩ : BufTy).Contents (Elt F)),
    unary main_v3 main_v6 (broadcastInDim S8x1 ![0] bcast_S8_S8x1_0 : (⟨S8, .i32⟩ : BufTy).Contents (Elt F) → (⟨S8x1, .i32⟩ : BufTy).Contents (Elt F)),
    unary main_v5 main_v7 (broadcastInDim S8x2048 ![0, 1] bcast_S1x2048_S8x2048_0_1 : (⟨S1x2048, .i32⟩ : BufTy).Contents (Elt F) → (⟨S8x2048, .i32⟩ : BufTy).Contents (Elt F)),
    unary main_v6 main_v8 (broadcastInDim S8x2048 ![0, 1] bcast_S8x1_S8x2048_0_1 : (⟨S8x1, .i32⟩ : BufTy).Contents (Elt F) → (⟨S8x2048, .i32⟩ : BufTy).Contents (Elt F)),
    binary main_v7 main_v8 main_v9 (cmpi .slt : (⟨S8x2048, .i32⟩ : BufTy).Contents (Elt F) → (⟨S8x2048, .i32⟩ : BufTy).Contents (Elt F) → (⟨S8x2048, .i1⟩ : BufTy).Contents (Elt F)),
    unary main_arg1 main_v10 (broadcastInDim S8x2048x1 ![0, 1] bcast_S8x2048_S8x2048x1_0_1 : (⟨S8x2048, .i32⟩ : BufTy).Contents (Elt F) → (⟨S8x2048x1, .i32⟩ : BufTy).Contents (Elt F)),
    nullary main_call0_c (constantI S_ 32 0#32),
    unary main_call0_c main_call0_v0 ((broadcastInDim S8x2048x1 ![] bcast_S_S8x2048x1) : (⟨S_, .i32⟩ : BufTy).Contents (Elt F) → (⟨S8x2048x1, .i32⟩ : BufTy).Contents (Elt F)),
    binary main_v10 main_call0_v0 main_call0_v1 ((cmpi .slt) : (⟨S8x2048x1, .i32⟩ : BufTy).Contents (Elt F) → (⟨S8x2048x1, .i32⟩ : BufTy).Contents (Elt F) → (⟨S8x2048x1, .i1⟩ : BufTy).Contents (Elt F)),
    nullary main_call0_c_0 (constantI S_ 32 8192#32),
    unary main_call0_c_0 main_call0_v2 ((broadcastInDim S8x2048x1 ![] bcast_S_S8x2048x1) : (⟨S_, .i32⟩ : BufTy).Contents (Elt F) → (⟨S8x2048x1, .i32⟩ : BufTy).Contents (Elt F)),
    binary main_v10 main_call0_v2 main_call0_v3 (addi : (⟨S8x2048x1, .i32⟩ : BufTy).Contents (Elt F) → (⟨S8x2048x1, .i32⟩ : BufTy).Contents (Elt F) → (⟨S8x2048x1, .i32⟩ : BufTy).Contents (Elt F)),
    ternary main_call0_v1 main_call0_v3 main_v10 main_call0_v4 (select : (⟨S8x2048x1, .i1⟩ : BufTy).Contents (Elt F) → (⟨S8x2048x1, .i32⟩ : BufTy).Contents (Elt F) → (⟨S8x2048x1, .i32⟩ : BufTy).Contents (Elt F) → (⟨S8x2048x1, .i32⟩ : BufTy).Contents (Elt F)),
    reshape main_call0_v4 main_call0_v5 rfl shapeCasts_S8x2048x1_S8x2048x1x1,
    nullary main_call0_c_1 (constantI S1 32 8191#32),
    nullary main_call0_c_2 (constantI S_ 32 0#32),
    unary main_call0_c_2 main_call0_v6 ((broadcastInDim S8x2048x1x1 ![] bcast_S_S8x2048x1x1) : (⟨S_, .i32⟩ : BufTy).Contents (Elt F) → (⟨S8x2048x1x1, .i32⟩ : BufTy).Contents (Elt F)),
    binary main_call0_v5 main_call0_v6 main_call0_v7 ((cmpi .sge) : (⟨S8x2048x1x1, .i32⟩ : BufTy).Contents (Elt F) → (⟨S8x2048x1x1, .i32⟩ : BufTy).Contents (Elt F) → (⟨S8x2048x1x1, .i1⟩ : BufTy).Contents (Elt F)),
    unary main_call0_c_1 main_call0_v8 ((broadcastInDim S1x1x1x1 ![3] bcast_S1_S1x1x1x1_3) : (⟨S1, .i32⟩ : BufTy).Contents (Elt F) → (⟨S1x1x1x1, .i32⟩ : BufTy).Contents (Elt F)),
    unary main_call0_v8 main_call0_v9 ((broadcastInDim S8x2048x1x1 ![0, 1, 2, 3] bcast_S1x1x1x1_S8x2048x1x1_0_1_2_3) : (⟨S1x1x1x1, .i32⟩ : BufTy).Contents (Elt F) → (⟨S8x2048x1x1, .i32⟩ : BufTy).Contents (Elt F)),
    binary main_call0_v5 main_call0_v9 main_call0_v10 ((cmpi .sle) : (⟨S8x2048x1x1, .i32⟩ : BufTy).Contents (Elt F) → (⟨S8x2048x1x1, .i32⟩ : BufTy).Contents (Elt F) → (⟨S8x2048x1x1, .i1⟩ : BufTy).Contents (Elt F)),
    binary main_call0_v7 main_call0_v10 main_call0_v11 (andi : (⟨S8x2048x1x1, .i1⟩ : BufTy).Contents (Elt F) → (⟨S8x2048x1x1, .i1⟩ : BufTy).Contents (Elt F) → (⟨S8x2048x1x1, .i1⟩ : BufTy).Contents (Elt F)),
    nullary main_call0_c_3 (constantI S_ 1 1#1),
    binary main_call0_v11 main_call0_c_3 main_call0_v12 ((fun x v => Host.reduce IntOp.andi x v reducesTo_S8x2048x1x1_S8x2048x1_d3 h_S_) : (⟨S8x2048x1x1, .i1⟩ : BufTy).Contents (Elt F) → (⟨S_, .i1⟩ : BufTy).Contents (Elt F) → (⟨S8x2048x1, .i1⟩ : BufTy).Contents (Elt F)),
    binary main_arg0 main_call0_v5 main_call0_v13 ((fun x i => Host.gather gather_S8x2048x8192_S8x2048x1x1_S8x2048x1_n_2_01_01_2_3_111 x i) : (⟨S8x2048x8192, .f32⟩ : BufTy).Contents (Elt F) → (⟨S8x2048x1x1, .i32⟩ : BufTy).Contents (Elt F) → (⟨S8x2048x1, .f32⟩ : BufTy).Contents (Elt F)),
    nullary main_call0_cst (constant S_ .f32 0x7FC00000#32),
    unary main_call0_cst main_call0_v14 ((broadcastInDim S8x2048x1 ![] bcast_S_S8x2048x1) : (⟨S_, .f32⟩ : BufTy).Contents (Elt F) → (⟨S8x2048x1, .f32⟩ : BufTy).Contents (Elt F)),
    ternary main_call0_v12 main_call0_v13 main_call0_v14 main_v11 (select : (⟨S8x2048x1, .i1⟩ : BufTy).Contents (Elt F) → (⟨S8x2048x1, .f32⟩ : BufTy).Contents (Elt F) → (⟨S8x2048x1, .f32⟩ : BufTy).Contents (Elt F) → (⟨S8x2048x1, .f32⟩ : BufTy).Contents (Elt F)),
    reshape main_v11 main_v12 rfl shapeCasts_S8x2048x1_S8x2048,
    unary main_v12 main_v13 (Host.negf : (⟨S8x2048, .f32⟩ : BufTy).Contents (Elt F) → (⟨S8x2048, .f32⟩ : BufTy).Contents (Elt F)),
    unary main_v9 main_v14 ((extui 32 · natLt_1_32) : (⟨S8x2048, .i1⟩ : BufTy).Contents (Elt F) → (⟨S8x2048, .i32⟩ : BufTy).Contents (Elt F)),
    nullary main_c_1 (constantI S_ 32 0#32),
    binary main_v14 main_c_1 main_v15 ((fun x v => Host.reduce IntOp.addi x v reducesTo_S8x2048_S_d0_1 h_S_) : (⟨S8x2048, .i32⟩ : BufTy).Contents (Elt F) → (⟨S_, .i32⟩ : BufTy).Contents (Elt F) → (⟨S_, .i32⟩ : BufTy).Contents (Elt F)),
    unary main_v15 main_v16 (sitofp .f32 : (⟨S_, .i32⟩ : BufTy).Contents (Elt F) → (⟨S_, .f32⟩ : BufTy).Contents (Elt F)),
    nullary main_cst (constant S_ .f32 0x00000000#32),
    unary main_cst main_v17 (broadcastInDim S8x2048 ![] bcast_S_S8x2048 : (⟨S_, .f32⟩ : BufTy).Contents (Elt F) → (⟨S8x2048, .f32⟩ : BufTy).Contents (Elt F)),
    ternary main_v9 main_v13 main_v17 main_v18 (select : (⟨S8x2048, .i1⟩ : BufTy).Contents (Elt F) → (⟨S8x2048, .f32⟩ : BufTy).Contents (Elt F) → (⟨S8x2048, .f32⟩ : BufTy).Contents (Elt F) → (⟨S8x2048, .f32⟩ : BufTy).Contents (Elt F)),
    nullary main_cst_2 (constant S_ .f32 0x00000000#32),
    binary main_v18 main_cst_2 main_v19 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    binary main_v19 main_v16 main_v20 (Host.divf : (⟨S_, .f32⟩ : BufTy).Contents (Elt F) → (⟨S_, .f32⟩ : BufTy).Contents (Elt F) → (⟨S_, .f32⟩ : BufTy).Contents (Elt F)) ]

set_option maxRecDepth 65536 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., unary_bufs_sub .., nullary_bufs_sub .., binary_bufs_sub .., nullary_bufs_sub .., unary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., unary_bufs_sub .., nullary_bufs_sub .., binary_bufs_sub .., unary_bufs_sub .., nullary_bufs_sub .., unary_bufs_sub .., ternary_bufs_sub .., nullary_bufs_sub .., binary_bufs_sub .., binary_bufs_sub ..⟩

set_option maxRecDepth 8192 in
set_option maxHeartbeats 2000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = Host.divf (Host.reduceAdd (select (cmpi .slt (broadcastInDim S8x2048 ![0, 1] bcast_S1x2048_S8x2048_0_1 (broadcastInDim S1x2048 ![1] bcast_S2048_S1x2048_1 (iotaInDim S2048 32 0))) (broadcastInDim S8x2048 ![0, 1] bcast_S8x1_S8x2048_0_1 (broadcastInDim S8x1 ![0] bcast_S8_S8x1_0 (Host.reduce IntOp.addi (extui 32 (cmpi .ne (m ((c.tc : Thread nD τ).loc main_arg1)) (broadcastInDim S8x2048 ![] bcast_S_S8x2048 (constantI S_ 32 0#32))) natLt_1_32) (constantI S_ 32 0#32) reducesTo_S8x2048_S8_d1 h_S_)))) (Host.negf (shapeCast _ (select (Host.reduce IntOp.andi (andi (cmpi .sge (shapeCast _ (select (cmpi .slt (broadcastInDim S8x2048x1 ![0, 1] bcast_S8x2048_S8x2048x1_0_1 (m ((c.tc : Thread nD τ).loc main_arg1))) (broadcastInDim S8x2048x1 ![] bcast_S_S8x2048x1 (constantI S_ 32 0#32))) (addi (broadcastInDim S8x2048x1 ![0, 1] bcast_S8x2048_S8x2048x1_0_1 (m ((c.tc : Thread nD τ).loc main_arg1))) (broadcastInDim S8x2048x1 ![] bcast_S_S8x2048x1 (constantI S_ 32 8192#32))) (broadcastInDim S8x2048x1 ![0, 1] bcast_S8x2048_S8x2048x1_0_1 (m ((c.tc : Thread nD τ).loc main_arg1)))) shapeCasts_S8x2048x1_S8x2048x1x1) (broadcastInDim S8x2048x1x1 ![] bcast_S_S8x2048x1x1 (constantI S_ 32 0#32))) (cmpi .sle (shapeCast _ (select (cmpi .slt (broadcastInDim S8x2048x1 ![0, 1] bcast_S8x2048_S8x2048x1_0_1 (m ((c.tc : Thread nD τ).loc main_arg1))) (broadcastInDim S8x2048x1 ![] bcast_S_S8x2048x1 (constantI S_ 32 0#32))) (addi (broadcastInDim S8x2048x1 ![0, 1] bcast_S8x2048_S8x2048x1_0_1 (m ((c.tc : Thread nD τ).loc main_arg1))) (broadcastInDim S8x2048x1 ![] bcast_S_S8x2048x1 (constantI S_ 32 8192#32))) (broadcastInDim S8x2048x1 ![0, 1] bcast_S8x2048_S8x2048x1_0_1 (m ((c.tc : Thread nD τ).loc main_arg1)))) shapeCasts_S8x2048x1_S8x2048x1x1) (broadcastInDim S8x2048x1x1 ![0, 1, 2, 3] bcast_S1x1x1x1_S8x2048x1x1_0_1_2_3 (broadcastInDim S1x1x1x1 ![3] bcast_S1_S1x1x1x1_3 (constantI S1 32 8191#32))))) (constantI S_ 1 1#1) reducesTo_S8x2048x1x1_S8x2048x1_d3 h_S_) (Host.gather gather_S8x2048x8192_S8x2048x1x1_S8x2048x1_n_2_01_01_2_3_111 (m ((c.tc : Thread nD τ).loc main_arg0)) (shapeCast _ (select (cmpi .slt (broadcastInDim S8x2048x1 ![0, 1] bcast_S8x2048_S8x2048x1_0_1 (m ((c.tc : Thread nD τ).loc main_arg1))) (broadcastInDim S8x2048x1 ![] bcast_S_S8x2048x1 (constantI S_ 32 0#32))) (addi (broadcastInDim S8x2048x1 ![0, 1] bcast_S8x2048_S8x2048x1_0_1 (m ((c.tc : Thread nD τ).loc main_arg1))) (broadcastInDim S8x2048x1 ![] bcast_S_S8x2048x1 (constantI S_ 32 8192#32))) (broadcastInDim S8x2048x1 ![0, 1] bcast_S8x2048_S8x2048x1_0_1 (m ((c.tc : Thread nD τ).loc main_arg1)))) shapeCasts_S8x2048x1_S8x2048x1x1)) (broadcastInDim S8x2048x1 ![] bcast_S_S8x2048x1 (constant S_ .f32 0x7FC00000#32))) shapeCasts_S8x2048x1_S8x2048)) (broadcastInDim S8x2048 ![] bcast_S_S8x2048 (constant S_ .f32 0x00000000#32))) (constant S_ .f32 0x00000000#32) reducesTo_S8x2048_S_d0_1 h_S_) (sitofp .f32 (Host.reduce IntOp.addi (extui 32 (cmpi .slt (broadcastInDim S8x2048 ![0, 1] bcast_S1x2048_S8x2048_0_1 (broadcastInDim S1x2048 ![1] bcast_S2048_S1x2048_1 (iotaInDim S2048 32 0))) (broadcastInDim S8x2048 ![0, 1] bcast_S8x1_S8x2048_0_1 (broadcastInDim S8x1 ![0] bcast_S8_S8x1_0 (Host.reduce IntOp.addi (extui 32 (cmpi .ne (m ((c.tc : Thread nD τ).loc main_arg1)) (broadcastInDim S8x2048 ![] bcast_S_S8x2048 (constantI S_ 32 0#32))) natLt_1_32) (constantI S_ 32 0#32) reducesTo_S8x2048_S8_d1 h_S_)))) natLt_1_32) (constantI S_ 32 0#32) reducesTo_S8x2048_S_d0_1 h_S_))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v20).trans (by after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.Proof.RefRun

end
-- ==== Proof.Spec.lean ====
/-
  What the kernel computes, as pure functions of its two argument arrays.

  The 16384 positions (b, t) of the 8 × 2048 token grid are dealt to 32 workers of 512 consecutive
  positions each: worker w holds row b = w / 4 and columns t = (w % 4)·512 + p, p < 512. The gathered
  array has, at (w, p), the entry of the probabilities at (b, t, a) with a the token at (b, t). The loss
  is the body of the reduction kernel read as one term of the gathered array and of the tokens laid
  out the same way.
-/
import proofs.«212842_g47828755808845_cont_8to1c4_577_40_alg».proof.Proof.Gen.KernelIdeal.Skeleton
import Idealize.ShloMosaic.Lib.ValueIdx

noncomputable section

namespace Cert.KernelIdeal.Spec

open Idealize.ShloMosaic Idealize.ShloMosaic.ValueIdx Cert.KernelIdeal Cert.KernelIdeal.Gen

variable {F : FTy → Type} [FloatOps F]

/-- The token position (b, t) that entry (w, p) of the 32 × 512 arrangement stands for. -/
def posOf (j : S32x512.Idx) : S8x2048.Idx :=
  have h0 : (j 0).val < 32 := (j 0).isLt
  have h1 : (j 1).val < 512 := (j 1).isLt
  ix2 (⟨(j 0).val / 4, by omega⟩ : Fin 8) (⟨(j 0).val % 4 * 512 + (j 1).val, by omega⟩ : Fin 2048)

/-- The entry of the probabilities that position (w, p) selects: row and column of `posOf`, class the token there
    (reduced modulo the number of classes, so that the term is total; in range it is the token itself). -/
def pick (act : Vec F S8x2048 .i32) (j : S32x512.Idx) : S8x2048x8192.Idx :=
  ix3 (posOf j 0) (posOf j 1) (⟨(act (posOf j)).toNat % 8192, Nat.mod_lt _ (by decide)⟩ : Fin 8192)

/-- The gathered array: at (w, p) the probability of the token at that position. -/
def gathered (pred : Vec F S8x2048x8192 .f32) (act : Vec F S8x2048 .i32) : Vec F S32x512 .f32 :=
  fun j => pred (pick act j)

variable [Facts]

/-- The reduction kernel's result as one term of the gathered values and the tokens, both 32 × 512: the negated sum of the
    values at the positions before each row's count of non-pad tokens, over the number of such positions. -/
def lossOf (vals : Vec F S32x512 .f32) (act32 : Vec F S32x512 .i32) : F .f32 :=
  k1_pay1 (k1_pay2 vals)
    (k1_pay7 k1_pay3 (k1_pay4 act32) (iota .tc S32x32 32 [0] iota_S32x32_d0_w32) (iota .tc S32x32 32 [1] iota_S32x32_d1_w32) 4#32
      k1_pay5 k1_pay6 (Scalar.extui (Scalar.cmpi .sgt 4#32 0#32)) 0#32)
    (k1_pay8 k1_pay3 (k1_pay4 act32) (iota .tc S32x32 32 [0] iota_S32x32_d0_w32) (iota .tc S32x32 32 [1] iota_S32x32_d1_w32) 4#32
      k1_pay5 k1_pay6 (Scalar.extui (Scalar.cmpi .sgt 4#32 0#32)) 0#32)

/-- The whole program's result: the loss of the gathered array and the tokens reshaped to 32 × 512. -/
def result (pred : Vec F S8x2048x8192 .f32) (act : Vec F S8x2048 .i32) : Vec F S_ .f32 :=
  fun _ => lossOf (gathered pred act) (shapeCast S32x512 act shapeCasts_S8x2048_S32x512)

end Cert.KernelIdeal.Spec

end
-- ==== Proof.Clean.lean ====
/-
  The loss in plain mathematical form, over the 8 × 2048 grid of token positions.

  A row's length is the number of its non-pad tokens (tokens different from 0), as a 32-bit word. Position (b, t) is
  live when t, as a word, is below row b's length in the signed order (as both programs compare them). The loss is
  minus the sum, over the live positions, of the probability of the token there, divided by the number of live
  positions.
-/
import proofs.«212842_g47828755808845_cont_8to1c4_577_40_alg».proof.Proof.Spec
import Idealize.ShloMosaic.PureOps.Ideal

noncomputable section

namespace Cert.KernelIdeal.Clean

open Idealize.ShloMosaic Idealize.ShloMosaic.ValueIdx Cert.KernelIdeal

/-- Row b's length: how many of its 2048 tokens are not the pad token 0. -/
def len (act : IVec S8x2048 32) (b : Fin 8) : BitVec 32 :=
  BitVec.ofNat 32 (Finset.univ.filter fun t : Fin 2048 => act (ix2 b t) ≠ 0#32).card

/-- Position (b, t) is live: t, as a word, is below row b's length in the signed order. -/
def live (act : IVec S8x2048 32) (i : S8x2048.Idx) : Bool :=
  (BitVec.ofNat 32 (i 1).val).slt (len act (i 0))

/-- The number of live positions, as a 32-bit word. -/
def count (act : IVec S8x2048 32) : BitVec 32 :=
  BitVec.ofNat 32 (Finset.univ.filter fun i : S8x2048.Idx => live act i = true).card

/-- The entry of the probabilities at position i and the token there (reduced modulo the number of classes). -/
def tokenIdx (act : IVec S8x2048 32) (i : S8x2048.Idx) : S8x2048x8192.Idx :=
  ix3 (i 0) (i 1) (⟨(act i).toNat % 8192, Nat.mod_lt _ (by decide)⟩ : Fin 8192)

/-- The sum over the live positions of the probability of the token there. -/
def total (pred : FVec Ideal S8x2048x8192 .f32) (act : IVec S8x2048 32) : EReal :=
  ∑ i : S8x2048.Idx, (if live act i = true then (pred (tokenIdx act i) : EReal) else 0)

/-- The loss: minus the total over the count. -/
def loss (pred : FVec Ideal S8x2048x8192 .f32) (act : IVec S8x2048 32) : Ideal .f32 :=
  Scalar.divf (F := Ideal) (φ := .f32) (-(total pred act) : EReal) (Scalar.sitofp (F := Ideal) .f32 (count act))

end Cert.KernelIdeal.Clean

end
-- ==== Proof.RefLen.lean ====
/-
  The integer side of the reference: the row lengths, the mask of live positions and their count.

  The lengths are a sum along each row of the 0/1 words "the token is not the pad token", that is, the number of non-pad
  tokens of the row as a word. The mask compares the column (as a word) with the row's length in the signed order. The
  count is the sum of the 0/1 mask over the whole grid, that is, the number of live positions as a word.
-/
import proofs.«212842_g47828755808845_cont_8to1c4_577_40_alg».proof.Proof.RefReadP
import proofs.«212842_g47828755808845_cont_8to1c4_577_40_alg».proof.Proof.Clean
import Idealize.ShloMosaic.Lib.IndicatorCount
import Idealize.ShloMosaic.Lib.ValueIdx

noncomputable section

namespace Cert.Proof.RefLen

open Idealize.ShloMosaic Idealize.ShloMosaic.ValueIdx Cert.ReferenceIdeal Cert.ReferenceIdeal.Gen Cert.ReferenceIdeal.ReadP
open Cert.KernelIdeal (Clean.len Clean.live Clean.count)

variable {F : FTy → Type} [FloatOps F]

/-- The sum along a row: the 8 × 2048 grid with its second axis dropped is the 8 rows. -/
theorem rowReduces : S8x2048.Reduces [1] S8 := by decide

/-- Row b with column k put back is position (b, k). -/
theorem lift_row (j : S8.Idx) (k : Fin 2048) : rowReduces.lift j k = ix2 (j 0) k := by
  funext a
  refine Fin.ext ?_
  match a with
  | ⟨0, _⟩ => rfl
  | ⟨1, _⟩ => rfl

/-- The reference's lengths: row b's entry is the number of non-pad tokens of the row. -/
theorem lengths_eq (x1 : IVec S8x2048 32) (j : S8.Idx) :
    val_main_v3 (F := F) x1 j = Clean.len x1 (j 0) := by
  unfold val_main_v3
  rw [Host.reduce_eq_fold_single IntOp.addi _ _ reducesTo_S8x2048_S8_d1 rowReduces h_S_ j]
  refine Eq.trans (IndicatorCount.fold_addi_setWidth_eq_card (ι := Fin 2048) (w := 32)
    (fun k => val_main_v1 (F := F) x1 (rowReduces.lift j k)) Finset.univ) ?_
  unfold Clean.len
  refine congrArg (fun S : Finset (Fin 2048) => BitVec.ofNat 32 S.card) (Finset.filter_congr fun k _ => ?_)
  rw [lift_row]
  exact IntOp.cmpi_ne

/-- The reference's mask at position i is the bit "i is live". -/
theorem mask_eq (x1 : IVec S8x2048 32) (i : S8x2048.Idx) :
    val_main_v9 (F := F) x1 i = BitVec.ofBool (Clean.live x1 i) := by
  rw [val_main_v9_apply, val_main_v7_apply, val_main_v5_apply, val_main_v4_apply, val_main_v8_apply, val_main_v6_apply,
    lengths_eq]
  rfl

/-- A truth value as a one-bit word is 1 exactly when it is true. -/
theorem ofBool_eq_one_iff (b : Bool) : BitVec.ofBool b = 1#1 ↔ b = true := by cases b <;> decide

theorem mask_eq_one_iff (x1 : IVec S8x2048 32) (i : S8x2048.Idx) :
    val_main_v9 (F := F) x1 i = 1#1 ↔ Clean.live x1 i = true := by
  rw [mask_eq]
  exact ofBool_eq_one_iff _

/-- The reference's count: the number of live positions, as a word. -/
theorem count_eq (x1 : IVec S8x2048 32) (j : S_.Idx) :
    val_main_v15 (F := F) x1 j = Clean.count x1 := by
  unfold val_main_v15
  rw [Host.reduce_eq_fold]
  have hall : (Finset.univ.filter fun i : S8x2048.Idx => reducesTo_S8x2048_S_d0_1.drop i = j) = Finset.univ :=
    Finset.filter_true_of_mem fun i _ => funext fun b => b.elim0
  rw [hall]
  refine Eq.trans (IndicatorCount.fold_addi_setWidth_eq_card (ι := S8x2048.Idx) (w := 32)
    (fun i => val_main_v9 (F := F) x1 i) Finset.univ) ?_
  unfold Clean.count
  refine congrArg (fun S : Finset S8x2048.Idx => BitVec.ofNat 32 S.card) (Finset.filter_congr fun i _ => ?_)
  exact mask_eq_one_iff x1 i

end Cert.Proof.RefLen

end
-- ==== Proof.TokenWords.lean ====
/-
  Facts about one token word a with a.toNat ≤ 8191: read signed it is the same number, so it is not negative, it passes
  the test 0 ≤ a ≤ 8191, clamping it into [0, 8191] or reducing it modulo 8192 changes nothing.
-/
import Idealize.ShloMosaic.Lib.Affine
import Idealize.ShloMosaic.Lib.ValueIdx

namespace Cert.Proof.TokenWords

open Idealize.ShloMosaic

theorem toInt_eq (a : BitVec 32) (h : a.toNat ≤ 8191) : a.toInt = (a.toNat : Int) := by
  rw [BitVec.toInt_eq_toNat_cond]
  split <;> omega

theorem not_slt_zero (a : BitVec 32) (h : a.toNat ≤ 8191) : IntOp.cmpi .slt a 0#32 = 0#1 := by
  have hn : ¬ IntOp.cmpi .slt a 0#32 = 1#1 := by
    rw [IntOp.cmpi_slt, toInt_eq a h]
    have e0 : (0#32 : BitVec 32).toInt = 0 := by decide
    rw [e0]; omega
  rcases BitVec.eq_zero_or_eq_one (IntOp.cmpi .slt a 0#32) with h0 | h1
  · exact h0
  · exact absurd h1 hn

theorem sge_zero (a : BitVec 32) (h : a.toNat ≤ 8191) : IntOp.cmpi .sge a 0#32 = 1#1 := by
  rw [IntOp.cmpi_sge, toInt_eq a h]
  have e0 : (0#32 : BitVec 32).toInt = 0 := by decide
  rw [e0]; omega

theorem sle_max (a : BitVec 32) (h : a.toNat ≤ 8191) : IntOp.cmpi .sle a 8191#32 = 1#1 := by
  rw [IntOp.cmpi_sle, toInt_eq a h]
  have e1 : (8191#32 : BitVec 32).toInt = 8191 := by decide
  rw [e1]; omega

theorem clamp_eq (a : BitVec 32) (h : a.toNat ≤ 8191) : min a.toInt.toNat 8191 = a.toNat := by
  rw [toInt_eq a h, Int.toNat_natCast]
  omega

theorem mod_eq (a : BitVec 32) (h : a.toNat ≤ 8191) : a.toNat % 8192 = a.toNat := by
  omega

end Cert.Proof.TokenWords
-- ==== Proof.RefGather.lean ====
/-
  The reference's gather read at an index: result entry (b, t, 0) is the operand's entry (b, t, k), with k the start
  index at (b, t, 0, 0) read as a signed integer and clamped into [0, 8191]. The first two axes are batching axes (the
  result's coordinate is the operand's), the last one is the gathered axis, cut to slices of one entry.
-/
import proofs.«212842_g47828755808845_cont_8to1c4_577_40_alg».proof.Proof.Gen.ReferenceIdeal
import Idealize.ShloMosaic.Lib.ValueIdx

noncomputable section

namespace Cert.Proof.RefGather

open Idealize.ShloMosaic Idealize.ShloMosaic.ValueIdx Cert.ReferenceIdeal Cert.ReferenceIdeal.Gen

local notation "G" => gather_S8x2048x8192_S8x2048x1x1_S8x2048x1_n_2_01_01_2_3_111

/-- The start-indices entry that result index j reads: (b, t, 0, 0). -/
abbrev startAt (j : S8x2048x1.Idx) : S8x2048x1x1.Idx :=
  ix4 (j 0) (j 1) (⟨0, Nat.one_pos⟩ : Fin 1) (⟨0, Nat.one_pos⟩ : Fin 1)

theorem gather_apply {α : Type} (x : S8x2048x8192.Idx → α) (idx : IVec S8x2048x1x1 32) (j : S8x2048x1.Idx) :
    Host.gather G x idx j
      = x (ix3 (j 0) (j 1) (⟨min (idx (startAt j)).toInt.toNat 8191, by omega⟩ : Fin 8192)) := by
  unfold Host.gather
  congr 1
  funext a
  refine Fin.ext ?_
  match a with
  | ⟨0, _⟩ =>
    show GatherDims.start G j idx 0 + GatherDims.batchCoord G j 0 + GatherDims.offCoord G j 0 = (j 0).val
    have hb : (0 : Fin 3) ∈ (G).operandBatchingDims := by show (0 : Fin 3) ∈ ([0, 1] : List (Fin 3)); decide
    rw [GatherDims.start_batching _ _ _ _ hb,
      GatherDims.offCoord_eq_zero _ _ _ (fun h => ((GatherDims.mem_sKept _ _).mp h).2 hb)]
    unfold GatherDims.batchCoord
    rw [dif_pos hb, Nat.zero_add, Nat.add_zero]
    rfl
  | ⟨1, _⟩ =>
    show GatherDims.start G j idx 1 + GatherDims.batchCoord G j 1 + GatherDims.offCoord G j 1 = (j 1).val
    have hb : (1 : Fin 3) ∈ (G).operandBatchingDims := by show (1 : Fin 3) ∈ ([0, 1] : List (Fin 3)); decide
    rw [GatherDims.start_batching _ _ _ _ hb,
      GatherDims.offCoord_eq_zero _ _ _ (fun h => ((GatherDims.mem_sKept _ _).mp h).2 hb)]
    unfold GatherDims.batchCoord
    rw [dif_pos hb, Nat.zero_add, Nat.add_zero]
    rfl
  | ⟨2, _⟩ =>
    show GatherDims.start G j idx 2 + GatherDims.batchCoord G j 2 + GatherDims.offCoord G j 2 = min (idx (startAt j)).toInt.toNat 8191
    have hnb : (2 : Fin 3) ∉ (G).operandBatchingDims := by show (2 : Fin 3) ∉ ([0, 1] : List (Fin 3)); decide
    have hc : (2 : Fin 3) ∈ (G).collapsedSliceDims := by show (2 : Fin 3) ∈ ([2] : List (Fin 3)); decide
    have hm : (2 : Fin 3) ∈ (G).startIndexMap := by show (2 : Fin 3) ∈ ([2] : List (Fin 3)); decide
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : (G).siIdx j ⟨List.idxOf (2 : Fin 3) (G).startIndexMap, List.idxOf_lt_length_iff.2 hm⟩ = startAt j := by
      funext b; refine Fin.ext ?_
      match b with
      | ⟨0, _⟩ => rfl
      | ⟨1, _⟩ => rfl
      | ⟨2, _⟩ => exact (show (j 2).val = 0 from Nat.lt_one_iff.mp (j 2).isLt)
      | ⟨3, _⟩ => rfl
    rw [hsi]
    rfl

end Cert.Proof.RefGather

end
-- ==== Proof.RefPick.lean ====
/-
  The float side of the reference up to the reshape: the value picked at each position.

  Under the range hypothesis (every token at most 8191 as an unsigned word) the index normalisation leaves the token as
  it is (it is not negative), the range test 0 ≤ token ≤ 8191 holds at every position, so the choice takes the gathered
  value and not the fill value; the gather's clamp into [0, 8191] leaves the token as it is. The picked value at
  position (b, t) is therefore the entry (b, t, token) of the probabilities.
-/
import proofs.«212842_g47828755808845_cont_8to1c4_577_40_alg».proof.Proof.RefReadP
import proofs.«212842_g47828755808845_cont_8to1c4_577_40_alg».proof.Proof.Clean
import proofs.«212842_g47828755808845_cont_8to1c4_577_40_alg».proof.Proof.TokenWords
import proofs.«212842_g47828755808845_cont_8to1c4_577_40_alg».proof.Proof.RefGather
import Idealize.ShloMosaic.Lib.ValueIdx

noncomputable section

namespace Cert.Proof.RefPick

open Idealize.ShloMosaic Idealize.ShloMosaic.ValueIdx Cert.ReferenceIdeal Cert.ReferenceIdeal.Gen Cert.ReferenceIdeal.ReadP
open Cert.KernelIdeal (Clean.tokenIdx)

variable {F : FTy → Type} [FloatOps F]

/-- The position (b, t) of the token grid under entry (b, t, 0, 0) of the start indices. -/
abbrev posUnder (j : S8x2048x1x1.Idx) : S8x2048.Idx :=
  ix2 (⟨(j 0).val, (j 0).isLt⟩ : Fin 8) (⟨(j 1).val, (j 1).isLt⟩ : Fin 2048)

theorem idx_posUnder (j : S8x2048x1x1.Idx) : idx_main_v10 (idx_main_call0_v5 j) = posUnder j := by
  have h0 : (j 0).val < 8 := (j 0).isLt
  have h1 : (j 1).val < 2048 := (j 1).isLt
  have h2 : (j 2).val < 1 := (j 2).isLt
  have h3 : (j 3).val < 1 := (j 3).isLt
  funext a
  refine Fin.ext ?_
  match a with
  | ⟨0, _⟩ =>
    show ((((j 0).val * 2048 + (j 1).val) * 1 + (j 2).val) * 1 + (j 3).val) / 2048 = (j 0).val
    omega
  | ⟨1, _⟩ =>
    show ((((j 0).val * 2048 + (j 1).val) * 1 + (j 2).val) * 1 + (j 3).val) / 1 % 2048 = (j 1).val
    omega

/-- The normalised start index at (b, t, 0, 0) is the token at (b, t): a token in range is not negative. -/
theorem start_eq (x1 : IVec S8x2048 32) (hr : ∀ i, (x1 i).toNat ≤ 8191) (j : S8x2048x1x1.Idx) :
    val_main_call0_v5 (F := F) x1 j = x1 (posUnder j) := by
  rw [val_main_call0_v5_apply, val_main_call0_v4_apply, val_main_call0_v1_apply, val_main_v10_apply,
    val_main_call0_v0_apply, val_main_call0_c_apply, idx_posUnder, TokenWords.not_slt_zero _ (hr (posUnder j)),
    select_zero]

/-- The last axis of the 8 × 2048 × 1 × 1 array has one entry: dropping it loses nothing. -/
theorem lastReduces : S8x2048x1x1.Reduces [3] S8x2048x1 := by decide

/-- The range test holds at every position. -/
theorem inrange_eq (x1 : IVec S8x2048 32) (hr : ∀ i, (x1 i).toNat ≤ 8191) (i : S8x2048x1.Idx) :
    val_main_call0_v12 (F := F) x1 i = 1#1 := by
  unfold val_main_call0_v12
  rw [Host.reduce_eq_fold_single IntOp.andi _ _ reducesTo_S8x2048x1x1_S8x2048x1_d3 lastReduces h_S_ i]
  have hall : ∀ j : S8x2048x1x1.Idx, val_main_call0_v11 (F := F) x1 j = 1#1 := by
    intro j
    rw [val_main_call0_v11_apply, val_main_call0_v7_apply, val_main_call0_v10_apply, start_eq x1 hr,
      val_main_call0_v6_apply, val_main_call0_c_2_apply, val_main_call0_v9_apply, val_main_call0_v8_apply,
      val_main_call0_c_1_apply, TokenWords.sge_zero _ (hr (posUnder j)), TokenWords.sle_max _ (hr (posUnder j))]
    rfl
  refine Eq.trans (b := (Finset.univ : Finset (Fin 1)).fold IntOp.andi (1#1) (fun _ => 1#1)) ?_ (by decide)
  refine Finset.fold_congr fun k _ => ?_
  exact hall _

/-- The token read for position i of the 8 × 2048 grid (through the reshape from 8 × 2048 × 1) is the token at i. -/
theorem token_at (x1 : IVec S8x2048 32) (hr : ∀ i, (x1 i).toNat ≤ 8191) (i : S8x2048.Idx) :
    val_main_call0_v5 (F := F) x1 (RefGather.startAt (idx_main_v12 i)) = x1 i := by
  rw [start_eq x1 hr]
  have h0 : (i 0).val < 8 := (i 0).isLt
  have h1 : (i 1).val < 2048 := (i 1).isLt
  refine congrArg x1 (funext fun a => Fin.ext ?_)
  match a with
  | ⟨0, _⟩ =>
    show ((i 0).val * 2048 + (i 1).val) / 2048 = (i 0).val
    omega
  | ⟨1, _⟩ =>
    show ((i 0).val * 2048 + (i 1).val) / 1 % 2048 = (i 1).val
    omega

/-- The picked value at position i is the probability of the token there. -/
theorem picked_eq (x0 : FVec F S8x2048x8192 .f32) (x1 : IVec S8x2048 32) (hr : ∀ i, (x1 i).toNat ≤ 8191)
    (i : S8x2048.Idx) : val_main_v12 (F := F) x0 x1 i = x0 (Clean.tokenIdx x1 i) := by
  rw [val_main_v12_apply, val_main_v11_apply, inrange_eq x1 hr, select_one]
  unfold val_main_call0_v13
  rw [RefGather.gather_apply]
  have h0 : (i 0).val < 8 := (i 0).isLt
  have h1 : (i 1).val < 2048 := (i 1).isLt
  refine congrArg x0 (funext fun a => Fin.ext ?_)
  match a with
  | ⟨0, _⟩ =>
    show ((i 0).val * 2048 + (i 1).val) / 2048 = (i 0).val
    omega
  | ⟨1, _⟩ =>
    show ((i 0).val * 2048 + (i 1).val) / 1 % 2048 = (i 1).val
    omega
  | ⟨2, _⟩ =>
    show min (val_main_call0_v5 (F := F) x1 (RefGather.startAt (idx_main_v12 i))).toInt.toNat 8191
      = (x1 i).toNat % 8192
    rw [token_at x1 hr, TokenWords.clamp_eq _ (hr i), TokenWords.mod_eq _ (hr i)]

end Cert.Proof.RefPick

end
-- ==== Proof.RefValue.lean ====
/-
  The reference's value: the term its run ends at is the loss in plain mathematical form, and its run stated with that
  loss as the result.

  The reference sums, over the live positions, MINUS the probability of the token there, and divides by the number of
  live positions; the plain form is minus the sum, over the count. On the extended reals the negation of a sum is the sum
  of the negations only when no two summands are infinities of opposite signs: here every summand is a real number (or
  the zero of a position that is not live), which is where the finiteness of the probabilities is used.
-/
import proofs.«212842_g47828755808845_cont_8to1c4_577_40_alg».proof.Defs
import proofs.«212842_g47828755808845_cont_8to1c4_577_40_alg».proof.Proof.Gen.Pre_input_domain
import proofs.«212842_g47828755808845_cont_8to1c4_577_40_alg».proof.Proof.RefRun
import proofs.«212842_g47828755808845_cont_8to1c4_577_40_alg».proof.Proof.RefReadP
import proofs.«212842_g47828755808845_cont_8to1c4_577_40_alg».proof.Proof.RefLen
import proofs.«212842_g47828755808845_cont_8to1c4_577_40_alg».proof.Proof.RefPick
import Idealize.ShloMosaic.PureOps.Ideal.Laws

noncomputable section

namespace Cert.Proof.RefValue

open Idealize.ShloMosaic Idealize.ShloMosaic.ValueIdx Idealize.SL.Sem Idealize.ShloMosaic.TcCoe
open Cert.ReferenceIdeal Cert.ReferenceIdeal.Gen Cert.ReferenceIdeal.ReadP
open Cert.KernelIdeal (Clean.live Clean.count Clean.tokenIdx Clean.total Clean.loss)

/-- Over real summands, the sum of the negations is the negation of the sum (and the sum is a real). -/
theorem sum_neg_of_real {ι : Type} (S : Finset ι) (g : ι → EReal) (hg : ∀ i, ∃ r : ℝ, g i = (r : EReal)) :
    (∃ s : ℝ, ∑ i ∈ S, g i = (s : EReal)) ∧ ∑ i ∈ S, -(g i) = -(∑ i ∈ S, g i) := by
  classical
  induction S using Finset.induction_on with
  | empty => exact ⟨⟨0, by simp⟩, by simp⟩
  | insert a S ha ih =>
    obtain ⟨⟨s, hs⟩, hneg⟩ := ih
    obtain ⟨r, hr⟩ := hg a
    rw [Finset.sum_insert ha, Finset.sum_insert ha, hneg, hs, hr]
    refine ⟨⟨r + s, (EReal.coe_add r s).symm⟩, ?_⟩
    rw [← EReal.coe_neg, ← EReal.coe_neg, ← EReal.coe_add, ← EReal.coe_add, ← EReal.coe_neg]
    exact congrArg _ (by ring)

/-- The reference's summand at position i: minus the probability of the token there where i is live, zero elsewhere. -/
theorem summand_eq (pred : FVec Ideal S8x2048x8192 .f32) (act : IVec S8x2048 32) (hrange : ∀ i, (act i).toNat ≤ 8191)
    (i : S8x2048.Idx) :
    val_main_v18 (F := Ideal) pred act i
      = -(if Clean.live act i = true then (pred (Clean.tokenIdx act i) : EReal) else 0) := by
  rw [val_main_v18_apply, RefLen.mask_eq, val_main_v13_apply, RefPick.picked_eq pred act hrange, val_main_v17_apply,
    val_main_cst_apply]
  cases Clean.live act i
  · rw [show BitVec.ofBool false = 0#1 from rfl, select_zero, if_neg (by decide), neg_zero]
    exact Ideal.ofBits_zero_f32
  · rw [show BitVec.ofBool true = 1#1 from rfl, select_one, if_pos rfl]
    rfl

/-- THE REFERENCE'S TERM IS THE LOSS, under the range of the tokens and the finiteness of the probabilities. -/
theorem ref_term_eq (pred : FVec Ideal Cert.ReferenceIdeal.S8x2048x8192 .f32) (act : IVec Cert.ReferenceIdeal.S8x2048 32)
    (hrange : ∀ i, (act i).toNat ≤ 8191) (hfin : ∀ i, ∃ r : ℝ, pred i = (r : EReal)) :
    Cert.ReferenceIdeal.ReadP.val_main_v20 (F := Ideal) pred act = fun _ => Cert.KernelIdeal.Clean.loss pred act := by
  funext j
  rw [val_main_v20_apply, val_main_v19_apply, val_main_v16_apply, RefLen.count_eq]
  have hs : ∑ i : S8x2048.Idx, val_main_v18 (F := Ideal) pred act i = -(Clean.total pred act) := by
    rw [Finset.sum_congr rfl fun i _ => summand_eq pred act hrange i]
    refine (sum_neg_of_real Finset.univ
      (fun i => if Clean.live act i = true then (pred (Clean.tokenIdx act i) : EReal) else 0) fun i => ?_).2
    by_cases hl : Clean.live act i = true
    · rw [if_pos hl]; exact hfin _
    · rw [if_neg hl]; exact ⟨0, EReal.coe_zero.symm⟩
  have hz : val_main_cst_2 (F := Ideal) (Shape.Idx.first h_S_) = 0 := Ideal.ofBits_zero_f32
  rw [hs, hz, zero_add]
  rfl

/-- THE REFERENCE'S RUN with the loss as its result: every weakly fair execution terminates with the result buffer at the
    loss of the two argument arrays and the arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg)
    (hrange : ∀ (c : Dev Cert.ReferenceIdeal.nD) i,
      (m' ((c.tc : Thread _ Cert.ReferenceIdeal.τ).loc Cert.ReferenceIdeal.main_arg1) i).toNat ≤ 8191)
    (hfin : ∀ (c : Dev Cert.ReferenceIdeal.nD) i, ∃ r : ℝ,
      m' ((c.tc : Thread _ Cert.ReferenceIdeal.τ).loc Cert.ReferenceIdeal.main_arg0) i = (r : EReal)) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread _ Cert.ReferenceIdeal.τ).loc Cert.ReferenceIdeal.main_v20)
            = (fun _ => Cert.KernelIdeal.Clean.loss
                (m' ((c.tc : Thread _ Cert.ReferenceIdeal.τ).loc Cert.ReferenceIdeal.main_arg0))
                (m' ((c.tc : Thread _ Cert.ReferenceIdeal.τ).loc Cert.ReferenceIdeal.main_arg1)))
          ∧ r.2.mem ((c.tc : Thread _ Cert.ReferenceIdeal.τ).loc Cert.ReferenceIdeal.main_arg0)
            = m' ((c.tc : Thread _ Cert.ReferenceIdeal.τ).loc Cert.ReferenceIdeal.main_arg0)
          ∧ r.2.mem ((c.tc : Thread _ Cert.ReferenceIdeal.τ).loc Cert.ReferenceIdeal.main_arg1)
            = m' ((c.tc : Thread _ Cert.ReferenceIdeal.τ).loc Cert.ReferenceIdeal.main_arg1)) :=
  (θ_run Cert.ReferenceIdeal.defs _ _).mono
    (fun _ h c => ⟨(h c).1.trans ((val_main_v20_eq (F := Ideal) _ _).trans (ref_term_eq _ _ (hrange c) (hfin c))), (h c).2⟩)
    (Cert.Proof.RefRun.run (F := Ideal) m' ρ')

/-- The reference runs and leaves its arguments unchanged: its run with the result dropped. -/
theorem frame_ri : Cert.frame_ReferenceIdeal (hReferenceIdeal := Cert.ReferenceIdeal.Gen.facts)
    (hPre_input_domain := Cert.Pre_input_domain.Gen.facts) :=
  fun m ρ _ => (θ_run Cert.ReferenceIdeal.defs _ _).mono (fun _ h c => (h c).2) (Cert.Proof.RefRun.run (F := Ideal) m ρ)

end Cert.Proof.RefValue

end
-- ==== Proof.KerIdx.lean ====
/-
  The 32 × 512 arrangement and the 8 × 2048 grid hold the same positions in the same row-major order.

  Entry (w, p) of the arrangement has row-major position 512·w + p; position (b, t) of the grid has
  2048·b + t. With b = w / 4 and t = (w % 4)·512 + p the two agree, so the map from (w, p) to (b, t)
  is the re-indexing of a shape cast between the two shapes, and in particular a bijection.
-/
import proofs.«212842_g47828755808845_cont_8to1c4_577_40_alg».proof.Proof.Clean

noncomputable section

namespace Cert.Proof.KerIdx

open Idealize.ShloMosaic Idealize.ShloMosaic.ValueIdx Cert.KernelIdeal

/-- The bijection between the entries of the arrangement and the positions of the grid: the one a shape cast uses. -/
def posEquiv : S32x512.Idx ≃ S8x2048.Idx := Shape.reshapeEquiv Gen.shapeCasts_S8x2048_S32x512

/-- It sends (w, p) to (w / 4, (w % 4)·512 + p). -/
theorem posEquiv_apply (j : S32x512.Idx) : posEquiv j = Spec.posOf j := by
  refine Shape.reshapeEquiv_eq_of_rowMajor _ ?_
  rw [Shape.rowMajor_val_two, Shape.rowMajor_val_two]
  show ((j 0).val / 4) * 2048 + ((j 0).val % 4 * 512 + (j 1).val) = (j 0).val * 512 + (j 1).val
  omega

/-- The row of the position that entry (w, p) stands for is w / 4. -/
theorem posOf_row (j : S32x512.Idx) : (Spec.posOf j 0).val = (j 0).val / 4 := rfl

/-- Its column is (w % 4)·512 + p. -/
theorem posOf_col (j : S32x512.Idx) : (Spec.posOf j 1).val = (j 0).val % 4 * 512 + (j 1).val := rfl

/-- The tokens reshaped to 32 × 512 hold, at (w, p), the token at the position that entry stands for. -/
theorem shapeCast_act (act : IVec S8x2048 32) (j : S32x512.Idx) :
    shapeCast S32x512 act Gen.shapeCasts_S8x2048_S32x512 j = act (Spec.posOf j) :=
  congrArg act (posEquiv_apply j)

/-- The entry of the probabilities that (w, p) selects is the one at its position and the token there. -/
theorem pick_eq (act : IVec S8x2048 32) (j : S32x512.Idx) :
    Spec.pick (F := Ideal) act j = Clean.tokenIdx act (Spec.posOf j) := rfl

/-- A sum over the positions of the grid is the sum over the entries of the arrangement. -/
theorem sum_posOf {M : Type*} [AddCommMonoid M] (f : S8x2048.Idx → M) :
    ∑ j : S32x512.Idx, f (Spec.posOf j) = ∑ i : S8x2048.Idx, f i := by
  rw [← Equiv.sum_comp posEquiv f]
  exact Finset.sum_congr rfl fun j _ => by rw [posEquiv_apply]

end Cert.Proof.KerIdx

end
-- ==== Proof.KerWords.lean ====
/-
  The two index computations of the reduction, on 32-bit words, decided once per coordinate.

  The kernel computes w % 4 and w / 4 of a worker number w < 32 by the signed remainder and quotient
  followed by the usual corrections towards the floor (add the divisor to a remainder of the other
  sign; subtract one from a quotient whose remainder is not zero when the signs differ). On the words
  0 … 31 the corrections never apply, and the results are the words of w % 4 and w / 4.
-/
import proofs.«212842_g47828755808845_cont_8to1c4_577_40_alg».proof.Proof.Clean
import Idealize.ShloMosaic.Lib.ValueLayout

noncomputable section

namespace Cert.Proof.KerWords

open Idealize.ShloMosaic Idealize.ShloMosaic.ValueIdx Cert.KernelIdeal Cert.KernelIdeal.Gen

/-- The floor remainder by 4 as the kernel computes it on a word. -/
def rem4 (x : BitVec 32) : BitVec 32 :=
  let v7 : BitVec 32 := Scalar.select (Scalar.cmpi .eq 4#32 0#32) 1#32 4#32
  let v9 : BitVec 32 := IntOp.remsi .vector x v7
  let v11 : BitVec 1 := IntOp.cmpi .ne v9 0#32
  let v13 : BitVec 1 := IntOp.cmpi .slt v9 0#32
  let v14 : BitVec 1 := Scalar.cmpi .slt v7 0#32
  let v17 : BitVec 1 := IntOp.xori v13 v14
  let v18 : BitVec 1 := IntOp.andi v17 v11
  let v20 : BitVec 32 := IntOp.addi v9 v7
  Scalar.select v18 v20 v9

/-- The floor quotient by 4 as the kernel computes it on a word. -/
def div4 (x : BitVec 32) : BitVec 32 :=
  let v32 : BitVec 32 := IntOp.divsi .vector x 4#32
  let v39 : BitVec 32 := IntOp.subi ((IntOp.cmpi .sgt x 0#32).setWidth 32) ((IntOp.cmpi .slt x 0#32).setWidth 32)
  let v44 : BitVec 32 := Scalar.subi (Scalar.extui (Scalar.cmpi .sgt 4#32 0#32)) (Scalar.extui (Scalar.cmpi .slt 4#32 0#32))
  let v46 : BitVec 1 := IntOp.cmpi .ne v39 v44
  let v48 : BitVec 32 := IntOp.remsi .vector x 4#32
  let v50 : BitVec 1 := IntOp.cmpi .ne v48 0#32
  let v51 : BitVec 1 := IntOp.andi v46 v50
  let v53 : BitVec 32 := IntOp.subi v32 1#32
  Scalar.select v51 v53 v32

/-- On a worker number the kernel's remainder is the word of w % 4. -/
theorem rem4_ofNat : ∀ w : Fin 32, rem4 (BitVec.ofNat 32 w.val) = BitVec.ofNat 32 (w.val % 4) := by decide +kernel

/-- On a worker number the kernel's quotient is the word of w / 4. -/
theorem div4_ofNat : ∀ w : Fin 32, div4 (BitVec.ofNat 32 w.val) = BitVec.ofNat 32 (w.val / 4) := by decide +kernel

/-- The column of the grid that entry (w, p) stands for, as the kernel computes it: the word of (w % 4)·512 + p. -/
theorem tcol_apply (w : Fin 32) (p : Fin 512) : k1_pay3 (ix2 w p) = BitVec.ofNat 32 (w.val % 4 * 512 + p.val) := by
  show IntOp.addi (IntOp.muli (rem4 (iota .tc S32x512 32 [0] iota_S32x512_d0_w32 (ix2 w p))) 512#32)
      (iota .tc S32x512 32 [1] iota_S32x512_d1_w32 (ix2 w p)) = _
  rw [iota_single_apply, iota_single_apply]
  show IntOp.addi (IntOp.muli (rem4 (BitVec.ofNat 32 w.val)) 512#32) (BitVec.ofNat 32 p.val) = _
  rw [rem4_ofNat w]
  show BitVec.ofNat 32 (w.val % 4) * BitVec.ofNat 32 512 + BitVec.ofNat 32 p.val = _
  rw [← BitVec.ofNat_mul, ← BitVec.ofNat_add]

/-- Two workers are compared by the rows they belong to: the comparison word at (r, c) is 1 exactly when r / 4 = c / 4. -/
theorem sameRow_word (r c : Fin 32) :
    IntOp.cmpi .eq (div4 (BitVec.ofNat 32 r.val)) (div4 (BitVec.ofNat 32 c.val)) = BitVec.ofBool (decide (r.val / 4 = c.val / 4)) := by
  rw [div4_ofNat r, div4_ofNat c]
  show BitVec.ofBool (BitVec.ofNat 32 (r.val / 4) == BitVec.ofNat 32 (c.val / 4)) = _
  refine congrArg BitVec.ofBool ?_
  rw [Bool.eq_iff_iff, beq_iff_eq, decide_eq_true_eq]
  constructor
  · intro h
    have := congrArg BitVec.toNat h
    simp only [BitVec.toNat_ofNat] at this
    have := r.isLt; have := c.isLt
    omega
  · intro h; rw [h]

end Cert.Proof.KerWords

end
-- ==== Proof.KerRed.lean ====
/-
  Integer reductions by addition, read as sums in the commutative ring of 32-bit words, and sums of
  0/1 words as counts.

  A vector reduction by integer addition is a left fold of word addition from the zero word over the
  source indices that drop to the result index. Word addition is the addition of the ring of 32-bit
  words, so the fold is a finite sum: over the coordinates of the one reduced axis, or, when every
  axis of the result has size one, over every source index. A sum of words that are each 1 or 0 is
  the number of ones, as a word.
-/
import Idealize.ShloMosaic.PureOps.Reduce
import Mathlib.Data.BitVec

namespace Cert.Proof.KerRed

open Idealize.ShloMosaic
open scoped BigOperators

/-- An integer sum over one axis, at a result index, is the sum over that axis's coordinates. -/
theorem multiReductionI_add_single {s t : Shape} {a : Fin s.rank} (src : IVec s 32) (h : s.Reduces [a] t)
    (hacc : (0#32 : BitVec 32) = IKind.neutral .add) (j : t.Idx) :
    multiReductionI .add [a] t src 0#32 h hacc j = ∑ k : Fin (s.size a), src (h.lift j k) := by
  rw [multiReductionI_eq_reduceFold]
  show reduceFold h (· + ·) 0#32 src j = _
  rw [reduceFold_add_eq_sum, h.sum_filter_drop_single, BitVec.zero_add]

/-- An integer sum into a shape whose every axis has size one is the sum over every source index. -/
theorem multiReductionI_add_total {s t : Shape} {axes : List (Fin s.rank)} (src : IVec s 32)
    (h : s.Reduces axes t) (ht : ∀ b, t.size b = 1) (hacc : (0#32 : BitVec 32) = IKind.neutral .add) (j : t.Idx) :
    multiReductionI .add axes t src 0#32 h hacc j = ∑ i : s.Idx, src i := by
  rw [multiReductionI_eq_reduceFold]
  show reduceFold h (· + ·) 0#32 src j = _
  rw [reduceFold_add_eq_sum, BitVec.zero_add, Finset.filter_true_of_mem fun i _ => funext fun b => Fin.ext (by
    have := (h.drop i b).isLt; have := (j b).isLt; have := ht b; omega)]

/-- A truth value as a one-bit word, widened to 32 bits, is the word 1 or the word 0. -/
theorem setWidth_ofBool (b : Bool) : (BitVec.ofBool b).setWidth 32 = if b = true then (1 : BitVec 32) else 0 := by
  cases b <;> rfl

/-- A sum of words that are 1 where a property holds and 0 elsewhere is the number of places where it holds. -/
theorem sum_ite_eq_card {ι : Type} [Fintype ι] (p : ι → Prop) [DecidablePred p] :
    ∑ i : ι, (if p i then (1 : BitVec 32) else 0) = BitVec.ofNat 32 (Finset.univ.filter p).card := by
  rw [Finset.sum_boole, BitVec.natCast_eq_ofNat]

end Cert.Proof.KerRed
-- ==== Proof.KerLayout.lean ====
/-
  Layout operations and a row reduction read at an index given by coordinates.

  A column of values [a] viewed as [a, 1] and broadcast along the rows to [a, b] reads, at (i, c), the
  column's entry i. A reduction by integer addition along the rows of an [n, m] array is, at row c,
  the sum of that row's m entries. A select on a truth value written as a one-bit word is the `if`.
-/
import proofs.«212842_g47828755808845_cont_8to1c4_577_40_alg».proof.Proof.KerRed
import Idealize.ShloMosaic.Lib.ValueLayout

namespace Cert.Proof.KerLayout

open Idealize.ShloMosaic Idealize.ShloMosaic.ValueIdx
open scoped BigOperators

variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (i, c), the operand's entry (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A reduction by integer addition along the rows of an [n, m] array is, at row c, the sum of the row's entries. -/
theorem multiReductionI_add_rows {n m : ℕ} (src : IVec ⟨2, ![n, m]⟩ 32) (h : (⟨2, ![n, m]⟩ : Shape).Reduces [1] ⟨1, ![n]⟩)
    (hacc : (0#32 : BitVec 32) = IKind.neutral .add) (c : Fin n) :
    multiReductionI .add [1] ⟨1, ![n]⟩ src 0#32 h hacc (ix1 c) = ∑ p : Fin m, src (ix2 c p) := by
  refine (KerRed.multiReductionI_add_single src h hacc (ix1 c)).trans ?_
  show ∑ p : Fin m, src (h.lift (ix1 c) p) = _
  refine Finset.sum_congr rfl fun p _ => congrArg src (funext fun ax => Fin.ext ?_)
  match ax with
  | ⟨0, _⟩ => rfl
  | ⟨1, _⟩ => rfl

/-- A select on a truth value written as a one-bit word is the `if` on it. -/
theorem select_ofBool (b : Bool) (x y : α) : Scalar.select (BitVec.ofBool b) x y = if b = true then x else y := by
  cases b <;> rfl

end Cert.Proof.KerLayout
-- ==== Proof.KerMask.lean ====
/-
  The kernel's mask is the set of live positions.

  Each worker w counts the non-pad tokens among its 512 entries. The length the kernel gives worker w
  is the sum of the counts of the workers of the same row, those c with c / 4 = w / 4. Read over the
  grid, that sum adds a 1 for every non-pad token of row w / 4, because the entries of the four workers
  of a row are exactly the row's 2048 positions: it is the row's length. The mask at (w, p) compares
  the column (w % 4)·512 + p with that length in the signed order, which is the definition of a live
  position.
-/
import proofs.«212842_g47828755808845_cont_8to1c4_577_40_alg».proof.Proof.KerIdx
import proofs.«212842_g47828755808845_cont_8to1c4_577_40_alg».proof.Proof.KerWords
import proofs.«212842_g47828755808845_cont_8to1c4_577_40_alg».proof.Proof.KerLayout

noncomputable section

namespace Cert.Proof.KerMask

open Idealize.ShloMosaic Idealize.ShloMosaic.ValueIdx Cert.KernelIdeal Cert.KernelIdeal.Gen
open scoped BigOperators

/-- The word 1 for a token that is not the pad token, the word 0 for the pad token. -/
def ind (x : BitVec 32) : BitVec 32 := (IntOp.cmpi .ne x 0#32).setWidth 32

theorem ind_eq (x : BitVec 32) : ind x = if x ≠ 0#32 then (1 : BitVec 32) else 0 := by
  show (BitVec.ofBool (x != 0#32)).setWidth 32 = _
  rw [KerRed.setWidth_ofBool]
  simp only [bne_iff_ne]

/-- The mask as the kernel computes it from the tokens laid out 32 × 512. -/
def kmask (act32 : IVec S32x512 32) : IVec S32x512 1 :=
  k1_pay7 k1_pay3 (k1_pay4 (F := Ideal) act32) (iota .tc S32x32 32 [0] iota_S32x32_d0_w32)
    (iota .tc S32x32 32 [1] iota_S32x32_d1_w32) 4#32 k1_pay5 k1_pay6 (Scalar.extui (Scalar.cmpi .sgt 4#32 0#32)) 0#32

/-- Each worker's count of non-pad tokens is the sum of the 0/1 words over its 512 entries. -/
theorem cnt_apply (act32 : IVec S32x512 32) (c : Fin 32) :
    k1_pay4 (F := Ideal) act32 (ix1 c) = ∑ p : Fin 512, ind (act32 (ix2 c p)) := by
  show multiReductionI .add [1] S32 (extui 32 (cmpi .ne (shapeCast S32x512 act32 shapeCasts_S32x512_S32x512)
      (broadcast S32x512 0#32)) natLt_1_32) 0#32 reduces_S32x512_S32 rfl (ix1 c) = _
  rw [shapeCast_self]
  exact KerLayout.multiReductionI_add_rows _ reduces_S32x512_S32 rfl c

/-- The mask at (w, p), for any column words T and any per-worker counts C: T at (w, p) is compared, in the signed
    order, with the sum of the counts of the workers in w's row. -/
theorem mask_apply (T : IVec S32x512 32) (C : IVec S32 32) (w : Fin 32) (p : Fin 512) :
    k1_pay7 T C (iota .tc S32x32 32 [0] iota_S32x32_d0_w32) (iota .tc S32x32 32 [1] iota_S32x32_d1_w32) 4#32
        k1_pay5 k1_pay6 (Scalar.extui (Scalar.cmpi .sgt 4#32 0#32)) 0#32 (ix2 w p)
      = IntOp.cmpi .slt (T (ix2 w p)) (∑ c : Fin 32, if w.val / 4 = c.val / 4 then C (ix1 c) else 0) := by
  let G : IVec S32x32 32 := fun i =>
    Scalar.select (IntOp.cmpi .eq (KerWords.div4 (iota .tc S32x32 32 [0] iota_S32x32_d0_w32 i))
        (KerWords.div4 (iota .tc S32x32 32 [1] iota_S32x32_d1_w32 i)))
      (broadcastTo S32x32 (shapeCast S1x32 (shapeCast S1x32 C shapeCasts_S32_S1x32) shapeCasts_S1x32_S1x32)
        broadcasts_S1x32_S32x32 i) 0#32
  show IntOp.cmpi .slt (T (ix2 w p)) (broadcastTo S32x512 (shapeCast S32x1
      (multiReductionI .add [1] S32 G 0#32 reduces_S32x32_S32 rfl) shapeCasts_S32_S32x1) broadcasts_S32x1_S32x512 (ix2 w p)) = _
  rw [KerLayout.broadcastTo_a1_ab_apply, KerLayout.shapeCast_a_a1_apply]
  refine congrArg _ ((KerLayout.multiReductionI_add_rows G reduces_S32x32_S32 rfl w).trans ?_)
  refine Finset.sum_congr rfl fun c _ => ?_
  show Scalar.select (IntOp.cmpi .eq (KerWords.div4 (iota .tc S32x32 32 [0] iota_S32x32_d0_w32 (ix2 w c)))
        (KerWords.div4 (iota .tc S32x32 32 [1] iota_S32x32_d1_w32 (ix2 w c))))
      (broadcastTo S32x32 (shapeCast S1x32 (shapeCast S1x32 C shapeCasts_S32_S1x32) shapeCasts_S1x32_S1x32)
        broadcasts_S1x32_S32x32 (ix2 w c)) 0#32 = _
  rw [iota_single_apply, iota_single_apply, broadcastTo_1b_ab_apply, shapeCast_self, shapeCast_a_1a_apply]
  show Scalar.select (IntOp.cmpi .eq (KerWords.div4 (BitVec.ofNat 32 w.val)) (KerWords.div4 (BitVec.ofNat 32 c.val)))
      (C (ix1 c)) 0#32 = _
  rw [KerWords.sameRow_word, KerLayout.select_ofBool]
  simp only [decide_eq_true_eq]
  rfl

/-- The sum of the counts of the workers in w's row is the length of row w / 4: both add a 1 for each non-pad token
    of the row, the first over the entries of the row's four workers, the second over the row's positions. -/
theorem lenW_eq (act : IVec S8x2048 32) (w : Fin 32) (hw : w.val / 4 < 8) :
    (∑ c : Fin 32, if w.val / 4 = c.val / 4 then
        k1_pay4 (F := Ideal) (shapeCast S32x512 act shapeCasts_S8x2048_S32x512) (ix1 c) else 0)
      = Clean.len act ⟨w.val / 4, hw⟩ := by
  let g : S8x2048.Idx → BitVec 32 := fun i => if w.val / 4 = (i 0).val then ind (act i) else 0
  calc (∑ c : Fin 32, if w.val / 4 = c.val / 4 then
          k1_pay4 (F := Ideal) (shapeCast S32x512 act shapeCasts_S8x2048_S32x512) (ix1 c) else 0)
      = ∑ c : Fin 32, ∑ p : Fin 512, g (Spec.posOf (ix2 c p)) := by
        refine Finset.sum_congr rfl fun c _ => ?_
        rw [cnt_apply]
        by_cases h : w.val / 4 = c.val / 4
        · rw [if_pos h]
          refine Finset.sum_congr rfl fun p _ => ?_
          show _ = if w.val / 4 = c.val / 4 then ind (act (Spec.posOf (ix2 c p))) else 0
          rw [if_pos h, KerIdx.shapeCast_act]
        · rw [if_neg h]
          refine (Finset.sum_eq_zero fun p _ => ?_).symm
          show (if w.val / 4 = c.val / 4 then ind (act (Spec.posOf (ix2 c p))) else 0) = 0
          rw [if_neg h]
    _ = ∑ j : S32x512.Idx, g (Spec.posOf j) := (sum_idx2 fun j => g (Spec.posOf j)).symm
    _ = ∑ i : S8x2048.Idx, g i := KerIdx.sum_posOf g
    _ = ∑ b : Fin 8, ∑ t : Fin 2048, g (ix2 b t) := sum_idx2 g
    _ = ∑ t : Fin 2048, g (ix2 (⟨w.val / 4, hw⟩ : Fin 8) t) := by
        refine Finset.sum_eq_single (⟨w.val / 4, hw⟩ : Fin 8) (fun b _ hb => ?_) (fun h => absurd (Finset.mem_univ _) h)
        refine Finset.sum_eq_zero fun t _ => ?_
        show (if w.val / 4 = b.val then ind (act (ix2 b t)) else 0) = 0
        rw [if_neg fun e => hb (Fin.ext e.symm)]
    _ = ∑ t : Fin 2048, if act (ix2 (⟨w.val / 4, hw⟩ : Fin 8) t) ≠ 0#32 then (1 : BitVec 32) else 0 := by
        refine Finset.sum_congr rfl fun t _ => ?_
        show (if w.val / 4 = w.val / 4 then ind (act (ix2 (⟨w.val / 4, hw⟩ : Fin 8) t)) else 0) = _
        rw [if_pos rfl, ind_eq]
    _ = Clean.len act ⟨w.val / 4, hw⟩ := KerRed.sum_ite_eq_card _

/-- The kernel's mask at (w, p) is 1 exactly when the position that entry stands for is live. -/
theorem kmask_apply (act : IVec S8x2048 32) (w : Fin 32) (p : Fin 512) :
    kmask (shapeCast S32x512 act shapeCasts_S8x2048_S32x512) (ix2 w p)
      = BitVec.ofBool (Clean.live act (Spec.posOf (ix2 w p))) := by
  have hw : w.val / 4 < 8 := by have := w.isLt; omega
  unfold kmask
  rw [mask_apply, KerWords.tcol_apply, lenW_eq act w hw]
  rfl

/-- The same at any entry of the arrangement. -/
theorem kmask_eq (act : IVec S8x2048 32) (j : S32x512.Idx) :
    kmask (shapeCast S32x512 act shapeCasts_S8x2048_S32x512) j = BitVec.ofBool (Clean.live act (Spec.posOf j)) := by
  rw [eq_ix2 j]
  exact kmask_apply act (j 0) (j 1)

end Cert.Proof.KerMask

end
-- ==== Proof.KerSum.lean ====
/-
  The two sums of the reduction kernel: the number of live positions and the total of their values.

  Both are reductions of a 1 × 32 × 512 array over its last two axes into one entry, hence sums over
  every entry; the array is a reshaped 32 × 512 array, hence sums over the entries of the arrangement;
  and the arrangement's entries are the grid's positions, hence sums over the grid. The first adds the
  mask widened to a word, a 1 at every live position: the count. The second adds the gathered value
  where the mask is set and zero elsewhere: the total over the live positions of the probability of
  the token there.
-/
import proofs.«212842_g47828755808845_cont_8to1c4_577_40_alg».proof.Proof.KerMask
import Idealize.ShloMosaic.PureOps.Ideal.Laws

noncomputable section

namespace Cert.Proof.KerSum

open Idealize.ShloMosaic Idealize.ShloMosaic.ValueIdx Cert.KernelIdeal Cert.KernelIdeal.Gen
open scoped BigOperators

/-- The one axis of the one-entry result has size one. -/
theorem S1_size (b : Fin S1.rank) : S1.size b = 1 := by
  match b with
  | ⟨0, _⟩ => rfl

/-- The kernel's count of the mask's ones is the number of live positions. -/
theorem count_eq (act : IVec S8x2048 32) (j : S1.Idx) :
    multiReductionI .add [1, 2] S1
        (shapeCast S1x32x512
          (extui 32 (KerMask.kmask (shapeCast S32x512 act shapeCasts_S8x2048_S32x512)) natLt_1_32)
          shapeCasts_S32x512_S1x32x512)
        0#32 reduces_S1x32x512_S1 rfl j
      = Clean.count act := by
  let X : IVec S32x512 32 := extui 32 (KerMask.kmask (shapeCast S32x512 act shapeCasts_S8x2048_S32x512)) natLt_1_32
  refine (KerRed.multiReductionI_add_total _ reduces_S1x32x512_S1 S1_size rfl j).trans ?_
  show ∑ i : S1x32x512.Idx, X (Shape.reshapeEquiv shapeCasts_S32x512_S1x32x512 i) = _
  refine (Equiv.sum_comp (Shape.reshapeEquiv shapeCasts_S32x512_S1x32x512) X).trans ?_
  let f : S8x2048.Idx → BitVec 32 := fun i => if Clean.live act i = true then (1 : BitVec 32) else 0
  calc ∑ j : S32x512.Idx, X j
      = ∑ j : S32x512.Idx, f (Spec.posOf j) := by
        refine Finset.sum_congr rfl fun j _ => ?_
        show (KerMask.kmask (shapeCast S32x512 act shapeCasts_S8x2048_S32x512) j).setWidth 32 = _
        rw [KerMask.kmask_eq, KerRed.setWidth_ofBool]
    _ = ∑ i : S8x2048.Idx, f i := KerIdx.sum_posOf f
    _ = Clean.count act := KerRed.sum_ite_eq_card fun i => Clean.live act i = true

/-- The kernel's sum of the masked gathered values is the total over the live positions. -/
theorem total_eq (pred : FVec Ideal S8x2048x8192 .f32) (act : IVec S8x2048 32) (j : S1.Idx) :
    multiReduction (F := Ideal) .add [1, 2] S1
        (shapeCast S1x32x512
          (select (KerMask.kmask (shapeCast S32x512 act shapeCasts_S8x2048_S32x512))
            (k1_pay2 (Spec.gathered (F := Ideal) pred act))
            (broadcast S32x512 (Scalar.ofBits (F := Ideal) .f32 0x00000000#32)))
          shapeCasts_S32x512_S1x32x512)
        0x00000000#32 reduces_S1x32x512_S1 (.inl rfl) rfl j
      = Clean.total pred act := by
  let Y : FVec Ideal S32x512 .f32 :=
    select (KerMask.kmask (shapeCast S32x512 act shapeCasts_S8x2048_S32x512))
      (k1_pay2 (Spec.gathered (F := Ideal) pred act))
      (broadcast S32x512 (Scalar.ofBits (F := Ideal) .f32 0x00000000#32))
  refine (Ideal.multiReduction_add_total _ _ reduces_S1x32x512_S1 S1_size (.inl rfl) rfl j).trans ?_
  show ∑ i : S1x32x512.Idx, Y (Shape.reshapeEquiv shapeCasts_S32x512_S1x32x512 i) = _
  refine (Equiv.sum_comp (Shape.reshapeEquiv shapeCasts_S32x512_S1x32x512) Y).trans ?_
  let f : S8x2048.Idx → EReal := fun i => if Clean.live act i = true then (pred (Clean.tokenIdx act i) : EReal) else 0
  calc ∑ j : S32x512.Idx, Y j
      = ∑ j : S32x512.Idx, f (Spec.posOf j) := by
        refine Finset.sum_congr rfl fun j _ => ?_
        show Scalar.select (KerMask.kmask (shapeCast S32x512 act shapeCasts_S8x2048_S32x512) j)
            (shapeCast S32x512 (Spec.gathered (F := Ideal) pred act) shapeCasts_S32x512_S32x512 j)
            (Ideal.ofBits .f32 0x00000000#32) = _
        rw [KerMask.kmask_eq, KerLayout.select_ofBool, shapeCast_self, Ideal.ofBits_zero_f32]
        rfl
    _ = ∑ i : S8x2048.Idx, f i := KerIdx.sum_posOf f
    _ = Clean.total pred act := rfl

end Cert.Proof.KerSum

end
-- ==== Proof.KerValue.lean ====
/-
  The reduction kernel's result is the loss in its plain mathematical form.

  The kernel divides the negated sum of the masked gathered values by the count of the mask's ones,
  converted to a float. The sum is the total over the live positions and the count is their number;
  at the ideal values the subtraction from zero is the negation. Neither the finiteness of the
  probabilities nor the range of the tokens is used: both sides read the same entries (the token
  reduced modulo the number of classes) and add them in the extended reals.
-/
import proofs.«212842_g47828755808845_cont_8to1c4_577_40_alg».proof.Proof.KerSum

noncomputable section

namespace Cert.Proof.KerValue

open Idealize.ShloMosaic Idealize.ShloMosaic.ValueIdx Cert.KernelIdeal Cert.KernelIdeal.Gen

/-- An element taken at a fixed position is the array at that index. -/
theorem extractAt_eq {s : Shape} {α : Type} (pos : Fin s.rank → Nat) (x : s.Idx → α) (h : ∀ a, pos a < s.size a) :
    extractAt pos x h = x (fun a => ⟨pos a, h a⟩) := rfl

/-- A shape cast at an index is the operand at the index of the same row-major position. -/
theorem shapeCast_eq {s t : Shape} {α : Type} (x : s.Idx → α) (h : s.ShapeCasts t) (j : t.Idx) :
    shapeCast t x h j = x (Shape.reshapeEquiv h j) := rfl

/-- The mask widened to words and viewed 1 × 32 × 512, as the kernel passes it to the count. -/
theorem pay8_eq (T : IVec S32x512 32) (C : IVec S32 32) (I0 I1 : IVec S32x32 32) (c4 : BitVec 32)
    (P5 P6 : IVec S32x32 32) (E c0 : BitVec 32) :
    k1_pay8 T C I0 I1 c4 P5 P6 E c0
      = shapeCast S1x32x512 (extui 32 (k1_pay7 T C I0 I1 c4 P5 P6 E c0) natLt_1_32) shapeCasts_S32x512_S1x32x512 := rfl

/-- The kernel's last step: whatever the values, the mask and the widened mask, if the masked values sum to `tot`
    and the widened mask to `cnt`, the result is minus `tot` over `cnt` converted to a float. -/
theorem pay1_eq (v3 : FVec Ideal S32x512 .f32) (v88 : IVec S32x512 1) (v90 : IVec S1x32x512 32) (tot : EReal)
    (cnt : BitVec 32)
    (ht : ∀ j : S1.Idx, multiReduction (F := Ideal) .add [1, 2] S1
        (shapeCast S1x32x512 (select v88 v3 (broadcast S32x512 (Scalar.ofBits (F := Ideal) .f32 0x00000000#32)))
          shapeCasts_S32x512_S1x32x512)
        0x00000000#32 reduces_S1x32x512_S1 (.inl rfl) rfl j = tot)
    (hc : ∀ j : S1.Idx, multiReductionI .add [1, 2] S1 v90 0#32 reduces_S1x32x512_S1 rfl j = cnt) :
    k1_pay1 (F := Ideal) v3 v88 v90
      = Scalar.divf (F := Ideal) (φ := .f32) (-tot : EReal) (Scalar.sitofp (F := Ideal) .f32 cnt) := by
  show Scalar.divf (F := Ideal) (φ := .f32)
      (Scalar.subf (F := Ideal) (φ := .f32) (Scalar.ofBits (F := Ideal) .f32 0x00000000#32)
        (extractAt ![0, 0, 0]
          (shapeCast S1x1x1
            (multiReduction (F := Ideal) .add [1, 2] S1
              (shapeCast S1x32x512 (select v88 v3 (broadcast S32x512 (Scalar.ofBits (F := Ideal) .f32 0x00000000#32)))
                shapeCasts_S32x512_S1x32x512)
              0x00000000#32 reduces_S1x32x512_S1 (.inl rfl) rfl)
            shapeCasts_S1_S1x1x1)
          inpos_S1x1x1_p0_0_0))
      (Scalar.sitofp (F := Ideal) .f32
        (extractAt ![0, 0, 0]
          (shapeCast S1x1x1 (multiReductionI .add [1, 2] S1 v90 0#32 reduces_S1x32x512_S1 rfl) shapeCasts_S1_S1x1x1)
          inpos_S1x1x1_p0_0_0)) = _
  rw [extractAt_eq, extractAt_eq, shapeCast_eq, shapeCast_eq, ht, hc]
  refine congrArg (fun x => Scalar.divf (F := Ideal) (φ := .f32) x (Scalar.sitofp (F := Ideal) .f32 cnt)) ?_
  show Ideal.ofBits .f32 0x00000000#32 - tot = -tot
  rw [Ideal.ofBits_zero_f32, zero_sub]

/-- The kernel's reduction, as mathematics: its one result is minus the total over the live positions of the
    probability of the token there, over the number of live positions. -/
theorem result_eq (pred : FVec Ideal S8x2048x8192 .f32) (act : IVec S8x2048 32) :
    Spec.result (F := Ideal) pred act = fun _ => Clean.loss pred act := by
  funext _
  show k1_pay1 (F := Ideal) (k1_pay2 (Spec.gathered (F := Ideal) pred act))
      (KerMask.kmask (shapeCast S32x512 act shapeCasts_S8x2048_S32x512))
      (k1_pay8 k1_pay3 (k1_pay4 (F := Ideal) (shapeCast S32x512 act shapeCasts_S8x2048_S32x512))
        (iota .tc S32x32 32 [0] iota_S32x32_d0_w32) (iota .tc S32x32 32 [1] iota_S32x32_d1_w32) 4#32
        k1_pay5 k1_pay6 (Scalar.extui (Scalar.cmpi .sgt 4#32 0#32)) 0#32)
    = Scalar.divf (F := Ideal) (φ := .f32) (-(Clean.total pred act) : EReal)
        (Scalar.sitofp (F := Ideal) .f32 (Clean.count act))
  refine pay1_eq _ _ _ _ _ (KerSum.total_eq pred act) fun j => ?_
  rw [pay8_eq]
  exact KerSum.count_eq act j

end Cert.Proof.KerValue

end
-- ==== Proof.Common.lean ====
/-
  The program as the launch theorem sees it, and what the one SparseCore call hands each of its 32 workers.

  Worker w (SparseCore w / 16, vector subcore w % 16) reads 512 tokens of row w / 4 and, for each, one 8 × 128 block of
  the probabilities; it writes row w of the 32 × 512 gathered array. The probabilities and the tokens are only read:
  each worker is handed a read share of each array whole. It hands the tokens' share back; the probabilities' share it
  spends on its block copies (the TensorCore keeps a share of its own, enough to know the array unchanged at the end).
  Row w of the gathered array goes out at the launch contents and comes back at the gathered values.
-/
import proofs.«212842_g47828755808845_cont_8to1c4_577_40_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«212842_g47828755808845_cont_8to1c4_577_40_alg».proof.Proof.Gen.KernelIdeal
import proofs.«212842_g47828755808845_cont_8to1c4_577_40_alg».proof.Proof.Gen.KernelIdeal.Skeleton
import proofs.«212842_g47828755808845_cont_8to1c4_577_40_alg».proof.Proof.Spec

noncomputable section

namespace Cert.KernelIdeal.Common

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the reduction kernel's staging cells' rounds, the transfers' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

/-- The handshakes' rounds library, the left factor; the transfers' counters are found by instance in the right. -/
abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The probabilities and the tokens (the arguments), the gathered array (the call's result), as locations of device `d`. -/
abbrev predLoc (d : Dev nD) : Loc nD τ sig := (SparseCore.T d).loc main_arg0
abbrev actLoc (d : Dev nD) : Loc nD τ sig := (SparseCore.T d).loc main_arg1
abbrev valsLoc (d : Dev nD) : Loc nD τ sig := (SparseCore.T d).loc main_v0

/-- What the proof asks of the launch memory: every token is a class number (at most 8191 as a natural). -/
def PreOK : Prop := ∀ (d : Dev nD) (i : S8x2048.Idx), (m (actLoc d) i).toNat ≤ 8191

/-- The gathered array the call leaves, as a function of the launch memory. -/
abbrev Gv (d : Dev nD) : Buf (Elt F) (valsLoc d) := Spec.gathered (F := F) (m (predLoc d)) (m (actLoc d))

/-- Row w of the gathered array. -/
theorem vdiv : 32 ∣ S32x512.size 0 := ⟨1, rfl⟩
abbrev vrow (w : Fin 32) : Rect S32x512 := Rect.part (s := S32x512) (a₀ := 0) vdiv w
abbrev vRowSet (w : Fin 32) : Finset S32x512.Idx := ((Memref.whole main_v0_scv : Memref sig .scVector .hbm S32x512 .f32).view.slice (vrow w)).set

/-- Worker w's read share of an array held whole: token w of the full share. -/
abbrev tokW (w : Fin 32) : PosShare TreeShare := Transfers.shareTok fullShare 32 w

/-- The worker number of vector subcore i of SparseCore c. -/
def wOf (c : Fin 2) (i : Fin 16) : Fin 32 := ⟨16 * c.val + i.val, by omega⟩

abbrev predTokPts (d : Dev nD) (w : Fin 32) : sProp 𝕄 := predLoc d ↦{tokW w} m (predLoc d)
abbrev actTokPts (d : Dev nD) (w : Fin 32) : sProp 𝕄 := actLoc d ↦{tokW w} m (actLoc d)
abbrev vRowPts (d : Dev nD) (w : Fin 32) (f : Buf (Elt F) (valsLoc d)) : sProp 𝕄 := valsLoc d ↦[vRowSet w]{fullShare} f

/-- What worker w takes, and what it brings back. -/
abbrev goW (d : Dev nD) (w : Fin 32) : sProp 𝕄 := iprop(predTokPts m d w ∗ actTokPts m d w ∗ vRowPts d w (m (valsLoc d)))
abbrev tdW (d : Dev nD) (w : Fin 32) : sProp 𝕄 := iprop(actTokPts m d w ∗ vRowPts d w (Gv m d))

/-- The one call: SparseCore c takes its sixteen workers' pieces and brings back theirs. -/
def P : (K (F := F)).Pay (nD := nD) (Val := Elt F) (Name := ℕ) (U := UU) where
  st := fun q d c => match q with | 0 => bigSep Finset.univ fun i : Fin 16 => goW m d (wOf (Fin.cast nCore_zero c) i)
  dn := fun q d c => match q with | 0 => bigSep Finset.univ fun i : Fin 16 => tdW m d (wOf (Fin.cast nCore_zero c) i)
  go := fun q d c i => match q with | 0 => goW m d (wOf (Fin.cast nCore_zero c) (Fin.cast nSub_zero i))
  td := fun q d c i => match q with | 0 => tdW m d (wOf (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => goW m d (wOf (Fin.cast nCore_zero c) i)))
  dn q d c := match q with
    | 0 => (inferInstance : BI.Storable (upEmb : UEmb _ 𝕄) (bigSep Finset.univ fun i : Fin 16 => tdW m d (wOf (Fin.cast nCore_zero c) i)))
  go q d c i := match q with
    | 0 => (inferInstance : BI.Storable (upEmb : UEmb _ 𝕄) (goW m d (wOf (Fin.cast nCore_zero c) (Fin.cast nSub_zero i))))
  td q d c i := match q with
    | 0 => (inferInstance : BI.Storable (upEmb : UEmb _ 𝕄) (tdW m d (wOf (Fin.cast nCore_zero c) (Fin.cast nSub_zero i))))

end Cert.KernelIdeal.Common

end
-- ==== Proof.TileDefs.lean ====
/-
  One worker's task of the gather kernel: the vocabulary its proof is written in.

  Worker w = 16 · core + subcore holds row w / 4 of the tokens from column (w % 4) · 512 on, 512 of them. In the round
  that starts at position p0 of its chunk, slot j of a block buffer receives the 8 × 128 block of the probabilities at
  rows (w % 4) · 512 + ((p0 + j) / 8) · 8 … + 7 and columns (a / 128) · 128 … + 127, a the token at position p0 + j; the
  entry the token selects is the block's entry ((p0 + j) % 8, a % 128). The output scratch fills 32 positions a round.
-/
import proofs.«212842_g47828755808845_cont_8to1c4_577_40_alg».proof.Proof.Common

noncomputable section

namespace Cert.KernelIdeal.Tile

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "predV" => (Memref.whole Cert.KernelIdeal.main_arg0_scv : Memref Cert.KernelIdeal.sig Kind.scVector Space.hbm Cert.KernelIdeal.S8x2048x8192 EltTy.f32)
local notation "actV" => (Memref.whole Cert.KernelIdeal.main_arg1_scv : Memref Cert.KernelIdeal.sig Kind.scVector Space.hbm Cert.KernelIdeal.S8x2048 EltTy.i32)
local notation "valsV" => (Memref.whole Cert.KernelIdeal.main_v0_scv : Memref Cert.KernelIdeal.sig Kind.scVector Space.hbm Cert.KernelIdeal.S32x512 EltTy.f32)
local notation "aC" => (Memref.whole Cert.KernelIdeal.cc0_scratch0 : Memref Cert.KernelIdeal.sig Kind.scVector Space.vmem Cert.KernelIdeal.S528 EltTy.i32)
local notation "tA" => (Memref.whole Cert.KernelIdeal.cc0_scratch1 : Memref Cert.KernelIdeal.sig Kind.scVector Space.vmem Cert.KernelIdeal.S32x8x128 EltTy.f32)
local notation "tB" => (Memref.whole Cert.KernelIdeal.cc0_scratch2 : Memref Cert.KernelIdeal.sig Kind.scVector Space.vmem Cert.KernelIdeal.S32x8x128 EltTy.f32)
local notation "oB" => (Memref.whole Cert.KernelIdeal.cc0_scratch3 : Memref Cert.KernelIdeal.sig Kind.scVector Space.vmem Cert.KernelIdeal.S512 EltTy.f32)

variable (m : (ℓ : Loc nD τ sig) → Buf (Elt F) ℓ)
variable (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The worker's number, 16 · core + subcore. -/
def wn (L : grid0.Coords) : ℕ := 16 * (L 0).val + (L 1).val
theorem wn_lt (L : grid0.Coords) : wn L < 32 := by
  have h0 : (L 0).val < 2 := (L 0).isLt
  have h1 : (L 1).val < 16 := (L 1).isLt
  unfold wn; omega
def wL (L : grid0.Coords) : Fin 32 := ⟨wn L, wn_lt L⟩

/-- The worker's row of the gathered array, and its 512 tokens, as the body slices them. -/
abbrev vrowK (L : grid0.Coords) : Rect S32x512 := Rect.unit (s := S32x512) (k0_off23 L) S1x512.size (k0_off23_inb L)
abbrev vRowK (L : grid0.Coords) : Memref sig .scVector .hbm S512 .f32 := ((valsV).slice (vrowK L) (fun _ => rfl)).squeeze S512 squeezes_S1x512_S512
abbrev arowK (L : grid0.Coords) : Rect S8x2048 := Rect.unit (s := S8x2048) (k0_off1 L) S1x512.size (k0_off1_inb L)
abbrev aRowK (L : grid0.Coords) : Memref sig .scVector .hbm S512 .i32 := ((actV).slice (arowK L) (fun _ => rfl)).squeeze S512 squeezes_S1x512_S512

/-- The four DMA cells the task names, at zero. -/
abbrev cells0 (d : Dev nD) (L : grid0.Coords) : sProp 𝕄 :=
  iprop(semVal (VT d L, SemLoc.dma cc0_scratch4.sem) 0 ∗ semVal (VT d L, SemLoc.dma cc0_scratch5.sem) 0
    ∗ semVal (VT d L, SemLoc.dma cc0_scoped0.sem) 0 ∗ semVal (VT d L, SemLoc.dma cc0_scoped1.sem) 0)

/-- One block copy's credit. -/
abbrev NB : ℕ := sig.dmaCredit .scVector (Kind.scVector.table .vmem) (cc0_scratch1 : Ref sig .scVector).idx S8x128 .f32
theorem NB_pos : 0 < NB := sig.dmaCredit_pos _ _ _ _ _ (by decide)

/-- Slot t of a block buffer: its 8 × 128 elements, as a set of the buffer's indices. -/
def slotSet (t : Fin 32) : Finset S32x8x128.Idx := Finset.univ.filter fun i => (i 0).val = t.val

/-- The token at position p of the worker's chunk. -/
def tokAt (p : ℕ) : Elt F .i32 :=
  m (actLoc d) (ix2 (⟨wn L / 4, by have := wn_lt L; omega⟩ : Fin 8) (⟨wn L % 4 * 512 + p % 512, by omega⟩ : Fin 2048))

/-- The element of the probabilities that lands at index i of a block buffer in the round starting at position p0. -/
def blkIdx (p0 : ℕ) (i : S32x8x128.Idx) : S8x2048x8192.Idx :=
  ix3 (⟨wn L / 4, by have := wn_lt L; omega⟩ : Fin 8)
    (⟨(wn L % 4 * 512 + (p0 + (i 0).val) / 8 * 8 + (i 1).val) % 2048, Nat.mod_lt _ (by decide)⟩ : Fin 2048)
    (⟨((tokAt m d L (p0 + (i 0).val)).toNat / 128 * 128 + (i 2).val) % 8192, Nat.mod_lt _ (by decide)⟩ : Fin 8192)

/-- What a block buffer holds once the round's 32 copies have landed. -/
def GBlk (p0 : ℕ) : S32x8x128.Idx → Elt F .f32 := fun i => m (predLoc d) (blkIdx m d L p0 i)

/-- The worker's gathered value at position p of its chunk. -/
def gval (p : ℕ) : Elt F .f32 := Gv m d (ix2 (wL L) (⟨p % 512, Nat.mod_lt _ (by decide)⟩ : Fin 512))

/-- The output scratch with its first n positions done. -/
def OutF (o0 : S512.Idx → Elt F .f32) (n : ℕ) : S512.Idx → Elt F .f32 := fun i => if (i 0).val < n then gval m d L (i 0).val else o0 i

variable [FloatOps F]

/-- The task's body run from the pieces the launch dealt it, in the body's spelling: from read shares of the tokens and
    the probabilities, its row of the gathered array, its four scratch buffers and its four cells at zero, to the tokens'
    share back, the row at the gathered values, the scratches at some contents and the cells at zero again. -/
def TileRun (O : CellTallies nD τ sig (HIx 1)) (W : Waits sig (HIx 1)) (qa qp : PosShare TreeShare)
    (a0 : Buf (Elt F) ((aC).view.loc (VT d L))) (ta0 : Buf (Elt F) ((tA).view.loc (VT d L))) (tb0 : Buf (Elt F) ((tB).view.loc (VT d L)))
    (o0 : Buf (Elt F) ((oB).view.loc (VT d L))) : Prop :=
    (iprop(Transfers.MayWaits (VT d L) (default : HIx 1) O
        ∗ ((actV).view.loc (VT d L) ↦{qa} m (actLoc d))
        ∗ ((predV).view.loc (VT d L) ↦{qp} m (predLoc d))
        ∗ ((vRowK L).view.loc (VT d L) ↦[(vRowK L).view.set]{fullShare} m (valsLoc d))
        ∗ ((aC).view.loc (VT d L) ↦[(aC).view.set]{fullShare} a0)
        ∗ ((tA).view.loc (VT d L) ↦[(tA).view.set]{fullShare} ta0)
        ∗ ((tB).view.loc (VT d L) ↦[(tB).view.set]{fullShare} tb0)
        ∗ ((oB).view.loc (VT d L) ↦[(oB).view.set]{fullShare} o0)
        ∗ cells0 d L
        ∗ owes (VT d L) O W) : sProp 𝕄)
      ⊢ wp frame (wpE (defs₀ (F := F)) 𝒱₀ (VT d L) none) Set.univ
          (cc0__sc_gather L predV (Memref.isWhole_whole _) actV (Memref.isWhole_whole _) valsV (Memref.isWhole_whole _)
            aC (Memref.isWhole_whole _) tA (Memref.isWhole_whole _) tB (Memref.isWhole_whole _) oB (Memref.isWhole_whole _)
            cc0_scratch4 cc0_scratch5 cc0_scoped0 cc0_scoped1)
          fun _ => iprop(((actV).view.loc (VT d L) ↦{qa} m (actLoc d))
            ∗ ((vRowK L).view.loc (VT d L) ↦[(vRowK L).view.set]{fullShare} Gv m d)
            ∗ (∃ g, (aC).view.loc (VT d L) ↦[(aC).view.set]{fullShare} g)
            ∗ (∃ g, (tA).view.loc (VT d L) ↦[(tA).view.set]{fullShare} g)
            ∗ (∃ g, (tB).view.loc (VT d L) ↦[(tB).view.set]{fullShare} g)
            ∗ (∃ g, (oB).view.loc (VT d L) ↦[(oB).view.set]{fullShare} g)
            ∗ cells0 d L
            ∗ ∃ W', owes (VT d L) O W')

end Cert.KernelIdeal.Tile

end
-- ==== Proof.TileObl.lean ====
/-
  The launch's obligation for the gather kernel's task, from the task's body run.

  The launch deals each vector subcore its pieces in its own spelling — a read share of the probabilities and of the
  tokens at the worker's share token, row w of the 32 × 512 gathered array at its launch contents, the subcore's scoped
  buffers and its scoped cells at zero — and wants back the tokens' share, the row at the gathered values, the scoped
  storage, and the waits it recorded. The body's run is stated over the same pieces as the body names them: the row as
  the slice the body takes (the same 512 entries: the body's offsets are row 16 · core + subcore), the four scratch
  buffers and the four DMA cells carved out of the subcore's own, the wait evidence from the levels. This module
  respells the pieces one way, wraps the run, and respells the results back; the probabilities' share is spent by the
  run and is not returned.
-/
import proofs.«212842_g47828755808845_cont_8to1c4_577_40_alg».proof.Proof.TileDefs

noncomputable section

namespace Cert.KernelIdeal.Tile

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "predV" => (Memref.whole Cert.KernelIdeal.main_arg0_scv : Memref Cert.KernelIdeal.sig Kind.scVector Space.hbm Cert.KernelIdeal.S8x2048x8192 EltTy.f32)
local notation "actV" => (Memref.whole Cert.KernelIdeal.main_arg1_scv : Memref Cert.KernelIdeal.sig Kind.scVector Space.hbm Cert.KernelIdeal.S8x2048 EltTy.i32)
local notation "valsV" => (Memref.whole Cert.KernelIdeal.main_v0_scv : Memref Cert.KernelIdeal.sig Kind.scVector Space.hbm Cert.KernelIdeal.S32x512 EltTy.f32)
local notation "aC" => (Memref.whole Cert.KernelIdeal.cc0_scratch0 : Memref Cert.KernelIdeal.sig Kind.scVector Space.vmem Cert.KernelIdeal.S528 EltTy.i32)
local notation "tA" => (Memref.whole Cert.KernelIdeal.cc0_scratch1 : Memref Cert.KernelIdeal.sig Kind.scVector Space.vmem Cert.KernelIdeal.S32x8x128 EltTy.f32)
local notation "tB" => (Memref.whole Cert.KernelIdeal.cc0_scratch2 : Memref Cert.KernelIdeal.sig Kind.scVector Space.vmem Cert.KernelIdeal.S32x8x128 EltTy.f32)
local notation "oB" => (Memref.whole Cert.KernelIdeal.cc0_scratch3 : Memref Cert.KernelIdeal.sig Kind.scVector Space.vmem Cert.KernelIdeal.S512 EltTy.f32)

variable (m : (ℓ : Loc nD τ sig) → Buf (Elt F) ℓ)
variable (d : Dev nD) (L : grid0.Coords)

/-! ## The worker's pieces, in the launch's spelling and in the body's -/

/-- The body's rectangle for the worker's row of the gathered array is row wL of the cut into 32 rows. -/
theorem vrowK_eq : vrowK L = vrow (wL L) := by
  unfold vrowK vrow Rect.part Rect.block
  congr 1 <;> funext a
  · rw [k0_off23_eq]
    match a with
    | 0 => simp [Shape.partIx, Shape.partSize, wL, wn]
    | 1 => simp [Shape.partIx, Shape.partSize]
  · match a with
    | 0 => simp [Shape.partSize]
    | 1 => simp [Shape.partSize]

theorem set_vRowK : (vRowK L).view.set = vRowSet (wL L) := by
  show (((valsV).view.slice (vrowK L)).reshape S512 squeezes_S1x512_S512.numel_eq).set = ((valsV).view.slice (vrow (wL L))).set
  rw [View.set_reshape]
  exact vrowK_eq L ▸ rfl

theorem pts_vRowK (f : Buf (Elt F) (valsLoc d)) :
    ((vRowK L).view.loc (VT d L) ↦[(vRowK L).view.set]{fullShare} f : sProp 𝕄) = valsLoc d ↦[vRowSet (wL L)]{fullShare} f := by
  rw [set_vRowK]
theorem pts_predV (q : PosShare TreeShare) (f : Buf (Elt F) (predLoc d)) :
    ((predV).view.loc (VT d L) ↦{q} f : sProp 𝕄) = predLoc d ↦{q} f := rfl
theorem pts_actV (q : PosShare TreeShare) (f : Buf (Elt F) (actLoc d)) :
    ((actV).view.loc (VT d L) ↦{q} f : sProp 𝕄) = actLoc d ↦{q} f := rfl
theorem pts_aC (f : Buf (Elt F) ((VT d L).loc cc0_scratch0)) :
    ((aC).view.loc (VT d L) ↦[(aC).view.set]{fullShare} f : sProp 𝕄) = (VT d L).loc cc0_scratch0 ↦{fullShare} f := by
  rw [View.set_whole]
theorem pts_tA (f : Buf (Elt F) ((VT d L).loc cc0_scratch1)) :
    ((tA).view.loc (VT d L) ↦[(tA).view.set]{fullShare} f : sProp 𝕄) = (VT d L).loc cc0_scratch1 ↦{fullShare} f := by
  rw [View.set_whole]
theorem pts_tB (f : Buf (Elt F) ((VT d L).loc cc0_scratch2)) :
    ((tB).view.loc (VT d L) ↦[(tB).view.set]{fullShare} f : sProp 𝕄) = (VT d L).loc cc0_scratch2 ↦{fullShare} f := by
  rw [View.set_whole]
theorem pts_oB (f : Buf (Elt F) ((VT d L).loc cc0_scratch3)) :
    ((oB).view.loc (VT d L) ↦[(oB).view.set]{fullShare} f : sProp 𝕄) = (VT d L).loc cc0_scratch3 ↦{fullShare} f := by
  rw [View.set_whole]

/-- The four DMA cells the task names, as a family: cell k of the subcore's pool, k < 4. -/
abbrev csem (k : Nat) (hk : k < 7 := by decide) : DmaSem sig := ⟨k, hk⟩
abbrev dcell (d : Dev nD) (c : Fin τ.nSC) (i : Fin τ.nSub) (k : Fin 4) : GSem nD τ sig :=
  (V d c i, .dma (csem k.val (by have := k.isLt; omega)))

theorem dcell_mem (c : Fin τ.nSC) (i : Fin τ.nSub) (k : Fin 4) : dcell d c i k ∈ ownCells (V d c i) :=
  mem_ownCells.mpr ⟨rfl, (show ∀ s : DmaSem sig, (SemLoc.dma s : SemLoc sig).isScoped .scVector = true by decide) _⟩

/-- The subcore's own cells at zero: the four the task names, one by one, and the rest. -/
theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 4)) = {0, 1, 2, 3} by decide,
    SparseCore.bigSep_insert' (by decide), SparseCore.bigSep_insert' (by decide), SparseCore.bigSep_insert' (by decide),
    bigSep_singleton]
  rfl

/-- The four scratch buffers are among the subcore's own: they are them, at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  have own0 := SparseCore.Cfg.mem_ownRefs_of_owner (τ := τ) (p := Proc.scVector (cV L) (jV L)) (b := (Proc.scVector (cV L) (jV L)).devRef cc0_scratch0) rfl
  have own1 := SparseCore.Cfg.mem_ownRefs_of_owner (τ := τ) (p := Proc.scVector (cV L) (jV L)) (b := (Proc.scVector (cV L) (jV L)).devRef cc0_scratch1) rfl
  have own2 := SparseCore.Cfg.mem_ownRefs_of_owner (τ := τ) (p := Proc.scVector (cV L) (jV L)) (b := (Proc.scVector (cV L) (jV L)).devRef cc0_scratch2) rfl
  have own3 := SparseCore.Cfg.mem_ownRefs_of_owner (τ := τ) (p := Proc.scVector (cV L) (jV L)) (b := (Proc.scVector (cV L) (jV L)).devRef cc0_scratch3) rfl
  have ne : ∀ r r' : Ref sig .scVector, r ≠ r' →
      (Proc.scVector (cV L) (jV L)).devRef r ≠ (Proc.scVector (cV L) (jV L)).devRef (τ := τ) r' :=
    fun r r' h e => h (Proc.devRef_injective _ e)
  refine (SparseCore.bigSep_erase' (own0)).trans ?_
  rw [SparseCore.bigSep_erase' (Finset.mem_erase.mpr ⟨ne cc0_scratch1 cc0_scratch0 (by decide), own1⟩),
    SparseCore.bigSep_erase' (Finset.mem_erase.mpr ⟨ne cc0_scratch2 cc0_scratch1 (by decide),
      Finset.mem_erase.mpr ⟨ne cc0_scratch2 cc0_scratch0 (by decide), own2⟩⟩),
    SparseCore.bigSep_erase' (Finset.mem_erase.mpr ⟨ne cc0_scratch3 cc0_scratch2 (by decide),
      Finset.mem_erase.mpr ⟨ne cc0_scratch3 cc0_scratch1 (by decide),
        Finset.mem_erase.mpr ⟨ne cc0_scratch3 cc0_scratch0 (by decide), own3⟩⟩⟩)]

variable [FloatOps F]

/-- The task on vector subcore (L 0, L 1) of device d, from what the launch deals it (read shares of the probabilities
    and the tokens, its row of the gathered array, its scoped buffers and cells) to what it hands back: the pieces
    respelt as the body names them, around the body's run. -/
theorem tile_body (hF : (K (F := F)).Facts)
    (hrun : ∀ (O : CellTallies nD τ sig (HIx 1)) (W : Waits sig (HIx 1)) (qa qp : PosShare TreeShare) a0 ta0 tb0 o0,
      TileRun m d L O W qa qp a0 ta0 tb0 o0)
    (O : CellTallies nD τ sig (HIx 1)) (W : Waits sig (HIx 1)) (hO : ∀ g, O g none = 0) (w : Fin 32) (hw : wL L = w) :
    iprop(levAts (K (F := F)).L (K (F := F)).lev ∗ emp
        ∗ goW m d w
        ∗ scopedBufs (VT d L) ∗ scopedSems0 (VT d L) ∗ owes (VT d L) O W)
      ⊢ wp frame (wpE (defs₀ (F := F)) 𝒱₀ (VT d L) none) Set.univ
          (cc0__sc_gather L predV (Memref.isWhole_whole _) actV (Memref.isWhole_whole _) valsV (Memref.isWhole_whole _)
            aC (Memref.isWhole_whole _) tA (Memref.isWhole_whole _) tB (Memref.isWhole_whole _) oB (Memref.isWhole_whole _)
            cc0_scratch4 cc0_scratch5 cc0_scoped0 cc0_scoped1)
          fun _ => iprop(tdW m d w
            ∗ scopedBufs (VT d L) ∗ scopedSems0 (VT d L)
            ∗ ∃ W', ⌜∀ p ∈ W', p ∈ W ∨ p.2 = none ∨ p.2 = some (0 : Fin 1)⌝ ∗ owes (VT d L) O W') := by
  subst hw
  rw [(K (F := F)).scopedBufs_V hF d (cV L) (jV L), SparseCore.Cfg.scopedSems0_V (Val := Elt F) d (cV L) (jV L), ownSems0_V, ownBufs_V]
  iintro ⟨#Hlv, -, ⟨Hp, Ha, Hv⟩, ⟨⟨%a0, HA⟩, ⟨%ta0, HTA⟩, ⟨%tb0, HTB⟩, ⟨%o0, HOB⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave Hv' := (Entails.of_eq (pts_vRowK (F := F) d L _).symm) $$ Hv
  ihave HA' := (Entails.of_eq (pts_aC (F := F) d L _).symm) $$ HA
  ihave HTA' := (Entails.of_eq (pts_tA (F := F) d L _).symm) $$ HTA
  ihave HTB' := (Entails.of_eq (pts_tB (F := F) d L _).symm) $$ HTB
  ihave HOB' := (Entails.of_eq (pts_oB (F := F) d L _).symm) $$ HOB
  have hr := hrun O W (tokW (wL L)) (tokW (wL L)) a0 ta0 tb0 o0
  unfold TileRun at hr
  iapply (wp_wand_r Idealize.ShloMosaic.frame (wpE (defs₀ (F := F)) 𝒱₀ (VT d L) none) Set.univ)
  isplitl [Hp Ha Hv' HA' HTA' HTB' HOB' HC HO]
  · iapply hr
    isplitr; · iexact Hmw
    isplitl [Ha]; · iexact Ha
    isplitl [Hp]; · iexact Hp
    isplitl [Hv']; · iexact Hv'
    isplitl [HA']; · iexact HA'
    isplitl [HTA']; · iexact HTA'
    isplitl [HTB']; · iexact HTB'
    isplitl [HOB']; · iexact HOB'
    isplitl [HC]; · iexact HC
    iexact HO
  iintro %_ ⟨Ha, Hv', ⟨%g1, HA'⟩, ⟨%g2, HTA'⟩, ⟨%g3, HTB'⟩, ⟨%g4, HOB'⟩, HC, ⟨%W', HO⟩⟩
  isplitl [Ha Hv']
  · isplitl [Ha]; · iexact Ha
    iapply (Entails.of_eq (pts_vRowK (F := F) d L _)); iexact Hv'
  isplitl [HA' HTA' HTB' HOB' Hbufs]
  · isplitl [HA']; · iexists _; iapply (Entails.of_eq (pts_aC (F := F) d L _)); iexact HA'
    isplitl [HTA']; · iexists _; iapply (Entails.of_eq (pts_tA (F := F) d L _)); iexact HTA'
    isplitl [HTB']; · iexists _; iapply (Entails.of_eq (pts_tB (F := F) d L _)); iexact HTB'
    isplitl [HOB']; · iexists _; iapply (Entails.of_eq (pts_oB (F := F) d L _)); iexact HOB'
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          predV (Memref.isWhole_whole _) actV (Memref.isWhole_whole _) valsV (Memref.isWhole_whole _)
          aC (Memref.isWhole_whole _) tA (Memref.isWhole_whole _) tB (Memref.isWhole_whole _) oB (Memref.isWhole_whole _)
          cc0_scratch4 cc0_scratch5 cc0_scoped0 cc0_scoped1) ⟨⟩ c s := rfl

/-- THE LAUNCH'S OBLIGATION FOR THE GATHER KERNEL'S TASK, from the body's run. -/
theorem tileObl (hpre : PreOK m)
    (hrun : ∀ (d : Dev nD) (L : grid0.Coords) (O : CellTallies nD τ sig (HIx 1)) (W : Waits sig (HIx 1))
      (qa qp : PosShare TreeShare) a0 ta0 tb0 o0, TileRun m d L O W qa qp a0 ta0 tb0 o0) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) facts (hrun d _) O W hO _ (Fin.ext rfl)

end Cert.KernelIdeal.Tile

end
-- ==== Proof.KSpec.lean ====
/-
  What the kernel computes, as pure functions of its two argument arrays.

  The 16384 positions (b, t) of the 8 × 2048 token grid are dealt to 32 workers of 512 consecutive
  positions each: worker w holds row b = w / 4 and columns t = (w % 4)·512 + p, p < 512. The gathered
  array has, at (w, p), the entry of the probabilities at (b, t, a) with a the token at (b, t). The loss
  is the body of the reduction kernel read as one term of the gathered array and of the tokens laid
  out the same way.
-/
import proofs.«212842_g47828755808845_cont_8to1c4_577_40_alg».proof.Proof.Gen.Kernel.Skeleton
import Idealize.ShloMosaic.Lib.ValueIdx

noncomputable section

namespace Cert.Kernel.Spec

open Idealize.ShloMosaic Idealize.ShloMosaic.ValueIdx Cert.Kernel Cert.Kernel.Gen

variable {F : FTy → Type} [FloatOps F]

/-- The token position (b, t) that entry (w, p) of the 32 × 512 arrangement stands for. -/
def posOf (j : S32x512.Idx) : S8x2048.Idx :=
  have h0 : (j 0).val < 32 := (j 0).isLt
  have h1 : (j 1).val < 512 := (j 1).isLt
  ix2 (⟨(j 0).val / 4, by omega⟩ : Fin 8) (⟨(j 0).val % 4 * 512 + (j 1).val, by omega⟩ : Fin 2048)

/-- The entry of the probabilities that position (w, p) selects: row and column of `posOf`, class the token there
    (reduced modulo the number of classes, so that the term is total; in range it is the token itself). -/
def pick (act : Vec F S8x2048 .i32) (j : S32x512.Idx) : S8x2048x8192.Idx :=
  ix3 (posOf j 0) (posOf j 1) (⟨(act (posOf j)).toNat % 8192, Nat.mod_lt _ (by decide)⟩ : Fin 8192)

/-- The gathered array: at (w, p) the probability of the token at that position. -/
def gathered (pred : Vec F S8x2048x8192 .f32) (act : Vec F S8x2048 .i32) : Vec F S32x512 .f32 :=
  fun j => pred (pick act j)

variable [Facts]

/-- The reduction kernel's result as one term of the gathered values and the tokens, both 32 × 512: the negated sum of the
    values at the positions before each row's count of non-pad tokens, over the number of such positions. -/
def lossOf (vals : Vec F S32x512 .f32) (act32 : Vec F S32x512 .i32) : F .f32 :=
  k1_pay1 (k1_pay2 vals)
    (k1_pay7 k1_pay3 (k1_pay4 act32) (iota .tc S32x32 32 [0] iota_S32x32_d0_w32) (iota .tc S32x32 32 [1] iota_S32x32_d1_w32) 4#32
      k1_pay5 k1_pay6 (Scalar.extui (Scalar.cmpi .sgt 4#32 0#32)) 0#32)
    (k1_pay8 k1_pay3 (k1_pay4 act32) (iota .tc S32x32 32 [0] iota_S32x32_d0_w32) (iota .tc S32x32 32 [1] iota_S32x32_d1_w32) 4#32
      k1_pay5 k1_pay6 (Scalar.extui (Scalar.cmpi .sgt 4#32 0#32)) 0#32)

/-- The whole program's result: the loss of the gathered array and the tokens reshaped to 32 × 512. -/
def result (pred : Vec F S8x2048x8192 .f32) (act : Vec F S8x2048 .i32) : Vec F S_ .f32 :=
  fun _ => lossOf (gathered pred act) (shapeCast S32x512 act shapeCasts_S8x2048_S32x512)

end Cert.Kernel.Spec

end
-- ==== Proof.KCommon.lean ====
/-
  The program as the launch theorem sees it, and what the one SparseCore call hands each of its 32 workers.

  Worker w (SparseCore w / 16, vector subcore w % 16) reads 512 tokens of row w / 4 and, for each, one 8 × 128 block of
  the probabilities; it writes row w of the 32 × 512 gathered array. The probabilities and the tokens are only read:
  each worker is handed a read share of each array whole. It hands the tokens' share back; the probabilities' share it
  spends on its block copies (the TensorCore keeps a share of its own, enough to know the array unchanged at the end).
  Row w of the gathered array goes out at the launch contents and comes back at the gathered values.
-/
import proofs.«212842_g47828755808845_cont_8to1c4_577_40_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«212842_g47828755808845_cont_8to1c4_577_40_alg».proof.Proof.Gen.Kernel
import proofs.«212842_g47828755808845_cont_8to1c4_577_40_alg».proof.Proof.Gen.Kernel.Skeleton
import proofs.«212842_g47828755808845_cont_8to1c4_577_40_alg».proof.Proof.KSpec

noncomputable section

namespace Cert.Kernel.Common

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the reduction kernel's staging cells' rounds, the transfers' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

/-- The handshakes' rounds library, the left factor; the transfers' counters are found by instance in the right. -/
abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The probabilities and the tokens (the arguments), the gathered array (the call's result), as locations of device `d`. -/
abbrev predLoc (d : Dev nD) : Loc nD τ sig := (SparseCore.T d).loc main_arg0
abbrev actLoc (d : Dev nD) : Loc nD τ sig := (SparseCore.T d).loc main_arg1
abbrev valsLoc (d : Dev nD) : Loc nD τ sig := (SparseCore.T d).loc main_v0

/-- What the proof asks of the launch memory: every token is a class number (at most 8191 as a natural). -/
def PreOK : Prop := ∀ (d : Dev nD) (i : S8x2048.Idx), (m (actLoc d) i).toNat ≤ 8191

/-- The gathered array the call leaves, as a function of the launch memory. -/
abbrev Gv (d : Dev nD) : Buf (Elt F) (valsLoc d) := Spec.gathered (F := F) (m (predLoc d)) (m (actLoc d))

/-- Row w of the gathered array. -/
theorem vdiv : 32 ∣ S32x512.size 0 := ⟨1, rfl⟩
abbrev vrow (w : Fin 32) : Rect S32x512 := Rect.part (s := S32x512) (a₀ := 0) vdiv w
abbrev vRowSet (w : Fin 32) : Finset S32x512.Idx := ((Memref.whole main_v0_scv : Memref sig .scVector .hbm S32x512 .f32).view.slice (vrow w)).set

/-- Worker w's read share of an array held whole: token w of the full share. -/
abbrev tokW (w : Fin 32) : PosShare TreeShare := Transfers.shareTok fullShare 32 w

/-- The worker number of vector subcore i of SparseCore c. -/
def wOf (c : Fin 2) (i : Fin 16) : Fin 32 := ⟨16 * c.val + i.val, by omega⟩

abbrev predTokPts (d : Dev nD) (w : Fin 32) : sProp 𝕄 := predLoc d ↦{tokW w} m (predLoc d)
abbrev actTokPts (d : Dev nD) (w : Fin 32) : sProp 𝕄 := actLoc d ↦{tokW w} m (actLoc d)
abbrev vRowPts (d : Dev nD) (w : Fin 32) (f : Buf (Elt F) (valsLoc d)) : sProp 𝕄 := valsLoc d ↦[vRowSet w]{fullShare} f

/-- What worker w takes, and what it brings back. -/
abbrev goW (d : Dev nD) (w : Fin 32) : sProp 𝕄 := iprop(predTokPts m d w ∗ actTokPts m d w ∗ vRowPts d w (m (valsLoc d)))
abbrev tdW (d : Dev nD) (w : Fin 32) : sProp 𝕄 := iprop(actTokPts m d w ∗ vRowPts d w (Gv m d))

/-- The one call: SparseCore c takes its sixteen workers' pieces and brings back theirs. -/
def P : (K (F := F)).Pay (nD := nD) (Val := Elt F) (Name := ℕ) (U := UU) where
  st := fun q d c => match q with | 0 => bigSep Finset.univ fun i : Fin 16 => goW m d (wOf (Fin.cast nCore_zero c) i)
  dn := fun q d c => match q with | 0 => bigSep Finset.univ fun i : Fin 16 => tdW m d (wOf (Fin.cast nCore_zero c) i)
  go := fun q d c i => match q with | 0 => goW m d (wOf (Fin.cast nCore_zero c) (Fin.cast nSub_zero i))
  td := fun q d c i => match q with | 0 => tdW m d (wOf (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => goW m d (wOf (Fin.cast nCore_zero c) i)))
  dn q d c := match q with
    | 0 => (inferInstance : BI.Storable (upEmb : UEmb _ 𝕄) (bigSep Finset.univ fun i : Fin 16 => tdW m d (wOf (Fin.cast nCore_zero c) i)))
  go q d c i := match q with
    | 0 => (inferInstance : BI.Storable (upEmb : UEmb _ 𝕄) (goW m d (wOf (Fin.cast nCore_zero c) (Fin.cast nSub_zero i))))
  td q d c i := match q with
    | 0 => (inferInstance : BI.Storable (upEmb : UEmb _ 𝕄) (tdW m d (wOf (Fin.cast nCore_zero c) (Fin.cast nSub_zero i))))

end Cert.Kernel.Common

end
-- ==== Proof.KTileDefs.lean ====
/-
  One worker's task of the gather kernel: the vocabulary its proof is written in.

  Worker w = 16 · core + subcore holds row w / 4 of the tokens from column (w % 4) · 512 on, 512 of them. In the round
  that starts at position p0 of its chunk, slot j of a block buffer receives the 8 × 128 block of the probabilities at
  rows (w % 4) · 512 + ((p0 + j) / 8) · 8 … + 7 and columns (a / 128) · 128 … + 127, a the token at position p0 + j; the
  entry the token selects is the block's entry ((p0 + j) % 8, a % 128). The output scratch fills 32 positions a round.
-/
import proofs.«212842_g47828755808845_cont_8to1c4_577_40_alg».proof.Proof.KCommon

noncomputable section

namespace Cert.Kernel.Tile

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "predV" => (Memref.whole Cert.Kernel.main_arg0_scv : Memref Cert.Kernel.sig Kind.scVector Space.hbm Cert.Kernel.S8x2048x8192 EltTy.f32)
local notation "actV" => (Memref.whole Cert.Kernel.main_arg1_scv : Memref Cert.Kernel.sig Kind.scVector Space.hbm Cert.Kernel.S8x2048 EltTy.i32)
local notation "valsV" => (Memref.whole Cert.Kernel.main_v0_scv : Memref Cert.Kernel.sig Kind.scVector Space.hbm Cert.Kernel.S32x512 EltTy.f32)
local notation "aC" => (Memref.whole Cert.Kernel.cc0_scratch0 : Memref Cert.Kernel.sig Kind.scVector Space.vmem Cert.Kernel.S528 EltTy.i32)
local notation "tA" => (Memref.whole Cert.Kernel.cc0_scratch1 : Memref Cert.Kernel.sig Kind.scVector Space.vmem Cert.Kernel.S32x8x128 EltTy.f32)
local notation "tB" => (Memref.whole Cert.Kernel.cc0_scratch2 : Memref Cert.Kernel.sig Kind.scVector Space.vmem Cert.Kernel.S32x8x128 EltTy.f32)
local notation "oB" => (Memref.whole Cert.Kernel.cc0_scratch3 : Memref Cert.Kernel.sig Kind.scVector Space.vmem Cert.Kernel.S512 EltTy.f32)

variable (m : (ℓ : Loc nD τ sig) → Buf (Elt F) ℓ)
variable (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The worker's number, 16 · core + subcore. -/
def wn (L : grid0.Coords) : ℕ := 16 * (L 0).val + (L 1).val
theorem wn_lt (L : grid0.Coords) : wn L < 32 := by
  have h0 : (L 0).val < 2 := (L 0).isLt
  have h1 : (L 1).val < 16 := (L 1).isLt
  unfold wn; omega
def wL (L : grid0.Coords) : Fin 32 := ⟨wn L, wn_lt L⟩

/-- The worker's row of the gathered array, and its 512 tokens, as the body slices them. -/
abbrev vrowK (L : grid0.Coords) : Rect S32x512 := Rect.unit (s := S32x512) (k0_off23 L) S1x512.size (k0_off23_inb L)
abbrev vRowK (L : grid0.Coords) : Memref sig .scVector .hbm S512 .f32 := ((valsV).slice (vrowK L) (fun _ => rfl)).squeeze S512 squeezes_S1x512_S512
abbrev arowK (L : grid0.Coords) : Rect S8x2048 := Rect.unit (s := S8x2048) (k0_off1 L) S1x512.size (k0_off1_inb L)
abbrev aRowK (L : grid0.Coords) : Memref sig .scVector .hbm S512 .i32 := ((actV).slice (arowK L) (fun _ => rfl)).squeeze S512 squeezes_S1x512_S512

/-- The four DMA cells the task names, at zero. -/
abbrev cells0 (d : Dev nD) (L : grid0.Coords) : sProp 𝕄 :=
  iprop(semVal (VT d L, SemLoc.dma cc0_scratch4.sem) 0 ∗ semVal (VT d L, SemLoc.dma cc0_scratch5.sem) 0
    ∗ semVal (VT d L, SemLoc.dma cc0_scoped0.sem) 0 ∗ semVal (VT d L, SemLoc.dma cc0_scoped1.sem) 0)

/-- One block copy's credit. -/
abbrev NB : ℕ := sig.dmaCredit .scVector (Kind.scVector.table .vmem) (cc0_scratch1 : Ref sig .scVector).idx S8x128 .f32
theorem NB_pos : 0 < NB := sig.dmaCredit_pos _ _ _ _ _ (by decide)

/-- Slot t of a block buffer: its 8 × 128 elements, as a set of the buffer's indices. -/
def slotSet (t : Fin 32) : Finset S32x8x128.Idx := Finset.univ.filter fun i => (i 0).val = t.val

/-- The token at position p of the worker's chunk. -/
def tokAt (p : ℕ) : Elt F .i32 :=
  m (actLoc d) (ix2 (⟨wn L / 4, by have := wn_lt L; omega⟩ : Fin 8) (⟨wn L % 4 * 512 + p % 512, by omega⟩ : Fin 2048))

/-- The element of the probabilities that lands at index i of a block buffer in the round starting at position p0. -/
def blkIdx (p0 : ℕ) (i : S32x8x128.Idx) : S8x2048x8192.Idx :=
  ix3 (⟨wn L / 4, by have := wn_lt L; omega⟩ : Fin 8)
    (⟨(wn L % 4 * 512 + (p0 + (i 0).val) / 8 * 8 + (i 1).val) % 2048, Nat.mod_lt _ (by decide)⟩ : Fin 2048)
    (⟨((tokAt m d L (p0 + (i 0).val)).toNat / 128 * 128 + (i 2).val) % 8192, Nat.mod_lt _ (by decide)⟩ : Fin 8192)

/-- What a block buffer holds once the round's 32 copies have landed. -/
def GBlk (p0 : ℕ) : S32x8x128.Idx → Elt F .f32 := fun i => m (predLoc d) (blkIdx m d L p0 i)

/-- The worker's gathered value at position p of its chunk. -/
def gval (p : ℕ) : Elt F .f32 := Gv m d (ix2 (wL L) (⟨p % 512, Nat.mod_lt _ (by decide)⟩ : Fin 512))

/-- The output scratch with its first n positions done. -/
def OutF (o0 : S512.Idx → Elt F .f32) (n : ℕ) : S512.Idx → Elt F .f32 := fun i => if (i 0).val < n then gval m d L (i 0).val else o0 i

variable [FloatOps F]

/-- The task's body run from the pieces the launch dealt it, in the body's spelling: from read shares of the tokens and
    the probabilities, its row of the gathered array, its four scratch buffers and its four cells at zero, to the tokens'
    share back, the row at the gathered values, the scratches at some contents and the cells at zero again. -/
def TileRun (O : CellTallies nD τ sig (HIx 1)) (W : Waits sig (HIx 1)) (qa qp : PosShare TreeShare)
    (a0 : Buf (Elt F) ((aC).view.loc (VT d L))) (ta0 : Buf (Elt F) ((tA).view.loc (VT d L))) (tb0 : Buf (Elt F) ((tB).view.loc (VT d L)))
    (o0 : Buf (Elt F) ((oB).view.loc (VT d L))) : Prop :=
    (iprop(Transfers.MayWaits (VT d L) (default : HIx 1) O
        ∗ ((actV).view.loc (VT d L) ↦{qa} m (actLoc d))
        ∗ ((predV).view.loc (VT d L) ↦{qp} m (predLoc d))
        ∗ ((vRowK L).view.loc (VT d L) ↦[(vRowK L).view.set]{fullShare} m (valsLoc d))
        ∗ ((aC).view.loc (VT d L) ↦[(aC).view.set]{fullShare} a0)
        ∗ ((tA).view.loc (VT d L) ↦[(tA).view.set]{fullShare} ta0)
        ∗ ((tB).view.loc (VT d L) ↦[(tB).view.set]{fullShare} tb0)
        ∗ ((oB).view.loc (VT d L) ↦[(oB).view.set]{fullShare} o0)
        ∗ cells0 d L
        ∗ owes (VT d L) O W) : sProp 𝕄)
      ⊢ wp frame (wpE (defs₀ (F := F)) 𝒱₀ (VT d L) none) Set.univ
          (cc0__sc_gather L predV (Memref.isWhole_whole _) actV (Memref.isWhole_whole _) valsV (Memref.isWhole_whole _)
            aC (Memref.isWhole_whole _) tA (Memref.isWhole_whole _) tB (Memref.isWhole_whole _) oB (Memref.isWhole_whole _)
            cc0_scratch4 cc0_scratch5 cc0_scoped0 cc0_scoped1)
          fun _ => iprop(((actV).view.loc (VT d L) ↦{qa} m (actLoc d))
            ∗ ((vRowK L).view.loc (VT d L) ↦[(vRowK L).view.set]{fullShare} Gv m d)
            ∗ (∃ g, (aC).view.loc (VT d L) ↦[(aC).view.set]{fullShare} g)
            ∗ (∃ g, (tA).view.loc (VT d L) ↦[(tA).view.set]{fullShare} g)
            ∗ (∃ g, (tB).view.loc (VT d L) ↦[(tB).view.set]{fullShare} g)
            ∗ (∃ g, (oB).view.loc (VT d L) ↦[(oB).view.set]{fullShare} g)
            ∗ cells0 d L
            ∗ ∃ W', owes (VT d L) O W')

end Cert.Kernel.Tile

end
-- ==== Proof.KTileObl.lean ====
/-
  The launch's obligation for the gather kernel's task, from the task's body run.

  The launch deals each vector subcore its pieces in its own spelling — a read share of the probabilities and of the
  tokens at the worker's share token, row w of the 32 × 512 gathered array at its launch contents, the subcore's scoped
  buffers and its scoped cells at zero — and wants back the tokens' share, the row at the gathered values, the scoped
  storage, and the waits it recorded. The body's run is stated over the same pieces as the body names them: the row as
  the slice the body takes (the same 512 entries: the body's offsets are row 16 · core + subcore), the four scratch
  buffers and the four DMA cells carved out of the subcore's own, the wait evidence from the levels. This module
  respells the pieces one way, wraps the run, and respells the results back; the probabilities' share is spent by the
  run and is not returned.
-/
import proofs.«212842_g47828755808845_cont_8to1c4_577_40_alg».proof.Proof.KTileDefs

noncomputable section

namespace Cert.Kernel.Tile

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "predV" => (Memref.whole Cert.Kernel.main_arg0_scv : Memref Cert.Kernel.sig Kind.scVector Space.hbm Cert.Kernel.S8x2048x8192 EltTy.f32)
local notation "actV" => (Memref.whole Cert.Kernel.main_arg1_scv : Memref Cert.Kernel.sig Kind.scVector Space.hbm Cert.Kernel.S8x2048 EltTy.i32)
local notation "valsV" => (Memref.whole Cert.Kernel.main_v0_scv : Memref Cert.Kernel.sig Kind.scVector Space.hbm Cert.Kernel.S32x512 EltTy.f32)
local notation "aC" => (Memref.whole Cert.Kernel.cc0_scratch0 : Memref Cert.Kernel.sig Kind.scVector Space.vmem Cert.Kernel.S528 EltTy.i32)
local notation "tA" => (Memref.whole Cert.Kernel.cc0_scratch1 : Memref Cert.Kernel.sig Kind.scVector Space.vmem Cert.Kernel.S32x8x128 EltTy.f32)
local notation "tB" => (Memref.whole Cert.Kernel.cc0_scratch2 : Memref Cert.Kernel.sig Kind.scVector Space.vmem Cert.Kernel.S32x8x128 EltTy.f32)
local notation "oB" => (Memref.whole Cert.Kernel.cc0_scratch3 : Memref Cert.Kernel.sig Kind.scVector Space.vmem Cert.Kernel.S512 EltTy.f32)

variable (m : (ℓ : Loc nD τ sig) → Buf (Elt F) ℓ)
variable (d : Dev nD) (L : grid0.Coords)

/-! ## The worker's pieces, in the launch's spelling and in the body's -/

/-- The body's rectangle for the worker's row of the gathered array is row wL of the cut into 32 rows. -/
theorem vrowK_eq : vrowK L = vrow (wL L) := by
  unfold vrowK vrow Rect.part Rect.block
  congr 1 <;> funext a
  · rw [k0_off23_eq]
    match a with
    | 0 => simp [Shape.partIx, Shape.partSize, wL, wn]
    | 1 => simp [Shape.partIx, Shape.partSize]
  · match a with
    | 0 => simp [Shape.partSize]
    | 1 => simp [Shape.partSize]

theorem set_vRowK : (vRowK L).view.set = vRowSet (wL L) := by
  show (((valsV).view.slice (vrowK L)).reshape S512 squeezes_S1x512_S512.numel_eq).set = ((valsV).view.slice (vrow (wL L))).set
  rw [View.set_reshape]
  exact vrowK_eq L ▸ rfl

theorem pts_vRowK (f : Buf (Elt F) (valsLoc d)) :
    ((vRowK L).view.loc (VT d L) ↦[(vRowK L).view.set]{fullShare} f : sProp 𝕄) = valsLoc d ↦[vRowSet (wL L)]{fullShare} f := by
  rw [set_vRowK]
theorem pts_predV (q : PosShare TreeShare) (f : Buf (Elt F) (predLoc d)) :
    ((predV).view.loc (VT d L) ↦{q} f : sProp 𝕄) = predLoc d ↦{q} f := rfl
theorem pts_actV (q : PosShare TreeShare) (f : Buf (Elt F) (actLoc d)) :
    ((actV).view.loc (VT d L) ↦{q} f : sProp 𝕄) = actLoc d ↦{q} f := rfl
theorem pts_aC (f : Buf (Elt F) ((VT d L).loc cc0_scratch0)) :
    ((aC).view.loc (VT d L) ↦[(aC).view.set]{fullShare} f : sProp 𝕄) = (VT d L).loc cc0_scratch0 ↦{fullShare} f := by
  rw [View.set_whole]
theorem pts_tA (f : Buf (Elt F) ((VT d L).loc cc0_scratch1)) :
    ((tA).view.loc (VT d L) ↦[(tA).view.set]{fullShare} f : sProp 𝕄) = (VT d L).loc cc0_scratch1 ↦{fullShare} f := by
  rw [View.set_whole]
theorem pts_tB (f : Buf (Elt F) ((VT d L).loc cc0_scratch2)) :
    ((tB).view.loc (VT d L) ↦[(tB).view.set]{fullShare} f : sProp 𝕄) = (VT d L).loc cc0_scratch2 ↦{fullShare} f := by
  rw [View.set_whole]
theorem pts_oB (f : Buf (Elt F) ((VT d L).loc cc0_scratch3)) :
    ((oB).view.loc (VT d L) ↦[(oB).view.set]{fullShare} f : sProp 𝕄) = (VT d L).loc cc0_scratch3 ↦{fullShare} f := by
  rw [View.set_whole]

/-- The four DMA cells the task names, as a family: cell k of the subcore's pool, k < 4. -/
abbrev csem (k : Nat) (hk : k < 7 := by decide) : DmaSem sig := ⟨k, hk⟩
abbrev dcell (d : Dev nD) (c : Fin τ.nSC) (i : Fin τ.nSub) (k : Fin 4) : GSem nD τ sig :=
  (V d c i, .dma (csem k.val (by have := k.isLt; omega)))

theorem dcell_mem (c : Fin τ.nSC) (i : Fin τ.nSub) (k : Fin 4) : dcell d c i k ∈ ownCells (V d c i) :=
  mem_ownCells.mpr ⟨rfl, (show ∀ s : DmaSem sig, (SemLoc.dma s : SemLoc sig).isScoped .scVector = true by decide) _⟩

/-- The subcore's own cells at zero: the four the task names, one by one, and the rest. -/
theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 4)) = {0, 1, 2, 3} by decide,
    SparseCore.bigSep_insert' (by decide), SparseCore.bigSep_insert' (by decide), SparseCore.bigSep_insert' (by decide),
    bigSep_singleton]
  rfl

/-- The four scratch buffers are among the subcore's own: they are them, at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  have own0 := SparseCore.Cfg.mem_ownRefs_of_owner (τ := τ) (p := Proc.scVector (cV L) (jV L)) (b := (Proc.scVector (cV L) (jV L)).devRef cc0_scratch0) rfl
  have own1 := SparseCore.Cfg.mem_ownRefs_of_owner (τ := τ) (p := Proc.scVector (cV L) (jV L)) (b := (Proc.scVector (cV L) (jV L)).devRef cc0_scratch1) rfl
  have own2 := SparseCore.Cfg.mem_ownRefs_of_owner (τ := τ) (p := Proc.scVector (cV L) (jV L)) (b := (Proc.scVector (cV L) (jV L)).devRef cc0_scratch2) rfl
  have own3 := SparseCore.Cfg.mem_ownRefs_of_owner (τ := τ) (p := Proc.scVector (cV L) (jV L)) (b := (Proc.scVector (cV L) (jV L)).devRef cc0_scratch3) rfl
  have ne : ∀ r r' : Ref sig .scVector, r ≠ r' →
      (Proc.scVector (cV L) (jV L)).devRef r ≠ (Proc.scVector (cV L) (jV L)).devRef (τ := τ) r' :=
    fun r r' h e => h (Proc.devRef_injective _ e)
  refine (SparseCore.bigSep_erase' (own0)).trans ?_
  rw [SparseCore.bigSep_erase' (Finset.mem_erase.mpr ⟨ne cc0_scratch1 cc0_scratch0 (by decide), own1⟩),
    SparseCore.bigSep_erase' (Finset.mem_erase.mpr ⟨ne cc0_scratch2 cc0_scratch1 (by decide),
      Finset.mem_erase.mpr ⟨ne cc0_scratch2 cc0_scratch0 (by decide), own2⟩⟩),
    SparseCore.bigSep_erase' (Finset.mem_erase.mpr ⟨ne cc0_scratch3 cc0_scratch2 (by decide),
      Finset.mem_erase.mpr ⟨ne cc0_scratch3 cc0_scratch1 (by decide),
        Finset.mem_erase.mpr ⟨ne cc0_scratch3 cc0_scratch0 (by decide), own3⟩⟩⟩)]

variable [FloatOps F]

/-- The task on vector subcore (L 0, L 1) of device d, from what the launch deals it (read shares of the probabilities
    and the tokens, its row of the gathered array, its scoped buffers and cells) to what it hands back: the pieces
    respelt as the body names them, around the body's run. -/
theorem tile_body (hF : (K (F := F)).Facts)
    (hrun : ∀ (O : CellTallies nD τ sig (HIx 1)) (W : Waits sig (HIx 1)) (qa qp : PosShare TreeShare) a0 ta0 tb0 o0,
      TileRun m d L O W qa qp a0 ta0 tb0 o0)
    (O : CellTallies nD τ sig (HIx 1)) (W : Waits sig (HIx 1)) (hO : ∀ g, O g none = 0) (w : Fin 32) (hw : wL L = w) :
    iprop(levAts (K (F := F)).L (K (F := F)).lev ∗ emp
        ∗ goW m d w
        ∗ scopedBufs (VT d L) ∗ scopedSems0 (VT d L) ∗ owes (VT d L) O W)
      ⊢ wp frame (wpE (defs₀ (F := F)) 𝒱₀ (VT d L) none) Set.univ
          (cc0__sc_gather L predV (Memref.isWhole_whole _) actV (Memref.isWhole_whole _) valsV (Memref.isWhole_whole _)
            aC (Memref.isWhole_whole _) tA (Memref.isWhole_whole _) tB (Memref.isWhole_whole _) oB (Memref.isWhole_whole _)
            cc0_scratch4 cc0_scratch5 cc0_scoped0 cc0_scoped1)
          fun _ => iprop(tdW m d w
            ∗ scopedBufs (VT d L) ∗ scopedSems0 (VT d L)
            ∗ ∃ W', ⌜∀ p ∈ W', p ∈ W ∨ p.2 = none ∨ p.2 = some (0 : Fin 1)⌝ ∗ owes (VT d L) O W') := by
  subst hw
  rw [(K (F := F)).scopedBufs_V hF d (cV L) (jV L), SparseCore.Cfg.scopedSems0_V (Val := Elt F) d (cV L) (jV L), ownSems0_V, ownBufs_V]
  iintro ⟨#Hlv, -, ⟨Hp, Ha, Hv⟩, ⟨⟨%a0, HA⟩, ⟨%ta0, HTA⟩, ⟨%tb0, HTB⟩, ⟨%o0, HOB⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave Hv' := (Entails.of_eq (pts_vRowK (F := F) d L _).symm) $$ Hv
  ihave HA' := (Entails.of_eq (pts_aC (F := F) d L _).symm) $$ HA
  ihave HTA' := (Entails.of_eq (pts_tA (F := F) d L _).symm) $$ HTA
  ihave HTB' := (Entails.of_eq (pts_tB (F := F) d L _).symm) $$ HTB
  ihave HOB' := (Entails.of_eq (pts_oB (F := F) d L _).symm) $$ HOB
  have hr := hrun O W (tokW (wL L)) (tokW (wL L)) a0 ta0 tb0 o0
  unfold TileRun at hr
  iapply (wp_wand_r Idealize.ShloMosaic.frame (wpE (defs₀ (F := F)) 𝒱₀ (VT d L) none) Set.univ)
  isplitl [Hp Ha Hv' HA' HTA' HTB' HOB' HC HO]
  · iapply hr
    isplitr; · iexact Hmw
    isplitl [Ha]; · iexact Ha
    isplitl [Hp]; · iexact Hp
    isplitl [Hv']; · iexact Hv'
    isplitl [HA']; · iexact HA'
    isplitl [HTA']; · iexact HTA'
    isplitl [HTB']; · iexact HTB'
    isplitl [HOB']; · iexact HOB'
    isplitl [HC]; · iexact HC
    iexact HO
  iintro %_ ⟨Ha, Hv', ⟨%g1, HA'⟩, ⟨%g2, HTA'⟩, ⟨%g3, HTB'⟩, ⟨%g4, HOB'⟩, HC, ⟨%W', HO⟩⟩
  isplitl [Ha Hv']
  · isplitl [Ha]; · iexact Ha
    iapply (Entails.of_eq (pts_vRowK (F := F) d L _)); iexact Hv'
  isplitl [HA' HTA' HTB' HOB' Hbufs]
  · isplitl [HA']; · iexists _; iapply (Entails.of_eq (pts_aC (F := F) d L _)); iexact HA'
    isplitl [HTA']; · iexists _; iapply (Entails.of_eq (pts_tA (F := F) d L _)); iexact HTA'
    isplitl [HTB']; · iexists _; iapply (Entails.of_eq (pts_tB (F := F) d L _)); iexact HTB'
    isplitl [HOB']; · iexists _; iapply (Entails.of_eq (pts_oB (F := F) d L _)); iexact HOB'
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          predV (Memref.isWhole_whole _) actV (Memref.isWhole_whole _) valsV (Memref.isWhole_whole _)
          aC (Memref.isWhole_whole _) tA (Memref.isWhole_whole _) tB (Memref.isWhole_whole _) oB (Memref.isWhole_whole _)
          cc0_scratch4 cc0_scratch5 cc0_scoped0 cc0_scoped1) ⟨⟩ c s := rfl

/-- THE LAUNCH'S OBLIGATION FOR THE GATHER KERNEL'S TASK, from the body's run. -/
theorem tileObl (hpre : PreOK m)
    (hrun : ∀ (d : Dev nD) (L : grid0.Coords) (O : CellTallies nD τ sig (HIx 1)) (W : Waits sig (HIx 1))
      (qa qp : PosShare TreeShare) a0 ta0 tb0 o0, TileRun m d L O W qa qp a0 ta0 tb0 o0) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) facts (hrun d _) O W hO _ (Fin.ext rfl)

end Cert.Kernel.Tile

end
-- ==== Proof.TileFactsA.lean ====
/-
  Pure facts about one worker's buffers: what a 16-lane load of the token scratch reads after the
  tokens were copied in, where an 8 × 128 block of a rank-3 array sits, and how the 32 slots of a
  block buffer partition it.

  The token scratch holds 528 words; the copy wrote the worker's 512 tokens at offset 0, so lane l
  of a load at offset o reads token o + l while o + l < 512. An 8 × 128 block taken at offsets
  (o0, o1, o2) of a rank-3 array (a 1 × 8 × 128 rectangle with its unit axis dropped) has its entry
  (r, c) at (o0, o1 + r, o2 + c). Slot t of a 32 × 8 × 128 buffer is the block at (t, 0, 0): the
  entries whose first coordinate is t; the 32 slots are pairwise disjoint and cover the buffer.
-/
import proofs.«212842_g47828755808845_cont_8to1c4_577_40_alg».proof.Proof.Common
import Idealize.ShloMosaic.Lib.WritesUnit
import Idealize.ShloMosaic.Lib.ValueLayout

noncomputable section

namespace Cert.KernelIdeal.TileFacts

open Cert.KernelIdeal Cert.KernelIdeal.Gen
open Idealize.ShloMosaic Idealize.ShloMosaic.ValueIdx

variable {F : FTy → Type} [FloatOps F]

/-! ## The token scratch -/

/-- Lane l of a 16-lane load at offset `off` of the token scratch, after the 512 tokens `pay` were written at offset 0
    over any earlier contents, is token `off + l` while that is below 512. -/
theorem readAt_tokens {κ : Kind} {sp : Space} (v : View sig κ sp S528 .i32) (a0 : v.ty.Contents (Elt F))
    (pay : S512.Idx → Elt F .i32) (off : Fin 1 → ℕ) (hinb : ∀ a, off a + S16.size a ≤ S528.size a) (l : Fin 16)
    (h : off 0 + l.val < 512) :
    v.readAt (Elt F) (Rect.unit (s := S528) off S16.size hinb).toLoadRect
        (v.writes (Elt F) a0 [⟨Rect.unit ![0] S512.size inb_S528_S512_0, pay⟩]) (ix1 l)
      = pay (ix1 (⟨off 0 + l.val, h⟩ : Fin 512)) := by
  rw [View.readAt_apply]
  refine View.read_writes_cons_unit_of_mem v a0 inb_S528_S512_0 pay [] _ (ix1 (⟨off 0 + l.val, h⟩ : Fin 512)) rfl
    fun a => ?_
  match a with
  | ⟨0, _⟩ =>
    show off 0 + 1 * l.val = 0 + (off 0 + l.val)
    omega

/-- The same through the whole token scratch. -/
theorem readAt_tokens_scratch (a0 : (Memref.whole cc0_scratch0 : Memref sig .scVector .vmem S528 .i32).view.ty.Contents (Elt F))
    (pay : S512.Idx → Elt F .i32) (off : Fin 1 → ℕ) (hinb : ∀ a, off a + S16.size a ≤ S528.size a) (l : Fin 16)
    (h : off 0 + l.val < 512) :
    View.readAt (Elt F) (Memref.whole cc0_scratch0 : Memref sig .scVector .vmem S528 .i32).view
        (Rect.unit (s := S528) off S16.size hinb).toLoadRect
        ((Memref.whole cc0_scratch0 : Memref sig .scVector .vmem S528 .i32).view.writes (Elt F) a0
          [⟨Rect.unit ![0] S512.size inb_S528_S512_0, pay⟩]) (ix1 l)
      = pay (ix1 (⟨off 0 + l.val, h⟩ : Fin 512)) :=
  readAt_tokens _ a0 pay off hinb l h

/-- Lane 0 taken out of a 16-lane vector by a one-lane slice and an extract is the vector's lane 0. -/
theorem extract_pay1 (v : Vec F S16 .i32) : extractAt ![0] (k0_pay1 v) inpos_S1_p0 = v (ix1 (0 : Fin 16)) :=
  congrArg v (funext fun a => match a with | ⟨0, _⟩ => rfl)
theorem extract_pay2 (v : Vec F S16 .i32) : extractAt ![0] (k0_pay2 v) inpos_S1_p0 = v (ix1 (0 : Fin 16)) :=
  congrArg v (funext fun a => match a with | ⟨0, _⟩ => rfl)
theorem extract_pay9 (v : Vec F S16 .i32) : extractAt ![0] (k0_pay9 v) inpos_S1_p0 = v (ix1 (0 : Fin 16)) :=
  congrArg v (funext fun a => match a with | ⟨0, _⟩ => rfl)

/-! ## An 8 × 128 block of a rank-3 array -/

/-- The unit axis put back: entry (r, c) of an 8 × 128 block is entry (0, r, c) of the 1 × 8 × 128 rectangle. -/
theorem reshape_block (y : S8x128.Idx) :
    Shape.reshapeEquiv squeezes_S1x8x128_S8x128.numel_eq y
      = ix3 (⟨0, Nat.one_pos⟩ : Fin 1) (⟨(y 0).val, idx2_lt0 y⟩ : Fin 8) (⟨(y 1).val, idx2_lt1 y⟩ : Fin 128) := by
  conv_lhs => rw [eq_ix2 y]
  exact reshapeEquiv_ix2_1ab _ _ _

end Cert.KernelIdeal.TileFacts

end
-- ==== Proof.TileFactsB.lean ====
/-
  Where an 8 × 128 block of a rank-3 array sits, and the 32 slots of a block buffer.

  An 8 × 128 block taken at offsets (o0, o1, o2) of a rank-3 array — a 1 × 8 × 128 rectangle with its
  unit axis dropped — has its entry (r, c) at (o0, o1 + r, o2 + c). Slot t of a 32 × 8 × 128 buffer is
  the block at (t, 0, 0): exactly the entries whose first coordinate is t. The 32 slots are pairwise
  disjoint and together they are the whole buffer.
-/
import proofs.«212842_g47828755808845_cont_8to1c4_577_40_alg».proof.Proof.TileFactsA
import proofs.«212842_g47828755808845_cont_8to1c4_577_40_alg».proof.Proof.TileDefs

noncomputable section

namespace Cert.KernelIdeal.TileFacts

open Cert.KernelIdeal Cert.KernelIdeal.Gen
open Idealize.ShloMosaic Idealize.ShloMosaic.ValueIdx
open Cert.KernelIdeal.Tile (slotSet)

variable {F : FTy → Type} [FloatOps F]

/-! ## A block's entries in the array -/

/-- Entry (r, c) of the 8 × 128 block at offsets `off` of a view of a rank-3 array sits where the view puts
    (off 0, off 1 + r, off 2 + c). -/
theorem block_emb {A B C : ℕ} {κ : Kind} {sp : Space} {e : EltTy} (v : View sig κ sp ⟨3, ![A, B, C]⟩ e) (off : Fin 3 → ℕ)
    (hinb : ∀ a, off a + S1x8x128.size a ≤ (⟨3, ![A, B, C]⟩ : Shape).size a) (y : S8x128.Idx) :
    ((v.slice (Rect.unit (s := ⟨3, ![A, B, C]⟩) off S1x8x128.size hinb)).reshape S8x128
        squeezes_S1x8x128_S8x128.numel_eq).emb y
      = v.emb (ix3 (⟨off 0, by have := hinb 0; have : S1x8x128.size 0 = 1 := rfl; have : (⟨3, ![A, B, C]⟩ : Shape).size 0 = A := rfl; omega⟩ : Fin A)
          (⟨off 1 + (y 0).val, by have := hinb 1; have := idx2_lt0 y; have : S1x8x128.size 1 = 8 := rfl; have : (⟨3, ![A, B, C]⟩ : Shape).size 1 = B := rfl; omega⟩ : Fin B)
          (⟨off 2 + (y 1).val, by have := hinb 2; have := idx2_lt1 y; have : S1x8x128.size 2 = 128 := rfl; have : (⟨3, ![A, B, C]⟩ : Shape).size 2 = C := rfl; omega⟩ : Fin C)) := by
  show v.emb ((Rect.unit (s := ⟨3, ![A, B, C]⟩) off S1x8x128.size hinb).emb
      (Shape.reshapeEquiv squeezes_S1x8x128_S8x128.numel_eq y)) = _
  rw [reshape_block y]
  refine congrArg v.emb (funext fun a => Fin.ext ?_)
  match a with
  | ⟨0, _⟩ => show off 0 + 1 * 0 = off 0; omega
  | ⟨1, _⟩ => show off 1 + 1 * (y 0).val = off 1 + (y 0).val; omega
  | ⟨2, _⟩ => show off 2 + 1 * (y 1).val = off 2 + (y 1).val; omega

/-! ## The probabilities' blocks -/

/-- Entry (r, c) of the 8 × 128 block at offsets `off` of the probabilities is the entry (off 0, off 1 + r, off 2 + c). -/
theorem src_emb (off : Fin 3 → ℕ) (hinb : ∀ a, off a + S1x8x128.size a ≤ S8x2048x8192.size a) (y : S8x128.Idx) :
    (((Memref.whole main_arg0_scv : Memref sig .scVector .hbm S8x2048x8192 .f32).slice
        (Rect.unit (s := S8x2048x8192) off S1x8x128.size hinb) (fun _ => rfl)).squeeze S8x128
        squeezes_S1x8x128_S8x128).view.emb y
      = ix3 (⟨off 0, by have := hinb 0; have : S1x8x128.size 0 = 1 := rfl; have : S8x2048x8192.size 0 = 8 := rfl; omega⟩ : Fin 8)
          (⟨off 1 + (y 0).val, by have := hinb 1; have := idx2_lt0 y; have : S1x8x128.size 1 = 8 := rfl; have : S8x2048x8192.size 1 = 2048 := rfl; omega⟩ : Fin 2048)
          (⟨off 2 + (y 1).val, by have := hinb 2; have := idx2_lt1 y; have : S1x8x128.size 2 = 128 := rfl; have : S8x2048x8192.size 2 = 8192 := rfl; omega⟩ : Fin 8192) :=
  block_emb (Memref.whole main_arg0_scv : Memref sig .scVector .hbm S8x2048x8192 .f32).view off hinb y

/-! ## The slots of a block buffer -/

/-- Slot t of a block buffer is the set of its entries whose first coordinate is t. -/
theorem mem_slotSet (t : Fin 32) (i : S32x8x128.Idx) : i ∈ slotSet t ↔ (i 0).val = t.val := by
  simp only [Tile.slotSet, Finset.mem_filter, Finset.mem_univ, true_and]

/-- Offsets (j, 0, 0): the offsets of slot j. -/
structure IsSlotOff (off : Fin 3 → ℕ) (j : Fin 32) : Prop where
  h0 : off 0 = j.val
  h1 : off 1 = 0
  h2 : off 2 = 0

/-- The 1 × 8 × 128 rectangle at slot j's offsets is slot j. -/
theorem slot_rect_set (off : Fin 3 → ℕ) (hinb : ∀ a, off a + S1x8x128.size a ≤ S32x8x128.size a) (j : Fin 32)
    (h : IsSlotOff off j) : (Rect.unit (s := S32x8x128) off S1x8x128.size hinb).set = slotSet j := by
  obtain ⟨h0, h1, h2⟩ := h
  ext i
  rw [Rect.mem_set_unit, mem_slotSet]
  have b1 : (i 1).val < 8 := (i 1).isLt
  have b2 : (i 2).val < 128 := (i 2).isLt
  constructor
  · intro hi
    have := hi 0
    have e : S1x8x128.size 0 = 1 := rfl
    omega
  · intro hi a
    match a with
    | ⟨0, _⟩ => show off 0 ≤ (i 0).val ∧ (i 0).val < off 0 + 1; omega
    | ⟨1, _⟩ => show off 1 ≤ (i 1).val ∧ (i 1).val < off 1 + 8; omega
    | ⟨2, _⟩ => show off 2 ≤ (i 2).val ∧ (i 2).val < off 2 + 128; omega

/-- Different slots share no entry. -/
theorem slotSet_disjoint {t t' : Fin 32} (h : t ≠ t') : Disjoint (slotSet t) (slotSet t') :=
  Finset.disjoint_left.mpr fun i hi hi' =>
    h (Fin.ext (((mem_slotSet t i).mp hi).symm.trans ((mem_slotSet t' i).mp hi')))

theorem slotSet_pairwiseDisjoint : (↑(Finset.univ : Finset (Fin 32)) : Set (Fin 32)).PairwiseDisjoint slotSet :=
  fun _ _ _ _ h => slotSet_disjoint h

/-- The 32 slots together are the whole buffer. -/
theorem biUnion_slotSet : (Finset.univ : Finset (Fin 32)).biUnion slotSet = Finset.univ := by
  ext i
  simp only [Finset.mem_biUnion, Finset.mem_univ, true_and, iff_true]
  exact ⟨⟨(i 0).val, (i 0).isLt⟩, (mem_slotSet _ i).mpr rfl⟩

/-- Slot j of a view of a 32 × 8 × 128 buffer: its entries are the view's images of slot j's. -/
theorem slot_view_set {κ : Kind} {sp : Space} {e : EltTy} (v : View sig κ sp S32x8x128 e) (off : Fin 3 → ℕ)
    (hinb : ∀ a, off a + S1x8x128.size a ≤ S32x8x128.size a) (j : Fin 32) (h : IsSlotOff off j) :
    ((v.slice (Rect.unit (s := S32x8x128) off S1x8x128.size hinb)).reshape S8x128
        squeezes_S1x8x128_S8x128.numel_eq).set = (slotSet j).map v.emb := by
  rw [View.set_reshape, View.set_slice, slot_rect_set off hinb j h]

/-- Entry (r, c) of slot j of a view of a 32 × 8 × 128 buffer sits where the view puts (j, r, c). -/
theorem slot_view_emb {κ : Kind} {sp : Space} {e : EltTy} (v : View sig κ sp S32x8x128 e) (off : Fin 3 → ℕ)
    (hinb : ∀ a, off a + S1x8x128.size a ≤ S32x8x128.size a) (j : Fin 32) (h : IsSlotOff off j) (y : S8x128.Idx) :
    ((v.slice (Rect.unit (s := S32x8x128) off S1x8x128.size hinb)).reshape S8x128
        squeezes_S1x8x128_S8x128.numel_eq).emb y
      = v.emb (ix3 j (⟨(y 0).val, idx2_lt0 y⟩ : Fin 8) (⟨(y 1).val, idx2_lt1 y⟩ : Fin 128)) := by
  obtain ⟨h0, h1, h2⟩ := h
  rw [block_emb v off hinb y]
  refine congrArg v.emb (funext fun a => Fin.ext ?_)
  match a with
  | ⟨0, _⟩ => exact h0
  | ⟨1, _⟩ => show off 1 + (y 0).val = (y 0).val; omega
  | ⟨2, _⟩ => show off 2 + (y 1).val = (y 1).val; omega

/-- The two block buffers, whole. -/
abbrev X1 : Memref sig .scVector .vmem S32x8x128 .f32 := Memref.whole cc0_scratch1
abbrev X2 : Memref sig .scVector .vmem S32x8x128 .f32 := Memref.whole cc0_scratch2

/-- The slot of a block buffer at offsets `off`, as the kernel forms it: the 1 × 8 × 128 slice with its unit axis dropped. -/
abbrev slotOf (X : Memref sig .scVector .vmem S32x8x128 .f32) (off : Fin 3 → ℕ)
    (hinb : ∀ a, off a + S1x8x128.size a ≤ S32x8x128.size a) : Memref sig .scVector .vmem S8x128 .f32 :=
  (X.slice (Rect.unit (s := S32x8x128) off S1x8x128.size hinb) (fun _ => rfl)).squeeze S8x128 squeezes_S1x8x128_S8x128

theorem slot_set_X1 (off : Fin 3 → ℕ) (hinb : ∀ a, off a + S1x8x128.size a ≤ S32x8x128.size a) (j : Fin 32)
    (h : IsSlotOff off j) : (slotOf X1 off hinb).view.set = slotSet j :=
  (slot_view_set X1.view off hinb j h).trans (Finset.map_refl)
theorem slot_set_X2 (off : Fin 3 → ℕ) (hinb : ∀ a, off a + S1x8x128.size a ≤ S32x8x128.size a) (j : Fin 32)
    (h : IsSlotOff off j) : (slotOf X2 off hinb).view.set = slotSet j :=
  (slot_view_set X2.view off hinb j h).trans (Finset.map_refl)
theorem slot_emb_X1 (off : Fin 3 → ℕ) (hinb : ∀ a, off a + S1x8x128.size a ≤ S32x8x128.size a) (j : Fin 32)
    (h : IsSlotOff off j) (y : S8x128.Idx) :
    (slotOf X1 off hinb).view.emb y = ix3 j (⟨(y 0).val, idx2_lt0 y⟩ : Fin 8) (⟨(y 1).val, idx2_lt1 y⟩ : Fin 128) :=
  slot_view_emb X1.view off hinb j h y
theorem slot_emb_X2 (off : Fin 3 → ℕ) (hinb : ∀ a, off a + S1x8x128.size a ≤ S32x8x128.size a) (j : Fin 32)
    (h : IsSlotOff off j) (y : S8x128.Idx) :
    (slotOf X2 off hinb).view.emb y = ix3 j (⟨(y 0).val, idx2_lt0 y⟩ : Fin 8) (⟨(y 1).val, idx2_lt1 y⟩ : Fin 128) :=
  slot_view_emb X2.view off hinb j h y

/-- A whole block buffer's entries are all of them: the union of the 32 slots. -/
theorem X1_set : X1.view.set = (Finset.univ : Finset (Fin 32)).biUnion slotSet := by
  rw [biUnion_slotSet]; exact View.set_whole _
theorem X2_set : X2.view.set = (Finset.univ : Finset (Fin 32)).biUnion slotSet := by
  rw [biUnion_slotSet]; exact View.set_whole _

/-! ## The five slot offset functions are slot offsets -/

theorem isSlotOff_off3 (t : Fin k0_t1_loop.trips) :
    IsSlotOff (k0_off3 t) ⟨t.val, Nat.lt_of_lt_of_le t.isLt k0_t1_abs.2.1⟩ := by
  rw [k0_off3_eq]; exact ⟨rfl, rfl, rfl⟩
theorem isSlotOff_off6 (t : Fin k0_t3_loop.trips) :
    IsSlotOff (k0_off6 t) ⟨t.val, Nat.lt_of_lt_of_le t.isLt k0_t3_abs.2.1⟩ := by
  rw [k0_off6_eq]; exact ⟨rfl, rfl, rfl⟩
theorem isSlotOff_off8 (t : Fin k0_t4_loop.trips) :
    IsSlotOff (k0_off8 t) ⟨t.val, Nat.lt_of_lt_of_le t.isLt k0_t4_abs.2.1⟩ := by
  rw [k0_off8_eq]; exact ⟨rfl, rfl, rfl⟩
theorem isSlotOff_off15 (t : Fin k0_t5_loop.trips) :
    IsSlotOff (k0_off15 t) ⟨t.val, Nat.lt_of_lt_of_le t.isLt k0_t5_abs.2.1⟩ := by
  rw [k0_off15_eq]; exact ⟨rfl, rfl, rfl⟩
theorem isSlotOff_off17 (t : Fin k0_t6_loop.trips) :
    IsSlotOff (k0_off17 t) ⟨t.val, Nat.lt_of_lt_of_le t.isLt k0_t6_abs.2.1⟩ := by
  rw [k0_off17_eq]; exact ⟨rfl, rfl, rfl⟩

end Cert.KernelIdeal.TileFacts

end
-- ==== Proof.TileFactsC.lean ====
/-
  The block offsets the worker computes, in closed form, and the side conditions they meet.

  Worker w reads the blocks of row w / 4 of the probabilities. For the token a at position p of its
  chunk the block starts at row (w % 4)·512 + (p / 8)·8 and column (a / 128)·128: the kernel computes
  the row offset from the loop counters by word arithmetic that never wraps for 32 workers, 8 rounds
  and 32 trips, and the column offset by shifting the token right and left by 7, which for a token
  below 8192 clears its low 7 bits. Every such block lies inside the 8 × 2048 × 8192 array.
-/
import proofs.«212842_g47828755808845_cont_8to1c4_577_40_alg».proof.Proof.TileDefs

noncomputable section

namespace Cert.KernelIdeal.TileFacts

open Cert.KernelIdeal Cert.KernelIdeal.Gen
open Idealize.ShloMosaic
open Cert.KernelIdeal.Tile (wn wn_lt)

/-! ## The worker's row and chunk -/

theorem off9_eq : ∀ L : grid0.Coords, k0_off9 L = ![(16 * (L 0).val + (L 1).val) / 4, 0, 0] := by decide +kernel
theorem off18_eq : ∀ L : grid0.Coords, k0_off18 L = ![(16 * (L 0).val + (L 1).val) / 4, 0, 0] := by decide +kernel
theorem off1_eq : ∀ L : grid0.Coords, k0_off1 L = ![(16 * (L 0).val + (L 1).val) / 4, (16 * (L 0).val + (L 1).val) % 4 * 512] := by
  decide +kernel

/-- The worker's row of the probabilities: blocks start in row w / 4. -/
theorem k0_off9_wn (L : grid0.Coords) : k0_off9 L = ![wn L / 4, 0, 0] := off9_eq L
theorem k0_off18_wn (L : grid0.Coords) : k0_off18 L = ![wn L / 4, 0, 0] := off18_eq L
/-- The worker's tokens: row w / 4 from column (w % 4)·512. -/
theorem k0_off1_wn (L : grid0.Coords) : k0_off1 L = ![wn L / 4, wn L % 4 * 512] := off1_eq L
/-- The worker's row of the gathered array. -/
theorem k0_off23_wn (L : grid0.Coords) : k0_off23 L = ![wn L, 0] := k0_off23_eq L

/-! ## The row offsets of the three block copies -/

theorem mult2_eq : ∀ (L : grid0.Coords) (t : Fin k0_t1_loop.trips),
    (k0_mult2 L t).toNat = (16 * (L 0).val + (L 1).val) % 4 * 512 + t.val / 8 * 8 := by decide +kernel
theorem mult4_eq : ∀ (L : grid0.Coords) (t2 : Fin k0_t2_loop.trips) (t3 : Fin k0_t3_loop.trips),
    (k0_mult4 L t2 t3).toNat = (16 * (L 0).val + (L 1).val) % 4 * 512 + 64 * t2.val + 32 + t3.val / 8 * 8 := by
  decide +kernel
theorem mult6_eq : ∀ (L : grid0.Coords) (t2 : Fin k0_t2_loop.trips) (t5 : Fin k0_t5_loop.trips),
    (k0_mult6 L t2 t5).toNat = (16 * (L 0).val + (L 1).val) % 4 * 512 + 64 * t2.val + 64 + t5.val / 8 * 8 := by
  decide +kernel

/-- The guard of the next round's prefetch holds exactly in the first seven rounds. -/
theorem cond1_iff : ∀ t2 : Fin k0_t2_loop.trips, k0_cond1 t2 = 1#1 ↔ t2.val < 7 := by decide +kernel

/-! ## The column offset: a token with its low seven bits cleared -/

theorem mult1_fin : ∀ a : Fin 8192, (k0_mult1 (BitVec.ofNat 32 a.val)).toNat = a.val / 128 * 128 := by decide +kernel

/-- Shifting a token below 8192 right and then left by 7 clears its low seven bits. -/
theorem mult1_eq (v : BitVec 32) (hv : v.toNat ≤ 8191) : (k0_mult1 v).toNat = v.toNat / 128 * 128 := by
  obtain ⟨n, hn, rfl⟩ : ∃ n, n ≤ 8191 ∧ v = BitVec.ofNat 32 n :=
    ⟨v.toNat, hv, BitVec.eq_of_toNat_eq (by rw [BitVec.toNat_ofNat, Nat.mod_eq_of_lt v.isLt])⟩
  rw [BitVec.toNat_ofNat, Nat.mod_eq_of_lt (by omega : n < 2 ^ 32)]
  exact mult1_fin ⟨n, by omega⟩
theorem mult3_eq (v : BitVec 32) (hv : v.toNat ≤ 8191) : (k0_mult3 v).toNat = v.toNat / 128 * 128 := mult1_eq v hv
theorem mult5_eq (v : BitVec 32) (hv : v.toNat ≤ 8191) : (k0_mult5 v).toNat = v.toNat / 128 * 128 := mult1_eq v hv

/-! ## The three block copies' offsets -/

/-- The first round's copy for trip t: the block of token v at position t. -/
theorem k0_off4_wn (L : grid0.Coords) (t : Fin k0_t1_loop.trips) (v : BitVec 32) (hv : v.toNat ≤ 8191) :
    k0_off4 L t v = ![wn L / 4, wn L % 4 * 512 + t.val / 8 * 8, v.toNat / 128 * 128] := by
  have e0 : k0_off4 L t v 0 = k0_off9 L 0 := rfl
  have e1 : k0_off4 L t v 1 = (k0_mult2 L t).toNat := rfl
  have e2 : k0_off4 L t v 2 = (k0_mult1 v).toNat := rfl
  funext a
  match a with
  | ⟨0, _⟩ => exact e0.trans (congrFun (off9_eq L) 0)
  | ⟨1, _⟩ => exact e1.trans (mult2_eq L t)
  | ⟨2, _⟩ => exact e2.trans (mult1_eq v hv)

/-- Round t2's copy into the second buffer for trip t3: the block of token v at position 64·t2 + 32 + t3. -/
theorem k0_off7_wn (L : grid0.Coords) (t2 : Fin k0_t2_loop.trips) (t3 : Fin k0_t3_loop.trips) (v : BitVec 32)
    (hv : v.toNat ≤ 8191) :
    k0_off7 L t2 t3 v = ![wn L / 4, wn L % 4 * 512 + 64 * t2.val + 32 + t3.val / 8 * 8, v.toNat / 128 * 128] := by
  have e0 : k0_off7 L t2 t3 v 0 = k0_off9 L 0 := rfl
  have e1 : k0_off7 L t2 t3 v 1 = (k0_mult4 L t2 t3).toNat := rfl
  have e2 : k0_off7 L t2 t3 v 2 = (k0_mult3 v).toNat := rfl
  funext a
  match a with
  | ⟨0, _⟩ => exact e0.trans (congrFun (off9_eq L) 0)
  | ⟨1, _⟩ => exact e1.trans (mult4_eq L t2 t3)
  | ⟨2, _⟩ => exact e2.trans (mult3_eq v hv)

/-- Round t2's prefetch into the first buffer for trip t5: the block of token v at position 64·t2 + 64 + t5. -/
theorem k0_off16_wn (L : grid0.Coords) (t2 : Fin k0_t2_loop.trips) (t5 : Fin k0_t5_loop.trips) (v : BitVec 32)
    (hv : v.toNat ≤ 8191) :
    k0_off16 L t2 t5 v = ![wn L / 4, wn L % 4 * 512 + 64 * t2.val + 64 + t5.val / 8 * 8, v.toNat / 128 * 128] := by
  have e0 : k0_off16 L t2 t5 v 0 = k0_off9 L 0 := rfl
  have e1 : k0_off16 L t2 t5 v 1 = (k0_mult6 L t2 t5).toNat := rfl
  have e2 : k0_off16 L t2 t5 v 2 = (k0_mult5 v).toNat := rfl
  funext a
  match a with
  | ⟨0, _⟩ => exact e0.trans (congrFun (off9_eq L) 0)
  | ⟨1, _⟩ => exact e1.trans (mult6_eq L t2 t5)
  | ⟨2, _⟩ => exact e2.trans (mult5_eq v hv)

/-! ## The side conditions, from the token's range -/

theorem trips1_le (t : Fin k0_t1_loop.trips) : t.val < 32 := Nat.lt_of_lt_of_le t.isLt k0_t1_abs.2.1
theorem trips2_le (t : Fin k0_t2_loop.trips) : t.val < 8 := Nat.lt_of_lt_of_le t.isLt k0_t2_abs.2.1
theorem trips3_le (t : Fin k0_t3_loop.trips) : t.val < 32 := Nat.lt_of_lt_of_le t.isLt k0_t3_abs.2.1
theorem trips4_le (t : Fin k0_t4_loop.trips) : t.val < 32 := Nat.lt_of_lt_of_le t.isLt k0_t4_abs.2.1
theorem trips5_le (t : Fin k0_t5_loop.trips) : t.val < 32 := Nat.lt_of_lt_of_le t.isLt k0_t5_abs.2.1
theorem trips6_le (t : Fin k0_t6_loop.trips) : t.val < 32 := Nat.lt_of_lt_of_le t.isLt k0_t6_abs.2.1

/-- A token below 8192 passes the first copy's check. -/
theorem chk1_of_le (L : grid0.Coords) (t : Fin k0_t1_loop.trips) (v : BitVec 32) (hv : v.toNat ≤ 8191) : k0_chk1 L t v := by
  have hw := wn_lt L
  have ht := trips1_le t
  refine ⟨?_, fun a => ?_⟩
  · rw [mult1_eq v hv]; exact Nat.dvd_mul_left _ _
  · rw [k0_off4_wn L t v hv]
    match a with
    | ⟨0, _⟩ => show wn L / 4 + 1 ≤ 8; omega
    | ⟨1, _⟩ => show wn L % 4 * 512 + t.val / 8 * 8 + 8 ≤ 2048; omega
    | ⟨2, _⟩ => show v.toNat / 128 * 128 + 128 ≤ 8192; omega

/-- A token below 8192 passes the second copy's check. -/
theorem chk2_of_le (L : grid0.Coords) (t2 : Fin k0_t2_loop.trips) (t3 : Fin k0_t3_loop.trips) (v : BitVec 32)
    (hv : v.toNat ≤ 8191) : k0_chk2 L t2 t3 v := by
  have hw := wn_lt L
  have h2 := trips2_le t2
  have h3 := trips3_le t3
  refine ⟨?_, fun a => ?_⟩
  · rw [mult3_eq v hv]; exact Nat.dvd_mul_left _ _
  · rw [k0_off7_wn L t2 t3 v hv]
    match a with
    | ⟨0, _⟩ => show wn L / 4 + 1 ≤ 8; omega
    | ⟨1, _⟩ => show wn L % 4 * 512 + 64 * t2.val + 32 + t3.val / 8 * 8 + 8 ≤ 2048; omega
    | ⟨2, _⟩ => show v.toNat / 128 * 128 + 128 ≤ 8192; omega

/-- A token below 8192 passes the prefetch's check (which asks only in the first seven rounds). -/
theorem chk5_of_le (L : grid0.Coords) (t2 : Fin k0_t2_loop.trips) (t5 : Fin k0_t5_loop.trips) (v : BitVec 32)
    (hv : v.toNat ≤ 8191) : k0_chk5 L t2 t5 v := by
  have hw := wn_lt L
  have h5 := trips5_le t5
  refine ⟨fun _ => ?_, fun hc a => ?_⟩
  · rw [mult5_eq v hv]; exact Nat.dvd_mul_left _ _
  · have h2 : t2.val < 7 := (cond1_iff t2).mp hc
    rw [k0_off16_wn L t2 t5 v hv]
    match a with
    | ⟨0, _⟩ => show wn L / 4 + 1 ≤ 8; omega
    | ⟨1, _⟩ => show wn L % 4 * 512 + 64 * t2.val + 64 + t5.val / 8 * 8 + 8 ≤ 2048; omega
    | ⟨2, _⟩ => show v.toNat / 128 * 128 + 128 ≤ 8192; omega

end Cert.KernelIdeal.TileFacts

end
-- ==== Proof.TileFactsD.lean ====
/-
  The gather's index vectors at a lane, the indexed load at a lane, and the arithmetic that puts a
  block entry back at its place.

  The three index vectors of each 16-lane gather name, at lane l, the slot 16·g + l (g the lane group,
  0 or 1), the row l % 8 within the block and the column a % 128, a the lane's token; all are in range
  whatever the tokens. The indexed load reads the buffer at the index the three vectors name. For a
  position p and a token a, (p / 8)·8 + p % 8 = p and (a / 128)·128 + a % 128 = a: the block entry
  the indices name is the entry the token selects.
-/
import proofs.«212842_g47828755808845_cont_8to1c4_577_40_alg».proof.Proof.TileDefs
import Idealize.ShloMosaic.Lib.ValueLayout

noncomputable section

namespace Cert.KernelIdeal.TileFacts

open Cert.KernelIdeal Cert.KernelIdeal.Gen
open Idealize.ShloMosaic Idealize.ShloMosaic.ValueIdx

variable {F : FTy → Type} [FloatOps F]

/-! ## Words -/

/-- A word masked with 127 is its remainder by 128. -/
theorem toNat_and_127 (x : BitVec 32) : (x &&& 127#32).toNat = x.toNat % 128 := by
  rw [BitVec.toNat_and]
  exact Nat.and_two_pow_sub_one_eq_mod x.toNat 7

theorem lane_and_7 : ∀ l : Fin 16, BitVec.ofNat 32 l.val &&& 7#32 = BitVec.ofNat 32 (l.val % 8) := by decide
theorem lane_add_16 : ∀ l : Fin 16, 16#32 + BitVec.ofNat 32 l.val = BitVec.ofNat 32 (16 + l.val) := by decide
theorem toNat_lane (l : Fin 16) : (BitVec.ofNat 32 l.val).toNat = l.val := by
  rw [BitVec.toNat_ofNat]; exact Nat.mod_eq_of_lt (by have := l.isLt; omega)
theorem toNat_lane_mod (l : Fin 16) : (BitVec.ofNat 32 (l.val % 8)).toNat = l.val % 8 := by
  rw [BitVec.toNat_ofNat]; exact Nat.mod_eq_of_lt (by omega)
theorem toNat_lane_16 (l : Fin 16) : (BitVec.ofNat 32 (16 + l.val)).toNat = 16 + l.val := by
  rw [BitVec.toNat_ofNat]; exact Nat.mod_eq_of_lt (by have := l.isLt; omega)

/-! ## The index vectors at a lane -/

/-- The lane numbers, as the worker's 16-lane iota. -/
abbrev lanes : IVec S16 32 := iota .scVector S16 32 [0] iota_S16_d0_w32_scVector

theorem lanes_apply (l : Fin 16) : lanes (ix1 l) = BitVec.ofNat 32 l.val := iota_single_apply _ _ _ _ _ _

theorem pay10_apply (l : Fin 16) : k0_pay10 lanes (ix1 l) = BitVec.ofNat 32 l.val := by
  show 0#32 + lanes (ix1 l) = _
  rw [BitVec.zero_add, lanes_apply]
theorem pay11_apply (l : Fin 16) : k0_pay11 lanes (ix1 l) = BitVec.ofNat 32 (l.val % 8) := by
  show lanes (ix1 l) &&& 7#32 = _
  rw [lanes_apply, lane_and_7]
theorem pay12_apply (v : Vec F S16 .i32) (l : Fin 16) : k0_pay12 v (ix1 l) = v (ix1 l) &&& 127#32 := rfl
theorem pay13_apply (l : Fin 16) : k0_pay13 lanes (ix1 l) = BitVec.ofNat 32 (16 + l.val) := by
  show 16#32 + lanes (ix1 l) = _
  rw [lanes_apply, lane_add_16]
theorem pay14_apply (l : Fin 16) : k0_pay14 lanes (ix1 l) = BitVec.ofNat 32 (l.val % 8) := by
  show lanes (ix1 l) &&& 7#32 = _
  rw [lanes_apply, lane_and_7]
theorem pay15_apply (v : Vec F S16 .i32) (l : Fin 16) : k0_pay15 v (ix1 l) = v (ix1 l) &&& 127#32 := rfl
theorem pay3_apply (l : Fin 16) : k0_pay3 (ix1 l) = BitVec.ofNat 32 l.val := pay10_apply l
theorem pay4_apply (l : Fin 16) : k0_pay4 (ix1 l) = BitVec.ofNat 32 (l.val % 8) := pay11_apply l
theorem pay5_apply (v : Vec F S16 .i32) (l : Fin 16) : k0_pay5 v (ix1 l) = v (ix1 l) &&& 127#32 := rfl
theorem pay6_apply (l : Fin 16) : k0_pay6 (ix1 l) = BitVec.ofNat 32 (16 + l.val) := pay13_apply l
theorem pay7_apply (l : Fin 16) : k0_pay7 (ix1 l) = BitVec.ofNat 32 (l.val % 8) := pay14_apply l
theorem pay8_apply (v : Vec F S16 .i32) (l : Fin 16) : k0_pay8 v (ix1 l) = v (ix1 l) &&& 127#32 := rfl

/-! ## Every index is in range, whatever the tokens -/

/-- Three index vectors that name, at lane l, a slot below 32, a row below 8 and a column below 128. -/
theorem idx_inb (i0 i1 i2 : IVec S16 32) (h0 : ∀ l : Fin 16, (i0 (ix1 l)).toNat < 32) (h1 : ∀ l : Fin 16, (i1 (ix1 l)).toNat < 8)
    (h2 : ∀ l : Fin 16, (i2 (ix1 l)).toNat < 128) :
    ∀ a x, ((![i0, i1, i2] : Fin 3 → IVec S16 32) a x).toNat < S32x8x128.size a := by
  intro a x
  rw [eq_ix1 x]
  match a with
  | ⟨0, _⟩ => exact h0 _
  | ⟨1, _⟩ => exact h1 _
  | ⟨2, _⟩ => exact h2 _

theorem and_127_lt (x : BitVec 32) : (x &&& 127#32).toNat < 128 := by
  rw [toNat_and_127]; exact Nat.mod_lt _ (by decide)

theorem chk3_all (v : Vec F S16 .i32) : k0_chk3 (k0_pay10 lanes) (k0_pay11 lanes) (k0_pay12 v) :=
  idx_inb _ _ _ (fun l => by rw [pay10_apply, toNat_lane]; have := l.isLt; omega)
    (fun l => by rw [pay11_apply, toNat_lane_mod]; omega) (fun l => by rw [pay12_apply]; exact and_127_lt _)
theorem chk4_all (v : Vec F S16 .i32) : k0_chk4 (k0_pay13 lanes) (k0_pay14 lanes) (k0_pay15 v) :=
  idx_inb _ _ _ (fun l => by rw [pay13_apply, toNat_lane_16]; have := l.isLt; omega)
    (fun l => by rw [pay14_apply, toNat_lane_mod]; omega) (fun l => by rw [pay15_apply]; exact and_127_lt _)
theorem chk6_all (v : Vec F S16 .i32) : k0_chk6 k0_pay3 k0_pay4 (k0_pay5 v) :=
  idx_inb _ _ _ (fun l => by rw [pay3_apply, toNat_lane]; have := l.isLt; omega)
    (fun l => by rw [pay4_apply, toNat_lane_mod]; omega) (fun l => by rw [pay5_apply]; exact and_127_lt _)
theorem chk7_all (v : Vec F S16 .i32) : k0_chk7 k0_pay6 k0_pay7 (k0_pay8 v) :=
  idx_inb _ _ _ (fun l => by rw [pay6_apply, toNat_lane_16]; have := l.isLt; omega)
    (fun l => by rw [pay7_apply, toNat_lane_mod]; omega) (fun l => by rw [pay8_apply]; exact and_127_lt _)

/-! ## The indexed load at a lane -/

/-- An indexed load reads, at lane l, the buffer at the index its index vectors name there. -/
theorem loadIdx_apply {s t : Shape} {e : EltTy} (f : Vec F s e) (idxs : Fin s.rank → IVec t 32)
    (h : ∀ a x, (idxs a x).toNat < s.size a) (x : t.Idx) :
    loadIdx f idxs h x = f (fun a => ⟨(idxs a x).toNat, h a x⟩) := rfl

/-- The same for a 32 × 8 × 128 buffer and three 16-lane index vectors. -/
theorem loadIdx3_apply {e : EltTy} (f : Vec F S32x8x128 e) (i0 i1 i2 : IVec S16 32)
    (h : ∀ a x, ((![i0, i1, i2] : Fin 3 → IVec S16 32) a x).toNat < S32x8x128.size a) (l : Fin 16) :
    loadIdx f ![i0, i1, i2] h (ix1 l)
      = f (ix3 (⟨(i0 (ix1 l)).toNat, h 0 (ix1 l)⟩ : Fin 32) (⟨(i1 (ix1 l)).toNat, h 1 (ix1 l)⟩ : Fin 8)
          (⟨(i2 (ix1 l)).toNat, h 2 (ix1 l)⟩ : Fin 128)) :=
  congrArg f (funext fun a => match a with | ⟨0, _⟩ => rfl | ⟨1, _⟩ => rfl | ⟨2, _⟩ => rfl)

/-! ## The arithmetic that closes the value -/

theorem row_split (w p : ℕ) : w % 4 * 512 + p / 8 * 8 + p % 8 = w % 4 * 512 + p := by omega
theorem col_split (a : ℕ) : a / 128 * 128 + a % 128 = a := by omega

/-- The entry of the probabilities that (w, p) selects, written as the block entry the gather reads: row
    (w % 4)·512 + (p / 8)·8 + p % 8 and column (a / 128)·128 + (a masked with 127), a the token there. -/
theorem pick_eq_block (act : Vec F S8x2048 .i32) (j : S32x512.Idx) (ha : (act (Spec.posOf j)).toNat ≤ 8191) :
    Spec.pick act j
      = ix3 (⟨(j 0).val / 4, by have := idx2_lt0 j; omega⟩ : Fin 8)
          (⟨(j 0).val % 4 * 512 + (j 1).val / 8 * 8 + (j 1).val % 8, by have := idx2_lt1 j; omega⟩ : Fin 2048)
          (⟨(act (Spec.posOf j)).toNat / 128 * 128 + ((act (Spec.posOf j)) &&& 127#32).toNat, by
              rw [toNat_and_127]; omega⟩ : Fin 8192) := by
  funext a
  apply Fin.ext
  match a with
  | ⟨0, _⟩ => rfl
  | ⟨1, _⟩ => show (j 0).val % 4 * 512 + (j 1).val = (j 0).val % 4 * 512 + (j 1).val / 8 * 8 + (j 1).val % 8; omega
  | ⟨2, _⟩ =>
    show (act (Spec.posOf j)).toNat % 8192 = (act (Spec.posOf j)).toNat / 128 * 128 + ((act (Spec.posOf j)) &&& 127#32).toNat
    rw [toNat_and_127]; omega

end Cert.KernelIdeal.TileFacts

end
-- ==== Proof.TileFactsE.lean ====
/-
  A landed block copy leaves the block the round assigns to its slot.

  In the round that starts at position p0 of the worker's chunk, slot j receives the 8 × 128 block of
  the probabilities at row offset (w % 4)·512 + ((p0 + j) / 8)·8 and column offset (a / 128)·128, a
  the token at position p0 + j. Entry (r, c) of the slot is entry (j, r, c) of the buffer, entry
  (r, c) of the block is entry (w / 4, row offset + r, column offset + c) of the probabilities, and
  neither sum wraps: the row stays below 2048 and, the token being at most 8191, the column stays
  below 8192. So after the copy the buffer holds, on slot j, what the round's table says.
-/
import proofs.«212842_g47828755808845_cont_8to1c4_577_40_alg».proof.Proof.TileFactsB

noncomputable section

namespace Cert.KernelIdeal.TileFacts

open Cert.KernelIdeal Cert.KernelIdeal.Gen Cert.KernelIdeal.Common
open Idealize.ShloMosaic Idealize.ShloMosaic.ValueIdx
open Cert.KernelIdeal.Tile (slotSet wn wn_lt tokAt blkIdx GBlk)

variable {F : FTy → Type} [FloatOps F]
variable (m : (ℓ : Loc nD τ sig) → Buf (Elt F) ℓ) (d : Dev nD) (L : grid0.Coords)

/-- The 8 × 128 block of the probabilities at offsets `offs`, as the kernel forms it. -/
abbrev srcOf (offs : Fin 3 → ℕ) (hs : ∀ a, offs a + S1x8x128.size a ≤ S8x2048x8192.size a) :
    Memref sig .scVector .hbm S8x128 .f32 :=
  ((Memref.whole main_arg0_scv : Memref sig .scVector .hbm S8x2048x8192 .f32).slice
    (Rect.unit (s := S8x2048x8192) offs S1x8x128.size hs) (fun _ => rfl)).squeeze S8x128 squeezes_S1x8x128_S8x128

/-- The copy of the block for position p0 + j into slot j of the first block buffer leaves, on that slot, the round's block
    (whatever the buffer held). -/
theorem landed_X1 (hpre : Common.PreOK m) (p0 j : ℕ) (hj : j < 32) (hp : p0 + j < 512)
    (offd : Fin 3 → ℕ) (hd : ∀ a, offd a + S1x8x128.size a ≤ S32x8x128.size a) (hoff : IsSlotOff offd ⟨j, hj⟩)
    (offs : Fin 3 → ℕ) (hs : ∀ a, offs a + S1x8x128.size a ≤ S8x2048x8192.size a)
    (hs0 : offs 0 = wn L / 4) (hs1 : offs 1 = wn L % 4 * 512 + (p0 + j) / 8 * 8)
    (hs2 : offs 2 = (tokAt m d L (p0 + j)).toNat / 128 * 128)
    (fd : (slotOf X1 offd hd).view.ty.Contents (Elt F)) (i : S32x8x128.Idx) (hi : i ∈ slotSet ⟨j, hj⟩) :
    ((slotOf X1 offd hd).view.write (Elt F) fd
        (ReadAs.same.apply ((srcOf offs hs).view.read (Elt F) (m (predLoc d)))) Finset.univ) i
      = GBlk m d L p0 i := by
  have hi0 : (i 0).val = j := (mem_slotSet _ i).mp hi
  have hw := wn_lt L
  have htok : (tokAt m d L (p0 + j)).toNat ≤ 8191 := hpre d _
  let y : S8x128.Idx := ix2 (⟨(i 1).val, (i 1).isLt⟩ : Fin 8) (⟨(i 2).val, (i 2).isLt⟩ : Fin 128)
  have hy : (slotOf X1 offd hd).view.emb y = i := by
    rw [slot_emb_X1 offd hd ⟨j, hj⟩ hoff y]
    funext a
    apply Fin.ext
    match a with
    | ⟨0, _⟩ => exact hi0.symm
    | ⟨1, _⟩ => rfl
    | ⟨2, _⟩ => rfl
  have hsrc : (srcOf offs hs).view.emb y = blkIdx m d L p0 i := by
    refine (src_emb offs hs y).trans ?_
    funext a
    apply Fin.ext
    match a with
    | ⟨0, _⟩ => exact hs0
    | ⟨1, _⟩ =>
      show offs 1 + (i 1).val = (wn L % 4 * 512 + (p0 + (i 0).val) / 8 * 8 + (i 1).val) % 2048
      have b1 : (i 1).val < 8 := (i 1).isLt
      rw [hs1, hi0]; omega
    | ⟨2, _⟩ =>
      show offs 2 + (i 2).val = ((tokAt m d L (p0 + (i 0).val)).toNat / 128 * 128 + (i 2).val) % 8192
      have b2 : (i 2).val < 128 := (i 2).isLt
      rw [hs2, hi0]; omega
  calc ((slotOf X1 offd hd).view.write (Elt F) fd
          (ReadAs.same.apply ((srcOf offs hs).view.read (Elt F) (m (predLoc d)))) Finset.univ) i
      = ((slotOf X1 offd hd).view.write (Elt F) fd
          (ReadAs.same.apply ((srcOf offs hs).view.read (Elt F) (m (predLoc d)))) Finset.univ)
          ((slotOf X1 offd hd).view.emb y) := by rw [hy]
    _ = (srcOf offs hs).view.read (Elt F) (m (predLoc d)) y :=
        (View.write_emb_of_mem _ _ (Finset.mem_univ y)).trans (cast_eq _ _)
    _ = m (predLoc d) ((srcOf offs hs).view.emb y) := (View.read_apply _ _).trans (cast_eq _ _)
    _ = GBlk m d L p0 i := by rw [hsrc]; rfl

/-- The same for the second block buffer. -/
theorem landed_X2 (hpre : Common.PreOK m) (p0 j : ℕ) (hj : j < 32) (hp : p0 + j < 512)
    (offd : Fin 3 → ℕ) (hd : ∀ a, offd a + S1x8x128.size a ≤ S32x8x128.size a) (hoff : IsSlotOff offd ⟨j, hj⟩)
    (offs : Fin 3 → ℕ) (hs : ∀ a, offs a + S1x8x128.size a ≤ S8x2048x8192.size a)
    (hs0 : offs 0 = wn L / 4) (hs1 : offs 1 = wn L % 4 * 512 + (p0 + j) / 8 * 8)
    (hs2 : offs 2 = (tokAt m d L (p0 + j)).toNat / 128 * 128)
    (fd : (slotOf X2 offd hd).view.ty.Contents (Elt F)) (i : S32x8x128.Idx) (hi : i ∈ slotSet ⟨j, hj⟩) :
    ((slotOf X2 offd hd).view.write (Elt F) fd
        (ReadAs.same.apply ((srcOf offs hs).view.read (Elt F) (m (predLoc d)))) Finset.univ) i
      = GBlk m d L p0 i := by
  have hi0 : (i 0).val = j := (mem_slotSet _ i).mp hi
  have hw := wn_lt L
  have htok : (tokAt m d L (p0 + j)).toNat ≤ 8191 := hpre d _
  let y : S8x128.Idx := ix2 (⟨(i 1).val, (i 1).isLt⟩ : Fin 8) (⟨(i 2).val, (i 2).isLt⟩ : Fin 128)
  have hy : (slotOf X2 offd hd).view.emb y = i := by
    rw [slot_emb_X2 offd hd ⟨j, hj⟩ hoff y]
    funext a
    apply Fin.ext
    match a with
    | ⟨0, _⟩ => exact hi0.symm
    | ⟨1, _⟩ => rfl
    | ⟨2, _⟩ => rfl
  have hsrc : (srcOf offs hs).view.emb y = blkIdx m d L p0 i := by
    refine (src_emb offs hs y).trans ?_
    funext a
    apply Fin.ext
    match a with
    | ⟨0, _⟩ => exact hs0
    | ⟨1, _⟩ =>
      show offs 1 + (i 1).val = (wn L % 4 * 512 + (p0 + (i 0).val) / 8 * 8 + (i 1).val) % 2048
      have b1 : (i 1).val < 8 := (i 1).isLt
      rw [hs1, hi0]; omega
    | ⟨2, _⟩ =>
      show offs 2 + (i 2).val = ((tokAt m d L (p0 + (i 0).val)).toNat / 128 * 128 + (i 2).val) % 8192
      have b2 : (i 2).val < 128 := (i 2).isLt
      rw [hs2, hi0]; omega
  calc ((slotOf X2 offd hd).view.write (Elt F) fd
          (ReadAs.same.apply ((srcOf offs hs).view.read (Elt F) (m (predLoc d)))) Finset.univ) i
      = ((slotOf X2 offd hd).view.write (Elt F) fd
          (ReadAs.same.apply ((srcOf offs hs).view.read (Elt F) (m (predLoc d)))) Finset.univ)
          ((slotOf X2 offd hd).view.emb y) := by rw [hy]
    _ = (srcOf offs hs).view.read (Elt F) (m (predLoc d)) y :=
        (View.write_emb_of_mem _ _ (Finset.mem_univ y)).trans (cast_eq _ _)
    _ = m (predLoc d) ((srcOf offs hs).view.emb y) := (View.read_apply _ _).trans (cast_eq _ _)
    _ = GBlk m d L p0 i := by rw [hsrc]; rfl

end Cert.KernelIdeal.TileFacts

end
-- ==== Proof.TileFactsF.lean ====
/-
  The gathered lanes are the gathered values, and the output scratch fills 32 positions a round.

  With the round's blocks in a block buffer, lane l of lane group g reads slot 16·g + l at row l % 8
  and column a % 128, a the token at position p0 + 16·g + l. That slot holds the block whose rows
  start at ((p0 + 16·g + l) / 8)·8 and whose columns start at (a / 128)·128; p0 + 16·g being a
  multiple of 8, row l % 8 of it is position p0 + 16·g + l itself, and column a % 128 is the token's
  class: the entry read is the one the token selects, the worker's gathered value at that position.
  Two 16-lane stores of such values at n and n + 16 move the output scratch from "first n positions
  done" to "first n + 32 positions done".
-/
import proofs.«212842_g47828755808845_cont_8to1c4_577_40_alg».proof.Proof.TileFactsD
import Idealize.ShloMosaic.Lib.WritesUnit

noncomputable section

namespace Cert.KernelIdeal.TileFacts

open Cert.KernelIdeal Cert.KernelIdeal.Gen Cert.KernelIdeal.Common
open Idealize.ShloMosaic Idealize.ShloMosaic.ValueIdx
open Cert.KernelIdeal.Tile (wn wn_lt wL tokAt blkIdx GBlk gval OutF)

variable {F : FTy → Type} [FloatOps F]
variable (m : (ℓ : Loc nD τ sig) → Buf (Elt F) ℓ) (d : Dev nD) (L : grid0.Coords)

/-! ## The gathered lanes -/

/-- The position p of the worker's chunk, as an entry of the 32 × 512 arrangement. -/
abbrev posJ (p : ℕ) : S32x512.Idx := ix2 (wL L) (⟨p % 512, Nat.mod_lt _ (by decide)⟩ : Fin 512)

/-- The token at the position that entry stands for is the worker's token at position p. -/
theorem act_posJ (p : ℕ) : m (actLoc d) (Spec.posOf (posJ L p)) = tokAt m d L p := rfl

/-- The gathered value at position p is the probabilities' entry the token there selects. -/
theorem gval_eq (p : ℕ) : gval m d L p = m (predLoc d) (Spec.pick (F := F) (m (actLoc d)) (posJ L p)) := rfl

/-- The block entry lane l of group g names — slot 16·g + l, row l % 8, column a % 128 — is the entry the token a at
    position p0 + 16·g + l selects. -/
theorem blkIdx_lane (hpre : Common.PreOK m) (p0 g : ℕ) (hp : p0 + 16 * g + 16 ≤ 512) (h8 : p0 % 8 = 0) (l : Fin 16)
    (i : S32x8x128.Idx) (e0 : (i 0).val = 16 * g + l.val) (e1 : (i 1).val = l.val % 8)
    (e2 : (i 2).val = (tokAt m d L (p0 + 16 * g + l.val)).toNat % 128) :
    blkIdx m d L p0 i = Spec.pick (F := F) (m (actLoc d)) (posJ L (p0 + 16 * g + l.val)) := by
  have hw := wn_lt L
  have hl := l.isLt
  have htok : (tokAt m d L (p0 + 16 * g + l.val)).toNat ≤ 8191 := hpre d _
  have ea : p0 + (16 * g + l.val) = p0 + 16 * g + l.val := by omega
  funext a
  apply Fin.ext
  match a with
  | ⟨0, _⟩ => rfl
  | ⟨1, _⟩ =>
    show (wn L % 4 * 512 + (p0 + (i 0).val) / 8 * 8 + (i 1).val) % 2048 = wn L % 4 * 512 + (p0 + 16 * g + l.val) % 512
    rw [e0, e1]; omega
  | ⟨2, _⟩ =>
    show ((tokAt m d L (p0 + (i 0).val)).toNat / 128 * 128 + (i 2).val) % 8192
      = (tokAt m d L (p0 + 16 * g + l.val)).toNat % 8192
    rw [e0, ea, e2]; omega

/-- Lane l of the indexed load of lane group g out of a buffer that holds the round's blocks is the worker's gathered
    value at position p0 + 16·g + l. -/
theorem gather_lane (hpre : Common.PreOK m) (p0 g : ℕ) (hp : p0 + 16 * g + 16 ≤ 512) (h8 : p0 % 8 = 0)
    (i0 i1 i2 : IVec S16 32) (h : ∀ a x, ((![i0, i1, i2] : Fin 3 → IVec S16 32) a x).toNat < S32x8x128.size a)
    (l : Fin 16) (e0 : (i0 (ix1 l)).toNat = 16 * g + l.val) (e1 : (i1 (ix1 l)).toNat = l.val % 8)
    (e2 : (i2 (ix1 l)).toNat = (tokAt m d L (p0 + 16 * g + l.val)).toNat % 128) :
    loadIdx (F := F) (GBlk m d L p0) ![i0, i1, i2] h (ix1 l) = gval m d L (p0 + 16 * g + l.val) := by
  rw [loadIdx3_apply, gval_eq]
  exact congrArg (m (predLoc d)) (blkIdx_lane m d L hpre p0 g hp h8 l _ e0 e1 e2)

/-- What a load of a whole block buffer reads is its contents. -/
theorem read_whole_X1 (G : (Memref.whole cc0_scratch1 : Memref sig .scVector .vmem S32x8x128 .f32).view.ty.Contents (Elt F)) :
    ((Memref.whole cc0_scratch1 : Memref sig .scVector .vmem S32x8x128 .f32).access (Rect.whole S32x8x128)).read (Elt F) G = G :=
  Memref.read_access_whole (Elt F) cc0_scratch1 G
theorem read_whole_X2 (G : (Memref.whole cc0_scratch2 : Memref sig .scVector .vmem S32x8x128 .f32).view.ty.Contents (Elt F)) :
    ((Memref.whole cc0_scratch2 : Memref sig .scVector .vmem S32x8x128 .f32).access (Rect.whole S32x8x128)).read (Elt F) G = G :=
  Memref.read_access_whole (Elt F) cc0_scratch2 G
theorem readAt_whole_X1 (G : (Memref.whole cc0_scratch1 : Memref sig .scVector .vmem S32x8x128 .f32).view.ty.Contents (Elt F)) :
    (Memref.whole cc0_scratch1 : Memref sig .scVector .vmem S32x8x128 .f32).view.readAt (Elt F) (LoadRect.whole S32x8x128) G = G :=
  Memref.readAt_whole (Elt F) cc0_scratch1 G
theorem readAt_whole_X2 (G : (Memref.whole cc0_scratch2 : Memref sig .scVector .vmem S32x8x128 .f32).view.ty.Contents (Elt F)) :
    (Memref.whole cc0_scratch2 : Memref sig .scVector .vmem S32x8x128 .f32).view.readAt (Elt F) (LoadRect.whole S32x8x128) G = G :=
  Memref.readAt_whole (Elt F) cc0_scratch2 G

/-! ## The output scratch -/

/-- The output scratch, whole. -/
abbrev oBuf : Memref sig .scVector .vmem S512 .f32 := Memref.whole cc0_scratch3

/-- One 16-lane store of the gathered values of positions n … n + 15 at offset n: the first n + 16 positions are done. -/
theorem out_store (o0 : S512.Idx → Elt F .f32) (n : ℕ) (h1 : ∀ a, (![n] : Fin 1 → ℕ) a + S16.size a ≤ S512.size a)
    (v1 : S16.Idx → Elt F .f32) (hv1 : ∀ l : Fin 16, v1 (ix1 l) = gval m d L (n + l.val)) :
    oBuf.view.writes (Elt F) (OutF m d L o0 n) [⟨Rect.unit (s := S512) ![n] S16.size h1, v1⟩] = OutF m d L o0 (n + 16) := by
  funext i
  show oBuf.view.read (Elt F) (oBuf.view.writes (Elt F) (OutF m d L o0 n) [⟨Rect.unit (s := S512) ![n] S16.size h1, v1⟩]) i = _
  by_cases hin : n ≤ (i 0).val ∧ (i 0).val < n + 16
  · rw [View.read_writes_cons_unit_of_mem oBuf.view _ h1 v1 [] i (ix1 (⟨(i 0).val - n, by omega⟩ : Fin 16)) rfl
      (fun a => by match a with | ⟨0, _⟩ => show (i 0).val = n + ((i 0).val - n); omega)]
    rw [hv1]
    show _ = if (i 0).val < n + 16 then gval m d L (i 0).val else o0 i
    rw [if_pos hin.2]
    exact congrArg (gval m d L) (by show n + ((i 0).val - n) = (i 0).val; omega)
  · rw [View.read_writes_cons_unit_of_not_mem oBuf.view _ h1 v1 [] i rfl 0
      (by show (i 0).val < n ∨ n + 16 ≤ (i 0).val; omega)]
    show (if (i 0).val < n then gval m d L (i 0).val else o0 i) = if (i 0).val < n + 16 then gval m d L (i 0).val else o0 i
    by_cases hlt : (i 0).val < n
    · rw [if_pos hlt, if_pos (by omega)]
    · rw [if_neg hlt, if_neg (by omega)]

/-- Two 16-lane stores, of positions n … n + 15 at n and then of positions n + 16 … n + 31 at n + 16: the first n + 32
    positions are done. -/
theorem out_store2 (o0 : S512.Idx → Elt F .f32) (n : ℕ) (h1 : ∀ a, (![n] : Fin 1 → ℕ) a + S16.size a ≤ S512.size a)
    (h2 : ∀ a, (![n + 16] : Fin 1 → ℕ) a + S16.size a ≤ S512.size a) (v1 v2 : S16.Idx → Elt F .f32)
    (hv1 : ∀ l : Fin 16, v1 (ix1 l) = gval m d L (n + l.val)) (hv2 : ∀ l : Fin 16, v2 (ix1 l) = gval m d L (n + 16 + l.val)) :
    oBuf.view.writes (Elt F) (OutF m d L o0 n)
        [⟨Rect.unit (s := S512) ![n + 16] S16.size h2, v2⟩, ⟨Rect.unit (s := S512) ![n] S16.size h1, v1⟩]
      = OutF m d L o0 (n + 32) := by
  have e := out_store m d L o0 n h1 v1 hv1
  have e' := out_store m d L o0 (n + 16) h2 v2 hv2
  show oBuf.view.writes (Elt F) (oBuf.view.writes (Elt F) (OutF m d L o0 n) [⟨Rect.unit (s := S512) ![n] S16.size h1, v1⟩])
      [⟨Rect.unit (s := S512) ![n + 16] S16.size h2, v2⟩] = _
  rw [e, e', Nat.add_assoc]

end Cert.KernelIdeal.TileFacts

end
-- ==== Proof.TileRows.lean ====
/-
  The worker's two rows as its body slices them, read at an index: position p of its 512 tokens is the token at row
  w / 4, column (w % 4) · 512 + p of the token grid, and position p of its row of the gathered array is entry (w, p)
  of the 32 × 512 array. Hence what the body reads off its token row, and what its row of the gathered array holds once
  the full output scratch is written over it.
-/
import proofs.«212842_g47828755808845_cont_8to1c4_577_40_alg».proof.Proof.TileDefs

noncomputable section

namespace Cert.KernelIdeal.Tile

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "predV" => (Memref.whole Cert.KernelIdeal.main_arg0_scv : Memref Cert.KernelIdeal.sig Kind.scVector Space.hbm Cert.KernelIdeal.S8x2048x8192 EltTy.f32)
local notation "actV" => (Memref.whole Cert.KernelIdeal.main_arg1_scv : Memref Cert.KernelIdeal.sig Kind.scVector Space.hbm Cert.KernelIdeal.S8x2048 EltTy.i32)
local notation "valsV" => (Memref.whole Cert.KernelIdeal.main_v0_scv : Memref Cert.KernelIdeal.sig Kind.scVector Space.hbm Cert.KernelIdeal.S32x512 EltTy.f32)
local notation "aC" => (Memref.whole Cert.KernelIdeal.cc0_scratch0 : Memref Cert.KernelIdeal.sig Kind.scVector Space.vmem Cert.KernelIdeal.S528 EltTy.i32)
local notation "tA" => (Memref.whole Cert.KernelIdeal.cc0_scratch1 : Memref Cert.KernelIdeal.sig Kind.scVector Space.vmem Cert.KernelIdeal.S32x8x128 EltTy.f32)
local notation "tB" => (Memref.whole Cert.KernelIdeal.cc0_scratch2 : Memref Cert.KernelIdeal.sig Kind.scVector Space.vmem Cert.KernelIdeal.S32x8x128 EltTy.f32)
local notation "oB" => (Memref.whole Cert.KernelIdeal.cc0_scratch3 : Memref Cert.KernelIdeal.sig Kind.scVector Space.vmem Cert.KernelIdeal.S512 EltTy.f32)

variable (m : (ℓ : Loc nD τ sig) → Buf (Elt F) ℓ)
variable (d : Dev nD) (L : grid0.Coords)

/-! ## The worker's two rows as the body slices them, read at an index -/

/-- The offsets of the token row's slice, in closed form: row w / 4, from column (w % 4) · 512, w = 16 · core + subcore. -/
theorem k0_off1_closed : ∀ i : grid0.Coords,
    k0_off1 i = ![(16 * (i 0).val + (i 1).val) / 4, (16 * (i 0).val + (i 1).val) % 4 * 512] := by decide +kernel

/-- Dropping the leading axis of size one: entry p of the 512 is entry (0, p) of the 1 × 512. -/
theorem squeeze_idx (y : S512.Idx) :
    Shape.reshapeEquiv (s := S1x512) (s' := S512) squeezes_S1x512_S512.numel_eq y
      = ix2 (⟨0, Nat.one_pos⟩ : Fin 1) (⟨(y 0).val, (y 0).isLt⟩ : Fin 512) :=
  Shape.reshapeEquiv_eq_of_rowMajor _ (by
    rw [Shape.rowMajor_val_two, Shape.rowMajor_val_one]
    show 0 * 512 + (y 0).val = (y 0).val
    omega)

/-- Entry p of the worker's token row is the token at row w / 4, column (w % 4) · 512 + p. -/
theorem aRowK_emb (y : S512.Idx) :
    (aRowK L).view.emb y
      = ix2 (⟨wn L / 4, by have := wn_lt L; omega⟩ : Fin 8)
          (⟨wn L % 4 * 512 + (y 0).val, by have h : (y 0).val < 512 := (y 0).isLt; omega⟩ : Fin 2048) := by
  funext a
  refine Fin.ext ?_
  match a with
  | ⟨0, _⟩ =>
    show k0_off1 L 0 + 1 * ((Shape.reshapeEquiv squeezes_S1x512_S512.numel_eq) y 0).val = wn L / 4
    rw [squeeze_idx, k0_off1_closed]
    show (16 * (L 0).val + (L 1).val) / 4 + 1 * 0 = wn L / 4
    unfold wn; omega
  | ⟨1, _⟩ =>
    show k0_off1 L 1 + 1 * ((Shape.reshapeEquiv squeezes_S1x512_S512.numel_eq) y 1).val = wn L % 4 * 512 + (y 0).val
    rw [squeeze_idx, k0_off1_closed]
    show (16 * (L 0).val + (L 1).val) % 4 * 512 + 1 * (y 0).val = wn L % 4 * 512 + (y 0).val
    unfold wn; omega

/-- The token row read through the body's slice: position p of the row is the worker's token at position p. -/
theorem tokRow_apply (p : ℕ) (hp : p < 512) :
    ReadAs.same.apply ((aRowK L).view.read (Elt F) (m (actLoc d))) (ix1 (⟨p, hp⟩ : Fin 512)) = tokAt m d L p := by
  refine ((View.read_apply _ _).trans (cast_eq _ _)).trans ?_
  rw [aRowK_emb]
  unfold tokAt
  refine congrArg (m (actLoc d)) (funext fun a => Fin.ext ?_)
  match a with
  | ⟨0, _⟩ => rfl
  | ⟨1, _⟩ =>
    show wn L % 4 * 512 + p = wn L % 4 * 512 + p % 512
    rw [Nat.mod_eq_of_lt hp]

/-- Entry p of the worker's row of the gathered array is entry (w, p) of the array. -/
theorem vRowK_emb (y : S512.Idx) :
    (vRowK L).view.emb y = ix2 (wL L) (⟨(y 0).val, (y 0).isLt⟩ : Fin 512) := by
  funext a
  refine Fin.ext ?_
  match a with
  | ⟨0, _⟩ =>
    show k0_off23 L 0 + 1 * ((Shape.reshapeEquiv squeezes_S1x512_S512.numel_eq) y 0).val = wn L
    rw [squeeze_idx, k0_off23_eq]
    show 16 * (L 0).val + (L 1).val + 1 * 0 = wn L
    unfold wn; omega
  | ⟨1, _⟩ =>
    show k0_off23 L 1 + 1 * ((Shape.reshapeEquiv squeezes_S1x512_S512.numel_eq) y 1).val = (y 0).val
    rw [squeeze_idx, k0_off23_eq]
    show 0 + 1 * (y 0).val = (y 0).val
    omega

/-- The row of the gathered array, once the full output scratch is written over it, is at the gathered values. -/
theorem vRow_written (f : Buf (Elt F) (valsLoc d)) (o0 : S512.Idx → Elt F .f32) :
    ((vRowK L).view.loc (VT d L) ↦[(vRowK L).view.set]{fullShare}
        (vRowK L).view.write (Elt F) f (ReadAs.same.apply ((oB).view.read (Elt F) (OutF m d L o0 512))) Finset.univ : sProp 𝕄)
      = (vRowK L).view.loc (VT d L) ↦[(vRowK L).view.set]{fullShare} Gv m d := by
  refine pointsTo_congr fun i hi => ?_
  obtain ⟨y, -, rfl⟩ := Finset.mem_map.mp hi
  rw [View.write_emb_of_mem _ _ (Finset.mem_univ y)]
  refine (cast_eq _ _).trans ?_
  refine ((View.read_apply _ _).trans (cast_eq _ _)).trans ?_
  rw [vRowK_emb]
  show OutF m d L o0 512 y = _
  have hy : (y 0).val < 512 := (y 0).isLt
  unfold OutF
  rw [if_pos hy]
  unfold gval
  refine congrArg (Gv m d) (funext fun a => Fin.ext ?_)
  match a with
  | ⟨0, _⟩ => rfl
  | ⟨1, _⟩ =>
    show (y 0).val % 512 = (y 0).val
    exact Nat.mod_eq_of_lt hy

end Cert.KernelIdeal.Tile

end
-- ==== Proof.TileFactsG.lean ====
/-
  What each block copy delivers, and the gathered lanes as whole vectors.

  The word the worker reads before a copy is lane 0 of a 16-lane load of its token scratch at the
  position's offset: the token at that position. With it the copy's source is the block the round
  assigns to the slot, so what the copy leaves on the slot — the slot rewritten with the block read
  off the probabilities — is the round's table there, and the source's share comes back unchanged.
  The three copy loops differ in the buffer, the round's first position and the offset functions
  only. The 16 lanes an indexed load gathers from a buffer holding the round's table are the worker's
  16 gathered values from the lane group's first position on.
-/
import proofs.«212842_g47828755808845_cont_8to1c4_577_40_alg».proof.Proof.TileFactsE
import proofs.«212842_g47828755808845_cont_8to1c4_577_40_alg».proof.Proof.TileFactsF
import proofs.«212842_g47828755808845_cont_8to1c4_577_40_alg».proof.Proof.TileFactsC
import proofs.«212842_g47828755808845_cont_8to1c4_577_40_alg».proof.Proof.TileRows

noncomputable section

namespace Cert.KernelIdeal.TileFacts

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.KernelIdeal.Tile (slotSet wn wn_lt wL tokAt blkIdx GBlk gval OutF)

variable {F : FTy → Type} [FloatOps F]

local notation "𝕄" => MT nD τ sig (HIx 1) (Elt F) ℕ UU ℕ
local notation "aC" => (Memref.whole Cert.KernelIdeal.cc0_scratch0 : Memref Cert.KernelIdeal.sig Kind.scVector Space.vmem Cert.KernelIdeal.S528 EltTy.i32)

variable (m : (ℓ : Loc nD τ sig) → Buf (Elt F) ℓ) (d : Dev nD) (L : grid0.Coords)

/-! ## The tokens in the scratch -/

/-- The worker's 512 tokens, as the copy into the scratch carries them. -/
abbrev tokPay : S512.Idx → Elt F .i32 := ReadAs.same.apply ((Tile.aRowK L).view.read (Elt F) (m (actLoc d)))

/-- The token scratch after that copy, over earlier contents a0. -/
abbrev actScr (a0 : Buf (Elt F) ((aC).view.loc (Tile.VT d L))) : Buf (Elt F) ((aC).view.loc (Tile.VT d L)) :=
  (aC).view.writes (Elt F) a0 [⟨Rect.unit ![0] S512.size inb_S528_S512_0, tokPay m d L⟩]

/-- A 16-lane load of the token scratch at offset `off`. -/
abbrev tokVec (a0 : Buf (Elt F) ((aC).view.loc (Tile.VT d L))) (off : Fin 1 → ℕ)
    (hinb : ∀ a, off a + S16.size a ≤ S528.size a) : Vec F S16 .i32 :=
  View.readAt (Elt F) (aC).view (Rect.unit (s := S528) off S16.size hinb).toLoadRect (actScr m d L a0)

/-- Lane l of that load is the token at position off + l, while that is below 512. -/
theorem tokVec_lane (a0 : Buf (Elt F) ((aC).view.loc (Tile.VT d L))) (off : Fin 1 → ℕ)
    (hinb : ∀ a, off a + S16.size a ≤ S528.size a) (l : Fin 16) (h : off 0 + l.val < 512) :
    tokVec m d L a0 off hinb (ix1 l) = tokAt m d L (off 0 + l.val) :=
  (readAt_tokens_scratch a0 (tokPay m d L) off hinb l h).trans (Tile.tokRow_apply m d L _ h)

theorem tokAt_le (hpre : Common.PreOK m) (p : ℕ) : (tokAt m d L p).toNat ≤ 8191 := hpre d _

theorem tokPay_le (hpre : Common.PreOK m) (x : S512.Idx) : (tokPay m d L x).toNat ≤ 8191 := by
  have e : tokPay m d L x = tokAt m d L (x 0).val := by
    conv_lhs => rw [eq_ix1 x]
    exact Tile.tokRow_apply m d L (x 0).val (x 0).isLt
  rw [e]
  exact tokAt_le m d L hpre _

/-! ## The word read before each copy -/

/-- The word the first copy loop reads at trip j: lane 0 of the load at the trip's offset. -/
abbrev word1 (a0 : Buf (Elt F) ((aC).view.loc (Tile.VT d L))) (j : Fin k0_t1_loop.trips) : BitVec 32 :=
  extractAt ![0] (k0_pay1 (tokVec m d L a0 (k0_off2 j) (k0_off2_inb j))) inpos_S1_p0
/-- The word the second copy loop reads in round k at trip j. -/
abbrev word2 (a0 : Buf (Elt F) ((aC).view.loc (Tile.VT d L))) (k : Fin k0_t2_loop.trips) (j : Fin k0_t3_loop.trips) : BitVec 32 :=
  extractAt ![0] (k0_pay9 (tokVec m d L a0 (k0_off5 k j) (k0_off5_inb k j))) inpos_S1_p0
/-- The word the prefetch loop reads in round k at trip j. -/
abbrev word5 (a0 : Buf (Elt F) ((aC).view.loc (Tile.VT d L))) (k : Fin k0_t2_loop.trips) (j : Fin k0_t5_loop.trips)
    (h1 : k0_cond1 k = 1#1) : BitVec 32 :=
  extractAt ![0] (k0_pay2 (tokVec m d L a0 (k0_off14 k j) (k0_off14_inb k j h1))) inpos_S1_p0

/-- It is the token at position j. -/
theorem word1_eq (a0 : Buf (Elt F) ((aC).view.loc (Tile.VT d L))) (j : Fin k0_t1_loop.trips) :
    word1 m d L a0 j = tokAt m d L j.val := by
  have hj := trips1_le j
  have e : k0_off2 j 0 = j.val := by rw [k0_off2_eq]; rfl
  refine (extract_pay1 _).trans ?_
  refine (tokVec_lane m d L a0 (k0_off2 j) (k0_off2_inb j) 0 (by rw [e]; show j.val + 0 < 512; omega)).trans ?_
  rw [e]; rfl
/-- It is the token at position 64·k + 32 + j. -/
theorem word2_eq (a0 : Buf (Elt F) ((aC).view.loc (Tile.VT d L))) (k : Fin k0_t2_loop.trips) (j : Fin k0_t3_loop.trips) :
    word2 m d L a0 k j = tokAt m d L (64 * k.val + 32 + j.val) := by
  have hk := trips2_le k
  have hj := trips3_le j
  have e : k0_off5 k j 0 = 64 * k.val + j.val + 32 := by rw [k0_off5_eq]; rfl
  refine (extract_pay9 _).trans ?_
  refine (tokVec_lane m d L a0 (k0_off5 k j) (k0_off5_inb k j) 0 (by rw [e]; show 64 * k.val + j.val + 32 + 0 < 512; omega)).trans ?_
  rw [e]
  exact congrArg (tokAt m d L) (by show 64 * k.val + j.val + 32 + 0 = 64 * k.val + 32 + j.val; omega)
/-- It is the token at position 64·(k + 1) + j. -/
theorem word5_eq (a0 : Buf (Elt F) ((aC).view.loc (Tile.VT d L))) (k : Fin k0_t2_loop.trips) (j : Fin k0_t5_loop.trips)
    (h1 : k0_cond1 k = 1#1) : word5 m d L a0 k j h1 = tokAt m d L (64 * (k.val + 1) + j.val) := by
  have hk : k.val < 7 := (cond1_iff k).mp h1
  have hj := trips5_le j
  have e : k0_off14 k j 0 = 64 * k.val + j.val + 64 := by rw [k0_off14_eq]; rfl
  refine (extract_pay2 _).trans ?_
  refine (tokVec_lane m d L a0 (k0_off14 k j) (k0_off14_inb k j h1) 0 (by rw [e]; show 64 * k.val + j.val + 64 + 0 < 512; omega)).trans ?_
  rw [e]
  exact congrArg (tokAt m d L) (by show 64 * k.val + j.val + 64 + 0 = 64 * (k.val + 1) + j.val; omega)

/-! ## What each copy delivers -/

/-- Slot t of the first block buffer at the table of the round that starts at position p0. -/
abbrev DA (p0 : ℕ) (t : Fin 32) : sProp 𝕄 := (X1).view.loc (Tile.VT d L) ↦[slotSet t]{fullShare} GBlk m d L p0
/-- The same for the second block buffer. -/
abbrev DB (p0 : ℕ) (t : Fin 32) : sProp 𝕄 := (X2).view.loc (Tile.VT d L) ↦[slotSet t]{fullShare} GBlk m d L p0

/-- Trip j of the first copy loop: slot j of the first buffer at the first round's table. -/
theorem deliver1 (hpre : Common.PreOK m) (a0 : Buf (Elt F) ((aC).view.loc (Tile.VT d L))) (j : Fin k0_t1_loop.trips)
    (hw : k0_chk1 L j (word1 m d L a0 j)) (q : PosShare TreeShare)
    (fd : Buf (Elt F) ((slotOf X1 (k0_off3 j) (k0_off3_inb j)).view.loc (Tile.VT d L))) :
    (iprop(((slotOf X1 (k0_off3 j) (k0_off3_inb j)).view.loc (Tile.VT d L) ↦[slotSet ⟨j.val, trips1_le j⟩]{fullShare}
          ((slotOf X1 (k0_off3 j) (k0_off3_inb j)).view.write (Elt F) fd
            (ReadAs.same.apply ((srcOf (k0_off4 L j (word1 m d L a0 j)) (k0_off4_inb L j (word1 m d L a0 j) hw)).view.read (Elt F) (m (predLoc d)))) Finset.univ))
        ∗ ((srcOf (k0_off4 L j (word1 m d L a0 j)) (k0_off4_inb L j (word1 m d L a0 j) hw)).view.loc (Tile.VT d L)
            ↦[(srcOf (k0_off4 L j (word1 m d L a0 j)) (k0_off4_inb L j (word1 m d L a0 j) hw)).view.set]{q} m (predLoc d))) : sProp 𝕄)
      ⊢ DA m d L (0) ⟨j.val, trips1_le j⟩ := by
  have hj := trips1_le j
  have hW := word1_eq m d L a0 j
  have hWle : (word1 m d L a0 j).toNat ≤ 8191 := by rw [hW]; exact tokAt_le m d L hpre _
  have hoff := k0_off4_wn L j _ hWle
  refine sep_elim_left.trans (Entails.of_eq (pointsTo_congr fun i hi => ?_))
  exact landed_X1 m d L hpre (0) j.val hj (by omega) (k0_off3 j) (k0_off3_inb j) (isSlotOff_off3 j) _ _
    ((congrFun hoff 0).trans rfl)
    ((congrFun hoff 1).trans (by
      show wn L % 4 * 512 + j.val / 8 * 8 = wn L % 4 * 512 + (0 + j.val) / 8 * 8
      omega))
    ((congrFun hoff 2).trans (by
      show (word1 m d L a0 j).toNat / 128 * 128 = (tokAt m d L (0 + j.val)).toNat / 128 * 128
      refine (congrArg (fun w : BitVec 32 => w.toNat / 128 * 128) hW).trans ?_
      exact congrArg (fun p => (tokAt m d L p).toNat / 128 * 128) (by omega))) fd i hi

/-- Trip j of round k's second copy loop: slot j of the second buffer at the table of the round from 64·k + 32. -/
theorem deliver2 (hpre : Common.PreOK m) (a0 : Buf (Elt F) ((aC).view.loc (Tile.VT d L))) (k : Fin k0_t2_loop.trips) (j : Fin k0_t3_loop.trips)
    (hw : k0_chk2 L k j (word2 m d L a0 k j)) (q : PosShare TreeShare)
    (fd : Buf (Elt F) ((slotOf X2 (k0_off6 j) (k0_off6_inb j)).view.loc (Tile.VT d L))) :
    (iprop(((slotOf X2 (k0_off6 j) (k0_off6_inb j)).view.loc (Tile.VT d L) ↦[slotSet ⟨j.val, trips3_le j⟩]{fullShare}
          ((slotOf X2 (k0_off6 j) (k0_off6_inb j)).view.write (Elt F) fd
            (ReadAs.same.apply ((srcOf (k0_off7 L k j (word2 m d L a0 k j)) (k0_off7_inb L k j (word2 m d L a0 k j) hw)).view.read (Elt F) (m (predLoc d)))) Finset.univ))
        ∗ ((srcOf (k0_off7 L k j (word2 m d L a0 k j)) (k0_off7_inb L k j (word2 m d L a0 k j) hw)).view.loc (Tile.VT d L)
            ↦[(srcOf (k0_off7 L k j (word2 m d L a0 k j)) (k0_off7_inb L k j (word2 m d L a0 k j) hw)).view.set]{q} m (predLoc d))) : sProp 𝕄)
      ⊢ DB m d L (64 * k.val + 32) ⟨j.val, trips3_le j⟩ := by
  have hj := trips3_le j
  have hk := trips2_le k
  have hW := word2_eq m d L a0 k j
  have hWle : (word2 m d L a0 k j).toNat ≤ 8191 := by rw [hW]; exact tokAt_le m d L hpre _
  have hoff := k0_off7_wn L k j _ hWle
  refine sep_elim_left.trans (Entails.of_eq (pointsTo_congr fun i hi => ?_))
  exact landed_X2 m d L hpre (64 * k.val + 32) j.val hj (by omega) (k0_off6 j) (k0_off6_inb j) (isSlotOff_off6 j) _ _
    ((congrFun hoff 0).trans rfl)
    ((congrFun hoff 1).trans (by
      show wn L % 4 * 512 + 64 * k.val + 32 + j.val / 8 * 8 = wn L % 4 * 512 + (64 * k.val + 32 + j.val) / 8 * 8
      omega))
    ((congrFun hoff 2).trans (by
      show (word2 m d L a0 k j).toNat / 128 * 128 = (tokAt m d L (64 * k.val + 32 + j.val)).toNat / 128 * 128
      refine (congrArg (fun w : BitVec 32 => w.toNat / 128 * 128) hW).trans ?_
      exact congrArg (fun p => (tokAt m d L p).toNat / 128 * 128) (by omega))) fd i hi

/-- Trip j of round k's prefetch loop (k < 7): slot j of the first buffer at the table of the round from 64·(k + 1). -/
theorem deliver5 (hpre : Common.PreOK m) (a0 : Buf (Elt F) ((aC).view.loc (Tile.VT d L))) (k : Fin k0_t2_loop.trips) (h1 : k0_cond1 k = 1#1) (j : Fin k0_t5_loop.trips)
    (hw : k0_chk5 L k j (word5 m d L a0 k j h1)) (q : PosShare TreeShare)
    (fd : Buf (Elt F) ((slotOf X1 (k0_off15 j) (k0_off15_inb k j h1)).view.loc (Tile.VT d L))) :
    (iprop(((slotOf X1 (k0_off15 j) (k0_off15_inb k j h1)).view.loc (Tile.VT d L) ↦[slotSet ⟨j.val, trips5_le j⟩]{fullShare}
          ((slotOf X1 (k0_off15 j) (k0_off15_inb k j h1)).view.write (Elt F) fd
            (ReadAs.same.apply ((srcOf (k0_off16 L k j (word5 m d L a0 k j h1)) (k0_off16_inb L k j (word5 m d L a0 k j h1) hw h1)).view.read (Elt F) (m (predLoc d)))) Finset.univ))
        ∗ ((srcOf (k0_off16 L k j (word5 m d L a0 k j h1)) (k0_off16_inb L k j (word5 m d L a0 k j h1) hw h1)).view.loc (Tile.VT d L)
            ↦[(srcOf (k0_off16 L k j (word5 m d L a0 k j h1)) (k0_off16_inb L k j (word5 m d L a0 k j h1) hw h1)).view.set]{q} m (predLoc d))) : sProp 𝕄)
      ⊢ DA m d L (64 * (k.val + 1)) ⟨j.val, trips5_le j⟩ := by
  have hj := trips5_le j
  have hk : k.val < 7 := (cond1_iff k).mp h1
  have hW := word5_eq m d L a0 k j h1
  have hWle : (word5 m d L a0 k j h1).toNat ≤ 8191 := by rw [hW]; exact tokAt_le m d L hpre _
  have hoff := k0_off16_wn L k j _ hWle
  refine sep_elim_left.trans (Entails.of_eq (pointsTo_congr fun i hi => ?_))
  exact landed_X1 m d L hpre (64 * (k.val + 1)) j.val hj (by omega) (k0_off15 j) (k0_off15_inb k j h1) (isSlotOff_off15 j) _ _
    ((congrFun hoff 0).trans rfl)
    ((congrFun hoff 1).trans (by
      show wn L % 4 * 512 + 64 * k.val + 64 + j.val / 8 * 8 = wn L % 4 * 512 + (64 * (k.val + 1) + j.val) / 8 * 8
      omega))
    ((congrFun hoff 2).trans (by
      show (word5 m d L a0 k j h1).toNat / 128 * 128 = (tokAt m d L (64 * (k.val + 1) + j.val)).toNat / 128 * 128
      refine (congrArg (fun w : BitVec 32 => w.toNat / 128 * 128) hW).trans ?_
      exact congrArg (fun p => (tokAt m d L p).toNat / 128 * 128) (by omega))) fd i hi

/-- A slot's elements lie in its slot of the buffer. -/
theorem slot_sub1 (j : Fin k0_t1_loop.trips) :
    (slotOf X1 (k0_off3 j) (k0_off3_inb j)).view.set ⊆ slotSet ⟨j.val, trips1_le j⟩ :=
  (slot_set_X1 _ _ _ (isSlotOff_off3 j)).subset
theorem slot_sub2 (j : Fin k0_t3_loop.trips) :
    (slotOf X2 (k0_off6 j) (k0_off6_inb j)).view.set ⊆ slotSet ⟨j.val, trips3_le j⟩ :=
  (slot_set_X2 _ _ _ (isSlotOff_off6 j)).subset
theorem slot_sub5 (k : Fin k0_t2_loop.trips) (h1 : k0_cond1 k = 1#1) (j : Fin k0_t5_loop.trips) :
    (slotOf X1 (k0_off15 j) (k0_off15_inb k j h1)).view.set ⊆ slotSet ⟨j.val, trips5_le j⟩ :=
  (slot_set_X1 _ _ _ (isSlotOff_off15 j)).subset

end Cert.KernelIdeal.TileFacts

end
-- ==== Proof.TileFactsH.lean ====
/-
  A whole block buffer, held at one share, is its 32 slots held at that share.

  A points-to fact over a set of elements that is the union of a finite family of pairwise disjoint
  sets is the separating conjunction of the points-to facts over the family's sets. The slots of a
  block buffer are such a family for the whole buffer.
-/
import proofs.«212842_g47828755808845_cont_8to1c4_577_40_alg».proof.Proof.TileFactsB
import Idealize.ShloMosaic.Rules.PointsTo

noncomputable section

namespace Cert.KernelIdeal.TileFacts

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.KernelIdeal.Tile (slotSet wn wn_lt wL tokAt blkIdx GBlk gval OutF)

section Cover
variable {nD : Nat} {τ : Topo} {sig : RefSig} {Ix : Type} [DecidableEq Ix]
variable {Val : EltTy → Type} {Name : Type} [DecidableEq Name]
variable {U : Type} [URA U]
variable {Lvl : Type}

/-- Over a set that a finite family of pairwise disjoint sets covers exactly, a points-to fact is the separating
    conjunction of the family's. -/
theorem pointsTo_of_cover {ℓ : Loc nD τ sig} {T : Type} [Fintype T] (K : T → Finset (Idx ℓ)) (S : Finset (Idx ℓ))
    (hd : ∀ t t', t ≠ t' → Disjoint (K t) (K t')) (hS : ∀ i, i ∈ S ↔ ∃ t, i ∈ K t) (q : PosShare TreeShare) (f : Buf Val ℓ) :
    (ℓ ↦[S]{q} f : sProp (MT nD τ sig Ix Val Name U Lvl)) = bigSep Finset.univ fun t => ℓ ↦[K t]{q} f := by
  classical
  have e : S = Finset.univ.biUnion K := by
    ext i
    rw [hS i]
    simp only [Finset.mem_biUnion, Finset.mem_univ, true_and]
  rw [e]
  exact pointsTo_biUnion Finset.univ K fun t _ t' _ h => hd t t' h

end Cover

variable {F : FTy → Type} [FloatOps F]

local notation "𝕄" => MT nD τ sig (HIx 1) (Elt F) ℕ UU ℕ

/-- Every element of the first block buffer lies in one of its slots. -/
theorem mem_set_X1 (d : Dev nD) (L : grid0.Coords) (i : Idx (X1.view.loc (Tile.VT d L))) :
    i ∈ X1.view.set ↔ ∃ t : Fin 32, i ∈ (slotSet t : Finset (Idx (X1.view.loc (Tile.VT d L)))) := by
  rw [show X1.view.set = Finset.univ from View.set_whole cc0_scratch1]
  exact ⟨fun _ => ⟨⟨((show S32x8x128.Idx from i) 0).val, ((show S32x8x128.Idx from i) 0).isLt⟩,
      (mem_slotSet _ (show S32x8x128.Idx from i)).mpr rfl⟩, fun _ => Finset.mem_univ _⟩

theorem slots_eq_X1 (d : Dev nD) (L : grid0.Coords) (q : PosShare TreeShare) (f : Buf (Elt F) (X1.view.loc (Tile.VT d L))) :
    (X1.view.loc (Tile.VT d L) ↦[X1.view.set]{q} f : sProp 𝕄)
      = bigSep Finset.univ fun t : Fin 32 => X1.view.loc (Tile.VT d L) ↦[slotSet t]{q} f :=
  pointsTo_of_cover (ℓ := X1.view.loc (Tile.VT d L)) (fun t : Fin 32 => slotSet t) X1.view.set
    (fun _ _ h => slotSet_disjoint h) (mem_set_X1 d L) q f

/-- The same for the second block buffer. -/
theorem mem_set_X2 (d : Dev nD) (L : grid0.Coords) (i : Idx (X2.view.loc (Tile.VT d L))) :
    i ∈ X2.view.set ↔ ∃ t : Fin 32, i ∈ (slotSet t : Finset (Idx (X2.view.loc (Tile.VT d L)))) := by
  rw [show X2.view.set = Finset.univ from View.set_whole cc0_scratch2]
  exact ⟨fun _ => ⟨⟨((show S32x8x128.Idx from i) 0).val, ((show S32x8x128.Idx from i) 0).isLt⟩,
      (mem_slotSet _ (show S32x8x128.Idx from i)).mpr rfl⟩, fun _ => Finset.mem_univ _⟩

theorem slots_eq_X2 (d : Dev nD) (L : grid0.Coords) (q : PosShare TreeShare) (f : Buf (Elt F) (X2.view.loc (Tile.VT d L))) :
    (X2.view.loc (Tile.VT d L) ↦[X2.view.set]{q} f : sProp 𝕄)
      = bigSep Finset.univ fun t : Fin 32 => X2.view.loc (Tile.VT d L) ↦[slotSet t]{q} f :=
  pointsTo_of_cover (ℓ := X2.view.loc (Tile.VT d L)) (fun t : Fin 32 => slotSet t) X2.view.set
    (fun _ _ h => slotSet_disjoint h) (mem_set_X2 d L) q f

end Cert.KernelIdeal.TileFacts

end
-- ==== Proof.TileFactsI.lean ====
/-
  The 16 gathered lanes as whole vectors, and the output scratch after a round's two stores.

  With the round's table in a block buffer and the 16 tokens of positions p0 + 16·g … p0 + 16·g + 15
  in a vector, the index vectors (16·g + lane, lane % 8, token masked with 127) gather the worker's
  16 gathered values of those positions. A round stores the two lane groups at 64·k and 64·k + 16
  (from the first buffer) and at 64·k + 32 and 64·k + 48 (from the second): the output scratch goes
  from its first 64·k positions done to 64·k + 32, and from there to 64·(k + 1).
-/
import proofs.«212842_g47828755808845_cont_8to1c4_577_40_alg».proof.Proof.TileFactsG

noncomputable section

namespace Cert.KernelIdeal.TileFacts

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.KernelIdeal.Tile (slotSet wn wn_lt wL tokAt blkIdx GBlk gval OutF)

variable {F : FTy → Type} [FloatOps F]

local notation "𝕄" => MT nD τ sig (HIx 1) (Elt F) ℕ UU ℕ
local notation "aC" => (Memref.whole Cert.KernelIdeal.cc0_scratch0 : Memref Cert.KernelIdeal.sig Kind.scVector Space.vmem Cert.KernelIdeal.S528 EltTy.i32)
local notation "tA" => (Memref.whole Cert.KernelIdeal.cc0_scratch1 : Memref Cert.KernelIdeal.sig Kind.scVector Space.vmem Cert.KernelIdeal.S32x8x128 EltTy.f32)
local notation "tB" => (Memref.whole Cert.KernelIdeal.cc0_scratch2 : Memref Cert.KernelIdeal.sig Kind.scVector Space.vmem Cert.KernelIdeal.S32x8x128 EltTy.f32)
local notation "oB" => (Memref.whole Cert.KernelIdeal.cc0_scratch3 : Memref Cert.KernelIdeal.sig Kind.scVector Space.vmem Cert.KernelIdeal.S512 EltTy.f32)

variable (m : (ℓ : Loc nD τ sig) → Buf (Elt F) ℓ) (d : Dev nD) (L : grid0.Coords)

/-! ## The gathered lanes as whole vectors -/

/-- Index vectors that are, lane by lane, 16·g + lane, lane % 8 and the lane's token masked with 127 gather, from a
    buffer holding the round's table, the gathered values of positions p0 + 16·g + lane. -/
theorem gather_vec (hpre : Common.PreOK m) (p0 g : ℕ) (hg : g < 2) (hp : p0 + 16 * g + 16 ≤ 512) (h8 : p0 % 8 = 0)
    (i0 i1 i2 : IVec S16 32) (h : ∀ a x, ((![i0, i1, i2] : Fin 3 → IVec S16 32) a x).toNat < S32x8x128.size a)
    (v : Vec F S16 .i32) (hv : ∀ l : Fin 16, v (ix1 l) = tokAt m d L (p0 + 16 * g + l.val))
    (e0 : ∀ l : Fin 16, i0 (ix1 l) = BitVec.ofNat 32 (16 * g + l.val))
    (e1 : ∀ l : Fin 16, i1 (ix1 l) = BitVec.ofNat 32 (l.val % 8))
    (e2 : ∀ l : Fin 16, i2 (ix1 l) = v (ix1 l) &&& 127#32) (l : Fin 16) :
    loadIdx (F := F) (GBlk m d L p0) ![i0, i1, i2] h (ix1 l) = gval m d L (p0 + 16 * g + l.val) := by
  have hl := l.isLt
  refine gather_lane m d L hpre p0 g hp h8 i0 i1 i2 h l ?_ ?_ ?_
  · rw [e0, BitVec.toNat_ofNat]; exact Nat.mod_eq_of_lt (by omega)
  · rw [e1, toNat_lane_mod]
  · rw [e2, toNat_and_127, hv]

/-- The first lane group, with the index vectors written out. -/
theorem gather_raw0 (hpre : Common.PreOK m) (p0 : ℕ) (hp : p0 + 16 ≤ 512) (h8 : p0 % 8 = 0) (v : Vec F S16 .i32)
    (hv : ∀ l : Fin 16, v (ix1 l) = tokAt m d L (p0 + l.val))
    (h : ∀ a x, ((![addi (broadcast S16 (0#32 : BitVec 32)) lanes, andi lanes (broadcast S16 (7#32 : BitVec 32)),
        andi v (broadcast S16 (127#32 : BitVec 32))] : Fin 3 → IVec S16 32) a x).toNat < S32x8x128.size a) (l : Fin 16) :
    loadIdx (F := F) (GBlk m d L p0) ![addi (broadcast S16 (0#32 : BitVec 32)) lanes, andi lanes (broadcast S16 (7#32 : BitVec 32)),
        andi v (broadcast S16 (127#32 : BitVec 32))] h (ix1 l) = gval m d L (p0 + l.val) :=
  (gather_vec m d L hpre p0 0 (by omega) (by omega) h8 _ _ _ h v
    (fun l => (hv l).trans (congrArg (tokAt m d L) (by omega)))
    (fun l => (pay10_apply l).trans (congrArg (BitVec.ofNat 32) (by omega))) (fun l => pay11_apply l) (fun l => rfl) l).trans
    (congrArg (gval m d L) (by omega))

/-- The second lane group, with the index vectors written out. -/
theorem gather_raw16 (hpre : Common.PreOK m) (p0 : ℕ) (hp : p0 + 32 ≤ 512) (h8 : p0 % 8 = 0) (v : Vec F S16 .i32)
    (hv : ∀ l : Fin 16, v (ix1 l) = tokAt m d L (p0 + 16 + l.val))
    (h : ∀ a x, ((![addi (broadcast S16 (16#32 : BitVec 32)) lanes, andi lanes (broadcast S16 (7#32 : BitVec 32)),
        andi v (broadcast S16 (127#32 : BitVec 32))] : Fin 3 → IVec S16 32) a x).toNat < S32x8x128.size a) (l : Fin 16) :
    loadIdx (F := F) (GBlk m d L p0) ![addi (broadcast S16 (16#32 : BitVec 32)) lanes, andi lanes (broadcast S16 (7#32 : BitVec 32)),
        andi v (broadcast S16 (127#32 : BitVec 32))] h (ix1 l) = gval m d L (p0 + 16 + l.val) :=
  (gather_vec m d L hpre p0 1 (by omega) (by omega) h8 _ _ _ h v
    (fun l => (hv l).trans (congrArg (tokAt m d L) (by omega)))
    (fun l => (pay13_apply l).trans (congrArg (BitVec.ofNat 32) (by omega))) (fun l => pay14_apply l) (fun l => rfl) l).trans
    (congrArg (gval m d L) (by omega))

/-- The first lane group through the generated index payloads. -/
theorem gather_pay345 (hpre : Common.PreOK m) (p0 : ℕ) (hp : p0 + 16 ≤ 512) (h8 : p0 % 8 = 0) (v : Vec F S16 .i32)
    (hv : ∀ l : Fin 16, v (ix1 l) = tokAt m d L (p0 + l.val))
    (h : ∀ a x, ((![k0_pay3, k0_pay4, k0_pay5 v] : Fin 3 → IVec S16 32) a x).toNat < S32x8x128.size a) (l : Fin 16) :
    loadIdx (F := F) (GBlk m d L p0) ![k0_pay3, k0_pay4, k0_pay5 v] h (ix1 l) = gval m d L (p0 + l.val) :=
  (gather_vec m d L hpre p0 0 (by omega) (by omega) h8 _ _ _ h v
    (fun l => (hv l).trans (congrArg (tokAt m d L) (by omega)))
    (fun l => (pay3_apply l).trans (congrArg (BitVec.ofNat 32) (by omega))) (fun l => pay4_apply l) (fun l => rfl) l).trans
    (congrArg (gval m d L) (by omega))

/-- The second lane group through the generated index payloads. -/
theorem gather_pay678 (hpre : Common.PreOK m) (p0 : ℕ) (hp : p0 + 32 ≤ 512) (h8 : p0 % 8 = 0) (v : Vec F S16 .i32)
    (hv : ∀ l : Fin 16, v (ix1 l) = tokAt m d L (p0 + 16 + l.val))
    (h : ∀ a x, ((![k0_pay6, k0_pay7, k0_pay8 v] : Fin 3 → IVec S16 32) a x).toNat < S32x8x128.size a) (l : Fin 16) :
    loadIdx (F := F) (GBlk m d L p0) ![k0_pay6, k0_pay7, k0_pay8 v] h (ix1 l) = gval m d L (p0 + 16 + l.val) :=
  (gather_vec m d L hpre p0 1 (by omega) (by omega) h8 _ _ _ h v
    (fun l => (hv l).trans (congrArg (tokAt m d L) (by omega)))
    (fun l => (pay6_apply l).trans (congrArg (BitVec.ofNat 32) (by omega))) (fun l => pay7_apply l) (fun l => rfl) l).trans
    (congrArg (gval m d L) (by omega))

/-! ## The output scratch after a round's stores -/

/-- Two 16-lane stores at offsets that are n and n + 16. -/
theorem out_store2' (o0 : S512.Idx → Elt F .f32) (n : ℕ) (off1 off2 : Fin 1 → ℕ)
    (hi1 : ∀ a, off1 a + S16.size a ≤ S512.size a) (hi2 : ∀ a, off2 a + S16.size a ≤ S512.size a)
    (e1 : off1 = ![n]) (e2 : off2 = ![n + 16]) (v1 v2 : S16.Idx → Elt F .f32)
    (hv1 : ∀ l : Fin 16, v1 (ix1 l) = gval m d L (n + l.val)) (hv2 : ∀ l : Fin 16, v2 (ix1 l) = gval m d L (n + 16 + l.val)) :
    (oB).view.writes (Elt F) (OutF m d L o0 n)
        [⟨Rect.unit (s := S512) off2 S16.size hi2, v2⟩, ⟨Rect.unit (s := S512) off1 S16.size hi1, v1⟩]
      = OutF m d L o0 (n + 32) := by
  subst e1 e2
  exact out_store2 m d L o0 n hi1 hi2 v1 v2 hv1 hv2

/-- Round k's two stores out of the first block buffer: positions 64·k … 64·k + 31 are done. -/
theorem outA_eq (hpre : Common.PreOK m) (a0 : Buf (Elt F) ((aC).view.loc (Tile.VT d L))) (o0 : S512.Idx → Elt F .f32)
    (k : Fin k0_t2_loop.trips)
    (h1 : ∀ a x, ((![addi (broadcast S16 (0#32 : BitVec 32)) lanes, andi lanes (broadcast S16 (7#32 : BitVec 32)), andi (tokVec m d L a0 (k0_off10 k) (k0_off10_inb k)) (broadcast S16 (127#32 : BitVec 32))] : Fin 3 → IVec S16 32) a x).toNat < S32x8x128.size a)
    (h2 : ∀ a x, ((![addi (broadcast S16 (16#32 : BitVec 32)) lanes, andi lanes (broadcast S16 (7#32 : BitVec 32)), andi (tokVec m d L a0 (k0_off12 k) (k0_off12_inb k)) (broadcast S16 (127#32 : BitVec 32))] : Fin 3 → IVec S16 32) a x).toNat < S32x8x128.size a) :
    (oB).view.writes (Elt F) (OutF m d L o0 (64 * k.val))
        [⟨Rect.unit (s := S512) (k0_off13 k) S16.size (k0_off13_inb k),
            loadIdx (View.readAt (Elt F) (tA).view (LoadRect.whole S32x8x128) (GBlk m d L (64 * k.val)))
              ![addi (broadcast S16 (16#32 : BitVec 32)) lanes, andi lanes (broadcast S16 (7#32 : BitVec 32)), andi (tokVec m d L a0 (k0_off12 k) (k0_off12_inb k)) (broadcast S16 (127#32 : BitVec 32))] h2⟩,
         ⟨Rect.unit (s := S512) (k0_off11 k) S16.size (k0_off11_inb k),
            loadIdx (View.readAt (Elt F) (tA).view (LoadRect.whole S32x8x128) (GBlk m d L (64 * k.val)))
              ![addi (broadcast S16 (0#32 : BitVec 32)) lanes, andi lanes (broadcast S16 (7#32 : BitVec 32)), andi (tokVec m d L a0 (k0_off10 k) (k0_off10_inb k)) (broadcast S16 (127#32 : BitVec 32))] h1⟩]
      = OutF m d L o0 (64 * k.val + 32) := by
  have hk := trips2_le k
  have e10 : k0_off10 k 0 = 64 * k.val := by rw [k0_off10_eq]; rfl
  have e12 : k0_off12 k 0 = 64 * k.val + 16 := by rw [k0_off12_eq]; rfl
  refine out_store2' m d L o0 (64 * k.val) _ _ _ _ (k0_off11_eq k) (k0_off13_eq k) _ _ (fun l => ?_) (fun l => ?_)
  · rw [readAt_whole_X1]
    exact gather_raw0 m d L hpre (64 * k.val) (by omega) (by omega) _
      (fun l' => (tokVec_lane m d L a0 _ _ l' (by rw [e10]; have := l'.isLt; omega)).trans (by rw [e10])) h1 l
  · rw [readAt_whole_X1]
    exact gather_raw16 m d L hpre (64 * k.val) (by omega) (by omega) _
      (fun l' => (tokVec_lane m d L a0 _ _ l' (by rw [e12]; have := l'.isLt; omega)).trans (by rw [e12])) h2 l

/-- Round k's two stores out of the second block buffer: positions 64·k + 32 … 64·k + 63 are done. -/
theorem outB_eq (hpre : Common.PreOK m) (a0 : Buf (Elt F) ((aC).view.loc (Tile.VT d L))) (o0 : S512.Idx → Elt F .f32)
    (k : Fin k0_t2_loop.trips)
    (h1 : ∀ a x, ((![k0_pay3, k0_pay4, k0_pay5 (tokVec m d L a0 (k0_off19 k) (k0_off19_inb k))] : Fin 3 → IVec S16 32) a x).toNat < S32x8x128.size a)
    (h2 : ∀ a x, ((![k0_pay6, k0_pay7, k0_pay8 (tokVec m d L a0 (k0_off21 k) (k0_off21_inb k))] : Fin 3 → IVec S16 32) a x).toNat < S32x8x128.size a) :
    (oB).view.writes (Elt F) (OutF m d L o0 (64 * k.val + 32))
        [⟨Rect.unit (s := S512) (k0_off22 k) S16.size (k0_off22_inb k),
            loadIdx (View.readAt (Elt F) (tB).view (LoadRect.whole S32x8x128) (GBlk m d L (64 * k.val + 32)))
              ![k0_pay6, k0_pay7, k0_pay8 (tokVec m d L a0 (k0_off21 k) (k0_off21_inb k))] h2⟩,
         ⟨Rect.unit (s := S512) (k0_off20 k) S16.size (k0_off20_inb k),
            loadIdx (View.readAt (Elt F) (tB).view (LoadRect.whole S32x8x128) (GBlk m d L (64 * k.val + 32)))
              ![k0_pay3, k0_pay4, k0_pay5 (tokVec m d L a0 (k0_off19 k) (k0_off19_inb k))] h1⟩]
      = OutF m d L o0 (64 * (k.val + 1)) := by
  have hk := trips2_le k
  have e19 : k0_off19 k 0 = 64 * k.val + 32 := by rw [k0_off19_eq]; rfl
  have e21 : k0_off21 k 0 = 64 * k.val + 48 := by rw [k0_off21_eq]; rfl
  refine (out_store2' m d L o0 (64 * k.val + 32) _ _ _ _ (k0_off20_eq k)
    ((k0_off22_eq k).trans (congrArg (fun x => (![x] : Fin 1 → ℕ)) (by omega))) _ _ (fun l => ?_) (fun l => ?_)).trans
    (congrArg (OutF m d L o0) (by omega))
  · rw [readAt_whole_X2]
    exact gather_pay345 m d L hpre (64 * k.val + 32) (by omega) (by omega) _
      (fun l' => (tokVec_lane m d L a0 _ _ l' (by rw [e19]; have := l'.isLt; omega)).trans (by rw [e19])) h1 l
  · rw [readAt_whole_X2]
    exact gather_pay678 m d L hpre (64 * k.val + 32) (by omega) (by omega) _
      (fun l' => (tokVec_lane m d L a0 _ _ l' (by rw [e21]; have := l'.isLt; omega)).trans
        (by rw [e21])) h2 l

end Cert.KernelIdeal.TileFacts

end
-- ==== Proof.TileBody.lean ====
/-
  One worker's task: the body of the gather kernel on vector subcore (L 0, L 1), run from the pieces the launch deals it.

  The worker copies its 512 tokens into a scratch; then, 32 positions at a time and alternating between two block
  buffers, it starts for each position the copy of the 8 × 128 block of the probabilities holding the entry the token
  selects (32 copies on one semaphore: a counted batch whose deliveries are the buffer's slots at the blocks), waits for
  all 32, and picks out of each landed block the selected entry into an output scratch; at the end it copies the output
  scratch to its row of the gathered array.
-/
import proofs.«212842_g47828755808845_cont_8to1c4_577_40_alg».proof.Proof.TileDefs
import proofs.«212842_g47828755808845_cont_8to1c4_577_40_alg».proof.Proof.TileFactsA
import proofs.«212842_g47828755808845_cont_8to1c4_577_40_alg».proof.Proof.TileFactsB
import proofs.«212842_g47828755808845_cont_8to1c4_577_40_alg».proof.Proof.TileFactsC
import proofs.«212842_g47828755808845_cont_8to1c4_577_40_alg».proof.Proof.TileFactsD
import proofs.«212842_g47828755808845_cont_8to1c4_577_40_alg».proof.Proof.TileFactsE
import proofs.«212842_g47828755808845_cont_8to1c4_577_40_alg».proof.Proof.TileFactsF
import proofs.«212842_g47828755808845_cont_8to1c4_577_40_alg».proof.Proof.TileFactsG
import proofs.«212842_g47828755808845_cont_8to1c4_577_40_alg».proof.Proof.TileFactsH
import proofs.«212842_g47828755808845_cont_8to1c4_577_40_alg».proof.Proof.TileFactsI
import proofs.«212842_g47828755808845_cont_8to1c4_577_40_alg».proof.Proof.TileRows

set_option maxRecDepth 8192
set_option maxHeartbeats 1000000

noncomputable section

namespace Cert.KernelIdeal.Tile

open Cert.KernelIdeal Cert.KernelIdeal.Gen Cert.KernelIdeal.Common Cert.KernelIdeal.TileFacts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

open Lean Elab Tactic Meta in
/-- Unfold, in the goal, the auxiliary names given to computed values (a definitional respelling: nothing is proved
    by it). -/
elab "sl_unname" : tactic => do
  let g ← getMainGoal
  let isSl : Name → Bool := fun n => match n with
    | .str (.str _ "sl") s => !(s.startsWith "prog")
    | _ => false
  let mut ty ← instantiateMVars (← g.getType)
  for _ in [0:12] do
    let ty' ← Meta.deltaExpand ty isSl
    if ty' == ty then break
    ty := ty'
  replaceMainGoal [← g.replaceTargetDefEq ty]

variable {F : FTy → Type}

local notation "𝕄" => MT nD τ sig (HIx 1) (Elt F) ℕ UU ℕ

local notation "predV" => (Memref.whole Cert.KernelIdeal.main_arg0_scv : Memref Cert.KernelIdeal.sig Kind.scVector Space.hbm Cert.KernelIdeal.S8x2048x8192 EltTy.f32)
local notation "actV" => (Memref.whole Cert.KernelIdeal.main_arg1_scv : Memref Cert.KernelIdeal.sig Kind.scVector Space.hbm Cert.KernelIdeal.S8x2048 EltTy.i32)
local notation "valsV" => (Memref.whole Cert.KernelIdeal.main_v0_scv : Memref Cert.KernelIdeal.sig Kind.scVector Space.hbm Cert.KernelIdeal.S32x512 EltTy.f32)
local notation "aC" => (Memref.whole Cert.KernelIdeal.cc0_scratch0 : Memref Cert.KernelIdeal.sig Kind.scVector Space.vmem Cert.KernelIdeal.S528 EltTy.i32)
local notation "tA" => (Memref.whole Cert.KernelIdeal.cc0_scratch1 : Memref Cert.KernelIdeal.sig Kind.scVector Space.vmem Cert.KernelIdeal.S32x8x128 EltTy.f32)
local notation "tB" => (Memref.whole Cert.KernelIdeal.cc0_scratch2 : Memref Cert.KernelIdeal.sig Kind.scVector Space.vmem Cert.KernelIdeal.S32x8x128 EltTy.f32)
local notation "oB" => (Memref.whole Cert.KernelIdeal.cc0_scratch3 : Memref Cert.KernelIdeal.sig Kind.scVector Space.vmem Cert.KernelIdeal.S512 EltTy.f32)

variable (m : (ℓ : Loc nD τ sig) → Buf (Elt F) ℓ)
variable (d : Dev nD) (L : grid0.Coords)

/-- A fire loop's invariant: the token scratch, a share of the probabilities, the slots not yet issued, the batch with j issued. -/
def invFireA (a0 : Buf (Elt F) ((aC).view.loc (VT d L))) (ta : Buf (Elt F) ((tA).view.loc (VT d L))) (p0 : ℕ) (j : Nat) (_ : PUnit) : sProp 𝕄 :=
  iprop(((aC).view.loc (VT d L) ↦[(aC).view.set]{fullShare} actScr m d L a0)
    ∗ (∃ q', (predV).view.loc (VT d L) ↦{q'} m (predLoc d))
    ∗ (bigSep (Transfers.pending (n := 32) j) fun t => (tA).view.loc (VT d L) ↦[slotSet t]{fullShare} ta)
    ∗ Transfers.Batch (countersEmb (U := UU)) (VT d L) (.dma cc0_scratch4.sem) (default : HIx 1) NB (DA m d L p0) j 0)
def invFireB (a0 : Buf (Elt F) ((aC).view.loc (VT d L))) (tb : Buf (Elt F) ((tB).view.loc (VT d L))) (p0 : ℕ) (j : Nat) (_ : PUnit) : sProp 𝕄 :=
  iprop(((aC).view.loc (VT d L) ↦[(aC).view.set]{fullShare} actScr m d L a0)
    ∗ (∃ q', (predV).view.loc (VT d L) ↦{q'} m (predLoc d))
    ∗ (bigSep (Transfers.pending (n := 32) j) fun t => (tB).view.loc (VT d L) ↦[slotSet t]{fullShare} tb)
    ∗ Transfers.Batch (countersEmb (U := UU)) (VT d L) (.dma cc0_scratch5.sem) (default : HIx 1) NB (DB m d L p0) j 0)

/-- The outer loop's invariant before trip k (positions 64 k on): the token scratch, a share of the probabilities, the
    first buffer's batch for the round at 64 k fully issued (after the last trip: the buffer and its cell back), the
    second buffer and its cell at rest, the output scratch done up to 64 k, what the thread owes. -/
def invOuter (O : CellTallies nD τ sig (HIx 1)) (a0 : Buf (Elt F) ((aC).view.loc (VT d L))) (o0 : Buf (Elt F) ((oB).view.loc (VT d L)))
    (k : Nat) (_ : PUnit) : sProp 𝕄 :=
  iprop(Transfers.MayWaits (VT d L) (default : HIx 1) O
    ∗ ((aC).view.loc (VT d L) ↦[(aC).view.set]{fullShare} actScr m d L a0)
    ∗ (∃ q', (predV).view.loc (VT d L) ↦{q'} m (predLoc d))
    ∗ (if k < 8 then Transfers.Batch (countersEmb (U := UU)) (VT d L) (.dma cc0_scratch4.sem) (default : HIx 1) NB (DA m d L (64 * k)) 32 0
        else iprop((∃ g, (tA).view.loc (VT d L) ↦[(tA).view.set]{fullShare} g) ∗ semVal (VT d L, SemLoc.dma cc0_scratch4.sem) 0))
    ∗ (∃ g, (tB).view.loc (VT d L) ↦[(tB).view.set]{fullShare} g)
    ∗ semVal (VT d L, SemLoc.dma cc0_scratch5.sem) 0
    ∗ ((oB).view.loc (VT d L) ↦[(oB).view.set]{fullShare} OutF m d L o0 (64 * k))
    ∗ ∃ W', owes (VT d L) O W')

/-- A drain loop's invariant before wait j: the batch, fully issued, with j waits' units consumed — after the last wait
    every delivery and the cell at zero back —, and what the thread owes. -/
def invDrainA (O : CellTallies nD τ sig (HIx 1)) (p0 : ℕ) (j : Nat) (_ : PUnit) : sProp 𝕄 :=
  iprop(Transfers.MayWaits (VT d L) (default : HIx 1) O ∗ (if j < 32 then iprop(∃ u, ⌜u = j * NB⌝ ∗ Transfers.Batch (countersEmb (U := UU)) (VT d L) (.dma cc0_scratch4.sem) (default : HIx 1) NB (DA m d L p0) 32 u)
      else iprop(bigSep Finset.univ (DA m d L p0) ∗ semVal (VT d L, SemLoc.dma cc0_scratch4.sem) 0))
    ∗ ∃ W', owes (VT d L) O W')
def invDrainB (O : CellTallies nD τ sig (HIx 1)) (p0 : ℕ) (j : Nat) (_ : PUnit) : sProp 𝕄 :=
  iprop(Transfers.MayWaits (VT d L) (default : HIx 1) O ∗ (if j < 32 then iprop(∃ u, ⌜u = j * NB⌝ ∗ Transfers.Batch (countersEmb (U := UU)) (VT d L) (.dma cc0_scratch5.sem) (default : HIx 1) NB (DB m d L p0) 32 u)
      else iprop(bigSep Finset.univ (DB m d L p0) ∗ semVal (VT d L, SemLoc.dma cc0_scratch5.sem) 0))
    ∗ ∃ W', owes (VT d L) O W')

theorem units_step (n j : ℕ) (hn : 0 < n) (h : j + 1 < 32) : j * n + n < n * 32 := by
  have h1 : (j + 1) * n < 32 * n := Nat.mul_lt_mul_of_pos_right h hn
  rw [Nat.succ_mul] at h1; rw [Nat.mul_comm n 32]; exact h1
theorem units_last (n j : ℕ) (h : ¬ j + 1 < 32) (hlt : j < 32) : j * n + n = n * 32 := by
  have h31 : j = 31 := by omega
  subst h31; omega

variable [FloatOps F]

/-! ## Facts the run is handed (proved in the facts modules) -/

theorem slots_eq_A (f : Buf (Elt F) ((tA).view.loc (VT d L))) :
    ((tA).view.loc (VT d L) ↦[(tA).view.set]{fullShare} f : sProp 𝕄) = bigSep Finset.univ fun t : Fin 32 => (tA).view.loc (VT d L) ↦[slotSet t]{fullShare} f :=
  slots_eq_X1 d L fullShare f
theorem slots_eq_B (f : Buf (Elt F) ((tB).view.loc (VT d L))) :
    ((tB).view.loc (VT d L) ↦[(tB).view.set]{fullShare} f : sProp 𝕄) = bigSep Finset.univ fun t : Fin 32 => (tB).view.loc (VT d L) ↦[slotSet t]{fullShare} f :=
  slots_eq_X2 d L fullShare f
theorem slots_split_A (ta : Buf (Elt F) ((tA).view.loc (VT d L))) :
    ((tA).view.loc (VT d L) ↦[(tA).view.set]{fullShare} ta : sProp 𝕄)
      ⊢ bigSep (Transfers.pending (n := 32) 0) fun t => (tA).view.loc (VT d L) ↦[slotSet t]{fullShare} ta := by
  exact Entails.of_eq (by rw [slots_eq_A, Transfers.pending_zero])
theorem slots_split_B (tb : Buf (Elt F) ((tB).view.loc (VT d L))) :
    ((tB).view.loc (VT d L) ↦[(tB).view.set]{fullShare} tb : sProp 𝕄)
      ⊢ bigSep (Transfers.pending (n := 32) 0) fun t => (tB).view.loc (VT d L) ↦[slotSet t]{fullShare} tb := by
  exact Entails.of_eq (by rw [slots_eq_B, Transfers.pending_zero])

theorem slots_join_A (p0 : ℕ) : bigSep Finset.univ (DA m d L p0) ⊢ ((tA).view.loc (VT d L) ↦[(tA).view.set]{fullShare} GBlk m d L p0 : sProp 𝕄) := by
  exact Entails.of_eq (by rw [slots_eq_A])
theorem slots_join_B (p0 : ℕ) : bigSep Finset.univ (DB m d L p0) ⊢ ((tB).view.loc (VT d L) ↦[(tB).view.set]{fullShare} GBlk m d L p0 : sProp 𝕄) := by
  exact Entails.of_eq (by rw [slots_eq_B])
theorem chk3_raw (F : FTy → Type) [FloatOps F] (v : IVec S16 32) :
    k0_chk3 (addi (broadcast S16 (0#32 : BitVec 32)) (iota .scVector S16 32 [0] iota_S16_d0_w32_scVector))
      (andi (iota .scVector S16 32 [0] iota_S16_d0_w32_scVector) (broadcast S16 (7#32 : BitVec 32))) (andi v (broadcast S16 (127#32 : BitVec 32))) := chk3_all (F := F) v
theorem chk4_raw (F : FTy → Type) [FloatOps F] (v : IVec S16 32) :
    k0_chk4 (addi (broadcast S16 (16#32 : BitVec 32)) (iota .scVector S16 32 [0] iota_S16_d0_w32_scVector))
      (andi (iota .scVector S16 32 [0] iota_S16_d0_w32_scVector) (broadcast S16 (7#32 : BitVec 32))) (andi v (broadcast S16 (127#32 : BitVec 32))) := chk4_all (F := F) v

/-- Nothing of the output scratch is done before the first round. -/
theorem OutF_zero (o0 : S512.Idx → Elt F .f32) : OutF m d L o0 (64 * 0) = o0 := by
  funext i; simp [OutF]

/-- The worker's row after the last copy: the output scratch's 512 gathered values. -/
theorem row_done (o0 : S512.Idx → Elt F .f32) :
    ((vRowK L).view.loc (VT d L) ↦[(vRowK L).view.set]{fullShare}
        (vRowK L).view.writes (Elt F) (m (valsLoc d)) [⟨Rect.whole S512, ReadAs.same.apply ((oB).view.read (Elt F) (OutF m d L o0 512))⟩] : sProp 𝕄)
      = (vRowK L).view.loc (VT d L) ↦[(vRowK L).view.set]{fullShare} Gv m d := by
  rw [← View.write_univ_eq_writes_whole (vRowK L).view (m (valsLoc d)) [] _]
  exact vRow_written m d L (m (valsLoc d)) o0

/-- The task's body run (the statement is `TileRun`): the tokens' copy; round 0's batch on the first buffer; eight trips,
    each starting the next round on the other buffer, draining one buffer and picking its 32 entries, twice; the copy of
    the output scratch to the worker's row. -/
theorem tile_run (hpre : PreOK m) (O : CellTallies nD τ sig (HIx 1)) (W : Waits sig (HIx 1)) (qa qp : PosShare TreeShare)
    (a0 : Buf (Elt F) ((aC).view.loc (VT d L))) (ta0 : Buf (Elt F) ((tA).view.loc (VT d L))) (tb0 : Buf (Elt F) ((tB).view.loc (VT d L)))
    (o0 : Buf (Elt F) ((oB).view.loc (VT d L))) : TileRun m d L O W qa qp a0 ta0 tb0 o0 := by
  unfold TileRun
  rw [cc0__sc_gather_eq_skeleton]; unfold cc0__sc_gather_skel; rw [k0_part2_eq_skeleton]; unfold k0_part2_skel
  iintro ⟨#Hmw, Hact, Hpred, Hrow, HaC, HtA, HtB, HoB, ⟨Hc4, Hc5, Hs0, Hs1⟩, HO⟩
  have htr1 : Scf.trips k0_t1_loop.lb k0_t1_loop.ub k0_t1_loop.st = 32 := by decide
  have htr2 : Scf.trips k0_t2_loop.lb k0_t2_loop.ub k0_t2_loop.st = 8 := by decide
  have htr3 : Scf.trips k0_t3_loop.lb k0_t3_loop.ub k0_t3_loop.st = 32 := by decide
  have htr4 : Scf.trips k0_t4_loop.lb k0_t4_loop.ub k0_t4_loop.st = 32 := by decide
  have htr5 : Scf.trips k0_t5_loop.lb k0_t5_loop.ub k0_t5_loop.st = 32 := by decide
  have htr6 : Scf.trips k0_t6_loop.lb k0_t6_loop.ub k0_t6_loop.st = 32 := by decide
  -- the tokens' copy and its wait
  sl_exec
  -- round 0's batch on the first buffer
  imod (Transfers.batch_alloc' (Lvl := ℕ) (countersEmb (U := UU)) (VT d L) (default : HIx 1) NB (DA m d L 0) (sm := .dma cc0_scratch4.sem) (E := Set.univ)) $$ Hc4 with HB
  ihave HtA' := (slots_split_A (F := F) d L ta0) $$ HtA
  sl_for (invFireA m d L a0 ta0 (0)) $$ [HaC Hpred HtA' HB]
  case region =>
    intro j hj
    have hlt : j.val < 32 := lt_of_lt_of_le j.isLt k0_t1_abs.2.1
    unfold invFireA
    iintro ⟨HaC, ⟨%q', Hpred⟩, Hslots, HB⟩
    have hw : k0_chk1 L j (word1 m d L a0 j) := chk1_of_le L j _ (le_of_eq_of_le (congrArg BitVec.toNat (word1_eq m d L a0 j)) (tokAt_le m d L hpre _))
    sl_exec (disch := exact hw)
    ihave Hp2 := (pointsTo_share (PosShare.mem_left_op_right q')).1 $$ Hpred
    icases Hp2 with ⟨Hkeep, Htok⟩
    ihave Hsl := (Entails.of_eq (Transfers.bigSep_pending_step (fun t : Fin 32 => ((tA).view.loc (VT d L) ↦[slotSet t]{fullShare} ta0 : sProp 𝕄)) j.val hlt)) $$ Hslots
    icases Hsl with ⟨Hdst, Hslots⟩
    sl_unname
    iapply (Transfers.wp_dmaBatch (countersEmb (U := UU)) 𝒱₀ (VT d L) none
        (src := srcOf (k0_off4 L j (word1 m d L a0 j)) (k0_off4_inb L j (word1 m d L a0 j) hw)) (dst := slotOf X1 (k0_off3 j) (k0_off3_inb j)) (via := ReadAs.same) (fs := m (predLoc d)) (fd := ta0) (q := q'.right)
        (Sd := slotSet ⟨j.val, trips1_le j⟩) (D := DA m d L 0) (j := j.val) (u := 0)
        (default : HIx 1) NB rfl (slot_sub1 j) hlt (Nat.zero_le _) (deliver1 m d L hpre a0 j hw q'.right ta0)) $$ [Htok Hdst HB]
    · isplitl [Htok]
      · ihave Hs := (pointsTo_split_subset (Finset.subset_univ _)).1 $$ Htok
        icases Hs with ⟨Hsrc, -⟩
        iexact Hsrc
      isplitl [Hdst]; · iexact Hdst
      iexact HB
    iintro HB
    sl_step
    isplitl [HaC]; · iexact HaC
    isplitl [Hkeep]; · iexists _; iexact Hkeep
    isplitl [Hslots]; · iexact Hslots
    iexact HB
  · unfold invFireA
    isplitl [HaC]; · iexact HaC
    isplitl [Hpred]; · iexists _; iexact Hpred
    isplitl [HtA']; · iexact HtA'
    iexact HB
  iintro %_ HI
  unfold invFireA
  icases HI with ⟨HaC, ⟨%q1, Hpred⟩, -, HB⟩
  rw [htr1]
  sl_exec
  ihave HoB' := (Entails.of_eq (congrArg (fun f => ((oB).view.loc (VT d L) ↦[(oB).view.set]{fullShare} f : sProp 𝕄)) (OutF_zero m d L o0).symm)) $$ HoB
  sl_for (invOuter m d L O a0 o0) $$ [HaC Hpred HB HtB Hc5 HoB' HO]
  case region =>
    intro k hk
    have hk8 : k.val < 8 := lt_of_lt_of_le k.isLt k0_t2_abs.2.1
    unfold invOuter
    rw [if_pos hk8]
    iintro ⟨#Hmw, HaC, ⟨%q', Hpred⟩, HBa, ⟨%tb, HtB⟩, Hc5, HoB, ⟨%W', HO⟩⟩
    sl_exec
    -- the round at 64 k + 32 on the second buffer
    imod (Transfers.batch_alloc' (Lvl := ℕ) (countersEmb (U := UU)) (VT d L) (default : HIx 1) NB (DB m d L (64 * k.val + 32)) (sm := .dma cc0_scratch5.sem) (E := Set.univ)) $$ Hc5 with HBb
    ihave HtB' := (slots_split_B (F := F) d L tb) $$ HtB
    sl_for (invFireB m d L a0 tb (64 * k.val + 32)) $$ [HaC Hpred HtB' HBb]
    case region =>
      intro j hj
      have hlt : j.val < 32 := lt_of_lt_of_le j.isLt k0_t3_abs.2.1
      unfold invFireB
      iintro ⟨HaC, ⟨%q', Hpred⟩, Hslots, HB⟩
      have hw : k0_chk2 L k j (word2 m d L a0 k j) := chk2_of_le L k j _ (le_of_eq_of_le (congrArg BitVec.toNat (word2_eq m d L a0 k j)) (tokAt_le m d L hpre _))
      sl_exec (disch := exact hw)
      ihave Hp2 := (pointsTo_share (PosShare.mem_left_op_right q')).1 $$ Hpred
      icases Hp2 with ⟨Hkeep, Htok⟩
      ihave Hsl := (Entails.of_eq (Transfers.bigSep_pending_step (fun t : Fin 32 => ((tB).view.loc (VT d L) ↦[slotSet t]{fullShare} tb : sProp 𝕄)) j.val hlt)) $$ Hslots
      icases Hsl with ⟨Hdst, Hslots⟩
      sl_unname
      iapply (Transfers.wp_dmaBatch (countersEmb (U := UU)) 𝒱₀ (VT d L) none
          (src := srcOf (k0_off7 L k j (word2 m d L a0 k j)) (k0_off7_inb L k j (word2 m d L a0 k j) hw)) (dst := slotOf X2 (k0_off6 j) (k0_off6_inb j)) (via := ReadAs.same) (fs := m (predLoc d)) (fd := tb) (q := q'.right)
          (Sd := slotSet ⟨j.val, trips3_le j⟩) (D := DB m d L (64 * k.val + 32)) (j := j.val) (u := 0)
          (default : HIx 1) NB rfl (slot_sub2 j) hlt (Nat.zero_le _) (deliver2 m d L hpre a0 k j hw q'.right tb)) $$ [Htok Hdst HB]
      · isplitl [Htok]
        · ihave Hs := (pointsTo_split_subset (Finset.subset_univ _)).1 $$ Htok
          icases Hs with ⟨Hsrc, -⟩
          iexact Hsrc
        isplitl [Hdst]; · iexact Hdst
        iexact HB
      iintro HB
      sl_step
      isplitl [HaC]; · iexact HaC
      isplitl [Hkeep]; · iexists _; iexact Hkeep
      isplitl [Hslots]; · iexact Hslots
      iexact HB
    · unfold invFireB
      isplitl [HaC]; · iexact HaC
      isplitl [Hpred]; · iexists _; iexact Hpred
      isplitl [HtB']; · iexact HtB'
      iexact HBb
    iintro %_ HI
    unfold invFireB
    icases HI with ⟨HaC, ⟨%q2, Hpred⟩, -, HBb⟩
    rw [htr3]
    sl_exec
    -- the first buffer's 32 waits
    sl_for (invDrainA m d L O (64 * k.val)) $$ [HBa HO]
    case region =>
      intro j hj
      have hlt : j.val < 32 := lt_of_lt_of_le j.isLt k0_t4_abs.2.1
      unfold invDrainA
      rw [if_pos hlt]
      iintro ⟨#Hmw, ⟨%u, %hu, HB⟩, ⟨%W2, HO⟩⟩
      sl_exec
      by_cases hlast : j.val + 1 < 32
      · iapply (Transfers.wp_waitBatchO (countersEmb (U := UU)) 𝒱₀ (VT d L) none (default : HIx 1) rfl (hu ▸ units_step NB j.val NB_pos hlast)) $$ [HB HO]
        · isplitl [HB]; · iexact HB
          isplitl [HO]; · iexact HO
          iapply (Transfers.MayWaits.elim (SemLoc.dma cc0_scratch4.sem)); iexact Hmw
        iintro ⟨HB, HO⟩
        sl_step
        rw [if_pos hlast]
        isplitr; · iexact Hmw
        isplitl [HB]
        · iexists (u + NB); isplitr
          · ipureintro; rw [hu, Nat.succ_mul]
          · iexact HB
        iexists _; iexact HO
      · iapply (Transfers.wp_waitBatchLastO (countersEmb (U := UU)) 𝒱₀ (VT d L) none (default : HIx 1) rfl NB_pos (hu ▸ units_last NB j.val hlast hlt)) $$ [HB HO]
        · isplitl [HB]; · iexact HB
          isplitl [HO]; · iexact HO
          iapply (Transfers.MayWaits.elim (SemLoc.dma cc0_scratch4.sem)); iexact Hmw
        iintro ⟨HD, Hsem, HO⟩
        sl_step
        rw [if_neg hlast]
        isplitr; · iexact Hmw
        isplitl [HD Hsem]
        · isplitl [HD]; · iexact HD
          iexact Hsem
        iexists _; iexact HO
    · unfold invDrainA
      rw [if_pos (by decide)]
      isplitr; · iexact Hmw
      isplitl [HBa]
      · iexists 0; isplitr
        · ipureintro; exact (Nat.zero_mul _).symm
        · iexact HBa
      iexists _; iexact HO
    iintro %_ HI
    unfold invDrainA
    rw [htr4, if_neg (by decide)]
    icases HI with ⟨-, ⟨HDa, Hc4⟩, ⟨%W3, HO⟩⟩
    -- the 32 landed slots are the buffer whole at the round's blocks
    ihave HtA := (slots_join_A (F := F) m d L (64 * k.val)) $$ HDa
    -- the 32 entries out of the landed blocks, two groups of 16
    sl_exec (disch := first | exact chk3_raw F _ | exact chk4_raw F _)
    rw [SparseCore.vectorLoadIdx_bind (c := VT d L)]
    sl_exec (disch := first | exact chk3_raw F _ | exact chk4_raw F _)
    rw [SparseCore.vectorLoadIdx_bind (c := VT d L)]
    sl_exec (disch := first | exact chk3_raw F _ | exact chk4_raw F _)
    sl_unname
    ihave HoB := (Entails.of_eq (congrArg (fun f => ((oB).view.loc (VT d L) ↦[(oB).view.set]{fullShare} f : sProp 𝕄)) (outA_eq m d L hpre a0 o0 k _ _))) $$ HoB
    rcases Classical.em (k0_cond1 k = 1#1) with hc | hc
    · have hk7 : k.val < 7 := (cond1_iff k).mp hc
      sl_exec
      -- the next round (at 64 (k + 1)) on the first buffer
      imod (Transfers.batch_alloc' (Lvl := ℕ) (countersEmb (U := UU)) (VT d L) (default : HIx 1) NB (DA m d L (64 * (k.val + 1))) (sm := .dma cc0_scratch4.sem) (E := Set.univ)) $$ Hc4 with HBa
      ihave HtA' := (slots_split_A (F := F) d L (GBlk m d L (64 * k.val))) $$ HtA
      sl_for (invFireA m d L a0 (GBlk m d L (64 * k.val)) (64 * (k.val + 1))) $$ [HaC Hpred HtA' HBa]
      case region =>
        intro j hj
        have hlt : j.val < 32 := lt_of_lt_of_le j.isLt k0_t5_abs.2.1
        unfold invFireA
        iintro ⟨HaC, ⟨%q', Hpred⟩, Hslots, HB⟩
        have hw : k0_chk5 L k j (word5 m d L a0 k j hc) := chk5_of_le L k j _ (le_of_eq_of_le (congrArg BitVec.toNat (word5_eq m d L a0 k j hc)) (tokAt_le m d L hpre _))
        sl_exec (disch := exact hw)
        ihave Hp2 := (pointsTo_share (PosShare.mem_left_op_right q')).1 $$ Hpred
        icases Hp2 with ⟨Hkeep, Htok⟩
        ihave Hsl := (Entails.of_eq (Transfers.bigSep_pending_step (fun t : Fin 32 => ((tA).view.loc (VT d L) ↦[slotSet t]{fullShare} (GBlk m d L (64 * k.val)) : sProp 𝕄)) j.val hlt)) $$ Hslots
        icases Hsl with ⟨Hdst, Hslots⟩
        sl_unname
        iapply (Transfers.wp_dmaBatch (countersEmb (U := UU)) 𝒱₀ (VT d L) none
            (src := srcOf (k0_off16 L k j (word5 m d L a0 k j hc)) (k0_off16_inb L k j (word5 m d L a0 k j hc) hw hc)) (dst := slotOf X1 (k0_off15 j) (k0_off15_inb k j hc)) (via := ReadAs.same) (fs := m (predLoc d)) (fd := (GBlk m d L (64 * k.val))) (q := q'.right)
            (Sd := slotSet ⟨j.val, trips5_le j⟩) (D := DA m d L (64 * (k.val + 1))) (j := j.val) (u := 0)
            (default : HIx 1) NB rfl (slot_sub5 k hc j) hlt (Nat.zero_le _) (deliver5 m d L hpre a0 k hc j hw q'.right (GBlk m d L (64 * k.val)))) $$ [Htok Hdst HB]
        · isplitl [Htok]
          · ihave Hs := (pointsTo_split_subset (Finset.subset_univ _)).1 $$ Htok
            icases Hs with ⟨Hsrc, -⟩
            iexact Hsrc
          isplitl [Hdst]; · iexact Hdst
          iexact HB
        iintro HB
        sl_step
        isplitl [HaC]; · iexact HaC
        isplitl [Hkeep]; · iexists _; iexact Hkeep
        isplitl [Hslots]; · iexact Hslots
        iexact HB
      · unfold invFireA
        isplitl [HaC]; · iexact HaC
        isplitl [Hpred]; · iexists _; iexact Hpred
        isplitl [HtA']; · iexact HtA'
        iexact HBa
      iintro %_ HI
      unfold invFireA
      icases HI with ⟨HaC, ⟨%q3, Hpred⟩, -, HBa⟩
      rw [htr5]
      sl_exec
      -- the second buffer's 32 waits
      sl_for (invDrainB m d L O (64 * k.val + 32)) $$ [HBb HO]
      case region =>
        intro j hj
        have hlt : j.val < 32 := lt_of_lt_of_le j.isLt k0_t6_abs.2.1
        unfold invDrainB
        rw [if_pos hlt]
        iintro ⟨#Hmw, ⟨%u, %hu, HB⟩, ⟨%W2, HO⟩⟩
        sl_exec
        by_cases hlast : j.val + 1 < 32
        · iapply (Transfers.wp_waitBatchO (countersEmb (U := UU)) 𝒱₀ (VT d L) none (default : HIx 1) rfl (hu ▸ units_step NB j.val NB_pos hlast)) $$ [HB HO]
          · isplitl [HB]; · iexact HB
            isplitl [HO]; · iexact HO
            iapply (Transfers.MayWaits.elim (SemLoc.dma cc0_scratch5.sem)); iexact Hmw
          iintro ⟨HB, HO⟩
          sl_step
          rw [if_pos hlast]
          isplitr; · iexact Hmw
          isplitl [HB]
          · iexists (u + NB); isplitr
            · ipureintro; rw [hu, Nat.succ_mul]
            · iexact HB
          iexists _; iexact HO
        · iapply (Transfers.wp_waitBatchLastO (countersEmb (U := UU)) 𝒱₀ (VT d L) none (default : HIx 1) rfl NB_pos (hu ▸ units_last NB j.val hlast hlt)) $$ [HB HO]
          · isplitl [HB]; · iexact HB
            isplitl [HO]; · iexact HO
            iapply (Transfers.MayWaits.elim (SemLoc.dma cc0_scratch5.sem)); iexact Hmw
          iintro ⟨HD, Hsem, HO⟩
          sl_step
          rw [if_neg hlast]
          isplitr; · iexact Hmw
          isplitl [HD Hsem]
          · isplitl [HD]; · iexact HD
            iexact Hsem
          iexists _; iexact HO
      · unfold invDrainB
        rw [if_pos (by decide)]
        isplitr; · iexact Hmw
        isplitl [HBb]
        · iexists 0; isplitr
          · ipureintro; exact (Nat.zero_mul _).symm
          · iexact HBb
        iexists _; iexact HO
      iintro %_ HI
      unfold invDrainB
      rw [htr6, if_neg (by decide)]
      icases HI with ⟨-, ⟨HDb, Hc5⟩, ⟨%W4, HO⟩⟩
      ihave HtB := (slots_join_B (F := F) m d L (64 * k.val + 32)) $$ HDb
      -- the 32 entries out of the landed blocks, two groups of 16
      sl_exec (disch := first | exact chk6_all (F := F) _ | exact chk7_all (F := F) _)
      rw [SparseCore.vectorLoadIdx_bind (c := VT d L)]
      sl_exec (disch := first | exact chk6_all (F := F) _ | exact chk7_all (F := F) _)
      rw [SparseCore.vectorLoadIdx_bind (c := VT d L)]
      sl_exec (disch := first | exact chk6_all (F := F) _ | exact chk7_all (F := F) _)
      sl_unname
      ihave HoB := (Entails.of_eq (congrArg (fun f => ((oB).view.loc (VT d L) ↦[(oB).view.set]{fullShare} f : sProp 𝕄)) (outB_eq m d L hpre a0 o0 k _ _))) $$ HoB
      sl_step
      isplitr; · iexact Hmw
      isplitl [HaC]; · iexact HaC
      isplitl [Hpred]; · iexists _; iexact Hpred
      rw [if_pos (show k.val + 1 < 8 by omega)]
      isplitl [HBa]; · iexact HBa
      isplitl [HtB]; · iexists _; iexact HtB
      isplitl [Hc5]; · iexact Hc5
      isplitl [HoB]; · iexact HoB
      iexists _; iexact HO
    · have hk7 : k.val = 7 := by
        have := (cond1_iff k).not.mp hc
        omega
      sl_exec
      -- the second buffer's 32 waits
      sl_for (invDrainB m d L O (64 * k.val + 32)) $$ [HBb HO]
      case region =>
        intro j hj
        have hlt : j.val < 32 := lt_of_lt_of_le j.isLt k0_t6_abs.2.1
        unfold invDrainB
        rw [if_pos hlt]
        iintro ⟨#Hmw, ⟨%u, %hu, HB⟩, ⟨%W2, HO⟩⟩
        sl_exec
        by_cases hlast : j.val + 1 < 32
        · iapply (Transfers.wp_waitBatchO (countersEmb (U := UU)) 𝒱₀ (VT d L) none (default : HIx 1) rfl (hu ▸ units_step NB j.val NB_pos hlast)) $$ [HB HO]
          · isplitl [HB]; · iexact HB
            isplitl [HO]; · iexact HO
            iapply (Transfers.MayWaits.elim (SemLoc.dma cc0_scratch5.sem)); iexact Hmw
          iintro ⟨HB, HO⟩
          sl_step
          rw [if_pos hlast]
          isplitr; · iexact Hmw
          isplitl [HB]
          · iexists (u + NB); isplitr
            · ipureintro; rw [hu, Nat.succ_mul]
            · iexact HB
          iexists _; iexact HO
        · iapply (Transfers.wp_waitBatchLastO (countersEmb (U := UU)) 𝒱₀ (VT d L) none (default : HIx 1) rfl NB_pos (hu ▸ units_last NB j.val hlast hlt)) $$ [HB HO]
          · isplitl [HB]; · iexact HB
            isplitl [HO]; · iexact HO
            iapply (Transfers.MayWaits.elim (SemLoc.dma cc0_scratch5.sem)); iexact Hmw
          iintro ⟨HD, Hsem, HO⟩
          sl_step
          rw [if_neg hlast]
          isplitr; · iexact Hmw
          isplitl [HD Hsem]
          · isplitl [HD]; · iexact HD
            iexact Hsem
          iexists _; iexact HO
      · unfold invDrainB
        rw [if_pos (by decide)]
        isplitr; · iexact Hmw
        isplitl [HBb]
        · iexists 0; isplitr
          · ipureintro; exact (Nat.zero_mul _).symm
          · iexact HBb
        iexists _; iexact HO
      iintro %_ HI
      unfold invDrainB
      rw [htr6, if_neg (by decide)]
      icases HI with ⟨-, ⟨HDb, Hc5⟩, ⟨%W4, HO⟩⟩
      ihave HtB := (slots_join_B (F := F) m d L (64 * k.val + 32)) $$ HDb
      -- the 32 entries out of the landed blocks, two groups of 16
      sl_exec (disch := first | exact chk6_all (F := F) _ | exact chk7_all (F := F) _)
      rw [SparseCore.vectorLoadIdx_bind (c := VT d L)]
      sl_exec (disch := first | exact chk6_all (F := F) _ | exact chk7_all (F := F) _)
      rw [SparseCore.vectorLoadIdx_bind (c := VT d L)]
      sl_exec (disch := first | exact chk6_all (F := F) _ | exact chk7_all (F := F) _)
      sl_unname
      ihave HoB := (Entails.of_eq (congrArg (fun f => ((oB).view.loc (VT d L) ↦[(oB).view.set]{fullShare} f : sProp 𝕄)) (outB_eq m d L hpre a0 o0 k _ _))) $$ HoB
      sl_step
      isplitr; · iexact Hmw
      isplitl [HaC]; · iexact HaC
      isplitl [Hpred]; · iexists _; iexact Hpred
      rw [if_neg (show ¬ k.val + 1 < 8 by omega)]
      isplitl [HtA Hc4]
      · isplitl [HtA]; · iexists _; iexact HtA
        iexact Hc4
      isplitl [HtB]; · iexists _; iexact HtB
      isplitl [Hc5]; · iexact Hc5
      isplitl [HoB]; · iexact HoB
      iexists _; iexact HO
  · unfold invOuter
    rw [if_pos (by decide)]
    isplitr; · iexact Hmw
    isplitl [HaC]; · iexact HaC
    isplitl [Hpred]; · iexists _; iexact Hpred
    isplitl [HB]; · iexact HB
    isplitl [HtB]; · iexists _; iexact HtB
    isplitl [Hc5]; · iexact Hc5
    isplitl [HoB']; · iexact HoB'
    iexists _; iexact HO
  iintro %_ HI
  unfold invOuter
  rw [htr2, if_neg (by decide)]
  icases HI with ⟨-, HaC, ⟨%q9, Hpred⟩, ⟨⟨%ga, HtA⟩, Hc4⟩, ⟨%gb, HtB⟩, Hc5, HoB, ⟨%W9, HO⟩⟩
  ihave HoB := (Entails.of_eq (congrArg (fun n => ((oB).view.loc (VT d L) ↦[(oB).view.set]{fullShare} OutF m d L o0 n : sProp 𝕄)) (show 64 * 8 = 512 from rfl))) $$ HoB
  -- the output scratch to the worker's row of the gathered array
  sl_exec
  sl_unname
  ihave Hrow := (Entails.of_eq (row_done m d L o0)) $$ Hrow
  sl_step
  isplitl [Hact]; · iexact Hact
  isplitl [Hrow]; · iexact Hrow
  isplitl [HaC]; · iexists _; iexact HaC
  isplitl [HtA]; · iexists _; iexact HtA
  isplitl [HtB]; · iexists _; iexact HtB
  isplitl [HoB]; · iexists _; iexact HoB
  isplitl [Hc4 Hc5 Hs0 Hs1]
  · isplitl [Hc4]; · iexact Hc4
    isplitl [Hc5]; · iexact Hc5
    isplitl [Hs0]; · iexact Hs0
    iexact Hs1
  iexists _; iexact HO

end Cert.KernelIdeal.Tile

end
-- ==== Proof.KTileFactsA.lean ====
/-
  Pure facts about one worker's buffers: what a 16-lane load of the token scratch reads after the
  tokens were copied in, where an 8 × 128 block of a rank-3 array sits, and how the 32 slots of a
  block buffer partition it.

  The token scratch holds 528 words; the copy wrote the worker's 512 tokens at offset 0, so lane l
  of a load at offset o reads token o + l while o + l < 512. An 8 × 128 block taken at offsets
  (o0, o1, o2) of a rank-3 array (a 1 × 8 × 128 rectangle with its unit axis dropped) has its entry
  (r, c) at (o0, o1 + r, o2 + c). Slot t of a 32 × 8 × 128 buffer is the block at (t, 0, 0): the
  entries whose first coordinate is t; the 32 slots are pairwise disjoint and cover the buffer.
-/
import proofs.«212842_g47828755808845_cont_8to1c4_577_40_alg».proof.Proof.KCommon
import Idealize.ShloMosaic.Lib.WritesUnit
import Idealize.ShloMosaic.Lib.ValueLayout

noncomputable section

namespace Cert.Kernel.TileFacts

open Cert.Kernel Cert.Kernel.Gen
open Idealize.ShloMosaic Idealize.ShloMosaic.ValueIdx

variable {F : FTy → Type} [FloatOps F]

/-! ## The token scratch -/

/-- Lane l of a 16-lane load at offset `off` of the token scratch, after the 512 tokens `pay` were written at offset 0
    over any earlier contents, is token `off + l` while that is below 512. -/
theorem readAt_tokens {κ : Kind} {sp : Space} (v : View sig κ sp S528 .i32) (a0 : v.ty.Contents (Elt F))
    (pay : S512.Idx → Elt F .i32) (off : Fin 1 → ℕ) (hinb : ∀ a, off a + S16.size a ≤ S528.size a) (l : Fin 16)
    (h : off 0 + l.val < 512) :
    v.readAt (Elt F) (Rect.unit (s := S528) off S16.size hinb).toLoadRect
        (v.writes (Elt F) a0 [⟨Rect.unit ![0] S512.size inb_S528_S512_0, pay⟩]) (ix1 l)
      = pay (ix1 (⟨off 0 + l.val, h⟩ : Fin 512)) := by
  rw [View.readAt_apply]
  refine View.read_writes_cons_unit_of_mem v a0 inb_S528_S512_0 pay [] _ (ix1 (⟨off 0 + l.val, h⟩ : Fin 512)) rfl
    fun a => ?_
  match a with
  | ⟨0, _⟩ =>
    show off 0 + 1 * l.val = 0 + (off 0 + l.val)
    omega

/-- The same through the whole token scratch. -/
theorem readAt_tokens_scratch (a0 : (Memref.whole cc0_scratch0 : Memref sig .scVector .vmem S528 .i32).view.ty.Contents (Elt F))
    (pay : S512.Idx → Elt F .i32) (off : Fin 1 → ℕ) (hinb : ∀ a, off a + S16.size a ≤ S528.size a) (l : Fin 16)
    (h : off 0 + l.val < 512) :
    View.readAt (Elt F) (Memref.whole cc0_scratch0 : Memref sig .scVector .vmem S528 .i32).view
        (Rect.unit (s := S528) off S16.size hinb).toLoadRect
        ((Memref.whole cc0_scratch0 : Memref sig .scVector .vmem S528 .i32).view.writes (Elt F) a0
          [⟨Rect.unit ![0] S512.size inb_S528_S512_0, pay⟩]) (ix1 l)
      = pay (ix1 (⟨off 0 + l.val, h⟩ : Fin 512)) :=
  readAt_tokens _ a0 pay off hinb l h

/-- Lane 0 taken out of a 16-lane vector by a one-lane slice and an extract is the vector's lane 0. -/
theorem extract_pay1 (v : Vec F S16 .i32) : extractAt ![0] (k0_pay1 v) inpos_S1_p0 = v (ix1 (0 : Fin 16)) :=
  congrArg v (funext fun a => match a with | ⟨0, _⟩ => rfl)
theorem extract_pay2 (v : Vec F S16 .i32) : extractAt ![0] (k0_pay2 v) inpos_S1_p0 = v (ix1 (0 : Fin 16)) :=
  congrArg v (funext fun a => match a with | ⟨0, _⟩ => rfl)
theorem extract_pay9 (v : Vec F S16 .i32) : extractAt ![0] (k0_pay9 v) inpos_S1_p0 = v (ix1 (0 : Fin 16)) :=
  congrArg v (funext fun a => match a with | ⟨0, _⟩ => rfl)

/-! ## An 8 × 128 block of a rank-3 array -/

/-- The unit axis put back: entry (r, c) of an 8 × 128 block is entry (0, r, c) of the 1 × 8 × 128 rectangle. -/
theorem reshape_block (y : S8x128.Idx) :
    Shape.reshapeEquiv squeezes_S1x8x128_S8x128.numel_eq y
      = ix3 (⟨0, Nat.one_pos⟩ : Fin 1) (⟨(y 0).val, idx2_lt0 y⟩ : Fin 8) (⟨(y 1).val, idx2_lt1 y⟩ : Fin 128) := by
  conv_lhs => rw [eq_ix2 y]
  exact reshapeEquiv_ix2_1ab _ _ _

end Cert.Kernel.TileFacts

end
-- ==== Proof.KTileFactsB.lean ====
/-
  Where an 8 × 128 block of a rank-3 array sits, and the 32 slots of a block buffer.

  An 8 × 128 block taken at offsets (o0, o1, o2) of a rank-3 array — a 1 × 8 × 128 rectangle with its
  unit axis dropped — has its entry (r, c) at (o0, o1 + r, o2 + c). Slot t of a 32 × 8 × 128 buffer is
  the block at (t, 0, 0): exactly the entries whose first coordinate is t. The 32 slots are pairwise
  disjoint and together they are the whole buffer.
-/
import proofs.«212842_g47828755808845_cont_8to1c4_577_40_alg».proof.Proof.KTileFactsA
import proofs.«212842_g47828755808845_cont_8to1c4_577_40_alg».proof.Proof.KTileDefs

noncomputable section

namespace Cert.Kernel.TileFacts

open Cert.Kernel Cert.Kernel.Gen
open Idealize.ShloMosaic Idealize.ShloMosaic.ValueIdx
open Cert.Kernel.Tile (slotSet)

variable {F : FTy → Type} [FloatOps F]

/-! ## A block's entries in the array -/

/-- Entry (r, c) of the 8 × 128 block at offsets `off` of a view of a rank-3 array sits where the view puts
    (off 0, off 1 + r, off 2 + c). -/
theorem block_emb {A B C : ℕ} {κ : Kind} {sp : Space} {e : EltTy} (v : View sig κ sp ⟨3, ![A, B, C]⟩ e) (off : Fin 3 → ℕ)
    (hinb : ∀ a, off a + S1x8x128.size a ≤ (⟨3, ![A, B, C]⟩ : Shape).size a) (y : S8x128.Idx) :
    ((v.slice (Rect.unit (s := ⟨3, ![A, B, C]⟩) off S1x8x128.size hinb)).reshape S8x128
        squeezes_S1x8x128_S8x128.numel_eq).emb y
      = v.emb (ix3 (⟨off 0, by have := hinb 0; have : S1x8x128.size 0 = 1 := rfl; have : (⟨3, ![A, B, C]⟩ : Shape).size 0 = A := rfl; omega⟩ : Fin A)
          (⟨off 1 + (y 0).val, by have := hinb 1; have := idx2_lt0 y; have : S1x8x128.size 1 = 8 := rfl; have : (⟨3, ![A, B, C]⟩ : Shape).size 1 = B := rfl; omega⟩ : Fin B)
          (⟨off 2 + (y 1).val, by have := hinb 2; have := idx2_lt1 y; have : S1x8x128.size 2 = 128 := rfl; have : (⟨3, ![A, B, C]⟩ : Shape).size 2 = C := rfl; omega⟩ : Fin C)) := by
  show v.emb ((Rect.unit (s := ⟨3, ![A, B, C]⟩) off S1x8x128.size hinb).emb
      (Shape.reshapeEquiv squeezes_S1x8x128_S8x128.numel_eq y)) = _
  rw [reshape_block y]
  refine congrArg v.emb (funext fun a => Fin.ext ?_)
  match a with
  | ⟨0, _⟩ => show off 0 + 1 * 0 = off 0; omega
  | ⟨1, _⟩ => show off 1 + 1 * (y 0).val = off 1 + (y 0).val; omega
  | ⟨2, _⟩ => show off 2 + 1 * (y 1).val = off 2 + (y 1).val; omega

/-! ## The probabilities' blocks -/

/-- Entry (r, c) of the 8 × 128 block at offsets `off` of the probabilities is the entry (off 0, off 1 + r, off 2 + c). -/
theorem src_emb (off : Fin 3 → ℕ) (hinb : ∀ a, off a + S1x8x128.size a ≤ S8x2048x8192.size a) (y : S8x128.Idx) :
    (((Memref.whole main_arg0_scv : Memref sig .scVector .hbm S8x2048x8192 .f32).slice
        (Rect.unit (s := S8x2048x8192) off S1x8x128.size hinb) (fun _ => rfl)).squeeze S8x128
        squeezes_S1x8x128_S8x128).view.emb y
      = ix3 (⟨off 0, by have := hinb 0; have : S1x8x128.size 0 = 1 := rfl; have : S8x2048x8192.size 0 = 8 := rfl; omega⟩ : Fin 8)
          (⟨off 1 + (y 0).val, by have := hinb 1; have := idx2_lt0 y; have : S1x8x128.size 1 = 8 := rfl; have : S8x2048x8192.size 1 = 2048 := rfl; omega⟩ : Fin 2048)
          (⟨off 2 + (y 1).val, by have := hinb 2; have := idx2_lt1 y; have : S1x8x128.size 2 = 128 := rfl; have : S8x2048x8192.size 2 = 8192 := rfl; omega⟩ : Fin 8192) :=
  block_emb (Memref.whole main_arg0_scv : Memref sig .scVector .hbm S8x2048x8192 .f32).view off hinb y

/-! ## The slots of a block buffer -/

/-- Slot t of a block buffer is the set of its entries whose first coordinate is t. -/
theorem mem_slotSet (t : Fin 32) (i : S32x8x128.Idx) : i ∈ slotSet t ↔ (i 0).val = t.val := by
  simp only [Tile.slotSet, Finset.mem_filter, Finset.mem_univ, true_and]

/-- Offsets (j, 0, 0): the offsets of slot j. -/
structure IsSlotOff (off : Fin 3 → ℕ) (j : Fin 32) : Prop where
  h0 : off 0 = j.val
  h1 : off 1 = 0
  h2 : off 2 = 0

/-- The 1 × 8 × 128 rectangle at slot j's offsets is slot j. -/
theorem slot_rect_set (off : Fin 3 → ℕ) (hinb : ∀ a, off a + S1x8x128.size a ≤ S32x8x128.size a) (j : Fin 32)
    (h : IsSlotOff off j) : (Rect.unit (s := S32x8x128) off S1x8x128.size hinb).set = slotSet j := by
  obtain ⟨h0, h1, h2⟩ := h
  ext i
  rw [Rect.mem_set_unit, mem_slotSet]
  have b1 : (i 1).val < 8 := (i 1).isLt
  have b2 : (i 2).val < 128 := (i 2).isLt
  constructor
  · intro hi
    have := hi 0
    have e : S1x8x128.size 0 = 1 := rfl
    omega
  · intro hi a
    match a with
    | ⟨0, _⟩ => show off 0 ≤ (i 0).val ∧ (i 0).val < off 0 + 1; omega
    | ⟨1, _⟩ => show off 1 ≤ (i 1).val ∧ (i 1).val < off 1 + 8; omega
    | ⟨2, _⟩ => show off 2 ≤ (i 2).val ∧ (i 2).val < off 2 + 128; omega

/-- Different slots share no entry. -/
theorem slotSet_disjoint {t t' : Fin 32} (h : t ≠ t') : Disjoint (slotSet t) (slotSet t') :=
  Finset.disjoint_left.mpr fun i hi hi' =>
    h (Fin.ext (((mem_slotSet t i).mp hi).symm.trans ((mem_slotSet t' i).mp hi')))

theorem slotSet_pairwiseDisjoint : (↑(Finset.univ : Finset (Fin 32)) : Set (Fin 32)).PairwiseDisjoint slotSet :=
  fun _ _ _ _ h => slotSet_disjoint h

/-- The 32 slots together are the whole buffer. -/
theorem biUnion_slotSet : (Finset.univ : Finset (Fin 32)).biUnion slotSet = Finset.univ := by
  ext i
  simp only [Finset.mem_biUnion, Finset.mem_univ, true_and, iff_true]
  exact ⟨⟨(i 0).val, (i 0).isLt⟩, (mem_slotSet _ i).mpr rfl⟩

/-- Slot j of a view of a 32 × 8 × 128 buffer: its entries are the view's images of slot j's. -/
theorem slot_view_set {κ : Kind} {sp : Space} {e : EltTy} (v : View sig κ sp S32x8x128 e) (off : Fin 3 → ℕ)
    (hinb : ∀ a, off a + S1x8x128.size a ≤ S32x8x128.size a) (j : Fin 32) (h : IsSlotOff off j) :
    ((v.slice (Rect.unit (s := S32x8x128) off S1x8x128.size hinb)).reshape S8x128
        squeezes_S1x8x128_S8x128.numel_eq).set = (slotSet j).map v.emb := by
  rw [View.set_reshape, View.set_slice, slot_rect_set off hinb j h]

/-- Entry (r, c) of slot j of a view of a 32 × 8 × 128 buffer sits where the view puts (j, r, c). -/
theorem slot_view_emb {κ : Kind} {sp : Space} {e : EltTy} (v : View sig κ sp S32x8x128 e) (off : Fin 3 → ℕ)
    (hinb : ∀ a, off a + S1x8x128.size a ≤ S32x8x128.size a) (j : Fin 32) (h : IsSlotOff off j) (y : S8x128.Idx) :
    ((v.slice (Rect.unit (s := S32x8x128) off S1x8x128.size hinb)).reshape S8x128
        squeezes_S1x8x128_S8x128.numel_eq).emb y
      = v.emb (ix3 j (⟨(y 0).val, idx2_lt0 y⟩ : Fin 8) (⟨(y 1).val, idx2_lt1 y⟩ : Fin 128)) := by
  obtain ⟨h0, h1, h2⟩ := h
  rw [block_emb v off hinb y]
  refine congrArg v.emb (funext fun a => Fin.ext ?_)
  match a with
  | ⟨0, _⟩ => exact h0
  | ⟨1, _⟩ => show off 1 + (y 0).val = (y 0).val; omega
  | ⟨2, _⟩ => show off 2 + (y 1).val = (y 1).val; omega

/-- The two block buffers, whole. -/
abbrev X1 : Memref sig .scVector .vmem S32x8x128 .f32 := Memref.whole cc0_scratch1
abbrev X2 : Memref sig .scVector .vmem S32x8x128 .f32 := Memref.whole cc0_scratch2

/-- The slot of a block buffer at offsets `off`, as the kernel forms it: the 1 × 8 × 128 slice with its unit axis dropped. -/
abbrev slotOf (X : Memref sig .scVector .vmem S32x8x128 .f32) (off : Fin 3 → ℕ)
    (hinb : ∀ a, off a + S1x8x128.size a ≤ S32x8x128.size a) : Memref sig .scVector .vmem S8x128 .f32 :=
  (X.slice (Rect.unit (s := S32x8x128) off S1x8x128.size hinb) (fun _ => rfl)).squeeze S8x128 squeezes_S1x8x128_S8x128

theorem slot_set_X1 (off : Fin 3 → ℕ) (hinb : ∀ a, off a + S1x8x128.size a ≤ S32x8x128.size a) (j : Fin 32)
    (h : IsSlotOff off j) : (slotOf X1 off hinb).view.set = slotSet j :=
  (slot_view_set X1.view off hinb j h).trans (Finset.map_refl)
theorem slot_set_X2 (off : Fin 3 → ℕ) (hinb : ∀ a, off a + S1x8x128.size a ≤ S32x8x128.size a) (j : Fin 32)
    (h : IsSlotOff off j) : (slotOf X2 off hinb).view.set = slotSet j :=
  (slot_view_set X2.view off hinb j h).trans (Finset.map_refl)
theorem slot_emb_X1 (off : Fin 3 → ℕ) (hinb : ∀ a, off a + S1x8x128.size a ≤ S32x8x128.size a) (j : Fin 32)
    (h : IsSlotOff off j) (y : S8x128.Idx) :
    (slotOf X1 off hinb).view.emb y = ix3 j (⟨(y 0).val, idx2_lt0 y⟩ : Fin 8) (⟨(y 1).val, idx2_lt1 y⟩ : Fin 128) :=
  slot_view_emb X1.view off hinb j h y
theorem slot_emb_X2 (off : Fin 3 → ℕ) (hinb : ∀ a, off a + S1x8x128.size a ≤ S32x8x128.size a) (j : Fin 32)
    (h : IsSlotOff off j) (y : S8x128.Idx) :
    (slotOf X2 off hinb).view.emb y = ix3 j (⟨(y 0).val, idx2_lt0 y⟩ : Fin 8) (⟨(y 1).val, idx2_lt1 y⟩ : Fin 128) :=
  slot_view_emb X2.view off hinb j h y

/-- A whole block buffer's entries are all of them: the union of the 32 slots. -/
theorem X1_set : X1.view.set = (Finset.univ : Finset (Fin 32)).biUnion slotSet := by
  rw [biUnion_slotSet]; exact View.set_whole _
theorem X2_set : X2.view.set = (Finset.univ : Finset (Fin 32)).biUnion slotSet := by
  rw [biUnion_slotSet]; exact View.set_whole _

/-! ## The five slot offset functions are slot offsets -/

theorem isSlotOff_off3 (t : Fin k0_t1_loop.trips) :
    IsSlotOff (k0_off3 t) ⟨t.val, Nat.lt_of_lt_of_le t.isLt k0_t1_abs.2.1⟩ := by
  rw [k0_off3_eq]; exact ⟨rfl, rfl, rfl⟩
theorem isSlotOff_off6 (t : Fin k0_t3_loop.trips) :
    IsSlotOff (k0_off6 t) ⟨t.val, Nat.lt_of_lt_of_le t.isLt k0_t3_abs.2.1⟩ := by
  rw [k0_off6_eq]; exact ⟨rfl, rfl, rfl⟩
theorem isSlotOff_off8 (t : Fin k0_t4_loop.trips) :
    IsSlotOff (k0_off8 t) ⟨t.val, Nat.lt_of_lt_of_le t.isLt k0_t4_abs.2.1⟩ := by
  rw [k0_off8_eq]; exact ⟨rfl, rfl, rfl⟩
theorem isSlotOff_off15 (t : Fin k0_t5_loop.trips) :
    IsSlotOff (k0_off15 t) ⟨t.val, Nat.lt_of_lt_of_le t.isLt k0_t5_abs.2.1⟩ := by
  rw [k0_off15_eq]; exact ⟨rfl, rfl, rfl⟩
theorem isSlotOff_off17 (t : Fin k0_t6_loop.trips) :
    IsSlotOff (k0_off17 t) ⟨t.val, Nat.lt_of_lt_of_le t.isLt k0_t6_abs.2.1⟩ := by
  rw [k0_off17_eq]; exact ⟨rfl, rfl, rfl⟩

end Cert.Kernel.TileFacts

end
-- ==== Proof.KTileFactsC.lean ====
/-
  The block offsets the worker computes, in closed form, and the side conditions they meet.

  Worker w reads the blocks of row w / 4 of the probabilities. For the token a at position p of its
  chunk the block starts at row (w % 4)·512 + (p / 8)·8 and column (a / 128)·128: the kernel computes
  the row offset from the loop counters by word arithmetic that never wraps for 32 workers, 8 rounds
  and 32 trips, and the column offset by shifting the token right and left by 7, which for a token
  below 8192 clears its low 7 bits. Every such block lies inside the 8 × 2048 × 8192 array.
-/
import proofs.«212842_g47828755808845_cont_8to1c4_577_40_alg».proof.Proof.KTileDefs

noncomputable section

namespace Cert.Kernel.TileFacts

open Cert.Kernel Cert.Kernel.Gen
open Idealize.ShloMosaic
open Cert.Kernel.Tile (wn wn_lt)

/-! ## The worker's row and chunk -/

theorem off9_eq : ∀ L : grid0.Coords, k0_off9 L = ![(16 * (L 0).val + (L 1).val) / 4, 0, 0] := by decide +kernel
theorem off18_eq : ∀ L : grid0.Coords, k0_off18 L = ![(16 * (L 0).val + (L 1).val) / 4, 0, 0] := by decide +kernel
theorem off1_eq : ∀ L : grid0.Coords, k0_off1 L = ![(16 * (L 0).val + (L 1).val) / 4, (16 * (L 0).val + (L 1).val) % 4 * 512] := by
  decide +kernel

/-- The worker's row of the probabilities: blocks start in row w / 4. -/
theorem k0_off9_wn (L : grid0.Coords) : k0_off9 L = ![wn L / 4, 0, 0] := off9_eq L
theorem k0_off18_wn (L : grid0.Coords) : k0_off18 L = ![wn L / 4, 0, 0] := off18_eq L
/-- The worker's tokens: row w / 4 from column (w % 4)·512. -/
theorem k0_off1_wn (L : grid0.Coords) : k0_off1 L = ![wn L / 4, wn L % 4 * 512] := off1_eq L
/-- The worker's row of the gathered array. -/
theorem k0_off23_wn (L : grid0.Coords) : k0_off23 L = ![wn L, 0] := k0_off23_eq L

/-! ## The row offsets of the three block copies -/

theorem mult2_eq : ∀ (L : grid0.Coords) (t : Fin k0_t1_loop.trips),
    (k0_mult2 L t).toNat = (16 * (L 0).val + (L 1).val) % 4 * 512 + t.val / 8 * 8 := by decide +kernel
theorem mult4_eq : ∀ (L : grid0.Coords) (t2 : Fin k0_t2_loop.trips) (t3 : Fin k0_t3_loop.trips),
    (k0_mult4 L t2 t3).toNat = (16 * (L 0).val + (L 1).val) % 4 * 512 + 64 * t2.val + 32 + t3.val / 8 * 8 := by
  decide +kernel
theorem mult6_eq : ∀ (L : grid0.Coords) (t2 : Fin k0_t2_loop.trips) (t5 : Fin k0_t5_loop.trips),
    (k0_mult6 L t2 t5).toNat = (16 * (L 0).val + (L 1).val) % 4 * 512 + 64 * t2.val + 64 + t5.val / 8 * 8 := by
  decide +kernel

/-- The guard of the next round's prefetch holds exactly in the first seven rounds. -/
theorem cond1_iff : ∀ t2 : Fin k0_t2_loop.trips, k0_cond1 t2 = 1#1 ↔ t2.val < 7 := by decide +kernel

/-! ## The column offset: a token with its low seven bits cleared -/

theorem mult1_fin : ∀ a : Fin 8192, (k0_mult1 (BitVec.ofNat 32 a.val)).toNat = a.val / 128 * 128 := by decide +kernel

/-- Shifting a token below 8192 right and then left by 7 clears its low seven bits. -/
theorem mult1_eq (v : BitVec 32) (hv : v.toNat ≤ 8191) : (k0_mult1 v).toNat = v.toNat / 128 * 128 := by
  obtain ⟨n, hn, rfl⟩ : ∃ n, n ≤ 8191 ∧ v = BitVec.ofNat 32 n :=
    ⟨v.toNat, hv, BitVec.eq_of_toNat_eq (by rw [BitVec.toNat_ofNat, Nat.mod_eq_of_lt v.isLt])⟩
  rw [BitVec.toNat_ofNat, Nat.mod_eq_of_lt (by omega : n < 2 ^ 32)]
  exact mult1_fin ⟨n, by omega⟩
theorem mult3_eq (v : BitVec 32) (hv : v.toNat ≤ 8191) : (k0_mult3 v).toNat = v.toNat / 128 * 128 := mult1_eq v hv
theorem mult5_eq (v : BitVec 32) (hv : v.toNat ≤ 8191) : (k0_mult5 v).toNat = v.toNat / 128 * 128 := mult1_eq v hv

/-! ## The three block copies' offsets -/

/-- The first round's copy for trip t: the block of token v at position t. -/
theorem k0_off4_wn (L : grid0.Coords) (t : Fin k0_t1_loop.trips) (v : BitVec 32) (hv : v.toNat ≤ 8191) :
    k0_off4 L t v = ![wn L / 4, wn L % 4 * 512 + t.val / 8 * 8, v.toNat / 128 * 128] := by
  have e0 : k0_off4 L t v 0 = k0_off9 L 0 := rfl
  have e1 : k0_off4 L t v 1 = (k0_mult2 L t).toNat := rfl
  have e2 : k0_off4 L t v 2 = (k0_mult1 v).toNat := rfl
  funext a
  match a with
  | ⟨0, _⟩ => exact e0.trans (congrFun (off9_eq L) 0)
  | ⟨1, _⟩ => exact e1.trans (mult2_eq L t)
  | ⟨2, _⟩ => exact e2.trans (mult1_eq v hv)

/-- Round t2's copy into the second buffer for trip t3: the block of token v at position 64·t2 + 32 + t3. -/
theorem k0_off7_wn (L : grid0.Coords) (t2 : Fin k0_t2_loop.trips) (t3 : Fin k0_t3_loop.trips) (v : BitVec 32)
    (hv : v.toNat ≤ 8191) :
    k0_off7 L t2 t3 v = ![wn L / 4, wn L % 4 * 512 + 64 * t2.val + 32 + t3.val / 8 * 8, v.toNat / 128 * 128] := by
  have e0 : k0_off7 L t2 t3 v 0 = k0_off9 L 0 := rfl
  have e1 : k0_off7 L t2 t3 v 1 = (k0_mult4 L t2 t3).toNat := rfl
  have e2 : k0_off7 L t2 t3 v 2 = (k0_mult3 v).toNat := rfl
  funext a
  match a with
  | ⟨0, _⟩ => exact e0.trans (congrFun (off9_eq L) 0)
  | ⟨1, _⟩ => exact e1.trans (mult4_eq L t2 t3)
  | ⟨2, _⟩ => exact e2.trans (mult3_eq v hv)

/-- Round t2's prefetch into the first buffer for trip t5: the block of token v at position 64·t2 + 64 + t5. -/
theorem k0_off16_wn (L : grid0.Coords) (t2 : Fin k0_t2_loop.trips) (t5 : Fin k0_t5_loop.trips) (v : BitVec 32)
    (hv : v.toNat ≤ 8191) :
    k0_off16 L t2 t5 v = ![wn L / 4, wn L % 4 * 512 + 64 * t2.val + 64 + t5.val / 8 * 8, v.toNat / 128 * 128] := by
  have e0 : k0_off16 L t2 t5 v 0 = k0_off9 L 0 := rfl
  have e1 : k0_off16 L t2 t5 v 1 = (k0_mult6 L t2 t5).toNat := rfl
  have e2 : k0_off16 L t2 t5 v 2 = (k0_mult5 v).toNat := rfl
  funext a
  match a with
  | ⟨0, _⟩ => exact e0.trans (congrFun (off9_eq L) 0)
  | ⟨1, _⟩ => exact e1.trans (mult6_eq L t2 t5)
  | ⟨2, _⟩ => exact e2.trans (mult5_eq v hv)

/-! ## The side conditions, from the token's range -/

theorem trips1_le (t : Fin k0_t1_loop.trips) : t.val < 32 := Nat.lt_of_lt_of_le t.isLt k0_t1_abs.2.1
theorem trips2_le (t : Fin k0_t2_loop.trips) : t.val < 8 := Nat.lt_of_lt_of_le t.isLt k0_t2_abs.2.1
theorem trips3_le (t : Fin k0_t3_loop.trips) : t.val < 32 := Nat.lt_of_lt_of_le t.isLt k0_t3_abs.2.1
theorem trips4_le (t : Fin k0_t4_loop.trips) : t.val < 32 := Nat.lt_of_lt_of_le t.isLt k0_t4_abs.2.1
theorem trips5_le (t : Fin k0_t5_loop.trips) : t.val < 32 := Nat.lt_of_lt_of_le t.isLt k0_t5_abs.2.1
theorem trips6_le (t : Fin k0_t6_loop.trips) : t.val < 32 := Nat.lt_of_lt_of_le t.isLt k0_t6_abs.2.1

/-- A token below 8192 passes the first copy's check. -/
theorem chk1_of_le (L : grid0.Coords) (t : Fin k0_t1_loop.trips) (v : BitVec 32) (hv : v.toNat ≤ 8191) : k0_chk1 L t v := by
  have hw := wn_lt L
  have ht := trips1_le t
  refine ⟨?_, fun a => ?_⟩
  · rw [mult1_eq v hv]; exact Nat.dvd_mul_left _ _
  · rw [k0_off4_wn L t v hv]
    match a with
    | ⟨0, _⟩ => show wn L / 4 + 1 ≤ 8; omega
    | ⟨1, _⟩ => show wn L % 4 * 512 + t.val / 8 * 8 + 8 ≤ 2048; omega
    | ⟨2, _⟩ => show v.toNat / 128 * 128 + 128 ≤ 8192; omega

/-- A token below 8192 passes the second copy's check. -/
theorem chk2_of_le (L : grid0.Coords) (t2 : Fin k0_t2_loop.trips) (t3 : Fin k0_t3_loop.trips) (v : BitVec 32)
    (hv : v.toNat ≤ 8191) : k0_chk2 L t2 t3 v := by
  have hw := wn_lt L
  have h2 := trips2_le t2
  have h3 := trips3_le t3
  refine ⟨?_, fun a => ?_⟩
  · rw [mult3_eq v hv]; exact Nat.dvd_mul_left _ _
  · rw [k0_off7_wn L t2 t3 v hv]
    match a with
    | ⟨0, _⟩ => show wn L / 4 + 1 ≤ 8; omega
    | ⟨1, _⟩ => show wn L % 4 * 512 + 64 * t2.val + 32 + t3.val / 8 * 8 + 8 ≤ 2048; omega
    | ⟨2, _⟩ => show v.toNat / 128 * 128 + 128 ≤ 8192; omega

/-- A token below 8192 passes the prefetch's check (which asks only in the first seven rounds). -/
theorem chk5_of_le (L : grid0.Coords) (t2 : Fin k0_t2_loop.trips) (t5 : Fin k0_t5_loop.trips) (v : BitVec 32)
    (hv : v.toNat ≤ 8191) : k0_chk5 L t2 t5 v := by
  have hw := wn_lt L
  have h5 := trips5_le t5
  refine ⟨fun _ => ?_, fun hc a => ?_⟩
  · rw [mult5_eq v hv]; exact Nat.dvd_mul_left _ _
  · have h2 : t2.val < 7 := (cond1_iff t2).mp hc
    rw [k0_off16_wn L t2 t5 v hv]
    match a with
    | ⟨0, _⟩ => show wn L / 4 + 1 ≤ 8; omega
    | ⟨1, _⟩ => show wn L % 4 * 512 + 64 * t2.val + 64 + t5.val / 8 * 8 + 8 ≤ 2048; omega
    | ⟨2, _⟩ => show v.toNat / 128 * 128 + 128 ≤ 8192; omega

end Cert.Kernel.TileFacts

end
-- ==== Proof.KTileFactsD.lean ====
/-
  The gather's index vectors at a lane, the indexed load at a lane, and the arithmetic that puts a
  block entry back at its place.

  The three index vectors of each 16-lane gather name, at lane l, the slot 16·g + l (g the lane group,
  0 or 1), the row l % 8 within the block and the column a % 128, a the lane's token; all are in range
  whatever the tokens. The indexed load reads the buffer at the index the three vectors name. For a
  position p and a token a, (p / 8)·8 + p % 8 = p and (a / 128)·128 + a % 128 = a: the block entry
  the indices name is the entry the token selects.
-/
import proofs.«212842_g47828755808845_cont_8to1c4_577_40_alg».proof.Proof.KTileDefs
import Idealize.ShloMosaic.Lib.ValueLayout

noncomputable section

namespace Cert.Kernel.TileFacts

open Cert.Kernel Cert.Kernel.Gen
open Idealize.ShloMosaic Idealize.ShloMosaic.ValueIdx

variable {F : FTy → Type} [FloatOps F]

/-! ## Words -/

/-- A word masked with 127 is its remainder by 128. -/
theorem toNat_and_127 (x : BitVec 32) : (x &&& 127#32).toNat = x.toNat % 128 := by
  rw [BitVec.toNat_and]
  exact Nat.and_two_pow_sub_one_eq_mod x.toNat 7

theorem lane_and_7 : ∀ l : Fin 16, BitVec.ofNat 32 l.val &&& 7#32 = BitVec.ofNat 32 (l.val % 8) := by decide
theorem lane_add_16 : ∀ l : Fin 16, 16#32 + BitVec.ofNat 32 l.val = BitVec.ofNat 32 (16 + l.val) := by decide
theorem toNat_lane (l : Fin 16) : (BitVec.ofNat 32 l.val).toNat = l.val := by
  rw [BitVec.toNat_ofNat]; exact Nat.mod_eq_of_lt (by have := l.isLt; omega)
theorem toNat_lane_mod (l : Fin 16) : (BitVec.ofNat 32 (l.val % 8)).toNat = l.val % 8 := by
  rw [BitVec.toNat_ofNat]; exact Nat.mod_eq_of_lt (by omega)
theorem toNat_lane_16 (l : Fin 16) : (BitVec.ofNat 32 (16 + l.val)).toNat = 16 + l.val := by
  rw [BitVec.toNat_ofNat]; exact Nat.mod_eq_of_lt (by have := l.isLt; omega)

/-! ## The index vectors at a lane -/

/-- The lane numbers, as the worker's 16-lane iota. -/
abbrev lanes : IVec S16 32 := iota .scVector S16 32 [0] iota_S16_d0_w32_scVector

theorem lanes_apply (l : Fin 16) : lanes (ix1 l) = BitVec.ofNat 32 l.val := iota_single_apply _ _ _ _ _ _

theorem pay10_apply (l : Fin 16) : k0_pay10 lanes (ix1 l) = BitVec.ofNat 32 l.val := by
  show 0#32 + lanes (ix1 l) = _
  rw [BitVec.zero_add, lanes_apply]
theorem pay11_apply (l : Fin 16) : k0_pay11 lanes (ix1 l) = BitVec.ofNat 32 (l.val % 8) := by
  show lanes (ix1 l) &&& 7#32 = _
  rw [lanes_apply, lane_and_7]
theorem pay12_apply (v : Vec F S16 .i32) (l : Fin 16) : k0_pay12 v (ix1 l) = v (ix1 l) &&& 127#32 := rfl
theorem pay13_apply (l : Fin 16) : k0_pay13 lanes (ix1 l) = BitVec.ofNat 32 (16 + l.val) := by
  show 16#32 + lanes (ix1 l) = _
  rw [lanes_apply, lane_add_16]
theorem pay14_apply (l : Fin 16) : k0_pay14 lanes (ix1 l) = BitVec.ofNat 32 (l.val % 8) := by
  show lanes (ix1 l) &&& 7#32 = _
  rw [lanes_apply, lane_and_7]
theorem pay15_apply (v : Vec F S16 .i32) (l : Fin 16) : k0_pay15 v (ix1 l) = v (ix1 l) &&& 127#32 := rfl
theorem pay3_apply (l : Fin 16) : k0_pay3 (ix1 l) = BitVec.ofNat 32 l.val := pay10_apply l
theorem pay4_apply (l : Fin 16) : k0_pay4 (ix1 l) = BitVec.ofNat 32 (l.val % 8) := pay11_apply l
theorem pay5_apply (v : Vec F S16 .i32) (l : Fin 16) : k0_pay5 v (ix1 l) = v (ix1 l) &&& 127#32 := rfl
theorem pay6_apply (l : Fin 16) : k0_pay6 (ix1 l) = BitVec.ofNat 32 (16 + l.val) := pay13_apply l
theorem pay7_apply (l : Fin 16) : k0_pay7 (ix1 l) = BitVec.ofNat 32 (l.val % 8) := pay14_apply l
theorem pay8_apply (v : Vec F S16 .i32) (l : Fin 16) : k0_pay8 v (ix1 l) = v (ix1 l) &&& 127#32 := rfl

/-! ## Every index is in range, whatever the tokens -/

/-- Three index vectors that name, at lane l, a slot below 32, a row below 8 and a column below 128. -/
theorem idx_inb (i0 i1 i2 : IVec S16 32) (h0 : ∀ l : Fin 16, (i0 (ix1 l)).toNat < 32) (h1 : ∀ l : Fin 16, (i1 (ix1 l)).toNat < 8)
    (h2 : ∀ l : Fin 16, (i2 (ix1 l)).toNat < 128) :
    ∀ a x, ((![i0, i1, i2] : Fin 3 → IVec S16 32) a x).toNat < S32x8x128.size a := by
  intro a x
  rw [eq_ix1 x]
  match a with
  | ⟨0, _⟩ => exact h0 _
  | ⟨1, _⟩ => exact h1 _
  | ⟨2, _⟩ => exact h2 _

theorem and_127_lt (x : BitVec 32) : (x &&& 127#32).toNat < 128 := by
  rw [toNat_and_127]; exact Nat.mod_lt _ (by decide)

theorem chk3_all (v : Vec F S16 .i32) : k0_chk3 (k0_pay10 lanes) (k0_pay11 lanes) (k0_pay12 v) :=
  idx_inb _ _ _ (fun l => by rw [pay10_apply, toNat_lane]; have := l.isLt; omega)
    (fun l => by rw [pay11_apply, toNat_lane_mod]; omega) (fun l => by rw [pay12_apply]; exact and_127_lt _)
theorem chk4_all (v : Vec F S16 .i32) : k0_chk4 (k0_pay13 lanes) (k0_pay14 lanes) (k0_pay15 v) :=
  idx_inb _ _ _ (fun l => by rw [pay13_apply, toNat_lane_16]; have := l.isLt; omega)
    (fun l => by rw [pay14_apply, toNat_lane_mod]; omega) (fun l => by rw [pay15_apply]; exact and_127_lt _)
theorem chk6_all (v : Vec F S16 .i32) : k0_chk6 k0_pay3 k0_pay4 (k0_pay5 v) :=
  idx_inb _ _ _ (fun l => by rw [pay3_apply, toNat_lane]; have := l.isLt; omega)
    (fun l => by rw [pay4_apply, toNat_lane_mod]; omega) (fun l => by rw [pay5_apply]; exact and_127_lt _)
theorem chk7_all (v : Vec F S16 .i32) : k0_chk7 k0_pay6 k0_pay7 (k0_pay8 v) :=
  idx_inb _ _ _ (fun l => by rw [pay6_apply, toNat_lane_16]; have := l.isLt; omega)
    (fun l => by rw [pay7_apply, toNat_lane_mod]; omega) (fun l => by rw [pay8_apply]; exact and_127_lt _)

/-! ## The indexed load at a lane -/

/-- An indexed load reads, at lane l, the buffer at the index its index vectors name there. -/
theorem loadIdx_apply {s t : Shape} {e : EltTy} (f : Vec F s e) (idxs : Fin s.rank → IVec t 32)
    (h : ∀ a x, (idxs a x).toNat < s.size a) (x : t.Idx) :
    loadIdx f idxs h x = f (fun a => ⟨(idxs a x).toNat, h a x⟩) := rfl

/-- The same for a 32 × 8 × 128 buffer and three 16-lane index vectors. -/
theorem loadIdx3_apply {e : EltTy} (f : Vec F S32x8x128 e) (i0 i1 i2 : IVec S16 32)
    (h : ∀ a x, ((![i0, i1, i2] : Fin 3 → IVec S16 32) a x).toNat < S32x8x128.size a) (l : Fin 16) :
    loadIdx f ![i0, i1, i2] h (ix1 l)
      = f (ix3 (⟨(i0 (ix1 l)).toNat, h 0 (ix1 l)⟩ : Fin 32) (⟨(i1 (ix1 l)).toNat, h 1 (ix1 l)⟩ : Fin 8)
          (⟨(i2 (ix1 l)).toNat, h 2 (ix1 l)⟩ : Fin 128)) :=
  congrArg f (funext fun a => match a with | ⟨0, _⟩ => rfl | ⟨1, _⟩ => rfl | ⟨2, _⟩ => rfl)

/-! ## The arithmetic that closes the value -/

theorem row_split (w p : ℕ) : w % 4 * 512 + p / 8 * 8 + p % 8 = w % 4 * 512 + p := by omega
theorem col_split (a : ℕ) : a / 128 * 128 + a % 128 = a := by omega

/-- The entry of the probabilities that (w, p) selects, written as the block entry the gather reads: row
    (w % 4)·512 + (p / 8)·8 + p % 8 and column (a / 128)·128 + (a masked with 127), a the token there. -/
theorem pick_eq_block (act : Vec F S8x2048 .i32) (j : S32x512.Idx) (ha : (act (Spec.posOf j)).toNat ≤ 8191) :
    Spec.pick act j
      = ix3 (⟨(j 0).val / 4, by have := idx2_lt0 j; omega⟩ : Fin 8)
          (⟨(j 0).val % 4 * 512 + (j 1).val / 8 * 8 + (j 1).val % 8, by have := idx2_lt1 j; omega⟩ : Fin 2048)
          (⟨(act (Spec.posOf j)).toNat / 128 * 128 + ((act (Spec.posOf j)) &&& 127#32).toNat, by
              rw [toNat_and_127]; omega⟩ : Fin 8192) := by
  funext a
  apply Fin.ext
  match a with
  | ⟨0, _⟩ => rfl
  | ⟨1, _⟩ => show (j 0).val % 4 * 512 + (j 1).val = (j 0).val % 4 * 512 + (j 1).val / 8 * 8 + (j 1).val % 8; omega
  | ⟨2, _⟩ =>
    show (act (Spec.posOf j)).toNat % 8192 = (act (Spec.posOf j)).toNat / 128 * 128 + ((act (Spec.posOf j)) &&& 127#32).toNat
    rw [toNat_and_127]; omega

end Cert.Kernel.TileFacts

end
-- ==== Proof.KTileFactsE.lean ====
/-
  A landed block copy leaves the block the round assigns to its slot.

  In the round that starts at position p0 of the worker's chunk, slot j receives the 8 × 128 block of
  the probabilities at row offset (w % 4)·512 + ((p0 + j) / 8)·8 and column offset (a / 128)·128, a
  the token at position p0 + j. Entry (r, c) of the slot is entry (j, r, c) of the buffer, entry
  (r, c) of the block is entry (w / 4, row offset + r, column offset + c) of the probabilities, and
  neither sum wraps: the row stays below 2048 and, the token being at most 8191, the column stays
  below 8192. So after the copy the buffer holds, on slot j, what the round's table says.
-/
import proofs.«212842_g47828755808845_cont_8to1c4_577_40_alg».proof.Proof.KTileFactsB

noncomputable section

namespace Cert.Kernel.TileFacts

open Cert.Kernel Cert.Kernel.Gen Cert.Kernel.Common
open Idealize.ShloMosaic Idealize.ShloMosaic.ValueIdx
open Cert.Kernel.Tile (slotSet wn wn_lt tokAt blkIdx GBlk)

variable {F : FTy → Type} [FloatOps F]
variable (m : (ℓ : Loc nD τ sig) → Buf (Elt F) ℓ) (d : Dev nD) (L : grid0.Coords)

/-- The 8 × 128 block of the probabilities at offsets `offs`, as the kernel forms it. -/
abbrev srcOf (offs : Fin 3 → ℕ) (hs : ∀ a, offs a + S1x8x128.size a ≤ S8x2048x8192.size a) :
    Memref sig .scVector .hbm S8x128 .f32 :=
  ((Memref.whole main_arg0_scv : Memref sig .scVector .hbm S8x2048x8192 .f32).slice
    (Rect.unit (s := S8x2048x8192) offs S1x8x128.size hs) (fun _ => rfl)).squeeze S8x128 squeezes_S1x8x128_S8x128

/-- The copy of the block for position p0 + j into slot j of the first block buffer leaves, on that slot, the round's block
    (whatever the buffer held). -/
theorem landed_X1 (hpre : Common.PreOK m) (p0 j : ℕ) (hj : j < 32) (hp : p0 + j < 512)
    (offd : Fin 3 → ℕ) (hd : ∀ a, offd a + S1x8x128.size a ≤ S32x8x128.size a) (hoff : IsSlotOff offd ⟨j, hj⟩)
    (offs : Fin 3 → ℕ) (hs : ∀ a, offs a + S1x8x128.size a ≤ S8x2048x8192.size a)
    (hs0 : offs 0 = wn L / 4) (hs1 : offs 1 = wn L % 4 * 512 + (p0 + j) / 8 * 8)
    (hs2 : offs 2 = (tokAt m d L (p0 + j)).toNat / 128 * 128)
    (fd : (slotOf X1 offd hd).view.ty.Contents (Elt F)) (i : S32x8x128.Idx) (hi : i ∈ slotSet ⟨j, hj⟩) :
    ((slotOf X1 offd hd).view.write (Elt F) fd
        (ReadAs.same.apply ((srcOf offs hs).view.read (Elt F) (m (predLoc d)))) Finset.univ) i
      = GBlk m d L p0 i := by
  have hi0 : (i 0).val = j := (mem_slotSet _ i).mp hi
  have hw := wn_lt L
  have htok : (tokAt m d L (p0 + j)).toNat ≤ 8191 := hpre d _
  let y : S8x128.Idx := ix2 (⟨(i 1).val, (i 1).isLt⟩ : Fin 8) (⟨(i 2).val, (i 2).isLt⟩ : Fin 128)
  have hy : (slotOf X1 offd hd).view.emb y = i := by
    rw [slot_emb_X1 offd hd ⟨j, hj⟩ hoff y]
    funext a
    apply Fin.ext
    match a with
    | ⟨0, _⟩ => exact hi0.symm
    | ⟨1, _⟩ => rfl
    | ⟨2, _⟩ => rfl
  have hsrc : (srcOf offs hs).view.emb y = blkIdx m d L p0 i := by
    refine (src_emb offs hs y).trans ?_
    funext a
    apply Fin.ext
    match a with
    | ⟨0, _⟩ => exact hs0
    | ⟨1, _⟩ =>
      show offs 1 + (i 1).val = (wn L % 4 * 512 + (p0 + (i 0).val) / 8 * 8 + (i 1).val) % 2048
      have b1 : (i 1).val < 8 := (i 1).isLt
      rw [hs1, hi0]; omega
    | ⟨2, _⟩ =>
      show offs 2 + (i 2).val = ((tokAt m d L (p0 + (i 0).val)).toNat / 128 * 128 + (i 2).val) % 8192
      have b2 : (i 2).val < 128 := (i 2).isLt
      rw [hs2, hi0]; omega
  calc ((slotOf X1 offd hd).view.write (Elt F) fd
          (ReadAs.same.apply ((srcOf offs hs).view.read (Elt F) (m (predLoc d)))) Finset.univ) i
      = ((slotOf X1 offd hd).view.write (Elt F) fd
          (ReadAs.same.apply ((srcOf offs hs).view.read (Elt F) (m (predLoc d)))) Finset.univ)
          ((slotOf X1 offd hd).view.emb y) := by rw [hy]
    _ = (srcOf offs hs).view.read (Elt F) (m (predLoc d)) y :=
        (View.write_emb_of_mem _ _ (Finset.mem_univ y)).trans (cast_eq _ _)
    _ = m (predLoc d) ((srcOf offs hs).view.emb y) := (View.read_apply _ _).trans (cast_eq _ _)
    _ = GBlk m d L p0 i := by rw [hsrc]; rfl

/-- The same for the second block buffer. -/
theorem landed_X2 (hpre : Common.PreOK m) (p0 j : ℕ) (hj : j < 32) (hp : p0 + j < 512)
    (offd : Fin 3 → ℕ) (hd : ∀ a, offd a + S1x8x128.size a ≤ S32x8x128.size a) (hoff : IsSlotOff offd ⟨j, hj⟩)
    (offs : Fin 3 → ℕ) (hs : ∀ a, offs a + S1x8x128.size a ≤ S8x2048x8192.size a)
    (hs0 : offs 0 = wn L / 4) (hs1 : offs 1 = wn L % 4 * 512 + (p0 + j) / 8 * 8)
    (hs2 : offs 2 = (tokAt m d L (p0 + j)).toNat / 128 * 128)
    (fd : (slotOf X2 offd hd).view.ty.Contents (Elt F)) (i : S32x8x128.Idx) (hi : i ∈ slotSet ⟨j, hj⟩) :
    ((slotOf X2 offd hd).view.write (Elt F) fd
        (ReadAs.same.apply ((srcOf offs hs).view.read (Elt F) (m (predLoc d)))) Finset.univ) i
      = GBlk m d L p0 i := by
  have hi0 : (i 0).val = j := (mem_slotSet _ i).mp hi
  have hw := wn_lt L
  have htok : (tokAt m d L (p0 + j)).toNat ≤ 8191 := hpre d _
  let y : S8x128.Idx := ix2 (⟨(i 1).val, (i 1).isLt⟩ : Fin 8) (⟨(i 2).val, (i 2).isLt⟩ : Fin 128)
  have hy : (slotOf X2 offd hd).view.emb y = i := by
    rw [slot_emb_X2 offd hd ⟨j, hj⟩ hoff y]
    funext a
    apply Fin.ext
    match a with
    | ⟨0, _⟩ => exact hi0.symm
    | ⟨1, _⟩ => rfl
    | ⟨2, _⟩ => rfl
  have hsrc : (srcOf offs hs).view.emb y = blkIdx m d L p0 i := by
    refine (src_emb offs hs y).trans ?_
    funext a
    apply Fin.ext
    match a with
    | ⟨0, _⟩ => exact hs0
    | ⟨1, _⟩ =>
      show offs 1 + (i 1).val = (wn L % 4 * 512 + (p0 + (i 0).val) / 8 * 8 + (i 1).val) % 2048
      have b1 : (i 1).val < 8 := (i 1).isLt
      rw [hs1, hi0]; omega
    | ⟨2, _⟩ =>
      show offs 2 + (i 2).val = ((tokAt m d L (p0 + (i 0).val)).toNat / 128 * 128 + (i 2).val) % 8192
      have b2 : (i 2).val < 128 := (i 2).isLt
      rw [hs2, hi0]; omega
  calc ((slotOf X2 offd hd).view.write (Elt F) fd
          (ReadAs.same.apply ((srcOf offs hs).view.read (Elt F) (m (predLoc d)))) Finset.univ) i
      = ((slotOf X2 offd hd).view.write (Elt F) fd
          (ReadAs.same.apply ((srcOf offs hs).view.read (Elt F) (m (predLoc d)))) Finset.univ)
          ((slotOf X2 offd hd).view.emb y) := by rw [hy]
    _ = (srcOf offs hs).view.read (Elt F) (m (predLoc d)) y :=
        (View.write_emb_of_mem _ _ (Finset.mem_univ y)).trans (cast_eq _ _)
    _ = m (predLoc d) ((srcOf offs hs).view.emb y) := (View.read_apply _ _).trans (cast_eq _ _)
    _ = GBlk m d L p0 i := by rw [hsrc]; rfl

end Cert.Kernel.TileFacts

end
-- ==== Proof.KTileFactsF.lean ====
/-
  The gathered lanes are the gathered values, and the output scratch fills 32 positions a round.

  With the round's blocks in a block buffer, lane l of lane group g reads slot 16·g + l at row l % 8
  and column a % 128, a the token at position p0 + 16·g + l. That slot holds the block whose rows
  start at ((p0 + 16·g + l) / 8)·8 and whose columns start at (a / 128)·128; p0 + 16·g being a
  multiple of 8, row l % 8 of it is position p0 + 16·g + l itself, and column a % 128 is the token's
  class: the entry read is the one the token selects, the worker's gathered value at that position.
  Two 16-lane stores of such values at n and n + 16 move the output scratch from "first n positions
  done" to "first n + 32 positions done".
-/
import proofs.«212842_g47828755808845_cont_8to1c4_577_40_alg».proof.Proof.KTileFactsD
import Idealize.ShloMosaic.Lib.WritesUnit

noncomputable section

namespace Cert.Kernel.TileFacts

open Cert.Kernel Cert.Kernel.Gen Cert.Kernel.Common
open Idealize.ShloMosaic Idealize.ShloMosaic.ValueIdx
open Cert.Kernel.Tile (wn wn_lt wL tokAt blkIdx GBlk gval OutF)

variable {F : FTy → Type} [FloatOps F]
variable (m : (ℓ : Loc nD τ sig) → Buf (Elt F) ℓ) (d : Dev nD) (L : grid0.Coords)

/-! ## The gathered lanes -/

/-- The position p of the worker's chunk, as an entry of the 32 × 512 arrangement. -/
abbrev posJ (p : ℕ) : S32x512.Idx := ix2 (wL L) (⟨p % 512, Nat.mod_lt _ (by decide)⟩ : Fin 512)

/-- The token at the position that entry stands for is the worker's token at position p. -/
theorem act_posJ (p : ℕ) : m (actLoc d) (Spec.posOf (posJ L p)) = tokAt m d L p := rfl

/-- The gathered value at position p is the probabilities' entry the token there selects. -/
theorem gval_eq (p : ℕ) : gval m d L p = m (predLoc d) (Spec.pick (F := F) (m (actLoc d)) (posJ L p)) := rfl

/-- The block entry lane l of group g names — slot 16·g + l, row l % 8, column a % 128 — is the entry the token a at
    position p0 + 16·g + l selects. -/
theorem blkIdx_lane (hpre : Common.PreOK m) (p0 g : ℕ) (hp : p0 + 16 * g + 16 ≤ 512) (h8 : p0 % 8 = 0) (l : Fin 16)
    (i : S32x8x128.Idx) (e0 : (i 0).val = 16 * g + l.val) (e1 : (i 1).val = l.val % 8)
    (e2 : (i 2).val = (tokAt m d L (p0 + 16 * g + l.val)).toNat % 128) :
    blkIdx m d L p0 i = Spec.pick (F := F) (m (actLoc d)) (posJ L (p0 + 16 * g + l.val)) := by
  have hw := wn_lt L
  have hl := l.isLt
  have htok : (tokAt m d L (p0 + 16 * g + l.val)).toNat ≤ 8191 := hpre d _
  have ea : p0 + (16 * g + l.val) = p0 + 16 * g + l.val := by omega
  funext a
  apply Fin.ext
  match a with
  | ⟨0, _⟩ => rfl
  | ⟨1, _⟩ =>
    show (wn L % 4 * 512 + (p0 + (i 0).val) / 8 * 8 + (i 1).val) % 2048 = wn L % 4 * 512 + (p0 + 16 * g + l.val) % 512
    rw [e0, e1]; omega
  | ⟨2, _⟩ =>
    show ((tokAt m d L (p0 + (i 0).val)).toNat / 128 * 128 + (i 2).val) % 8192
      = (tokAt m d L (p0 + 16 * g + l.val)).toNat % 8192
    rw [e0, ea, e2]; omega

/-- Lane l of the indexed load of lane group g out of a buffer that holds the round's blocks is the worker's gathered
    value at position p0 + 16·g + l. -/
theorem gather_lane (hpre : Common.PreOK m) (p0 g : ℕ) (hp : p0 + 16 * g + 16 ≤ 512) (h8 : p0 % 8 = 0)
    (i0 i1 i2 : IVec S16 32) (h : ∀ a x, ((![i0, i1, i2] : Fin 3 → IVec S16 32) a x).toNat < S32x8x128.size a)
    (l : Fin 16) (e0 : (i0 (ix1 l)).toNat = 16 * g + l.val) (e1 : (i1 (ix1 l)).toNat = l.val % 8)
    (e2 : (i2 (ix1 l)).toNat = (tokAt m d L (p0 + 16 * g + l.val)).toNat % 128) :
    loadIdx (F := F) (GBlk m d L p0) ![i0, i1, i2] h (ix1 l) = gval m d L (p0 + 16 * g + l.val) := by
  rw [loadIdx3_apply, gval_eq]
  exact congrArg (m (predLoc d)) (blkIdx_lane m d L hpre p0 g hp h8 l _ e0 e1 e2)

/-- What a load of a whole block buffer reads is its contents. -/
theorem read_whole_X1 (G : (Memref.whole cc0_scratch1 : Memref sig .scVector .vmem S32x8x128 .f32).view.ty.Contents (Elt F)) :
    ((Memref.whole cc0_scratch1 : Memref sig .scVector .vmem S32x8x128 .f32).access (Rect.whole S32x8x128)).read (Elt F) G = G :=
  Memref.read_access_whole (Elt F) cc0_scratch1 G
theorem read_whole_X2 (G : (Memref.whole cc0_scratch2 : Memref sig .scVector .vmem S32x8x128 .f32).view.ty.Contents (Elt F)) :
    ((Memref.whole cc0_scratch2 : Memref sig .scVector .vmem S32x8x128 .f32).access (Rect.whole S32x8x128)).read (Elt F) G = G :=
  Memref.read_access_whole (Elt F) cc0_scratch2 G
theorem readAt_whole_X1 (G : (Memref.whole cc0_scratch1 : Memref sig .scVector .vmem S32x8x128 .f32).view.ty.Contents (Elt F)) :
    (Memref.whole cc0_scratch1 : Memref sig .scVector .vmem S32x8x128 .f32).view.readAt (Elt F) (LoadRect.whole S32x8x128) G = G :=
  Memref.readAt_whole (Elt F) cc0_scratch1 G
theorem readAt_whole_X2 (G : (Memref.whole cc0_scratch2 : Memref sig .scVector .vmem S32x8x128 .f32).view.ty.Contents (Elt F)) :
    (Memref.whole cc0_scratch2 : Memref sig .scVector .vmem S32x8x128 .f32).view.readAt (Elt F) (LoadRect.whole S32x8x128) G = G :=
  Memref.readAt_whole (Elt F) cc0_scratch2 G

/-! ## The output scratch -/

/-- The output scratch, whole. -/
abbrev oBuf : Memref sig .scVector .vmem S512 .f32 := Memref.whole cc0_scratch3

/-- One 16-lane store of the gathered values of positions n … n + 15 at offset n: the first n + 16 positions are done. -/
theorem out_store (o0 : S512.Idx → Elt F .f32) (n : ℕ) (h1 : ∀ a, (![n] : Fin 1 → ℕ) a + S16.size a ≤ S512.size a)
    (v1 : S16.Idx → Elt F .f32) (hv1 : ∀ l : Fin 16, v1 (ix1 l) = gval m d L (n + l.val)) :
    oBuf.view.writes (Elt F) (OutF m d L o0 n) [⟨Rect.unit (s := S512) ![n] S16.size h1, v1⟩] = OutF m d L o0 (n + 16) := by
  funext i
  show oBuf.view.read (Elt F) (oBuf.view.writes (Elt F) (OutF m d L o0 n) [⟨Rect.unit (s := S512) ![n] S16.size h1, v1⟩]) i = _
  by_cases hin : n ≤ (i 0).val ∧ (i 0).val < n + 16
  · rw [View.read_writes_cons_unit_of_mem oBuf.view _ h1 v1 [] i (ix1 (⟨(i 0).val - n, by omega⟩ : Fin 16)) rfl
      (fun a => by match a with | ⟨0, _⟩ => show (i 0).val = n + ((i 0).val - n); omega)]
    rw [hv1]
    show _ = if (i 0).val < n + 16 then gval m d L (i 0).val else o0 i
    rw [if_pos hin.2]
    exact congrArg (gval m d L) (by show n + ((i 0).val - n) = (i 0).val; omega)
  · rw [View.read_writes_cons_unit_of_not_mem oBuf.view _ h1 v1 [] i rfl 0
      (by show (i 0).val < n ∨ n + 16 ≤ (i 0).val; omega)]
    show (if (i 0).val < n then gval m d L (i 0).val else o0 i) = if (i 0).val < n + 16 then gval m d L (i 0).val else o0 i
    by_cases hlt : (i 0).val < n
    · rw [if_pos hlt, if_pos (by omega)]
    · rw [if_neg hlt, if_neg (by omega)]

/-- Two 16-lane stores, of positions n … n + 15 at n and then of positions n + 16 … n + 31 at n + 16: the first n + 32
    positions are done. -/
theorem out_store2 (o0 : S512.Idx → Elt F .f32) (n : ℕ) (h1 : ∀ a, (![n] : Fin 1 → ℕ) a + S16.size a ≤ S512.size a)
    (h2 : ∀ a, (![n + 16] : Fin 1 → ℕ) a + S16.size a ≤ S512.size a) (v1 v2 : S16.Idx → Elt F .f32)
    (hv1 : ∀ l : Fin 16, v1 (ix1 l) = gval m d L (n + l.val)) (hv2 : ∀ l : Fin 16, v2 (ix1 l) = gval m d L (n + 16 + l.val)) :
    oBuf.view.writes (Elt F) (OutF m d L o0 n)
        [⟨Rect.unit (s := S512) ![n + 16] S16.size h2, v2⟩, ⟨Rect.unit (s := S512) ![n] S16.size h1, v1⟩]
      = OutF m d L o0 (n + 32) := by
  have e := out_store m d L o0 n h1 v1 hv1
  have e' := out_store m d L o0 (n + 16) h2 v2 hv2
  show oBuf.view.writes (Elt F) (oBuf.view.writes (Elt F) (OutF m d L o0 n) [⟨Rect.unit (s := S512) ![n] S16.size h1, v1⟩])
      [⟨Rect.unit (s := S512) ![n + 16] S16.size h2, v2⟩] = _
  rw [e, e', Nat.add_assoc]

end Cert.Kernel.TileFacts

end
-- ==== Proof.KTileRows.lean ====
/-
  The worker's two rows as its body slices them, read at an index: position p of its 512 tokens is the token at row
  w / 4, column (w % 4) · 512 + p of the token grid, and position p of its row of the gathered array is entry (w, p)
  of the 32 × 512 array. Hence what the body reads off its token row, and what its row of the gathered array holds once
  the full output scratch is written over it.
-/
import proofs.«212842_g47828755808845_cont_8to1c4_577_40_alg».proof.Proof.KTileDefs

noncomputable section

namespace Cert.Kernel.Tile

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "predV" => (Memref.whole Cert.Kernel.main_arg0_scv : Memref Cert.Kernel.sig Kind.scVector Space.hbm Cert.Kernel.S8x2048x8192 EltTy.f32)
local notation "actV" => (Memref.whole Cert.Kernel.main_arg1_scv : Memref Cert.Kernel.sig Kind.scVector Space.hbm Cert.Kernel.S8x2048 EltTy.i32)
local notation "valsV" => (Memref.whole Cert.Kernel.main_v0_scv : Memref Cert.Kernel.sig Kind.scVector Space.hbm Cert.Kernel.S32x512 EltTy.f32)
local notation "aC" => (Memref.whole Cert.Kernel.cc0_scratch0 : Memref Cert.Kernel.sig Kind.scVector Space.vmem Cert.Kernel.S528 EltTy.i32)
local notation "tA" => (Memref.whole Cert.Kernel.cc0_scratch1 : Memref Cert.Kernel.sig Kind.scVector Space.vmem Cert.Kernel.S32x8x128 EltTy.f32)
local notation "tB" => (Memref.whole Cert.Kernel.cc0_scratch2 : Memref Cert.Kernel.sig Kind.scVector Space.vmem Cert.Kernel.S32x8x128 EltTy.f32)
local notation "oB" => (Memref.whole Cert.Kernel.cc0_scratch3 : Memref Cert.Kernel.sig Kind.scVector Space.vmem Cert.Kernel.S512 EltTy.f32)

variable (m : (ℓ : Loc nD τ sig) → Buf (Elt F) ℓ)
variable (d : Dev nD) (L : grid0.Coords)

/-! ## The worker's two rows as the body slices them, read at an index -/

/-- The offsets of the token row's slice, in closed form: row w / 4, from column (w % 4) · 512, w = 16 · core + subcore. -/
theorem k0_off1_closed : ∀ i : grid0.Coords,
    k0_off1 i = ![(16 * (i 0).val + (i 1).val) / 4, (16 * (i 0).val + (i 1).val) % 4 * 512] := by decide +kernel

/-- Dropping the leading axis of size one: entry p of the 512 is entry (0, p) of the 1 × 512. -/
theorem squeeze_idx (y : S512.Idx) :
    Shape.reshapeEquiv (s := S1x512) (s' := S512) squeezes_S1x512_S512.numel_eq y
      = ix2 (⟨0, Nat.one_pos⟩ : Fin 1) (⟨(y 0).val, (y 0).isLt⟩ : Fin 512) :=
  Shape.reshapeEquiv_eq_of_rowMajor _ (by
    rw [Shape.rowMajor_val_two, Shape.rowMajor_val_one]
    show 0 * 512 + (y 0).val = (y 0).val
    omega)

/-- Entry p of the worker's token row is the token at row w / 4, column (w % 4) · 512 + p. -/
theorem aRowK_emb (y : S512.Idx) :
    (aRowK L).view.emb y
      = ix2 (⟨wn L / 4, by have := wn_lt L; omega⟩ : Fin 8)
          (⟨wn L % 4 * 512 + (y 0).val, by have h : (y 0).val < 512 := (y 0).isLt; omega⟩ : Fin 2048) := by
  funext a
  refine Fin.ext ?_
  match a with
  | ⟨0, _⟩ =>
    show k0_off1 L 0 + 1 * ((Shape.reshapeEquiv squeezes_S1x512_S512.numel_eq) y 0).val = wn L / 4
    rw [squeeze_idx, k0_off1_closed]
    show (16 * (L 0).val + (L 1).val) / 4 + 1 * 0 = wn L / 4
    unfold wn; omega
  | ⟨1, _⟩ =>
    show k0_off1 L 1 + 1 * ((Shape.reshapeEquiv squeezes_S1x512_S512.numel_eq) y 1).val = wn L % 4 * 512 + (y 0).val
    rw [squeeze_idx, k0_off1_closed]
    show (16 * (L 0).val + (L 1).val) % 4 * 512 + 1 * (y 0).val = wn L % 4 * 512 + (y 0).val
    unfold wn; omega

/-- The token row read through the body's slice: position p of the row is the worker's token at position p. -/
theorem tokRow_apply (p : ℕ) (hp : p < 512) :
    ReadAs.same.apply ((aRowK L).view.read (Elt F) (m (actLoc d))) (ix1 (⟨p, hp⟩ : Fin 512)) = tokAt m d L p := by
  refine ((View.read_apply _ _).trans (cast_eq _ _)).trans ?_
  rw [aRowK_emb]
  unfold tokAt
  refine congrArg (m (actLoc d)) (funext fun a => Fin.ext ?_)
  match a with
  | ⟨0, _⟩ => rfl
  | ⟨1, _⟩ =>
    show wn L % 4 * 512 + p = wn L % 4 * 512 + p % 512
    rw [Nat.mod_eq_of_lt hp]

/-- Entry p of the worker's row of the gathered array is entry (w, p) of the array. -/
theorem vRowK_emb (y : S512.Idx) :
    (vRowK L).view.emb y = ix2 (wL L) (⟨(y 0).val, (y 0).isLt⟩ : Fin 512) := by
  funext a
  refine Fin.ext ?_
  match a with
  | ⟨0, _⟩ =>
    show k0_off23 L 0 + 1 * ((Shape.reshapeEquiv squeezes_S1x512_S512.numel_eq) y 0).val = wn L
    rw [squeeze_idx, k0_off23_eq]
    show 16 * (L 0).val + (L 1).val + 1 * 0 = wn L
    unfold wn; omega
  | ⟨1, _⟩ =>
    show k0_off23 L 1 + 1 * ((Shape.reshapeEquiv squeezes_S1x512_S512.numel_eq) y 1).val = (y 0).val
    rw [squeeze_idx, k0_off23_eq]
    show 0 + 1 * (y 0).val = (y 0).val
    omega

/-- The row of the gathered array, once the full output scratch is written over it, is at the gathered values. -/
theorem vRow_written (f : Buf (Elt F) (valsLoc d)) (o0 : S512.Idx → Elt F .f32) :
    ((vRowK L).view.loc (VT d L) ↦[(vRowK L).view.set]{fullShare}
        (vRowK L).view.write (Elt F) f (ReadAs.same.apply ((oB).view.read (Elt F) (OutF m d L o0 512))) Finset.univ : sProp 𝕄)
      = (vRowK L).view.loc (VT d L) ↦[(vRowK L).view.set]{fullShare} Gv m d := by
  refine pointsTo_congr fun i hi => ?_
  obtain ⟨y, -, rfl⟩ := Finset.mem_map.mp hi
  rw [View.write_emb_of_mem _ _ (Finset.mem_univ y)]
  refine (cast_eq _ _).trans ?_
  refine ((View.read_apply _ _).trans (cast_eq _ _)).trans ?_
  rw [vRowK_emb]
  show OutF m d L o0 512 y = _
  have hy : (y 0).val < 512 := (y 0).isLt
  unfold OutF
  rw [if_pos hy]
  unfold gval
  refine congrArg (Gv m d) (funext fun a => Fin.ext ?_)
  match a with
  | ⟨0, _⟩ => rfl
  | ⟨1, _⟩ =>
    show (y 0).val % 512 = (y 0).val
    exact Nat.mod_eq_of_lt hy

end Cert.Kernel.Tile

end
-- ==== Proof.KTileFactsG.lean ====
/-
  What each block copy delivers, and the gathered lanes as whole vectors.

  The word the worker reads before a copy is lane 0 of a 16-lane load of its token scratch at the
  position's offset: the token at that position. With it the copy's source is the block the round
  assigns to the slot, so what the copy leaves on the slot — the slot rewritten with the block read
  off the probabilities — is the round's table there, and the source's share comes back unchanged.
  The three copy loops differ in the buffer, the round's first position and the offset functions
  only. The 16 lanes an indexed load gathers from a buffer holding the round's table are the worker's
  16 gathered values from the lane group's first position on.
-/
import proofs.«212842_g47828755808845_cont_8to1c4_577_40_alg».proof.Proof.KTileFactsE
import proofs.«212842_g47828755808845_cont_8to1c4_577_40_alg».proof.Proof.KTileFactsF
import proofs.«212842_g47828755808845_cont_8to1c4_577_40_alg».proof.Proof.KTileFactsC
import proofs.«212842_g47828755808845_cont_8to1c4_577_40_alg».proof.Proof.KTileRows

noncomputable section

namespace Cert.Kernel.TileFacts

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Kernel.Tile (slotSet wn wn_lt wL tokAt blkIdx GBlk gval OutF)

variable {F : FTy → Type} [FloatOps F]

local notation "𝕄" => MT nD τ sig (HIx 1) (Elt F) ℕ UU ℕ
local notation "aC" => (Memref.whole Cert.Kernel.cc0_scratch0 : Memref Cert.Kernel.sig Kind.scVector Space.vmem Cert.Kernel.S528 EltTy.i32)

variable (m : (ℓ : Loc nD τ sig) → Buf (Elt F) ℓ) (d : Dev nD) (L : grid0.Coords)

/-! ## The tokens in the scratch -/

/-- The worker's 512 tokens, as the copy into the scratch carries them. -/
abbrev tokPay : S512.Idx → Elt F .i32 := ReadAs.same.apply ((Tile.aRowK L).view.read (Elt F) (m (actLoc d)))

/-- The token scratch after that copy, over earlier contents a0. -/
abbrev actScr (a0 : Buf (Elt F) ((aC).view.loc (Tile.VT d L))) : Buf (Elt F) ((aC).view.loc (Tile.VT d L)) :=
  (aC).view.writes (Elt F) a0 [⟨Rect.unit ![0] S512.size inb_S528_S512_0, tokPay m d L⟩]

/-- A 16-lane load of the token scratch at offset `off`. -/
abbrev tokVec (a0 : Buf (Elt F) ((aC).view.loc (Tile.VT d L))) (off : Fin 1 → ℕ)
    (hinb : ∀ a, off a + S16.size a ≤ S528.size a) : Vec F S16 .i32 :=
  View.readAt (Elt F) (aC).view (Rect.unit (s := S528) off S16.size hinb).toLoadRect (actScr m d L a0)

/-- Lane l of that load is the token at position off + l, while that is below 512. -/
theorem tokVec_lane (a0 : Buf (Elt F) ((aC).view.loc (Tile.VT d L))) (off : Fin 1 → ℕ)
    (hinb : ∀ a, off a + S16.size a ≤ S528.size a) (l : Fin 16) (h : off 0 + l.val < 512) :
    tokVec m d L a0 off hinb (ix1 l) = tokAt m d L (off 0 + l.val) :=
  (readAt_tokens_scratch a0 (tokPay m d L) off hinb l h).trans (Tile.tokRow_apply m d L _ h)

theorem tokAt_le (hpre : Common.PreOK m) (p : ℕ) : (tokAt m d L p).toNat ≤ 8191 := hpre d _

theorem tokPay_le (hpre : Common.PreOK m) (x : S512.Idx) : (tokPay m d L x).toNat ≤ 8191 := by
  have e : tokPay m d L x = tokAt m d L (x 0).val := by
    conv_lhs => rw [eq_ix1 x]
    exact Tile.tokRow_apply m d L (x 0).val (x 0).isLt
  rw [e]
  exact tokAt_le m d L hpre _

/-! ## The word read before each copy -/

/-- The word the first copy loop reads at trip j: lane 0 of the load at the trip's offset. -/
abbrev word1 (a0 : Buf (Elt F) ((aC).view.loc (Tile.VT d L))) (j : Fin k0_t1_loop.trips) : BitVec 32 :=
  extractAt ![0] (k0_pay1 (tokVec m d L a0 (k0_off2 j) (k0_off2_inb j))) inpos_S1_p0
/-- The word the second copy loop reads in round k at trip j. -/
abbrev word2 (a0 : Buf (Elt F) ((aC).view.loc (Tile.VT d L))) (k : Fin k0_t2_loop.trips) (j : Fin k0_t3_loop.trips) : BitVec 32 :=
  extractAt ![0] (k0_pay9 (tokVec m d L a0 (k0_off5 k j) (k0_off5_inb k j))) inpos_S1_p0
/-- The word the prefetch loop reads in round k at trip j. -/
abbrev word5 (a0 : Buf (Elt F) ((aC).view.loc (Tile.VT d L))) (k : Fin k0_t2_loop.trips) (j : Fin k0_t5_loop.trips)
    (h1 : k0_cond1 k = 1#1) : BitVec 32 :=
  extractAt ![0] (k0_pay2 (tokVec m d L a0 (k0_off14 k j) (k0_off14_inb k j h1))) inpos_S1_p0

/-- It is the token at position j. -/
theorem word1_eq (a0 : Buf (Elt F) ((aC).view.loc (Tile.VT d L))) (j : Fin k0_t1_loop.trips) :
    word1 m d L a0 j = tokAt m d L j.val := by
  have hj := trips1_le j
  have e : k0_off2 j 0 = j.val := by rw [k0_off2_eq]; rfl
  refine (extract_pay1 _).trans ?_
  refine (tokVec_lane m d L a0 (k0_off2 j) (k0_off2_inb j) 0 (by rw [e]; show j.val + 0 < 512; omega)).trans ?_
  rw [e]; rfl
/-- It is the token at position 64·k + 32 + j. -/
theorem word2_eq (a0 : Buf (Elt F) ((aC).view.loc (Tile.VT d L))) (k : Fin k0_t2_loop.trips) (j : Fin k0_t3_loop.trips) :
    word2 m d L a0 k j = tokAt m d L (64 * k.val + 32 + j.val) := by
  have hk := trips2_le k
  have hj := trips3_le j
  have e : k0_off5 k j 0 = 64 * k.val + j.val + 32 := by rw [k0_off5_eq]; rfl
  refine (extract_pay9 _).trans ?_
  refine (tokVec_lane m d L a0 (k0_off5 k j) (k0_off5_inb k j) 0 (by rw [e]; show 64 * k.val + j.val + 32 + 0 < 512; omega)).trans ?_
  rw [e]
  exact congrArg (tokAt m d L) (by show 64 * k.val + j.val + 32 + 0 = 64 * k.val + 32 + j.val; omega)
/-- It is the token at position 64·(k + 1) + j. -/
theorem word5_eq (a0 : Buf (Elt F) ((aC).view.loc (Tile.VT d L))) (k : Fin k0_t2_loop.trips) (j : Fin k0_t5_loop.trips)
    (h1 : k0_cond1 k = 1#1) : word5 m d L a0 k j h1 = tokAt m d L (64 * (k.val + 1) + j.val) := by
  have hk : k.val < 7 := (cond1_iff k).mp h1
  have hj := trips5_le j
  have e : k0_off14 k j 0 = 64 * k.val + j.val + 64 := by rw [k0_off14_eq]; rfl
  refine (extract_pay2 _).trans ?_
  refine (tokVec_lane m d L a0 (k0_off14 k j) (k0_off14_inb k j h1) 0 (by rw [e]; show 64 * k.val + j.val + 64 + 0 < 512; omega)).trans ?_
  rw [e]
  exact congrArg (tokAt m d L) (by show 64 * k.val + j.val + 64 + 0 = 64 * (k.val + 1) + j.val; omega)

/-! ## What each copy delivers -/

/-- Slot t of the first block buffer at the table of the round that starts at position p0. -/
abbrev DA (p0 : ℕ) (t : Fin 32) : sProp 𝕄 := (X1).view.loc (Tile.VT d L) ↦[slotSet t]{fullShare} GBlk m d L p0
/-- The same for the second block buffer. -/
abbrev DB (p0 : ℕ) (t : Fin 32) : sProp 𝕄 := (X2).view.loc (Tile.VT d L) ↦[slotSet t]{fullShare} GBlk m d L p0

/-- Trip j of the first copy loop: slot j of the first buffer at the first round's table. -/
theorem deliver1 (hpre : Common.PreOK m) (a0 : Buf (Elt F) ((aC).view.loc (Tile.VT d L))) (j : Fin k0_t1_loop.trips)
    (hw : k0_chk1 L j (word1 m d L a0 j)) (q : PosShare TreeShare)
    (fd : Buf (Elt F) ((slotOf X1 (k0_off3 j) (k0_off3_inb j)).view.loc (Tile.VT d L))) :
    (iprop(((slotOf X1 (k0_off3 j) (k0_off3_inb j)).view.loc (Tile.VT d L) ↦[slotSet ⟨j.val, trips1_le j⟩]{fullShare}
          ((slotOf X1 (k0_off3 j) (k0_off3_inb j)).view.write (Elt F) fd
            (ReadAs.same.apply ((srcOf (k0_off4 L j (word1 m d L a0 j)) (k0_off4_inb L j (word1 m d L a0 j) hw)).view.read (Elt F) (m (predLoc d)))) Finset.univ))
        ∗ ((srcOf (k0_off4 L j (word1 m d L a0 j)) (k0_off4_inb L j (word1 m d L a0 j) hw)).view.loc (Tile.VT d L)
            ↦[(srcOf (k0_off4 L j (word1 m d L a0 j)) (k0_off4_inb L j (word1 m d L a0 j) hw)).view.set]{q} m (predLoc d))) : sProp 𝕄)
      ⊢ DA m d L (0) ⟨j.val, trips1_le j⟩ := by
  have hj := trips1_le j
  have hW := word1_eq m d L a0 j
  have hWle : (word1 m d L a0 j).toNat ≤ 8191 := by rw [hW]; exact tokAt_le m d L hpre _
  have hoff := k0_off4_wn L j _ hWle
  refine sep_elim_left.trans (Entails.of_eq (pointsTo_congr fun i hi => ?_))
  exact landed_X1 m d L hpre (0) j.val hj (by omega) (k0_off3 j) (k0_off3_inb j) (isSlotOff_off3 j) _ _
    ((congrFun hoff 0).trans rfl)
    ((congrFun hoff 1).trans (by
      show wn L % 4 * 512 + j.val / 8 * 8 = wn L % 4 * 512 + (0 + j.val) / 8 * 8
      omega))
    ((congrFun hoff 2).trans (by
      show (word1 m d L a0 j).toNat / 128 * 128 = (tokAt m d L (0 + j.val)).toNat / 128 * 128
      refine (congrArg (fun w : BitVec 32 => w.toNat / 128 * 128) hW).trans ?_
      exact congrArg (fun p => (tokAt m d L p).toNat / 128 * 128) (by omega))) fd i hi

/-- Trip j of round k's second copy loop: slot j of the second buffer at the table of the round from 64·k + 32. -/
theorem deliver2 (hpre : Common.PreOK m) (a0 : Buf (Elt F) ((aC).view.loc (Tile.VT d L))) (k : Fin k0_t2_loop.trips) (j : Fin k0_t3_loop.trips)
    (hw : k0_chk2 L k j (word2 m d L a0 k j)) (q : PosShare TreeShare)
    (fd : Buf (Elt F) ((slotOf X2 (k0_off6 j) (k0_off6_inb j)).view.loc (Tile.VT d L))) :
    (iprop(((slotOf X2 (k0_off6 j) (k0_off6_inb j)).view.loc (Tile.VT d L) ↦[slotSet ⟨j.val, trips3_le j⟩]{fullShare}
          ((slotOf X2 (k0_off6 j) (k0_off6_inb j)).view.write (Elt F) fd
            (ReadAs.same.apply ((srcOf (k0_off7 L k j (word2 m d L a0 k j)) (k0_off7_inb L k j (word2 m d L a0 k j) hw)).view.read (Elt F) (m (predLoc d)))) Finset.univ))
        ∗ ((srcOf (k0_off7 L k j (word2 m d L a0 k j)) (k0_off7_inb L k j (word2 m d L a0 k j) hw)).view.loc (Tile.VT d L)
            ↦[(srcOf (k0_off7 L k j (word2 m d L a0 k j)) (k0_off7_inb L k j (word2 m d L a0 k j) hw)).view.set]{q} m (predLoc d))) : sProp 𝕄)
      ⊢ DB m d L (64 * k.val + 32) ⟨j.val, trips3_le j⟩ := by
  have hj := trips3_le j
  have hk := trips2_le k
  have hW := word2_eq m d L a0 k j
  have hWle : (word2 m d L a0 k j).toNat ≤ 8191 := by rw [hW]; exact tokAt_le m d L hpre _
  have hoff := k0_off7_wn L k j _ hWle
  refine sep_elim_left.trans (Entails.of_eq (pointsTo_congr fun i hi => ?_))
  exact landed_X2 m d L hpre (64 * k.val + 32) j.val hj (by omega) (k0_off6 j) (k0_off6_inb j) (isSlotOff_off6 j) _ _
    ((congrFun hoff 0).trans rfl)
    ((congrFun hoff 1).trans (by
      show wn L % 4 * 512 + 64 * k.val + 32 + j.val / 8 * 8 = wn L % 4 * 512 + (64 * k.val + 32 + j.val) / 8 * 8
      omega))
    ((congrFun hoff 2).trans (by
      show (word2 m d L a0 k j).toNat / 128 * 128 = (tokAt m d L (64 * k.val + 32 + j.val)).toNat / 128 * 128
      refine (congrArg (fun w : BitVec 32 => w.toNat / 128 * 128) hW).trans ?_
      exact congrArg (fun p => (tokAt m d L p).toNat / 128 * 128) (by omega))) fd i hi

/-- Trip j of round k's prefetch loop (k < 7): slot j of the first buffer at the table of the round from 64·(k + 1). -/
theorem deliver5 (hpre : Common.PreOK m) (a0 : Buf (Elt F) ((aC).view.loc (Tile.VT d L))) (k : Fin k0_t2_loop.trips) (h1 : k0_cond1 k = 1#1) (j : Fin k0_t5_loop.trips)
    (hw : k0_chk5 L k j (word5 m d L a0 k j h1)) (q : PosShare TreeShare)
    (fd : Buf (Elt F) ((slotOf X1 (k0_off15 j) (k0_off15_inb k j h1)).view.loc (Tile.VT d L))) :
    (iprop(((slotOf X1 (k0_off15 j) (k0_off15_inb k j h1)).view.loc (Tile.VT d L) ↦[slotSet ⟨j.val, trips5_le j⟩]{fullShare}
          ((slotOf X1 (k0_off15 j) (k0_off15_inb k j h1)).view.write (Elt F) fd
            (ReadAs.same.apply ((srcOf (k0_off16 L k j (word5 m d L a0 k j h1)) (k0_off16_inb L k j (word5 m d L a0 k j h1) hw h1)).view.read (Elt F) (m (predLoc d)))) Finset.univ))
        ∗ ((srcOf (k0_off16 L k j (word5 m d L a0 k j h1)) (k0_off16_inb L k j (word5 m d L a0 k j h1) hw h1)).view.loc (Tile.VT d L)
            ↦[(srcOf (k0_off16 L k j (word5 m d L a0 k j h1)) (k0_off16_inb L k j (word5 m d L a0 k j h1) hw h1)).view.set]{q} m (predLoc d))) : sProp 𝕄)
      ⊢ DA m d L (64 * (k.val + 1)) ⟨j.val, trips5_le j⟩ := by
  have hj := trips5_le j
  have hk : k.val < 7 := (cond1_iff k).mp h1
  have hW := word5_eq m d L a0 k j h1
  have hWle : (word5 m d L a0 k j h1).toNat ≤ 8191 := by rw [hW]; exact tokAt_le m d L hpre _
  have hoff := k0_off16_wn L k j _ hWle
  refine sep_elim_left.trans (Entails.of_eq (pointsTo_congr fun i hi => ?_))
  exact landed_X1 m d L hpre (64 * (k.val + 1)) j.val hj (by omega) (k0_off15 j) (k0_off15_inb k j h1) (isSlotOff_off15 j) _ _
    ((congrFun hoff 0).trans rfl)
    ((congrFun hoff 1).trans (by
      show wn L % 4 * 512 + 64 * k.val + 64 + j.val / 8 * 8 = wn L % 4 * 512 + (64 * (k.val + 1) + j.val) / 8 * 8
      omega))
    ((congrFun hoff 2).trans (by
      show (word5 m d L a0 k j h1).toNat / 128 * 128 = (tokAt m d L (64 * (k.val + 1) + j.val)).toNat / 128 * 128
      refine (congrArg (fun w : BitVec 32 => w.toNat / 128 * 128) hW).trans ?_
      exact congrArg (fun p => (tokAt m d L p).toNat / 128 * 128) (by omega))) fd i hi

/-- A slot's elements lie in its slot of the buffer. -/
theorem slot_sub1 (j : Fin k0_t1_loop.trips) :
    (slotOf X1 (k0_off3 j) (k0_off3_inb j)).view.set ⊆ slotSet ⟨j.val, trips1_le j⟩ :=
  (slot_set_X1 _ _ _ (isSlotOff_off3 j)).subset
theorem slot_sub2 (j : Fin k0_t3_loop.trips) :
    (slotOf X2 (k0_off6 j) (k0_off6_inb j)).view.set ⊆ slotSet ⟨j.val, trips3_le j⟩ :=
  (slot_set_X2 _ _ _ (isSlotOff_off6 j)).subset
theorem slot_sub5 (k : Fin k0_t2_loop.trips) (h1 : k0_cond1 k = 1#1) (j : Fin k0_t5_loop.trips) :
    (slotOf X1 (k0_off15 j) (k0_off15_inb k j h1)).view.set ⊆ slotSet ⟨j.val, trips5_le j⟩ :=
  (slot_set_X1 _ _ _ (isSlotOff_off15 j)).subset

end Cert.Kernel.TileFacts

end
-- ==== Proof.KTileFactsH.lean ====
/-
  A whole block buffer, held at one share, is its 32 slots held at that share.

  A points-to fact over a set of elements that is the union of a finite family of pairwise disjoint
  sets is the separating conjunction of the points-to facts over the family's sets. The slots of a
  block buffer are such a family for the whole buffer.
-/
import proofs.«212842_g47828755808845_cont_8to1c4_577_40_alg».proof.Proof.KTileFactsB
import Idealize.ShloMosaic.Rules.PointsTo

noncomputable section

namespace Cert.Kernel.TileFacts

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Kernel.Tile (slotSet wn wn_lt wL tokAt blkIdx GBlk gval OutF)

section Cover
variable {nD : Nat} {τ : Topo} {sig : RefSig} {Ix : Type} [DecidableEq Ix]
variable {Val : EltTy → Type} {Name : Type} [DecidableEq Name]
variable {U : Type} [URA U]
variable {Lvl : Type}

/-- Over a set that a finite family of pairwise disjoint sets covers exactly, a points-to fact is the separating
    conjunction of the family's. -/
theorem pointsTo_of_cover {ℓ : Loc nD τ sig} {T : Type} [Fintype T] (K : T → Finset (Idx ℓ)) (S : Finset (Idx ℓ))
    (hd : ∀ t t', t ≠ t' → Disjoint (K t) (K t')) (hS : ∀ i, i ∈ S ↔ ∃ t, i ∈ K t) (q : PosShare TreeShare) (f : Buf Val ℓ) :
    (ℓ ↦[S]{q} f : sProp (MT nD τ sig Ix Val Name U Lvl)) = bigSep Finset.univ fun t => ℓ ↦[K t]{q} f := by
  classical
  have e : S = Finset.univ.biUnion K := by
    ext i
    rw [hS i]
    simp only [Finset.mem_biUnion, Finset.mem_univ, true_and]
  rw [e]
  exact pointsTo_biUnion Finset.univ K fun t _ t' _ h => hd t t' h

end Cover

variable {F : FTy → Type} [FloatOps F]

local notation "𝕄" => MT nD τ sig (HIx 1) (Elt F) ℕ UU ℕ

/-- Every element of the first block buffer lies in one of its slots. -/
theorem mem_set_X1 (d : Dev nD) (L : grid0.Coords) (i : Idx (X1.view.loc (Tile.VT d L))) :
    i ∈ X1.view.set ↔ ∃ t : Fin 32, i ∈ (slotSet t : Finset (Idx (X1.view.loc (Tile.VT d L)))) := by
  rw [show X1.view.set = Finset.univ from View.set_whole cc0_scratch1]
  exact ⟨fun _ => ⟨⟨((show S32x8x128.Idx from i) 0).val, ((show S32x8x128.Idx from i) 0).isLt⟩,
      (mem_slotSet _ (show S32x8x128.Idx from i)).mpr rfl⟩, fun _ => Finset.mem_univ _⟩

theorem slots_eq_X1 (d : Dev nD) (L : grid0.Coords) (q : PosShare TreeShare) (f : Buf (Elt F) (X1.view.loc (Tile.VT d L))) :
    (X1.view.loc (Tile.VT d L) ↦[X1.view.set]{q} f : sProp 𝕄)
      = bigSep Finset.univ fun t : Fin 32 => X1.view.loc (Tile.VT d L) ↦[slotSet t]{q} f :=
  pointsTo_of_cover (ℓ := X1.view.loc (Tile.VT d L)) (fun t : Fin 32 => slotSet t) X1.view.set
    (fun _ _ h => slotSet_disjoint h) (mem_set_X1 d L) q f

/-- The same for the second block buffer. -/
theorem mem_set_X2 (d : Dev nD) (L : grid0.Coords) (i : Idx (X2.view.loc (Tile.VT d L))) :
    i ∈ X2.view.set ↔ ∃ t : Fin 32, i ∈ (slotSet t : Finset (Idx (X2.view.loc (Tile.VT d L)))) := by
  rw [show X2.view.set = Finset.univ from View.set_whole cc0_scratch2]
  exact ⟨fun _ => ⟨⟨((show S32x8x128.Idx from i) 0).val, ((show S32x8x128.Idx from i) 0).isLt⟩,
      (mem_slotSet _ (show S32x8x128.Idx from i)).mpr rfl⟩, fun _ => Finset.mem_univ _⟩

theorem slots_eq_X2 (d : Dev nD) (L : grid0.Coords) (q : PosShare TreeShare) (f : Buf (Elt F) (X2.view.loc (Tile.VT d L))) :
    (X2.view.loc (Tile.VT d L) ↦[X2.view.set]{q} f : sProp 𝕄)
      = bigSep Finset.univ fun t : Fin 32 => X2.view.loc (Tile.VT d L) ↦[slotSet t]{q} f :=
  pointsTo_of_cover (ℓ := X2.view.loc (Tile.VT d L)) (fun t : Fin 32 => slotSet t) X2.view.set
    (fun _ _ h => slotSet_disjoint h) (mem_set_X2 d L) q f

end Cert.Kernel.TileFacts

end
-- ==== Proof.KTileFactsI.lean ====
/-
  The 16 gathered lanes as whole vectors, and the output scratch after a round's two stores.

  With the round's table in a block buffer and the 16 tokens of positions p0 + 16·g … p0 + 16·g + 15
  in a vector, the index vectors (16·g + lane, lane % 8, token masked with 127) gather the worker's
  16 gathered values of those positions. A round stores the two lane groups at 64·k and 64·k + 16
  (from the first buffer) and at 64·k + 32 and 64·k + 48 (from the second): the output scratch goes
  from its first 64·k positions done to 64·k + 32, and from there to 64·(k + 1).
-/
import proofs.«212842_g47828755808845_cont_8to1c4_577_40_alg».proof.Proof.KTileFactsG

noncomputable section

namespace Cert.Kernel.TileFacts

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Kernel.Tile (slotSet wn wn_lt wL tokAt blkIdx GBlk gval OutF)

variable {F : FTy → Type} [FloatOps F]

local notation "𝕄" => MT nD τ sig (HIx 1) (Elt F) ℕ UU ℕ
local notation "aC" => (Memref.whole Cert.Kernel.cc0_scratch0 : Memref Cert.Kernel.sig Kind.scVector Space.vmem Cert.Kernel.S528 EltTy.i32)
local notation "tA" => (Memref.whole Cert.Kernel.cc0_scratch1 : Memref Cert.Kernel.sig Kind.scVector Space.vmem Cert.Kernel.S32x8x128 EltTy.f32)
local notation "tB" => (Memref.whole Cert.Kernel.cc0_scratch2 : Memref Cert.Kernel.sig Kind.scVector Space.vmem Cert.Kernel.S32x8x128 EltTy.f32)
local notation "oB" => (Memref.whole Cert.Kernel.cc0_scratch3 : Memref Cert.Kernel.sig Kind.scVector Space.vmem Cert.Kernel.S512 EltTy.f32)

variable (m : (ℓ : Loc nD τ sig) → Buf (Elt F) ℓ) (d : Dev nD) (L : grid0.Coords)

/-! ## The gathered lanes as whole vectors -/

/-- Index vectors that are, lane by lane, 16·g + lane, lane % 8 and the lane's token masked with 127 gather, from a
    buffer holding the round's table, the gathered values of positions p0 + 16·g + lane. -/
theorem gather_vec (hpre : Common.PreOK m) (p0 g : ℕ) (hg : g < 2) (hp : p0 + 16 * g + 16 ≤ 512) (h8 : p0 % 8 = 0)
    (i0 i1 i2 : IVec S16 32) (h : ∀ a x, ((![i0, i1, i2] : Fin 3 → IVec S16 32) a x).toNat < S32x8x128.size a)
    (v : Vec F S16 .i32) (hv : ∀ l : Fin 16, v (ix1 l) = tokAt m d L (p0 + 16 * g + l.val))
    (e0 : ∀ l : Fin 16, i0 (ix1 l) = BitVec.ofNat 32 (16 * g + l.val))
    (e1 : ∀ l : Fin 16, i1 (ix1 l) = BitVec.ofNat 32 (l.val % 8))
    (e2 : ∀ l : Fin 16, i2 (ix1 l) = v (ix1 l) &&& 127#32) (l : Fin 16) :
    loadIdx (F := F) (GBlk m d L p0) ![i0, i1, i2] h (ix1 l) = gval m d L (p0 + 16 * g + l.val) := by
  have hl := l.isLt
  refine gather_lane m d L hpre p0 g hp h8 i0 i1 i2 h l ?_ ?_ ?_
  · rw [e0, BitVec.toNat_ofNat]; exact Nat.mod_eq_of_lt (by omega)
  · rw [e1, toNat_lane_mod]
  · rw [e2, toNat_and_127, hv]

/-- The first lane group, with the index vectors written out. -/
theorem gather_raw0 (hpre : Common.PreOK m) (p0 : ℕ) (hp : p0 + 16 ≤ 512) (h8 : p0 % 8 = 0) (v : Vec F S16 .i32)
    (hv : ∀ l : Fin 16, v (ix1 l) = tokAt m d L (p0 + l.val))
    (h : ∀ a x, ((![addi (broadcast S16 (0#32 : BitVec 32)) lanes, andi lanes (broadcast S16 (7#32 : BitVec 32)),
        andi v (broadcast S16 (127#32 : BitVec 32))] : Fin 3 → IVec S16 32) a x).toNat < S32x8x128.size a) (l : Fin 16) :
    loadIdx (F := F) (GBlk m d L p0) ![addi (broadcast S16 (0#32 : BitVec 32)) lanes, andi lanes (broadcast S16 (7#32 : BitVec 32)),
        andi v (broadcast S16 (127#32 : BitVec 32))] h (ix1 l) = gval m d L (p0 + l.val) :=
  (gather_vec m d L hpre p0 0 (by omega) (by omega) h8 _ _ _ h v
    (fun l => (hv l).trans (congrArg (tokAt m d L) (by omega)))
    (fun l => (pay10_apply l).trans (congrArg (BitVec.ofNat 32) (by omega))) (fun l => pay11_apply l) (fun l => rfl) l).trans
    (congrArg (gval m d L) (by omega))

/-- The second lane group, with the index vectors written out. -/
theorem gather_raw16 (hpre : Common.PreOK m) (p0 : ℕ) (hp : p0 + 32 ≤ 512) (h8 : p0 % 8 = 0) (v : Vec F S16 .i32)
    (hv : ∀ l : Fin 16, v (ix1 l) = tokAt m d L (p0 + 16 + l.val))
    (h : ∀ a x, ((![addi (broadcast S16 (16#32 : BitVec 32)) lanes, andi lanes (broadcast S16 (7#32 : BitVec 32)),
        andi v (broadcast S16 (127#32 : BitVec 32))] : Fin 3 → IVec S16 32) a x).toNat < S32x8x128.size a) (l : Fin 16) :
    loadIdx (F := F) (GBlk m d L p0) ![addi (broadcast S16 (16#32 : BitVec 32)) lanes, andi lanes (broadcast S16 (7#32 : BitVec 32)),
        andi v (broadcast S16 (127#32 : BitVec 32))] h (ix1 l) = gval m d L (p0 + 16 + l.val) :=
  (gather_vec m d L hpre p0 1 (by omega) (by omega) h8 _ _ _ h v
    (fun l => (hv l).trans (congrArg (tokAt m d L) (by omega)))
    (fun l => (pay13_apply l).trans (congrArg (BitVec.ofNat 32) (by omega))) (fun l => pay14_apply l) (fun l => rfl) l).trans
    (congrArg (gval m d L) (by omega))

/-- The first lane group through the generated index payloads. -/
theorem gather_pay345 (hpre : Common.PreOK m) (p0 : ℕ) (hp : p0 + 16 ≤ 512) (h8 : p0 % 8 = 0) (v : Vec F S16 .i32)
    (hv : ∀ l : Fin 16, v (ix1 l) = tokAt m d L (p0 + l.val))
    (h : ∀ a x, ((![k0_pay3, k0_pay4, k0_pay5 v] : Fin 3 → IVec S16 32) a x).toNat < S32x8x128.size a) (l : Fin 16) :
    loadIdx (F := F) (GBlk m d L p0) ![k0_pay3, k0_pay4, k0_pay5 v] h (ix1 l) = gval m d L (p0 + l.val) :=
  (gather_vec m d L hpre p0 0 (by omega) (by omega) h8 _ _ _ h v
    (fun l => (hv l).trans (congrArg (tokAt m d L) (by omega)))
    (fun l => (pay3_apply l).trans (congrArg (BitVec.ofNat 32) (by omega))) (fun l => pay4_apply l) (fun l => rfl) l).trans
    (congrArg (gval m d L) (by omega))

/-- The second lane group through the generated index payloads. -/
theorem gather_pay678 (hpre : Common.PreOK m) (p0 : ℕ) (hp : p0 + 32 ≤ 512) (h8 : p0 % 8 = 0) (v : Vec F S16 .i32)
    (hv : ∀ l : Fin 16, v (ix1 l) = tokAt m d L (p0 + 16 + l.val))
    (h : ∀ a x, ((![k0_pay6, k0_pay7, k0_pay8 v] : Fin 3 → IVec S16 32) a x).toNat < S32x8x128.size a) (l : Fin 16) :
    loadIdx (F := F) (GBlk m d L p0) ![k0_pay6, k0_pay7, k0_pay8 v] h (ix1 l) = gval m d L (p0 + 16 + l.val) :=
  (gather_vec m d L hpre p0 1 (by omega) (by omega) h8 _ _ _ h v
    (fun l => (hv l).trans (congrArg (tokAt m d L) (by omega)))
    (fun l => (pay6_apply l).trans (congrArg (BitVec.ofNat 32) (by omega))) (fun l => pay7_apply l) (fun l => rfl) l).trans
    (congrArg (gval m d L) (by omega))

/-! ## The output scratch after a round's stores -/

/-- Two 16-lane stores at offsets that are n and n + 16. -/
theorem out_store2' (o0 : S512.Idx → Elt F .f32) (n : ℕ) (off1 off2 : Fin 1 → ℕ)
    (hi1 : ∀ a, off1 a + S16.size a ≤ S512.size a) (hi2 : ∀ a, off2 a + S16.size a ≤ S512.size a)
    (e1 : off1 = ![n]) (e2 : off2 = ![n + 16]) (v1 v2 : S16.Idx → Elt F .f32)
    (hv1 : ∀ l : Fin 16, v1 (ix1 l) = gval m d L (n + l.val)) (hv2 : ∀ l : Fin 16, v2 (ix1 l) = gval m d L (n + 16 + l.val)) :
    (oB).view.writes (Elt F) (OutF m d L o0 n)
        [⟨Rect.unit (s := S512) off2 S16.size hi2, v2⟩, ⟨Rect.unit (s := S512) off1 S16.size hi1, v1⟩]
      = OutF m d L o0 (n + 32) := by
  subst e1 e2
  exact out_store2 m d L o0 n hi1 hi2 v1 v2 hv1 hv2

/-- Round k's two stores out of the first block buffer: positions 64·k … 64·k + 31 are done. -/
theorem outA_eq (hpre : Common.PreOK m) (a0 : Buf (Elt F) ((aC).view.loc (Tile.VT d L))) (o0 : S512.Idx → Elt F .f32)
    (k : Fin k0_t2_loop.trips)
    (h1 : ∀ a x, ((![addi (broadcast S16 (0#32 : BitVec 32)) lanes, andi lanes (broadcast S16 (7#32 : BitVec 32)), andi (tokVec m d L a0 (k0_off10 k) (k0_off10_inb k)) (broadcast S16 (127#32 : BitVec 32))] : Fin 3 → IVec S16 32) a x).toNat < S32x8x128.size a)
    (h2 : ∀ a x, ((![addi (broadcast S16 (16#32 : BitVec 32)) lanes, andi lanes (broadcast S16 (7#32 : BitVec 32)), andi (tokVec m d L a0 (k0_off12 k) (k0_off12_inb k)) (broadcast S16 (127#32 : BitVec 32))] : Fin 3 → IVec S16 32) a x).toNat < S32x8x128.size a) :
    (oB).view.writes (Elt F) (OutF m d L o0 (64 * k.val))
        [⟨Rect.unit (s := S512) (k0_off13 k) S16.size (k0_off13_inb k),
            loadIdx (View.readAt (Elt F) (tA).view (LoadRect.whole S32x8x128) (GBlk m d L (64 * k.val)))
              ![addi (broadcast S16 (16#32 : BitVec 32)) lanes, andi lanes (broadcast S16 (7#32 : BitVec 32)), andi (tokVec m d L a0 (k0_off12 k) (k0_off12_inb k)) (broadcast S16 (127#32 : BitVec 32))] h2⟩,
         ⟨Rect.unit (s := S512) (k0_off11 k) S16.size (k0_off11_inb k),
            loadIdx (View.readAt (Elt F) (tA).view (LoadRect.whole S32x8x128) (GBlk m d L (64 * k.val)))
              ![addi (broadcast S16 (0#32 : BitVec 32)) lanes, andi lanes (broadcast S16 (7#32 : BitVec 32)), andi (tokVec m d L a0 (k0_off10 k) (k0_off10_inb k)) (broadcast S16 (127#32 : BitVec 32))] h1⟩]
      = OutF m d L o0 (64 * k.val + 32) := by
  have hk := trips2_le k
  have e10 : k0_off10 k 0 = 64 * k.val := by rw [k0_off10_eq]; rfl
  have e12 : k0_off12 k 0 = 64 * k.val + 16 := by rw [k0_off12_eq]; rfl
  refine out_store2' m d L o0 (64 * k.val) _ _ _ _ (k0_off11_eq k) (k0_off13_eq k) _ _ (fun l => ?_) (fun l => ?_)
  · rw [readAt_whole_X1]
    exact gather_raw0 m d L hpre (64 * k.val) (by omega) (by omega) _
      (fun l' => (tokVec_lane m d L a0 _ _ l' (by rw [e10]; have := l'.isLt; omega)).trans (by rw [e10])) h1 l
  · rw [readAt_whole_X1]
    exact gather_raw16 m d L hpre (64 * k.val) (by omega) (by omega) _
      (fun l' => (tokVec_lane m d L a0 _ _ l' (by rw [e12]; have := l'.isLt; omega)).trans (by rw [e12])) h2 l

/-- Round k's two stores out of the second block buffer: positions 64·k + 32 … 64·k + 63 are done. -/
theorem outB_eq (hpre : Common.PreOK m) (a0 : Buf (Elt F) ((aC).view.loc (Tile.VT d L))) (o0 : S512.Idx → Elt F .f32)
    (k : Fin k0_t2_loop.trips)
    (h1 : ∀ a x, ((![k0_pay3, k0_pay4, k0_pay5 (tokVec m d L a0 (k0_off19 k) (k0_off19_inb k))] : Fin 3 → IVec S16 32) a x).toNat < S32x8x128.size a)
    (h2 : ∀ a x, ((![k0_pay6, k0_pay7, k0_pay8 (tokVec m d L a0 (k0_off21 k) (k0_off21_inb k))] : Fin 3 → IVec S16 32) a x).toNat < S32x8x128.size a) :
    (oB).view.writes (Elt F) (OutF m d L o0 (64 * k.val + 32))
        [⟨Rect.unit (s := S512) (k0_off22 k) S16.size (k0_off22_inb k),
            loadIdx (View.readAt (Elt F) (tB).view (LoadRect.whole S32x8x128) (GBlk m d L (64 * k.val + 32)))
              ![k0_pay6, k0_pay7, k0_pay8 (tokVec m d L a0 (k0_off21 k) (k0_off21_inb k))] h2⟩,
         ⟨Rect.unit (s := S512) (k0_off20 k) S16.size (k0_off20_inb k),
            loadIdx (View.readAt (Elt F) (tB).view (LoadRect.whole S32x8x128) (GBlk m d L (64 * k.val + 32)))
              ![k0_pay3, k0_pay4, k0_pay5 (tokVec m d L a0 (k0_off19 k) (k0_off19_inb k))] h1⟩]
      = OutF m d L o0 (64 * (k.val + 1)) := by
  have hk := trips2_le k
  have e19 : k0_off19 k 0 = 64 * k.val + 32 := by rw [k0_off19_eq]; rfl
  have e21 : k0_off21 k 0 = 64 * k.val + 48 := by rw [k0_off21_eq]; rfl
  refine (out_store2' m d L o0 (64 * k.val + 32) _ _ _ _ (k0_off20_eq k)
    ((k0_off22_eq k).trans (congrArg (fun x => (![x] : Fin 1 → ℕ)) (by omega))) _ _ (fun l => ?_) (fun l => ?_)).trans
    (congrArg (OutF m d L o0) (by omega))
  · rw [readAt_whole_X2]
    exact gather_pay345 m d L hpre (64 * k.val + 32) (by omega) (by omega) _
      (fun l' => (tokVec_lane m d L a0 _ _ l' (by rw [e19]; have := l'.isLt; omega)).trans (by rw [e19])) h1 l
  · rw [readAt_whole_X2]
    exact gather_pay678 m d L hpre (64 * k.val + 32) (by omega) (by omega) _
      (fun l' => (tokVec_lane m d L a0 _ _ l' (by rw [e21]; have := l'.isLt; omega)).trans
        (by rw [e21])) h2 l

end Cert.Kernel.TileFacts

end
-- ==== Proof.KTileBody.lean ====
/-
  One worker's task: the body of the gather kernel on vector subcore (L 0, L 1), run from the pieces the launch deals it.

  The worker copies its 512 tokens into a scratch; then, 32 positions at a time and alternating between two block
  buffers, it starts for each position the copy of the 8 × 128 block of the probabilities holding the entry the token
  selects (32 copies on one semaphore: a counted batch whose deliveries are the buffer's slots at the blocks), waits for
  all 32, and picks out of each landed block the selected entry into an output scratch; at the end it copies the output
  scratch to its row of the gathered array.
-/
import proofs.«212842_g47828755808845_cont_8to1c4_577_40_alg».proof.Proof.KTileDefs
import proofs.«212842_g47828755808845_cont_8to1c4_577_40_alg».proof.Proof.KTileFactsA
import proofs.«212842_g47828755808845_cont_8to1c4_577_40_alg».proof.Proof.KTileFactsB
import proofs.«212842_g47828755808845_cont_8to1c4_577_40_alg».proof.Proof.KTileFactsC
import proofs.«212842_g47828755808845_cont_8to1c4_577_40_alg».proof.Proof.KTileFactsD
import proofs.«212842_g47828755808845_cont_8to1c4_577_40_alg».proof.Proof.KTileFactsE
import proofs.«212842_g47828755808845_cont_8to1c4_577_40_alg».proof.Proof.KTileFactsF
import proofs.«212842_g47828755808845_cont_8to1c4_577_40_alg».proof.Proof.KTileFactsG
import proofs.«212842_g47828755808845_cont_8to1c4_577_40_alg».proof.Proof.KTileFactsH
import proofs.«212842_g47828755808845_cont_8to1c4_577_40_alg».proof.Proof.KTileFactsI
import proofs.«212842_g47828755808845_cont_8to1c4_577_40_alg».proof.Proof.KTileRows

set_option maxRecDepth 8192
set_option maxHeartbeats 1000000

noncomputable section

namespace Cert.Kernel.Tile

open Cert.Kernel Cert.Kernel.Gen Cert.Kernel.Common Cert.Kernel.TileFacts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

open Lean Elab Tactic Meta in
/-- Unfold, in the goal, the auxiliary names given to computed values (a definitional respelling: nothing is proved
    by it). -/
elab "sl_unname" : tactic => do
  let g ← getMainGoal
  let isSl : Name → Bool := fun n => match n with
    | .str (.str _ "sl") s => !(s.startsWith "prog")
    | _ => false
  let mut ty ← instantiateMVars (← g.getType)
  for _ in [0:12] do
    let ty' ← Meta.deltaExpand ty isSl
    if ty' == ty then break
    ty := ty'
  replaceMainGoal [← g.replaceTargetDefEq ty]

variable {F : FTy → Type}

local notation "𝕄" => MT nD τ sig (HIx 1) (Elt F) ℕ UU ℕ

local notation "predV" => (Memref.whole Cert.Kernel.main_arg0_scv : Memref Cert.Kernel.sig Kind.scVector Space.hbm Cert.Kernel.S8x2048x8192 EltTy.f32)
local notation "actV" => (Memref.whole Cert.Kernel.main_arg1_scv : Memref Cert.Kernel.sig Kind.scVector Space.hbm Cert.Kernel.S8x2048 EltTy.i32)
local notation "valsV" => (Memref.whole Cert.Kernel.main_v0_scv : Memref Cert.Kernel.sig Kind.scVector Space.hbm Cert.Kernel.S32x512 EltTy.f32)
local notation "aC" => (Memref.whole Cert.Kernel.cc0_scratch0 : Memref Cert.Kernel.sig Kind.scVector Space.vmem Cert.Kernel.S528 EltTy.i32)
local notation "tA" => (Memref.whole Cert.Kernel.cc0_scratch1 : Memref Cert.Kernel.sig Kind.scVector Space.vmem Cert.Kernel.S32x8x128 EltTy.f32)
local notation "tB" => (Memref.whole Cert.Kernel.cc0_scratch2 : Memref Cert.Kernel.sig Kind.scVector Space.vmem Cert.Kernel.S32x8x128 EltTy.f32)
local notation "oB" => (Memref.whole Cert.Kernel.cc0_scratch3 : Memref Cert.Kernel.sig Kind.scVector Space.vmem Cert.Kernel.S512 EltTy.f32)

variable (m : (ℓ : Loc nD τ sig) → Buf (Elt F) ℓ)
variable (d : Dev nD) (L : grid0.Coords)

/-- A fire loop's invariant: the token scratch, a share of the probabilities, the slots not yet issued, the batch with j issued. -/
def invFireA (a0 : Buf (Elt F) ((aC).view.loc (VT d L))) (ta : Buf (Elt F) ((tA).view.loc (VT d L))) (p0 : ℕ) (j : Nat) (_ : PUnit) : sProp 𝕄 :=
  iprop(((aC).view.loc (VT d L) ↦[(aC).view.set]{fullShare} actScr m d L a0)
    ∗ (∃ q', (predV).view.loc (VT d L) ↦{q'} m (predLoc d))
    ∗ (bigSep (Transfers.pending (n := 32) j) fun t => (tA).view.loc (VT d L) ↦[slotSet t]{fullShare} ta)
    ∗ Transfers.Batch (countersEmb (U := UU)) (VT d L) (.dma cc0_scratch4.sem) (default : HIx 1) NB (DA m d L p0) j 0)
def invFireB (a0 : Buf (Elt F) ((aC).view.loc (VT d L))) (tb : Buf (Elt F) ((tB).view.loc (VT d L))) (p0 : ℕ) (j : Nat) (_ : PUnit) : sProp 𝕄 :=
  iprop(((aC).view.loc (VT d L) ↦[(aC).view.set]{fullShare} actScr m d L a0)
    ∗ (∃ q', (predV).view.loc (VT d L) ↦{q'} m (predLoc d))
    ∗ (bigSep (Transfers.pending (n := 32) j) fun t => (tB).view.loc (VT d L) ↦[slotSet t]{fullShare} tb)
    ∗ Transfers.Batch (countersEmb (U := UU)) (VT d L) (.dma cc0_scratch5.sem) (default : HIx 1) NB (DB m d L p0) j 0)

/-- The outer loop's invariant before trip k (positions 64 k on): the token scratch, a share of the probabilities, the
    first buffer's batch for the round at 64 k fully issued (after the last trip: the buffer and its cell back), the
    second buffer and its cell at rest, the output scratch done up to 64 k, what the thread owes. -/
def invOuter (O : CellTallies nD τ sig (HIx 1)) (a0 : Buf (Elt F) ((aC).view.loc (VT d L))) (o0 : Buf (Elt F) ((oB).view.loc (VT d L)))
    (k : Nat) (_ : PUnit) : sProp 𝕄 :=
  iprop(Transfers.MayWaits (VT d L) (default : HIx 1) O
    ∗ ((aC).view.loc (VT d L) ↦[(aC).view.set]{fullShare} actScr m d L a0)
    ∗ (∃ q', (predV).view.loc (VT d L) ↦{q'} m (predLoc d))
    ∗ (if k < 8 then Transfers.Batch (countersEmb (U := UU)) (VT d L) (.dma cc0_scratch4.sem) (default : HIx 1) NB (DA m d L (64 * k)) 32 0
        else iprop((∃ g, (tA).view.loc (VT d L) ↦[(tA).view.set]{fullShare} g) ∗ semVal (VT d L, SemLoc.dma cc0_scratch4.sem) 0))
    ∗ (∃ g, (tB).view.loc (VT d L) ↦[(tB).view.set]{fullShare} g)
    ∗ semVal (VT d L, SemLoc.dma cc0_scratch5.sem) 0
    ∗ ((oB).view.loc (VT d L) ↦[(oB).view.set]{fullShare} OutF m d L o0 (64 * k))
    ∗ ∃ W', owes (VT d L) O W')

/-- A drain loop's invariant before wait j: the batch, fully issued, with j waits' units consumed — after the last wait
    every delivery and the cell at zero back —, and what the thread owes. -/
def invDrainA (O : CellTallies nD τ sig (HIx 1)) (p0 : ℕ) (j : Nat) (_ : PUnit) : sProp 𝕄 :=
  iprop(Transfers.MayWaits (VT d L) (default : HIx 1) O ∗ (if j < 32 then iprop(∃ u, ⌜u = j * NB⌝ ∗ Transfers.Batch (countersEmb (U := UU)) (VT d L) (.dma cc0_scratch4.sem) (default : HIx 1) NB (DA m d L p0) 32 u)
      else iprop(bigSep Finset.univ (DA m d L p0) ∗ semVal (VT d L, SemLoc.dma cc0_scratch4.sem) 0))
    ∗ ∃ W', owes (VT d L) O W')
def invDrainB (O : CellTallies nD τ sig (HIx 1)) (p0 : ℕ) (j : Nat) (_ : PUnit) : sProp 𝕄 :=
  iprop(Transfers.MayWaits (VT d L) (default : HIx 1) O ∗ (if j < 32 then iprop(∃ u, ⌜u = j * NB⌝ ∗ Transfers.Batch (countersEmb (U := UU)) (VT d L) (.dma cc0_scratch5.sem) (default : HIx 1) NB (DB m d L p0) 32 u)
      else iprop(bigSep Finset.univ (DB m d L p0) ∗ semVal (VT d L, SemLoc.dma cc0_scratch5.sem) 0))
    ∗ ∃ W', owes (VT d L) O W')

theorem units_step (n j : ℕ) (hn : 0 < n) (h : j + 1 < 32) : j * n + n < n * 32 := by
  have h1 : (j + 1) * n < 32 * n := Nat.mul_lt_mul_of_pos_right h hn
  rw [Nat.succ_mul] at h1; rw [Nat.mul_comm n 32]; exact h1
theorem units_last (n j : ℕ) (h : ¬ j + 1 < 32) (hlt : j < 32) : j * n + n = n * 32 := by
  have h31 : j = 31 := by omega
  subst h31; omega

variable [FloatOps F]

/-! ## Facts the run is handed (proved in the facts modules) -/

theorem slots_eq_A (f : Buf (Elt F) ((tA).view.loc (VT d L))) :
    ((tA).view.loc (VT d L) ↦[(tA).view.set]{fullShare} f : sProp 𝕄) = bigSep Finset.univ fun t : Fin 32 => (tA).view.loc (VT d L) ↦[slotSet t]{fullShare} f :=
  slots_eq_X1 d L fullShare f
theorem slots_eq_B (f : Buf (Elt F) ((tB).view.loc (VT d L))) :
    ((tB).view.loc (VT d L) ↦[(tB).view.set]{fullShare} f : sProp 𝕄) = bigSep Finset.univ fun t : Fin 32 => (tB).view.loc (VT d L) ↦[slotSet t]{fullShare} f :=
  slots_eq_X2 d L fullShare f
theorem slots_split_A (ta : Buf (Elt F) ((tA).view.loc (VT d L))) :
    ((tA).view.loc (VT d L) ↦[(tA).view.set]{fullShare} ta : sProp 𝕄)
      ⊢ bigSep (Transfers.pending (n := 32) 0) fun t => (tA).view.loc (VT d L) ↦[slotSet t]{fullShare} ta := by
  exact Entails.of_eq (by rw [slots_eq_A, Transfers.pending_zero])
theorem slots_split_B (tb : Buf (Elt F) ((tB).view.loc (VT d L))) :
    ((tB).view.loc (VT d L) ↦[(tB).view.set]{fullShare} tb : sProp 𝕄)
      ⊢ bigSep (Transfers.pending (n := 32) 0) fun t => (tB).view.loc (VT d L) ↦[slotSet t]{fullShare} tb := by
  exact Entails.of_eq (by rw [slots_eq_B, Transfers.pending_zero])

theorem slots_join_A (p0 : ℕ) : bigSep Finset.univ (DA m d L p0) ⊢ ((tA).view.loc (VT d L) ↦[(tA).view.set]{fullShare} GBlk m d L p0 : sProp 𝕄) := by
  exact Entails.of_eq (by rw [slots_eq_A])
theorem slots_join_B (p0 : ℕ) : bigSep Finset.univ (DB m d L p0) ⊢ ((tB).view.loc (VT d L) ↦[(tB).view.set]{fullShare} GBlk m d L p0 : sProp 𝕄) := by
  exact Entails.of_eq (by rw [slots_eq_B])
theorem chk3_raw (F : FTy → Type) [FloatOps F] (v : IVec S16 32) :
    k0_chk3 (addi (broadcast S16 (0#32 : BitVec 32)) (iota .scVector S16 32 [0] iota_S16_d0_w32_scVector))
      (andi (iota .scVector S16 32 [0] iota_S16_d0_w32_scVector) (broadcast S16 (7#32 : BitVec 32))) (andi v (broadcast S16 (127#32 : BitVec 32))) := chk3_all (F := F) v
theorem chk4_raw (F : FTy → Type) [FloatOps F] (v : IVec S16 32) :
    k0_chk4 (addi (broadcast S16 (16#32 : BitVec 32)) (iota .scVector S16 32 [0] iota_S16_d0_w32_scVector))
      (andi (iota .scVector S16 32 [0] iota_S16_d0_w32_scVector) (broadcast S16 (7#32 : BitVec 32))) (andi v (broadcast S16 (127#32 : BitVec 32))) := chk4_all (F := F) v

/-- Nothing of the output scratch is done before the first round. -/
theorem OutF_zero (o0 : S512.Idx → Elt F .f32) : OutF m d L o0 (64 * 0) = o0 := by
  funext i; simp [OutF]

/-- The worker's row after the last copy: the output scratch's 512 gathered values. -/
theorem row_done (o0 : S512.Idx → Elt F .f32) :
    ((vRowK L).view.loc (VT d L) ↦[(vRowK L).view.set]{fullShare}
        (vRowK L).view.writes (Elt F) (m (valsLoc d)) [⟨Rect.whole S512, ReadAs.same.apply ((oB).view.read (Elt F) (OutF m d L o0 512))⟩] : sProp 𝕄)
      = (vRowK L).view.loc (VT d L) ↦[(vRowK L).view.set]{fullShare} Gv m d := by
  rw [← View.write_univ_eq_writes_whole (vRowK L).view (m (valsLoc d)) [] _]
  exact vRow_written m d L (m (valsLoc d)) o0

/-- The task's body run (the statement is `TileRun`): the tokens' copy; round 0's batch on the first buffer; eight trips,
    each starting the next round on the other buffer, draining one buffer and picking its 32 entries, twice; the copy of
    the output scratch to the worker's row. -/
theorem tile_run (hpre : PreOK m) (O : CellTallies nD τ sig (HIx 1)) (W : Waits sig (HIx 1)) (qa qp : PosShare TreeShare)
    (a0 : Buf (Elt F) ((aC).view.loc (VT d L))) (ta0 : Buf (Elt F) ((tA).view.loc (VT d L))) (tb0 : Buf (Elt F) ((tB).view.loc (VT d L)))
    (o0 : Buf (Elt F) ((oB).view.loc (VT d L))) : TileRun m d L O W qa qp a0 ta0 tb0 o0 := by
  unfold TileRun
  rw [cc0__sc_gather_eq_skeleton]; unfold cc0__sc_gather_skel; rw [k0_part2_eq_skeleton]; unfold k0_part2_skel
  iintro ⟨#Hmw, Hact, Hpred, Hrow, HaC, HtA, HtB, HoB, ⟨Hc4, Hc5, Hs0, Hs1⟩, HO⟩
  have htr1 : Scf.trips k0_t1_loop.lb k0_t1_loop.ub k0_t1_loop.st = 32 := by decide
  have htr2 : Scf.trips k0_t2_loop.lb k0_t2_loop.ub k0_t2_loop.st = 8 := by decide
  have htr3 : Scf.trips k0_t3_loop.lb k0_t3_loop.ub k0_t3_loop.st = 32 := by decide
  have htr4 : Scf.trips k0_t4_loop.lb k0_t4_loop.ub k0_t4_loop.st = 32 := by decide
  have htr5 : Scf.trips k0_t5_loop.lb k0_t5_loop.ub k0_t5_loop.st = 32 := by decide
  have htr6 : Scf.trips k0_t6_loop.lb k0_t6_loop.ub k0_t6_loop.st = 32 := by decide
  -- the tokens' copy and its wait
  sl_exec
  -- round 0's batch on the first buffer
  imod (Transfers.batch_alloc' (Lvl := ℕ) (countersEmb (U := UU)) (VT d L) (default : HIx 1) NB (DA m d L 0) (sm := .dma cc0_scratch4.sem) (E := Set.univ)) $$ Hc4 with HB
  ihave HtA' := (slots_split_A (F := F) d L ta0) $$ HtA
  sl_for (invFireA m d L a0 ta0 (0)) $$ [HaC Hpred HtA' HB]
  case region =>
    intro j hj
    have hlt : j.val < 32 := lt_of_lt_of_le j.isLt k0_t1_abs.2.1
    unfold invFireA
    iintro ⟨HaC, ⟨%q', Hpred⟩, Hslots, HB⟩
    have hw : k0_chk1 L j (word1 m d L a0 j) := chk1_of_le L j _ (le_of_eq_of_le (congrArg BitVec.toNat (word1_eq m d L a0 j)) (tokAt_le m d L hpre _))
    sl_exec (disch := exact hw)
    ihave Hp2 := (pointsTo_share (PosShare.mem_left_op_right q')).1 $$ Hpred
    icases Hp2 with ⟨Hkeep, Htok⟩
    ihave Hsl := (Entails.of_eq (Transfers.bigSep_pending_step (fun t : Fin 32 => ((tA).view.loc (VT d L) ↦[slotSet t]{fullShare} ta0 : sProp 𝕄)) j.val hlt)) $$ Hslots
    icases Hsl with ⟨Hdst, Hslots⟩
    sl_unname
    iapply (Transfers.wp_dmaBatch (countersEmb (U := UU)) 𝒱₀ (VT d L) none
        (src := srcOf (k0_off4 L j (word1 m d L a0 j)) (k0_off4_inb L j (word1 m d L a0 j) hw)) (dst := slotOf X1 (k0_off3 j) (k0_off3_inb j)) (via := ReadAs.same) (fs := m (predLoc d)) (fd := ta0) (q := q'.right)
        (Sd := slotSet ⟨j.val, trips1_le j⟩) (D := DA m d L 0) (j := j.val) (u := 0)
        (default : HIx 1) NB rfl (slot_sub1 j) hlt (Nat.zero_le _) (deliver1 m d L hpre a0 j hw q'.right ta0)) $$ [Htok Hdst HB]
    · isplitl [Htok]
      · ihave Hs := (pointsTo_split_subset (Finset.subset_univ _)).1 $$ Htok
        icases Hs with ⟨Hsrc, -⟩
        iexact Hsrc
      isplitl [Hdst]; · iexact Hdst
      iexact HB
    iintro HB
    sl_step
    isplitl [HaC]; · iexact HaC
    isplitl [Hkeep]; · iexists _; iexact Hkeep
    isplitl [Hslots]; · iexact Hslots
    iexact HB
  · unfold invFireA
    isplitl [HaC]; · iexact HaC
    isplitl [Hpred]; · iexists _; iexact Hpred
    isplitl [HtA']; · iexact HtA'
    iexact HB
  iintro %_ HI
  unfold invFireA
  icases HI with ⟨HaC, ⟨%q1, Hpred⟩, -, HB⟩
  rw [htr1]
  sl_exec
  ihave HoB' := (Entails.of_eq (congrArg (fun f => ((oB).view.loc (VT d L) ↦[(oB).view.set]{fullShare} f : sProp 𝕄)) (OutF_zero m d L o0).symm)) $$ HoB
  sl_for (invOuter m d L O a0 o0) $$ [HaC Hpred HB HtB Hc5 HoB' HO]
  case region =>
    intro k hk
    have hk8 : k.val < 8 := lt_of_lt_of_le k.isLt k0_t2_abs.2.1
    unfold invOuter
    rw [if_pos hk8]
    iintro ⟨#Hmw, HaC, ⟨%q', Hpred⟩, HBa, ⟨%tb, HtB⟩, Hc5, HoB, ⟨%W', HO⟩⟩
    sl_exec
    -- the round at 64 k + 32 on the second buffer
    imod (Transfers.batch_alloc' (Lvl := ℕ) (countersEmb (U := UU)) (VT d L) (default : HIx 1) NB (DB m d L (64 * k.val + 32)) (sm := .dma cc0_scratch5.sem) (E := Set.univ)) $$ Hc5 with HBb
    ihave HtB' := (slots_split_B (F := F) d L tb) $$ HtB
    sl_for (invFireB m d L a0 tb (64 * k.val + 32)) $$ [HaC Hpred HtB' HBb]
    case region =>
      intro j hj
      have hlt : j.val < 32 := lt_of_lt_of_le j.isLt k0_t3_abs.2.1
      unfold invFireB
      iintro ⟨HaC, ⟨%q', Hpred⟩, Hslots, HB⟩
      have hw : k0_chk2 L k j (word2 m d L a0 k j) := chk2_of_le L k j _ (le_of_eq_of_le (congrArg BitVec.toNat (word2_eq m d L a0 k j)) (tokAt_le m d L hpre _))
      sl_exec (disch := exact hw)
      ihave Hp2 := (pointsTo_share (PosShare.mem_left_op_right q')).1 $$ Hpred
      icases Hp2 with ⟨Hkeep, Htok⟩
      ihave Hsl := (Entails.of_eq (Transfers.bigSep_pending_step (fun t : Fin 32 => ((tB).view.loc (VT d L) ↦[slotSet t]{fullShare} tb : sProp 𝕄)) j.val hlt)) $$ Hslots
      icases Hsl with ⟨Hdst, Hslots⟩
      sl_unname
      iapply (Transfers.wp_dmaBatch (countersEmb (U := UU)) 𝒱₀ (VT d L) none
          (src := srcOf (k0_off7 L k j (word2 m d L a0 k j)) (k0_off7_inb L k j (word2 m d L a0 k j) hw)) (dst := slotOf X2 (k0_off6 j) (k0_off6_inb j)) (via := ReadAs.same) (fs := m (predLoc d)) (fd := tb) (q := q'.right)
          (Sd := slotSet ⟨j.val, trips3_le j⟩) (D := DB m d L (64 * k.val + 32)) (j := j.val) (u := 0)
          (default : HIx 1) NB rfl (slot_sub2 j) hlt (Nat.zero_le _) (deliver2 m d L hpre a0 k j hw q'.right tb)) $$ [Htok Hdst HB]
      · isplitl [Htok]
        · ihave Hs := (pointsTo_split_subset (Finset.subset_univ _)).1 $$ Htok
          icases Hs with ⟨Hsrc, -⟩
          iexact Hsrc
        isplitl [Hdst]; · iexact Hdst
        iexact HB
      iintro HB
      sl_step
      isplitl [HaC]; · iexact HaC
      isplitl [Hkeep]; · iexists _; iexact Hkeep
      isplitl [Hslots]; · iexact Hslots
      iexact HB
    · unfold invFireB
      isplitl [HaC]; · iexact HaC
      isplitl [Hpred]; · iexists _; iexact Hpred
      isplitl [HtB']; · iexact HtB'
      iexact HBb
    iintro %_ HI
    unfold invFireB
    icases HI with ⟨HaC, ⟨%q2, Hpred⟩, -, HBb⟩
    rw [htr3]
    sl_exec
    -- the first buffer's 32 waits
    sl_for (invDrainA m d L O (64 * k.val)) $$ [HBa HO]
    case region =>
      intro j hj
      have hlt : j.val < 32 := lt_of_lt_of_le j.isLt k0_t4_abs.2.1
      unfold invDrainA
      rw [if_pos hlt]
      iintro ⟨#Hmw, ⟨%u, %hu, HB⟩, ⟨%W2, HO⟩⟩
      sl_exec
      by_cases hlast : j.val + 1 < 32
      · iapply (Transfers.wp_waitBatchO (countersEmb (U := UU)) 𝒱₀ (VT d L) none (default : HIx 1) rfl (hu ▸ units_step NB j.val NB_pos hlast)) $$ [HB HO]
        · isplitl [HB]; · iexact HB
          isplitl [HO]; · iexact HO
          iapply (Transfers.MayWaits.elim (SemLoc.dma cc0_scratch4.sem)); iexact Hmw
        iintro ⟨HB, HO⟩
        sl_step
        rw [if_pos hlast]
        isplitr; · iexact Hmw
        isplitl [HB]
        · iexists (u + NB); isplitr
          · ipureintro; rw [hu, Nat.succ_mul]
          · iexact HB
        iexists _; iexact HO
      · iapply (Transfers.wp_waitBatchLastO (countersEmb (U := UU)) 𝒱₀ (VT d L) none (default : HIx 1) rfl NB_pos (hu ▸ units_last NB j.val hlast hlt)) $$ [HB HO]
        · isplitl [HB]; · iexact HB
          isplitl [HO]; · iexact HO
          iapply (Transfers.MayWaits.elim (SemLoc.dma cc0_scratch4.sem)); iexact Hmw
        iintro ⟨HD, Hsem, HO⟩
        sl_step
        rw [if_neg hlast]
        isplitr; · iexact Hmw
        isplitl [HD Hsem]
        · isplitl [HD]; · iexact HD
          iexact Hsem
        iexists _; iexact HO
    · unfold invDrainA
      rw [if_pos (by decide)]
      isplitr; · iexact Hmw
      isplitl [HBa]
      · iexists 0; isplitr
        · ipureintro; exact (Nat.zero_mul _).symm
        · iexact HBa
      iexists _; iexact HO
    iintro %_ HI
    unfold invDrainA
    rw [htr4, if_neg (by decide)]
    icases HI with ⟨-, ⟨HDa, Hc4⟩, ⟨%W3, HO⟩⟩
    -- the 32 landed slots are the buffer whole at the round's blocks
    ihave HtA := (slots_join_A (F := F) m d L (64 * k.val)) $$ HDa
    -- the 32 entries out of the landed blocks, two groups of 16
    sl_exec (disch := first | exact chk3_raw F _ | exact chk4_raw F _)
    rw [SparseCore.vectorLoadIdx_bind (c := VT d L)]
    sl_exec (disch := first | exact chk3_raw F _ | exact chk4_raw F _)
    rw [SparseCore.vectorLoadIdx_bind (c := VT d L)]
    sl_exec (disch := first | exact chk3_raw F _ | exact chk4_raw F _)
    sl_unname
    ihave HoB := (Entails.of_eq (congrArg (fun f => ((oB).view.loc (VT d L) ↦[(oB).view.set]{fullShare} f : sProp 𝕄)) (outA_eq m d L hpre a0 o0 k _ _))) $$ HoB
    rcases Classical.em (k0_cond1 k = 1#1) with hc | hc
    · have hk7 : k.val < 7 := (cond1_iff k).mp hc
      sl_exec
      -- the next round (at 64 (k + 1)) on the first buffer
      imod (Transfers.batch_alloc' (Lvl := ℕ) (countersEmb (U := UU)) (VT d L) (default : HIx 1) NB (DA m d L (64 * (k.val + 1))) (sm := .dma cc0_scratch4.sem) (E := Set.univ)) $$ Hc4 with HBa
      ihave HtA' := (slots_split_A (F := F) d L (GBlk m d L (64 * k.val))) $$ HtA
      sl_for (invFireA m d L a0 (GBlk m d L (64 * k.val)) (64 * (k.val + 1))) $$ [HaC Hpred HtA' HBa]
      case region =>
        intro j hj
        have hlt : j.val < 32 := lt_of_lt_of_le j.isLt k0_t5_abs.2.1
        unfold invFireA
        iintro ⟨HaC, ⟨%q', Hpred⟩, Hslots, HB⟩
        have hw : k0_chk5 L k j (word5 m d L a0 k j hc) := chk5_of_le L k j _ (le_of_eq_of_le (congrArg BitVec.toNat (word5_eq m d L a0 k j hc)) (tokAt_le m d L hpre _))
        sl_exec (disch := exact hw)
        ihave Hp2 := (pointsTo_share (PosShare.mem_left_op_right q')).1 $$ Hpred
        icases Hp2 with ⟨Hkeep, Htok⟩
        ihave Hsl := (Entails.of_eq (Transfers.bigSep_pending_step (fun t : Fin 32 => ((tA).view.loc (VT d L) ↦[slotSet t]{fullShare} (GBlk m d L (64 * k.val)) : sProp 𝕄)) j.val hlt)) $$ Hslots
        icases Hsl with ⟨Hdst, Hslots⟩
        sl_unname
        iapply (Transfers.wp_dmaBatch (countersEmb (U := UU)) 𝒱₀ (VT d L) none
            (src := srcOf (k0_off16 L k j (word5 m d L a0 k j hc)) (k0_off16_inb L k j (word5 m d L a0 k j hc) hw hc)) (dst := slotOf X1 (k0_off15 j) (k0_off15_inb k j hc)) (via := ReadAs.same) (fs := m (predLoc d)) (fd := (GBlk m d L (64 * k.val))) (q := q'.right)
            (Sd := slotSet ⟨j.val, trips5_le j⟩) (D := DA m d L (64 * (k.val + 1))) (j := j.val) (u := 0)
            (default : HIx 1) NB rfl (slot_sub5 k hc j) hlt (Nat.zero_le _) (deliver5 m d L hpre a0 k hc j hw q'.right (GBlk m d L (64 * k.val)))) $$ [Htok Hdst HB]
        · isplitl [Htok]
          · ihave Hs := (pointsTo_split_subset (Finset.subset_univ _)).1 $$ Htok
            icases Hs with ⟨Hsrc, -⟩
            iexact Hsrc
          isplitl [Hdst]; · iexact Hdst
          iexact HB
        iintro HB
        sl_step
        isplitl [HaC]; · iexact HaC
        isplitl [Hkeep]; · iexists _; iexact Hkeep
        isplitl [Hslots]; · iexact Hslots
        iexact HB
      · unfold invFireA
        isplitl [HaC]; · iexact HaC
        isplitl [Hpred]; · iexists _; iexact Hpred
        isplitl [HtA']; · iexact HtA'
        iexact HBa
      iintro %_ HI
      unfold invFireA
      icases HI with ⟨HaC, ⟨%q3, Hpred⟩, -, HBa⟩
      rw [htr5]
      sl_exec
      -- the second buffer's 32 waits
      sl_for (invDrainB m d L O (64 * k.val + 32)) $$ [HBb HO]
      case region =>
        intro j hj
        have hlt : j.val < 32 := lt_of_lt_of_le j.isLt k0_t6_abs.2.1
        unfold invDrainB
        rw [if_pos hlt]
        iintro ⟨#Hmw, ⟨%u, %hu, HB⟩, ⟨%W2, HO⟩⟩
        sl_exec
        by_cases hlast : j.val + 1 < 32
        · iapply (Transfers.wp_waitBatchO (countersEmb (U := UU)) 𝒱₀ (VT d L) none (default : HIx 1) rfl (hu ▸ units_step NB j.val NB_pos hlast)) $$ [HB HO]
          · isplitl [HB]; · iexact HB
            isplitl [HO]; · iexact HO
            iapply (Transfers.MayWaits.elim (SemLoc.dma cc0_scratch5.sem)); iexact Hmw
          iintro ⟨HB, HO⟩
          sl_step
          rw [if_pos hlast]
          isplitr; · iexact Hmw
          isplitl [HB]
          · iexists (u + NB); isplitr
            · ipureintro; rw [hu, Nat.succ_mul]
            · iexact HB
          iexists _; iexact HO
        · iapply (Transfers.wp_waitBatchLastO (countersEmb (U := UU)) 𝒱₀ (VT d L) none (default : HIx 1) rfl NB_pos (hu ▸ units_last NB j.val hlast hlt)) $$ [HB HO]
          · isplitl [HB]; · iexact HB
            isplitl [HO]; · iexact HO
            iapply (Transfers.MayWaits.elim (SemLoc.dma cc0_scratch5.sem)); iexact Hmw
          iintro ⟨HD, Hsem, HO⟩
          sl_step
          rw [if_neg hlast]
          isplitr; · iexact Hmw
          isplitl [HD Hsem]
          · isplitl [HD]; · iexact HD
            iexact Hsem
          iexists _; iexact HO
      · unfold invDrainB
        rw [if_pos (by decide)]
        isplitr; · iexact Hmw
        isplitl [HBb]
        · iexists 0; isplitr
          · ipureintro; exact (Nat.zero_mul _).symm
          · iexact HBb
        iexists _; iexact HO
      iintro %_ HI
      unfold invDrainB
      rw [htr6, if_neg (by decide)]
      icases HI with ⟨-, ⟨HDb, Hc5⟩, ⟨%W4, HO⟩⟩
      ihave HtB := (slots_join_B (F := F) m d L (64 * k.val + 32)) $$ HDb
      -- the 32 entries out of the landed blocks, two groups of 16
      sl_exec (disch := first | exact chk6_all (F := F) _ | exact chk7_all (F := F) _)
      rw [SparseCore.vectorLoadIdx_bind (c := VT d L)]
      sl_exec (disch := first | exact chk6_all (F := F) _ | exact chk7_all (F := F) _)
      rw [SparseCore.vectorLoadIdx_bind (c := VT d L)]
      sl_exec (disch := first | exact chk6_all (F := F) _ | exact chk7_all (F := F) _)
      sl_unname
      ihave HoB := (Entails.of_eq (congrArg (fun f => ((oB).view.loc (VT d L) ↦[(oB).view.set]{fullShare} f : sProp 𝕄)) (outB_eq m d L hpre a0 o0 k _ _))) $$ HoB
      sl_step
      isplitr; · iexact Hmw
      isplitl [HaC]; · iexact HaC
      isplitl [Hpred]; · iexists _; iexact Hpred
      rw [if_pos (show k.val + 1 < 8 by omega)]
      isplitl [HBa]; · iexact HBa
      isplitl [HtB]; · iexists _; iexact HtB
      isplitl [Hc5]; · iexact Hc5
      isplitl [HoB]; · iexact HoB
      iexists _; iexact HO
    · have hk7 : k.val = 7 := by
        have := (cond1_iff k).not.mp hc
        omega
      sl_exec
      -- the second buffer's 32 waits
      sl_for (invDrainB m d L O (64 * k.val + 32)) $$ [HBb HO]
      case region =>
        intro j hj
        have hlt : j.val < 32 := lt_of_lt_of_le j.isLt k0_t6_abs.2.1
        unfold invDrainB
        rw [if_pos hlt]
        iintro ⟨#Hmw, ⟨%u, %hu, HB⟩, ⟨%W2, HO⟩⟩
        sl_exec
        by_cases hlast : j.val + 1 < 32
        · iapply (Transfers.wp_waitBatchO (countersEmb (U := UU)) 𝒱₀ (VT d L) none (default : HIx 1) rfl (hu ▸ units_step NB j.val NB_pos hlast)) $$ [HB HO]
          · isplitl [HB]; · iexact HB
            isplitl [HO]; · iexact HO
            iapply (Transfers.MayWaits.elim (SemLoc.dma cc0_scratch5.sem)); iexact Hmw
          iintro ⟨HB, HO⟩
          sl_step
          rw [if_pos hlast]
          isplitr; · iexact Hmw
          isplitl [HB]
          · iexists (u + NB); isplitr
            · ipureintro; rw [hu, Nat.succ_mul]
            · iexact HB
          iexists _; iexact HO
        · iapply (Transfers.wp_waitBatchLastO (countersEmb (U := UU)) 𝒱₀ (VT d L) none (default : HIx 1) rfl NB_pos (hu ▸ units_last NB j.val hlast hlt)) $$ [HB HO]
          · isplitl [HB]; · iexact HB
            isplitl [HO]; · iexact HO
            iapply (Transfers.MayWaits.elim (SemLoc.dma cc0_scratch5.sem)); iexact Hmw
          iintro ⟨HD, Hsem, HO⟩
          sl_step
          rw [if_neg hlast]
          isplitr; · iexact Hmw
          isplitl [HD Hsem]
          · isplitl [HD]; · iexact HD
            iexact Hsem
          iexists _; iexact HO
      · unfold invDrainB
        rw [if_pos (by decide)]
        isplitr; · iexact Hmw
        isplitl [HBb]
        · iexists 0; isplitr
          · ipureintro; exact (Nat.zero_mul _).symm
          · iexact HBb
        iexists _; iexact HO
      iintro %_ HI
      unfold invDrainB
      rw [htr6, if_neg (by decide)]
      icases HI with ⟨-, ⟨HDb, Hc5⟩, ⟨%W4, HO⟩⟩
      ihave HtB := (slots_join_B (F := F) m d L (64 * k.val + 32)) $$ HDb
      -- the 32 entries out of the landed blocks, two groups of 16
      sl_exec (disch := first | exact chk6_all (F := F) _ | exact chk7_all (F := F) _)
      rw [SparseCore.vectorLoadIdx_bind (c := VT d L)]
      sl_exec (disch := first | exact chk6_all (F := F) _ | exact chk7_all (F := F) _)
      rw [SparseCore.vectorLoadIdx_bind (c := VT d L)]
      sl_exec (disch := first | exact chk6_all (F := F) _ | exact chk7_all (F := F) _)
      sl_unname
      ihave HoB := (Entails.of_eq (congrArg (fun f => ((oB).view.loc (VT d L) ↦[(oB).view.set]{fullShare} f : sProp 𝕄)) (outB_eq m d L hpre a0 o0 k _ _))) $$ HoB
      sl_step
      isplitr; · iexact Hmw
      isplitl [HaC]; · iexact HaC
      isplitl [Hpred]; · iexists _; iexact Hpred
      rw [if_neg (show ¬ k.val + 1 < 8 by omega)]
      isplitl [HtA Hc4]
      · isplitl [HtA]; · iexists _; iexact HtA
        iexact Hc4
      isplitl [HtB]; · iexists _; iexact HtB
      isplitl [Hc5]; · iexact Hc5
      isplitl [HoB]; · iexact HoB
      iexists _; iexact HO
  · unfold invOuter
    rw [if_pos (by decide)]
    isplitr; · iexact Hmw
    isplitl [HaC]; · iexact HaC
    isplitl [Hpred]; · iexists _; iexact Hpred
    isplitl [HB]; · iexact HB
    isplitl [HtB]; · iexists _; iexact HtB
    isplitl [Hc5]; · iexact Hc5
    isplitl [HoB']; · iexact HoB'
    iexists _; iexact HO
  iintro %_ HI
  unfold invOuter
  rw [htr2, if_neg (by decide)]
  icases HI with ⟨-, HaC, ⟨%q9, Hpred⟩, ⟨⟨%ga, HtA⟩, Hc4⟩, ⟨%gb, HtB⟩, Hc5, HoB, ⟨%W9, HO⟩⟩
  ihave HoB := (Entails.of_eq (congrArg (fun n => ((oB).view.loc (VT d L) ↦[(oB).view.set]{fullShare} OutF m d L o0 n : sProp 𝕄)) (show 64 * 8 = 512 from rfl))) $$ HoB
  -- the output scratch to the worker's row of the gathered array
  sl_exec
  sl_unname
  ihave Hrow := (Entails.of_eq (row_done m d L o0)) $$ Hrow
  sl_step
  isplitl [Hact]; · iexact Hact
  isplitl [Hrow]; · iexact Hrow
  isplitl [HaC]; · iexists _; iexact HaC
  isplitl [HtA]; · iexists _; iexact HtA
  isplitl [HtB]; · iexists _; iexact HtB
  isplitl [HoB]; · iexists _; iexact HoB
  isplitl [Hc4 Hc5 Hs0 Hs1]
  · isplitl [Hc4]; · iexact Hc4
    isplitl [Hc5]; · iexact Hc5
    isplitl [Hs0]; · iexact Hs0
    iexact Hs1
  iexists _; iexact HO

end Cert.Kernel.Tile

end
-- ==== Proof.Split.lean ====
/-
  How the one SparseCore call's operands split among its 32 workers and come back.

  The 32 workers are the 2 × 16 pairs (SparseCore, vector subcore), worker 16·c + i for the pair (c, i). The gathered
  array, held whole, is its 32 rows, one per worker; rows at one whole-array function rejoin to the array at that
  function. The probabilities and the tokens are only read: the full share of each splits into 32 read tokens and a
  remainder, and the tokens with the remainder rejoin to the full share.
-/
import proofs.«212842_g47828755808845_cont_8to1c4_577_40_alg».proof.Proof.Common
import Idealize.ShloMosaic.Lib.Transfers

noncomputable section

namespace Cert.KernelIdeal.Launch

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The 32 workers as 2 × 16 -/

/-- Worker 16·c + i is the pair (c, i): the pairs and the workers correspond one to one. -/
def wEquiv : Fin 2 × Fin 16 ≃ Fin 32 where
  toFun p := wOf p.1 p.2
  invFun w := (⟨w.val / 16, by have := w.isLt; omega⟩, ⟨w.val % 16, Nat.mod_lt _ (by decide)⟩)
  left_inv p := by
    have h1 := p.1.isLt; have h2 := p.2.isLt
    refine Prod.ext (Fin.ext ?_) (Fin.ext ?_)
    · show (16 * p.1.val + p.2.val) / 16 = p.1.val; omega
    · show (16 * p.1.val + p.2.val) % 16 = p.2.val; omega
  right_inv w := by
    refine Fin.ext ?_
    show 16 * (w.val / 16) + w.val % 16 = w.val; omega

/-- A family over the workers, summed per SparseCore and per vector subcore, is the family summed over the workers. -/
theorem bigSep_workers (Φ : Fin 32 → sProp 𝕄) :
    (bigSep Finset.univ fun c : Fin 2 => bigSep Finset.univ fun i : Fin 16 => Φ (wOf c i)) = bigSep Finset.univ Φ :=
  ((bigSep_univ_equiv wEquiv Φ).trans (BI.bigSep_univ_prod (fun p : Fin 2 × Fin 16 => Φ (wEquiv p)))).symm

/-- The call's vector subcores are the sixteen, its SparseCores the two. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The rows of the gathered array -/

theorem vRowSet_eq (w : Fin 32) : vRowSet w = (vrow w).set := by
  show ((View.whole (main_v0_scv : Ref sig .scVector)).slice (vrow w)).set = _
  rw [View.set_slice]; exact Finset.map_refl
theorem vrows_disjoint : ∀ i ∈ (Finset.univ : Finset (Fin 32)), ∀ j ∈ (Finset.univ : Finset (Fin 32)), i ≠ j → Disjoint (vRowSet i) (vRowSet j) :=
  fun i _ j _ h => by rw [vRowSet_eq, vRowSet_eq]; exact Rect.part_disjoint vdiv h
theorem vrows_cover : (Finset.univ : Finset (Fin 32)).biUnion vRowSet = Finset.univ :=
  (Finset.biUnion_congr rfl fun i _ => vRowSet_eq i).trans (Rect.biUnion_part vdiv)

/-- The gathered array whole, at any contents, is its 32 rows at those contents. -/
theorem valsPts_rows (d : Dev nD) (f : Buf (Elt F) (valsLoc d)) :
    (valsLoc d ↦{fullShare} f : sProp 𝕄) = bigSep Finset.univ fun w : Fin 32 => vRowPts d w f := by
  rw [← pointsTo_biUnion Finset.univ (ℓ := valsLoc d) vRowSet vrows_disjoint, vrows_cover]; try rfl

/-! ## The read tokens -/

/-- The full share of an array read by all workers: the remainder kept aside. -/
abbrev dropQ : PosShare TreeShare := Transfers.shareDrop fullShare 32

theorem predPts_split (d : Dev nD) :
    (predLoc d ↦{fullShare} m (predLoc d) : sProp 𝕄) ⊢ iprop((predLoc d ↦{dropQ} m (predLoc d)) ∗ bigSep Finset.univ fun w : Fin 32 => predTokPts m d w) :=
  Transfers.pointsTo_toks_split fullShare 32
theorem actPts_split (d : Dev nD) :
    (actLoc d ↦{fullShare} m (actLoc d) : sProp 𝕄) ⊢ iprop((actLoc d ↦{dropQ} m (actLoc d)) ∗ bigSep Finset.univ fun w : Fin 32 => actTokPts m d w) :=
  Transfers.pointsTo_toks_split fullShare 32
theorem actPts_join (d : Dev nD) :
    iprop((actLoc d ↦{dropQ} m (actLoc d)) ∗ bigSep Finset.univ fun w : Fin 32 => actTokPts m d w) ⊢ (actLoc d ↦{fullShare} m (actLoc d) : sProp 𝕄) :=
  Transfers.pointsTo_toks_join fullShare 32

/-! ## A SparseCore's operands among its sixteen workers -/

theorem vecSplit : (K (F := F)).VecSplit' (P m) 0 := by
  intro d c
  show (bigSep Finset.univ fun i : Fin 16 => goW m d (wOf (Fin.cast nCore_zero c) i)) ⊢ |={Set.univ}=> iprop(
      (bigSep Finset.univ fun i : Fin ((K (F := F)).nSub 0) => goW m d (wOf (Fin.cast nCore_zero c) (Fin.cast nSub_zero i)))
      ∗ ((bigSep Finset.univ fun i : Fin ((K (F := F)).nSub 0) => tdW m d (wOf (Fin.cast nCore_zero c) (Fin.cast nSub_zero i)))
          -∗ (bigSep Finset.univ fun i : Fin 16 => tdW m d (wOf (Fin.cast nCore_zero c) i))))
  rw [bigSep_tasks (F := F) (fun i => goW m d (wOf (Fin.cast nCore_zero c) i)),
    bigSep_tasks (F := F) (fun i => tdW m d (wOf (Fin.cast nCore_zero c) i))]
  iintro H; imodintro
  isplitl [H]; · iexact H
  iintro H; iexact H

/-! ## The call's operands and results on the TensorCore's side -/

/-- What the two SparseCores take at the call: every worker's two read tokens, and the gathered array whole at the launch contents. -/
theorem st0_eq (d : Dev nD) :
    (bigSep Finset.univ fun c : Fin ((K (F := F)).nCore 0) => (P m).st 0 d c)
      = iprop((bigSep Finset.univ fun w : Fin 32 => predTokPts m d w) ∗ (bigSep Finset.univ fun w : Fin 32 => actTokPts m d w)
          ∗ valsLoc d ↦{fullShare} m (valsLoc d)) := by
  show (bigSep Finset.univ fun c : Fin ((K (F := F)).nCore 0) => bigSep Finset.univ fun i : Fin 16 => goW m d (wOf (Fin.cast nCore_zero c) i)) = _
  rw [bigSep_cores (F := F) (fun c => bigSep Finset.univ fun i : Fin 16 => goW m d (wOf c i)), bigSep_workers (fun w => goW m d w),
    bigSep_sep', bigSep_sep', valsPts_rows]

/-- What they bring back: every worker's token of the tokens, and the gathered array whole at the gathered values. -/
theorem dn0_eq (d : Dev nD) :
    (bigSep Finset.univ fun c : Fin ((K (F := F)).nCore 0) => (P m).dn 0 d c)
      = iprop((bigSep Finset.univ fun w : Fin 32 => actTokPts m d w) ∗ valsLoc d ↦{fullShare} Gv m d) := by
  show (bigSep Finset.univ fun c : Fin ((K (F := F)).nCore 0) => bigSep Finset.univ fun i : Fin 16 => tdW m d (wOf (Fin.cast nCore_zero c) i)) = _
  rw [bigSep_cores (F := F) (fun c => bigSep Finset.univ fun i : Fin 16 => tdW m d (wOf c i)), bigSep_workers (fun w => tdW m d w),
    bigSep_sep', valsPts_rows]

end Cert.KernelIdeal.Launch

end
-- ==== Proof.RedRun.lean ====
/-
  The reduction kernel's body, run once at its three staging buffers held whole.

  The body loads the gathered values and the tokens (both 32 × 512) whole, computes the loss as a pure term of the
  two, reads the result's word and stores the loss over it. Run from the two inputs at f0 and f1 it leaves them as
  they were and the result's buffer at the loss of f0 and f1; it waits for nothing, so what the core owes and the
  waits it has recorded are unchanged.
-/
import proofs.«212842_g47828755808845_cont_8to1c4_577_40_alg».proof.Proof.Split

noncomputable section

namespace Cert.KernelIdeal.Launch

open Cert.KernelIdeal Cert.KernelIdeal.Gen Cert.KernelIdeal.Common

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

attribute [local instance] Cert.KernelIdeal.Gen.facts

/-- The staging buffers of the gathered values, of the tokens and of the result. -/
abbrev stg0 : Memref sig .tc .vmem S32x512 .f32 := Memref.whole cc1_stg0_0
abbrev stg1 : Memref sig .tc .vmem S32x512 .i32 := Memref.whole cc1_stg1_0
abbrev stg2 : Memref sig .tc .smem S1x1 .f32 := Memref.whole cc1_stg2_0

theorem kernelRun (c : Dev nD) (f0 : Buf (Elt F) (stg0.view.loc (c : Thread nD τ))) (f1 : Buf (Elt F) (stg1.view.loc (c : Thread nD τ)))
    (f2 : Buf (Elt F) (stg2.view.loc (c : Thread nD τ))) (O : CellTallies nD τ sig (HIx 1)) (W : Waits sig (HIx 1)) (Q : PUnit → sProp 𝕄) :
    iprop((stg0.view.loc (c : Thread nD τ) ↦{fullShare} f0) ∗ (stg1.view.loc (c : Thread nD τ) ↦{fullShare} f1) ∗ (stg2.view.loc (c : Thread nD τ) ↦{fullShare} f2)
      ∗ owes (c : Thread nD τ) O W
      ∗ (iprop((stg0.view.loc (c : Thread nD τ) ↦{fullShare} f0) ∗ (stg1.view.loc (c : Thread nD τ) ↦{fullShare} f1)
            ∗ (stg2.view.loc (c : Thread nD τ) ↦{fullShare} (fun _ => Spec.lossOf (F := F) f0 f1)) ∗ owes (c : Thread nD τ) O W) -∗ Q ⟨⟩))
    ⊢ wp frame (wpE (defs₀ (F := F)) Variants.none (c : Thread nD τ) none) Set.univ
        (cc1__tc_reduce_body stg0 (Memref.isWhole_whole _) stg1 (Memref.isWhole_whole _) stg2 (Memref.isWhole_whole _)) Q := by
  rw [cc1__tc_reduce_body_eq_skeleton]; unfold cc1__tc_reduce_body_skel
  rw [k1_part1_eq_skeleton, k1_part2_eq_skeleton]; unfold k1_part1_skel k1_part2_skel
  iintro ⟨H0, H1, H2, HO, Hk⟩
  sl_exec
  sl_step
  have hz2 : (![0, 0] : Fin S1x1.rank → ℕ) = fun _ => 0 := by funext a; fin_cases a <;> rfl
  have hz : (![0, 0] : Fin S32x512.rank → ℕ) = fun _ => 0 := by funext a; fin_cases a <;> rfl
  have e0 : View.readAt (Elt F) stg0.view (Rect.unit ![0, 0] S32x512.size inb_S32x512_S32x512_0_0).toLoadRect f0 = f0 :=
    Memref.readAt_unit_zero (Elt F) (cc1_stg0_0 : Ref sig .tc) hz inb_S32x512_S32x512_0_0 f0
  have e1 : View.readAt (Elt F) stg1.view (Rect.unit ![0, 0] S32x512.size inb_S32x512_S32x512_0_0).toLoadRect f1 = f1 :=
    Memref.readAt_unit_zero (Elt F) (cc1_stg1_0 : Ref sig .tc) hz inb_S32x512_S32x512_0_0 f1
  have h1 : Scalar.extui (Scalar.cmpi .sgt 4#32 0#32) = 1#32 := by decide
  rw [View.writes_singleton, show ∀ w, (stg2.view.slice (Rect.unit ![0, 0] S1x1.size inb_S1x1_S1x1_0_0)).write (Elt F) f2 w Finset.univ = w from
    fun w => Memref.write_access_unit_zero_univ (Elt F) (cc1_stg2_0 : Ref sig .tc) hz2 inb_S1x1_S1x1_0_0 f2 w, e0, e1]
  iapply Hk
  isplitl [H0]; · iexact H0
  isplitl [H1]; · iexact H1
  isplitl [H2]
  · unfold Spec.lossOf; rw [h1]; iexact H2
  iexact HO

end Cert.KernelIdeal.Launch

end
-- ==== Proof.Region.lean ====
/-
  The reduction kernel's region on the TensorCore: one grid point, three windows each its whole array.

  The gathered values (32 × 512) and the tokens laid out the same way are staged whole into the kernel's two input
  buffers; the body computes the loss of the two and stores it in the result's one-word staging buffer, which is
  written back whole. So the region takes the gathered array, the tokens 32 × 512 and the result's array, and leaves
  the first two as they were and the result's array at the loss. The kernel signals nobody and waits for nobody; the
  TensorCore owes nothing around the region, and the waits the region records are on the staging cells at the
  kernel's own index, whose level is zero.
-/
import proofs.«212842_g47828755808845_cont_8to1c4_577_40_alg».proof.Proof.Split
import proofs.«212842_g47828755808845_cont_8to1c4_577_40_alg».proof.Proof.RedRun
import proofs.«212842_g47828755808845_cont_8to1c4_577_40_alg».proof.Proof.Gen.KernelIdeal.Launch
import proofs.«212842_g47828755808845_cont_8to1c4_577_40_alg».proof.Proof.Gen.KernelIdeal.Points
import Idealize.ShloMosaic.Lib.Pipeline.Regions

noncomputable section

namespace Cert.KernelIdeal.Launch

open Cert.KernelIdeal Cert.KernelIdeal.Gen Cert.KernelIdeal.Common

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

attribute [local instance] Cert.KernelIdeal.Gen.facts

variable (m : (ℓ : Loc nD τ sig) → Buf (Elt F) ℓ)

/-- The pipeline's rounds: the middle factor of the ghost state. -/
def ER : Emb UR (MT nD τ sig (HIx 1) (Elt F) ℕ UU ℕ) :=
  (Emb.inl : Emb UR (UR × Counters)).trans (embR : Emb (UR × Counters) (MT nD τ sig (HIx 1) (Elt F) ℕ UU ℕ))
instance ER_landsIn : (ER (F := F)).LandsIn (upEmb : UEmb _ 𝕄) := by unfold ER; infer_instance

abbrev adm : (p : Fin 1) → (pcfgs (F := F) p).Adm := fun p => (cfgs p).toPCfg_adm

/-- The tokens laid out 32 × 512, and the loss of the gathered values and those tokens. -/
abbrev act32 (c : Dev nD) : Vec F S32x512 .i32 := shapeCast S32x512 (m (actLoc c)) shapeCasts_S8x2048_S32x512
abbrev lossV (c : Dev nD) : F .f32 := Spec.lossOf (F := F) (Gv m c) (act32 m c)

def dats (_ : Fin 1) (c : Dev nD) : Pipeline.Dat τ (Elt F) (HIx 1) ℕ UU ℕ cfg1 c where
  A w := match w with
    | ⟨0, _⟩ => Gv m c
    | ⟨1, _⟩ => act32 m c
    | ⟨2, _⟩ => m ((c : Thread nD τ).loc main_v2)
    | ⟨_ + 3, h⟩ => absurd h (Nat.not_lt.2 (Nat.le_add_left _ _))
  after w _ := match w with
    | ⟨0, _⟩ => Gv m c
    | ⟨1, _⟩ => act32 m c
    | ⟨2, _⟩ => fun _ => lossV m c
    | ⟨_ + 3, h⟩ => absurd h (Nat.not_lt.2 (Nat.le_add_left _ _))
  Φ _ := iprop(emp)
  q _ := fullShare
  owed _ := 0
  recorded _ := {p | (Common.K (F := F)).lev ((c : Thread nD τ), p.1) p.2 ≤ 8}

/-- A whole-array window's block, read, is the array; written whole, is what was written. -/
theorem blkRead_0 (c : Dev nD) (f : Buf (Elt F) ((cfg1.win 0).arr.view.loc (c : Thread nD τ))) :
    ((cfg1.win 0).blk t1_0).view.read (Elt F) f = f :=
  Memref.read_access_unit_zero (Elt F) (main_v0 : Ref sig .tc) (funext fun a => Nat.zero_mul _) _ f
theorem blkRead_1 (c : Dev nD) (f : Buf (Elt F) ((cfg1.win 1).arr.view.loc (c : Thread nD τ))) :
    ((cfg1.win 1).blk t1_0).view.read (Elt F) f = f :=
  Memref.read_access_unit_zero (Elt F) (main_v1 : Ref sig .tc) (funext fun a => Nat.zero_mul _) _ f
theorem blkWrite_2 (c : Dev nD) (f w : Buf (Elt F) ((cfg1.win 2).arr.view.loc (c : Thread nD τ))) :
    ((cfg1.win 2).blk t1_0).view.write (Elt F) f w Finset.univ = w :=
  Memref.write_access_unit_zero_univ (Elt F) (main_v2 : Ref sig .tc) (funext fun a => Nat.zero_mul _) _ f w

theorem before_0 (c : Dev nD) (d) : (dats m 0 c).before 0 t1_0 d = Gv m c := by
  unfold Pipeline.Dat.before; rw [if_pos (fetch1_0 t1_0)]
  show (cfg1.win 0).fill _ d (((cfg1.win 0).blk t1_0).view.read (Elt F) (Gv m c)) = Gv m c
  rw [blkRead_0 c]; rfl
theorem before_1 (c : Dev nD) (d) : (dats m 0 c).before 1 t1_0 d = act32 m c := by
  unfold Pipeline.Dat.before; rw [if_pos (fetch1_1 t1_0)]
  show (cfg1.win 1).fill _ d (((cfg1.win 1).blk t1_0).view.read (Elt F) (act32 m c)) = act32 m c
  rw [blkRead_1 c]; rfl
theorem arrAt_0 (c : Dev nD) : (dats m 0 c).arrAt 0 cfg1.N = Gv m c := rfl
theorem arrAt_1 (c : Dev nD) : (dats m 0 c).arrAt 1 cfg1.N = act32 m c := rfl
theorem arrAt_2 (c : Dev nD) : (dats m 0 c).arrAt 2 cfg1.N = fun _ => lossV m c := by
  show (dats m 0 c).arrAt 2 (t1_0.val + 1) = _
  rw [Pipeline.Dat.arrAt_succ, if_pos (flush1_2 t1_0)]
  exact blkWrite_2 c _ _

/-- The body obligation at the one point: the two inputs' staging buffers hold the gathered values and the tokens, the
    kernel runs, the result's staging buffer holds the loss; nothing owed, no wait recorded. -/
theorem body_obligation (c : Dev nD) : Pipeline.BodyObligation (dats m 0 c) (defs₀ (F := F)) 𝒱₀ (none : HIx 1) Set.univ := fun t => by
  obtain rfl := fin_N1 t
  rw [bigSep_W1, bigSep_W1]
  simp only [owns_whole_eq]
  unfold Pipeline.Dat.owesAt Pipeline.owesWithin
  rewrite [show (dats m 0 c).Φ t1_0.succ = iprop(emp) from rfl]
  iintro ⟨-, ⟨%W, %hW, HO⟩, ⟨%d0, %f0, %hf0, H0⟩, ⟨%d1, %f1, %hf1, H1⟩, ⟨%d2, %f2, -, H2⟩⟩
  rw [before_0] at hf0; rw [before_1] at hf1
  subst hf0; subst hf1
  iapply (kernelRun c (Gv m c) (act32 m c) f2 0 W)
  isplitl [H0]; · iexact H0
  isplitl [H1]; · iexact H1
  isplitl [H2]; · iexact H2
  isplitl [HO]; · iexact HO
  iintro ⟨H0, H1, H2, HO⟩
  isplitr; · iempintro
  isplitl [HO]
  · iexists W; isplitr; · ipureintro; exact hW
    iexact HO
  isplitl [H0]; · iexists _; isplitr; swap; (· iexact H0); ipureintro; rfl
  isplitl [H1]; · iexists _; isplitr; swap; (· iexact H1); ipureintro; rfl
  iexists _; isplitr; swap; (· iexact H2); ipureintro; rfl

/-! ## The region -/

/-- What the TensorCore owes around the region: nothing, its recorded waits at the levels of the call before. -/
abbrev owesT (c : Dev nD) : sProp 𝕄 :=
  iprop(∃ W, ⌜(Common.K (F := F)).WBelow (T c) W (8 * 1)⌝ ∗ owes (T c) (0 : CellTallies nD τ sig (HIx 1)) W)

abbrev v1Loc (c : Dev nD) : Loc nD τ sig := (SparseCore.T c).loc main_v1
abbrev v2Loc (c : Dev nD) : Loc nD τ sig := (SparseCore.T c).loc main_v2

/-- Before the region: the gathered array, the tokens 32 × 512, the result's array at its launch contents.
    After it: the same, the result's array at the loss. -/
abbrev regPre (c : Dev nD) : sProp 𝕄 :=
  iprop((valsLoc c ↦{fullShare} Gv m c) ∗ (v1Loc c ↦{fullShare} act32 m c) ∗ (v2Loc c ↦{fullShare} m (v2Loc c)) ∗ owesT (F := F) c)
abbrev regPost (c : Dev nD) : sProp 𝕄 :=
  iprop((valsLoc c ↦{fullShare} Gv m c) ∗ (v1Loc c ↦{fullShare} act32 m c) ∗ (v2Loc c ↦{fullShare} fun _ => lossV m c) ∗ owesT (F := F) c)

theorem share_full (c : Dev nD) (w : Fin cfg1.W) : (dats m 0 c).share w = fullShare := (dats m 0 c).share_full (fun _ => rfl) w

theorem v2_exit (c : Dev nD) :
    (v2Loc c ↦{fullShare} (dats m 0 c).arrAt 2 cfg1.N : sProp 𝕄) ⊢ (v2Loc c ↦{fullShare} fun _ => lossV m c) := by
  rw [arrAt_2]

/-- The kernel has no semaphore of its own. -/
theorem ownSemFacts : Pipeline.OwnSemFacts spec1 (fun k : Fin 0 => (k.elim0 : SemLoc sig)) := by decide

set_option backward.isDefEq.respectTransparency.types false in
def reg : Pipeline.RegionSeg (pcfgs (F := F)) adm (dats m) (none : HIx 1) defs₀ 𝒱₀ (Common.K (F := F)).L (Common.K (F := F)).lev 0 where
  win := launch1.win.to₀
  block_pos := launch1.block_pos
  stage_whole := launch1.stage_whole
  K := Fin 0
  osem := fun k => k.elim0
  ho := ownSemFacts
  hbody c := (body_obligation m c).loose
  hwaits := Pipeline.hwaits_of_owed_zero _ _ _ _ _ _ 0 fun _ _ => rfl
  pre c := regPre m c
  post c := regPost m c
  X _ := iprop(emp)
  Y _ := iprop(emp)
  Z _ := iprop(emp)
  hentry c := by
    rw [Pipeline.arrays_eq cfgs (dats m) 0 c launch1.arr_whole (share_full m c), bigSep_W1]
    iintro ⟨⟨H0, H1, H2, ⟨%W, %hW, HO⟩⟩, -, -⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p (Finset.mem_coe.mp hp))
      iexact HO
    isplitr <;> iempintro
  hin c := by
    rewrite [show (dats m 0 c).Φ 0 = iprop(emp) from rfl]
    iintro -; iempintro
  hout c := by
    rewrite [show (dats m 0 c).Φ (Fin.last cfg1.N) = iprop(emp) from rfl, scopedRest1_eq,
      Pipeline.ownSems0_eq_of_list c (fun k : Fin 0 => k.elim0) [] (by decide) (by decide)]
    iintro -
    isplitr; · iempintro
    isplitr <;> iempintro
  hexit c := by
    rw [Pipeline.arrays_eq cfgs (dats m) 0 c launch1.arr_whole (share_full m c), bigSep_W1]
    iintro ⟨⟨H0, H1, H2⟩, ⟨%W, %hW, HO⟩, -, -⟩
    imodintro
    isplitl [H0]; · iexact H0
    isplitl [H1]; · iexact H1
    isplitl [H2]; · iapply (v2_exit m c); iexact H2
    iexists W; isplitr; swap; (· iexact HO)
    ipureintro
    intro p hp
    rcases hW (Finset.mem_coe.mpr hp) with h | ⟨w, s, rfl⟩
    · exact h
    · exact Nat.zero_le _

/-- The region's step on a device's TensorCore, in the pipeline's own signature. -/
theorem region_wp (c : Dev nD) {α : Type} (k : PUnit → Prog (TpuEff nD τ sig (Elt F) (ΛP (F := F)) .tc) α) (Q : α → sProp 𝕄) :
    iprop((iprop(boundary (c : Thread nD τ) ∗ regPost m c) -∗ wp frame (wpE (D (F := F)) 𝒱 (c : Thread nD τ) none) Set.univ (k ⟨⟩) Q)
        ∗ boundary (c : Thread nD τ) ∗ regPre m c ∗ levAts (Common.K (F := F)).L (Common.K (F := F)).lev
        ∗ Pipeline.cellsGhost cfgs (ER (F := F)) 0 c ∗ Pipeline.toksInit cfgs (ER (F := F)) 0 c)
      ⊢ wp frame (wpE (D (F := F)) 𝒱 (c : Thread nD τ) none) Set.univ (.op (.customCall (Pipeline.entry 0) ()) k) Q :=
  Pipeline.RegionSeg.wp (pcfgs (F := F)) adm (dats m) (none : HIx 1) cellOf_inj ER defs₀ 𝒱₀ (Common.K (F := F)).L (Common.K (F := F)).lev
    (reg m) c none (fun _ h => nomatch h) k Q

end Cert.KernelIdeal.Launch

end
-- ==== Proof.Launch.lean ====
/-
  The launch of the kernel program: @main on each TensorCore, and the program's run.

  @main is four statements. The SparseCore call: the TensorCore splits its full share of the probabilities and of the
  tokens into the 32 workers' read tokens and a remainder, hands the two SparseCores the tokens and the gathered array
  whole, and takes back the tokens' read tokens and the gathered array at the gathered values; the tokens' share is
  rejoined, the probabilities' remainder is kept to the end. A reshape lays the tokens out 32 × 512. The reduction
  kernel's region takes the gathered array, those tokens and the result's array, and leaves the result's array at the
  loss. A last reshape makes the result a scalar. At the end the final memory holds the result at the loss of the
  gathered values and the tokens, and the two arguments as they were: a points-to at any share says what the memory
  holds there.

  The launch element of the ghost state is the handshakes' rounds, the reduction kernel's staging cells' rounds, and
  the unit of the transfers' counters, which nobody on the TensorCore's side uses.
-/
import proofs.«212842_g47828755808845_cont_8to1c4_577_40_alg».proof.Proof.Split
import proofs.«212842_g47828755808845_cont_8to1c4_577_40_alg».proof.Proof.RedRun
import proofs.«212842_g47828755808845_cont_8to1c4_577_40_alg».proof.Proof.Region
import proofs.«212842_g47828755808845_cont_8to1c4_577_40_alg».proof.Proof.Gen.KernelIdeal.Launch
import proofs.«212842_g47828755808845_cont_8to1c4_577_40_alg».proof.Proof.Gen.KernelIdeal.Points
import Idealize.ShloMosaic.Lib.Pipeline.Regions

noncomputable section

namespace Cert.KernelIdeal.Launch

open Cert.KernelIdeal Cert.KernelIdeal.Gen Cert.KernelIdeal.Common

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

attribute [local instance] Cert.KernelIdeal.Gen.facts

variable (m : (ℓ : Loc nD τ sig) → Buf (Elt F) ℓ) (ρ : Dev nD → PrngReg)

/-! ## The launch element of the ghost state -/

def u₀ : UU :=
  (initOf (K (F := F)).hsCells (K (F := F)).hsToks, (initOf (Pipeline.cells cfgs cellOf_inj) (Pipeline.launchToks cfgs cellOf_inj), 1))

/-- What the launch deals each TensorCore beside its handshake state: the staging cells' ghost state and the loop's duty tokens. -/
abbrev G (d : Dev nD) : sProp 𝕄 :=
  iprop((bigSep Finset.univ fun p : Fin 1 => Pipeline.cellsGhost cfgs (ER (F := F)) p d) ∗ (bigSep Finset.univ fun p : Fin 1 => Pipeline.toksInit cfgs (ER (F := F)) p d))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells cfgs cellOf_inj) (Pipeline.launchToks cfgs cellOf_inj), 1) : UR × Counters)) $$ Hu
  icases H with ⟨HH, HR⟩
  ihave HR' := (own_pair_emb (embR : Emb (UR × Counters) 𝕄) (initOf (Pipeline.cells cfgs cellOf_inj) (Pipeline.launchToks cfgs cellOf_inj)) (1 : Counters)) $$ HR
  icases HR' with ⟨HP, -⟩
  ihave HP := (show (BI.own (((Emb.inl : Emb UR (UR × Counters)).trans (embR : Emb (UR × Counters) 𝕄)) (initOf (Pipeline.cells cfgs cellOf_inj) (Pipeline.launchToks cfgs cellOf_inj))) : sProp 𝕄)
      ⊢ BI.own ((ER (F := F)) (initOf (Pipeline.cells cfgs cellOf_inj) (Pipeline.launchToks cfgs cellOf_inj))) from BI.Entails.refl _) $$ HP
  imod (Pipeline.fund_ghost cfgs (ER (F := F)) cellOf_inj) $$ HP with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The TensorCore's arrays -/

abbrev v3Loc (d : Dev nD) : Loc nD τ sig := (SparseCore.T d).loc main_v3

theorem unscopedBufs_eq (d : Dev nD) (W : (b : Ref sig .tc) → Buf (Elt F) ((d.tc : Thread nD τ).loc b)) :
    (unscopedBufs d W : sProp 𝕄) = iprop((predLoc d ↦{fullShare} W main_arg0) ∗ (actLoc d ↦{fullShare} W main_arg1) ∗ (valsLoc d ↦{fullShare} W main_v0)
      ∗ (v1Loc d ↦{fullShare} W main_v1) ∗ (v2Loc d ↦{fullShare} W main_v2) ∗ (v3Loc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-! ## The two reshapes -/

abbrev a1' : DevRef τ sig := Proc.devRef .tc (main_arg1 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev opR1 : HloOp τ sig (Elt F) := StableHlo.reshape main_arg1 main_v1 rfl shapeCasts_S8x2048_S32x512
abbrev opR2 : HloOp τ sig (Elt F) := StableHlo.reshape main_v2 main_v3 rfl shapeCasts_S1x1_S_
abbrev SA : Finset (DevRef τ sig) := {a1', v1'}
abbrev SB : Finset (DevRef τ sig) := {v2', v3'}

theorem held_SA (d : Dev nD) (W : Valuation τ sig (Elt F)) :
    (held (T d) SA W : sProp 𝕄) = iprop((actLoc d ↦{fullShare} W a1') ∗ (v1Loc d ↦{fullShare} W v1')) := by
  unfold held SA; rw [SparseCore.bigSep_insert' (by decide), bigSep_singleton]
theorem held_SB (d : Dev nD) (W : Valuation τ sig (Elt F)) :
    (held (T d) SB W : sProp 𝕄) = iprop((v2Loc d ↦{fullShare} W v2') ∗ (v3Loc d ↦{fullShare} W v3')) := by
  unfold held SB; rw [SparseCore.bigSep_insert' (by decide), bigSep_singleton]

/-- The launch valuation; and the one before the last reshape, the result's array at the loss. -/
def V0 (d : Dev nD) : Valuation τ sig (Elt F) := fun b => m (d, b)
def V1 (d : Dev nD) : Valuation τ sig (Elt F) := Function.update (V0 m d) v2' (fun _ => lossV m d)

theorem hR1 : (opR1 (F := F)).bufs ⊆ SA := show ({a1', v1'} : Finset (DevRef τ sig)) ⊆ SA by decide
theorem hR2 : (opR2 (F := F)).bufs ⊆ SB := show ({v2', v3'} : Finset (DevRef τ sig)) ⊆ SB by decide

theorem R1_a1 (d : Dev nD) : (opR1 (F := F)).result (V0 m d) a1' = m (actLoc d) :=
  (opR1 (F := F)).result_of_not_mem (V0 m d) (b := a1') (show a1' ∉ ({v1'} : Finset (DevRef τ sig)) by decide)
theorem R1_v1 (d : Dev nD) : (opR1 (F := F)).result (V0 m d) v1' = act32 m d :=
  StableHlo.reshape_result main_arg1 main_v1 rfl shapeCasts_S8x2048_S32x512 ⟨by decide, rfl⟩ ⟨by decide, rfl⟩ (V0 m d)
theorem R2_v3 (d : Dev nD) : (opR2 (F := F)).result (V1 m d) v3' = fun _ => lossV m d :=
  (StableHlo.reshape_result main_v2 main_v3 rfl shapeCasts_S1x1_S_ ⟨by decide, rfl⟩ ⟨by decide, rfl⟩ (V1 m d)).trans (by
    funext i; show _ = lossV m d; rw [show V1 m d v2' = fun _ => lossV m d from Function.update_self _ _ _]; rfl)

/-! ## The region, as @main states it -/

/-- The region's call in the pipeline's signature, and lifted. -/
abbrev callP : Prog (TpuEff nD τ sig (Elt F) (ΛP (F := F)) .tc) PUnit := .op (.customCall (Pipeline.entry 0) ()) fun _ => .ret ⟨⟩

theorem lift_callP : SparseCore.liftProg (Q := 1) (callP (F := F)) = Prog.lift (TpuEff.customCall (SparseCore.inner (Pipeline.entry 0)) ()) := rfl

theorem lifted (d : Dev nD) (Φ : PUnit → sProp 𝕄) :
    wp frame (wpE (D (F := F)) 𝒱 (SparseCore.T d) none) Set.univ (callP (F := F)) Φ
      ⊢ wp frame (wpE ((K (F := F)).defs (D (F := F))) 𝒱 (SparseCore.T d) none) Set.univ
          (Prog.lift (TpuEff.customCall (SparseCore.inner (Pipeline.entry 0)) ())) Φ := by
  have h := (K (F := F)).wp_liftProg (D (F := F)) 𝒱 (SparseCore.T d) Set.univ none (callP (F := F)) Φ
  rw [lift_callP] at h
  exact h

theorem region_sc (d : Dev nD) (Φ : PUnit → sProp 𝕄) :
    iprop((iprop(boundary (SparseCore.T d) ∗ regPost m d) -∗ Φ ⟨⟩) ∗ boundary (SparseCore.T d) ∗ regPre m d
        ∗ levAts (K (F := F)).L (K (F := F)).lev ∗ Pipeline.cellsGhost cfgs (ER (F := F)) 0 d ∗ Pipeline.toksInit cfgs (ER (F := F)) 0 d)
      ⊢ wp frame (wpE ((K (F := F)).defs (D (F := F))) 𝒱 (SparseCore.T d) none) Set.univ
          (Prog.lift (TpuEff.customCall (SparseCore.inner (Pipeline.entry 0)) ())) Φ := by
  have h2 := region_wp m d (fun _ => (.ret ⟨⟩ : Prog (TpuEff nD τ sig (Elt F) (ΛP (F := F)) .tc) PUnit)) Φ
  have h1 := lifted d Φ
  refine BI.Entails.trans ?_ (h2.trans h1)
  show (_ : sProp 𝕄) ⊢ _
  iintro ⟨Hk, Hrest⟩
  isplitl [Hk]
  · iintro H; rw [wp_ret]; imodintro; iapply Hk; iexact H
  iexact Hrest

theorem V1_v2 (d : Dev nD) : V1 m d v2' = fun _ => lossV m d := Function.update_self _ _ _
theorem V1_v3 (d : Dev nD) : V1 m d v3' = m (v3Loc d) := Function.update_of_ne (show v3' ≠ v2' by decide) _ _

/-! ## @main on the TensorCore -/

/-- What @main leaves the claim: the probabilities at the share the TensorCore kept, the tokens whole, the result. -/
abbrev FIN (d : Dev nD) : sProp 𝕄 :=
  iprop((predLoc d ↦{dropQ} m (predLoc d)) ∗ (actLoc d ↦{fullShare} m (actLoc d)) ∗ (v3Loc d ↦{fullShare} fun _ => lossV m d))

set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hp, Ha, Hv0, Hv1, Hv2, Hv3⟩, -, -⟩, ⟨Hg, Ht⟩⟩
  ihave Hlev := (SparseCore.Cfg.ctx_levAts (K := K (F := F)) (EH := EH) (P := P m) κ) $$ Hctx
  ihave Hp' := (predPts_split m d) $$ Hp
  icases Hp' with ⟨Hpd, Hpt⟩
  ihave Ha' := (actPts_split m d) $$ Ha
  icases Ha' with ⟨Had, Hat⟩
  -- the SparseCore call
  iapply ((K (F := F)).wp_run (D (F := F)) 𝒱 (EH := EH) (P := P m) κ d 0) $$ [Hst Hpt Hat Hv0 Hb Hpd Had Hv1 Hv2 Hv3 Hg Ht Hlev]
  isplitr; · iexact Hctx
  isplitl [Hst]; · iexact Hst
  isplitl [Hpt Hat Hv0]
  · rw [st0_eq]
    isplitl [Hpt]; · iexact Hpt
    isplitl [Hat]; · iexact Hat
    iexact Hv0
  iintro ⟨Hst, Hdn⟩
  ihave Hdn' := (Entails.of_eq (dn0_eq m d)) $$ Hdn
  icases Hdn' with ⟨Hat, Hv0⟩
  ihave Ha := (actPts_join m d) $$ [Had Hat]
  · isplitl [Had] <;> iassumption
  -- the tokens reshaped to 32 × 512
  iapply (wp_hlo_within 𝒱 (SparseCore.T d) none Set.univ (op := opR1) (S := SA) hR1 (V := V0 m d)) $$ [Hb Ha Hv1]
  · isplitl [Hb]; · iexact Hb
    rw [held_SA]
    isplitl [Ha]; · iexact Ha
    iexact Hv1
  iintro ⟨Hb, Hheld⟩
  ihave Hh := (Entails.of_eq (held_SA (F := F) d _)) $$ Hheld
  icases Hh with ⟨Ha, Hv1⟩
  rw [R1_a1, R1_v1]
  rw [wp_ret]; imodintro
  -- the reduction kernel's region
  ihave Hg := (Entails.of_eq (bigSep_univ_of_subsingleton (0 : Fin 1) (Φ := fun p : Fin 1 => (Pipeline.cellsGhost cfgs (ER (F := F)) p d : sProp 𝕄)))) $$ Hg
  ihave Ht := (Entails.of_eq (bigSep_univ_of_subsingleton (0 : Fin 1) (Φ := fun p : Fin 1 => (Pipeline.toksInit cfgs (ER (F := F)) p d : sProp 𝕄)))) $$ Ht
  unfold SparseCore.Cfg.tcSt
  icases Hst with ⟨⟨%W, %hW, HO⟩, Hrest⟩
  rw [(K (F := F)).Otc_end d (n := ((0 : Fin 1) : ℕ) + 1) (Nat.le_refl 1)]
  iapply (region_sc m d _) $$ [Hb Hv0 Hv1 Hv2 HO Hg Ht Hlev Ha Hv3 Hpd Hrest]
  isplitr [Hb Hv0 Hv1 Hv2 HO Hg Ht]
  swap
  · isplitl [Hb]; · iexact Hb
    isplitl [Hv0 Hv1 Hv2 HO]
    · isplitl [Hv0]; · iexact Hv0
      isplitl [Hv1]; · iexact Hv1
      isplitl [Hv2]; · iexact Hv2
      iexists W; isplitr; · ipureintro; exact hW
      iexact HO
    isplitr; · iexact Hlev
    isplitl [Hg]; · iexact Hg
    iexact Ht
  iintro ⟨Hb, Hv0, Hv1, Hv2, ⟨%W', %hW', HO⟩⟩
  -- the result reshaped to a scalar
  iapply (wp_hlo_within 𝒱 (SparseCore.T d) none Set.univ (op := opR2) (S := SB) hR2 (V := V1 m d)) $$ [Hb Hv2 Hv3]
  · isplitl [Hb]; · iexact Hb
    rw [held_SB, V1_v2, V1_v3]
    isplitl [Hv2]; · iexact Hv2
    iexact Hv3
  iintro ⟨Hb, Hheld⟩
  ihave Hh := (Entails.of_eq (held_SB (F := F) d _)) $$ Hheld
  icases Hh with ⟨-, Hv3⟩
  rw [R2_v3]
  rw [wp_ret]; imodintro; imodintro
  rw [(K (F := F)).Otc_end d (n := 1) (Nat.le_refl 1)]
  isplitl [HO Hrest]
  · isplitl [HO]
    · iexists W'; isplitr; · ipureintro; exact hW'
      iexact HO
    iexact Hrest
  isplitl [Hpd]; · iexact Hpd
  isplitl [Ha]; · iexact Ha
  iexact Hv3

/-! ## The final memory -/

def fq (d : Dev nD) (s' : Phys nD τ sig (Elt F)) : Prop :=
  s'.mem.mem (v3Loc d) = (fun _ => lossV m d) ∧ s'.mem.mem (predLoc d) = m (predLoc d) ∧ s'.mem.mem (actLoc d) = m (actLoc d)

theorem hfin (d : Dev nD) (s' : Phys nD τ sig (Elt F)) : iprop(FIN m d ∗ SI s') ⊢ (⌜fq m d s'⌝ : sProp 𝕄) := by
  iintro ⟨⟨Hp, Ha, Hv3⟩, HSI⟩
  ihave H := (persistent_entails_right (SI_pointsTo_agree (st := s') (ℓ := predLoc d) (I := Finset.univ) (q := dropQ) (f := m (predLoc d)))) $$ [HSI Hp]
  · isplitl [HSI] <;> iassumption
  icases H with ⟨%h1, HSI, -⟩
  ihave H := (persistent_entails_right (SI_pointsTo_agree (st := s') (ℓ := actLoc d) (I := Finset.univ) (q := fullShare) (f := m (actLoc d)))) $$ [HSI Ha]
  · isplitl [HSI] <;> iassumption
  icases H with ⟨%h2, HSI, -⟩
  ihave H := (SI_pointsTo_agree (st := s') (ℓ := v3Loc d) (I := Finset.univ) (q := fullShare) (f := fun _ => lossV m d)) $$ [HSI Hv3]
  · isplitl [HSI] <;> iassumption
  icases H with %h3
  ipureintro
  have e1 : s'.mem.mem (predLoc d) = m (predLoc d) := funext fun (i : Idx (predLoc d)) => h1 i (by simp)
  have e2 : s'.mem.mem (actLoc d) = m (actLoc d) := funext fun (i : Idx (actLoc d)) => h2 i (by simp)
  have e3 : s'.mem.mem (v3Loc d) = (fun _ => lossV m d) := funext fun (i : Idx (v3Loc d)) => h3 i (by simp)
  exact ⟨e3, e1, e2⟩

/-! ## The program's run -/

def QC : PUnit × MemSt nD τ sig (Elt F) → Prop := fun r => ∀ c : Dev nD,
  r.2.mem ((c.tc : Thread nD τ).loc main_v3) = Cert.KernelIdeal.Spec.result (F := F) (m ((c.tc : Thread nD τ).loc main_arg0)) (m ((c.tc : Thread nD τ).loc main_arg1))
  ∧ r.2.mem ((c.tc : Thread nD τ).loc main_arg0) = m ((c.tc : Thread nD τ).loc main_arg0)
  ∧ r.2.mem ((c.tc : Thread nD τ).loc main_arg1) = m ((c.tc : Thread nD τ).loc main_arg1)

theorem run_main [∀ e, Nonempty (Elt F e)] (hpre : Common.PreOK m)
    (hTile : (Common.K (F := F)).TileObl (Common.D (F := F)) Common.𝒱 (Common.P m) Common.v₀ 0) :
    θ_run (Cert.KernelIdeal.defs (F := F)) (Cert.KernelIdeal.threads (F := F)) ⟨m, fun _ => 0, ρ⟩ (fun r => ∀ c : Dev nD,
        r.2.mem ((c.tc : Thread nD τ).loc main_v3) = Cert.KernelIdeal.Spec.result (F := F) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P m) facts v₀
    (fun q hq => match q with | 0 => nomatch hq)
    (fun q _ => match q with | 0 => hTile)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m)
    (fun _ h c => ⟨(h c).1, (h c).2.1, (h c).2.2⟩)

end Cert.KernelIdeal.Launch

end
-- ==== Proof.KSplit.lean ====
/-
  How the one SparseCore call's operands split among its 32 workers and come back.

  The 32 workers are the 2 × 16 pairs (SparseCore, vector subcore), worker 16·c + i for the pair (c, i). The gathered
  array, held whole, is its 32 rows, one per worker; rows at one whole-array function rejoin to the array at that
  function. The probabilities and the tokens are only read: the full share of each splits into 32 read tokens and a
  remainder, and the tokens with the remainder rejoin to the full share.
-/
import proofs.«212842_g47828755808845_cont_8to1c4_577_40_alg».proof.Proof.KCommon
import Idealize.ShloMosaic.Lib.Transfers

noncomputable section

namespace Cert.Kernel.Launch

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The 32 workers as 2 × 16 -/

/-- Worker 16·c + i is the pair (c, i): the pairs and the workers correspond one to one. -/
def wEquiv : Fin 2 × Fin 16 ≃ Fin 32 where
  toFun p := wOf p.1 p.2
  invFun w := (⟨w.val / 16, by have := w.isLt; omega⟩, ⟨w.val % 16, Nat.mod_lt _ (by decide)⟩)
  left_inv p := by
    have h1 := p.1.isLt; have h2 := p.2.isLt
    refine Prod.ext (Fin.ext ?_) (Fin.ext ?_)
    · show (16 * p.1.val + p.2.val) / 16 = p.1.val; omega
    · show (16 * p.1.val + p.2.val) % 16 = p.2.val; omega
  right_inv w := by
    refine Fin.ext ?_
    show 16 * (w.val / 16) + w.val % 16 = w.val; omega

/-- A family over the workers, summed per SparseCore and per vector subcore, is the family summed over the workers. -/
theorem bigSep_workers (Φ : Fin 32 → sProp 𝕄) :
    (bigSep Finset.univ fun c : Fin 2 => bigSep Finset.univ fun i : Fin 16 => Φ (wOf c i)) = bigSep Finset.univ Φ :=
  ((bigSep_univ_equiv wEquiv Φ).trans (BI.bigSep_univ_prod (fun p : Fin 2 × Fin 16 => Φ (wEquiv p)))).symm

/-- The call's vector subcores are the sixteen, its SparseCores the two. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The rows of the gathered array -/

theorem vRowSet_eq (w : Fin 32) : vRowSet w = (vrow w).set := by
  show ((View.whole (main_v0_scv : Ref sig .scVector)).slice (vrow w)).set = _
  rw [View.set_slice]; exact Finset.map_refl
theorem vrows_disjoint : ∀ i ∈ (Finset.univ : Finset (Fin 32)), ∀ j ∈ (Finset.univ : Finset (Fin 32)), i ≠ j → Disjoint (vRowSet i) (vRowSet j) :=
  fun i _ j _ h => by rw [vRowSet_eq, vRowSet_eq]; exact Rect.part_disjoint vdiv h
theorem vrows_cover : (Finset.univ : Finset (Fin 32)).biUnion vRowSet = Finset.univ :=
  (Finset.biUnion_congr rfl fun i _ => vRowSet_eq i).trans (Rect.biUnion_part vdiv)

/-- The gathered array whole, at any contents, is its 32 rows at those contents. -/
theorem valsPts_rows (d : Dev nD) (f : Buf (Elt F) (valsLoc d)) :
    (valsLoc d ↦{fullShare} f : sProp 𝕄) = bigSep Finset.univ fun w : Fin 32 => vRowPts d w f := by
  rw [← pointsTo_biUnion Finset.univ (ℓ := valsLoc d) vRowSet vrows_disjoint, vrows_cover]; try rfl

/-! ## The read tokens -/

/-- The full share of an array read by all workers: the remainder kept aside. -/
abbrev dropQ : PosShare TreeShare := Transfers.shareDrop fullShare 32

theorem predPts_split (d : Dev nD) :
    (predLoc d ↦{fullShare} m (predLoc d) : sProp 𝕄) ⊢ iprop((predLoc d ↦{dropQ} m (predLoc d)) ∗ bigSep Finset.univ fun w : Fin 32 => predTokPts m d w) :=
  Transfers.pointsTo_toks_split fullShare 32
theorem actPts_split (d : Dev nD) :
    (actLoc d ↦{fullShare} m (actLoc d) : sProp 𝕄) ⊢ iprop((actLoc d ↦{dropQ} m (actLoc d)) ∗ bigSep Finset.univ fun w : Fin 32 => actTokPts m d w) :=
  Transfers.pointsTo_toks_split fullShare 32
theorem actPts_join (d : Dev nD) :
    iprop((actLoc d ↦{dropQ} m (actLoc d)) ∗ bigSep Finset.univ fun w : Fin 32 => actTokPts m d w) ⊢ (actLoc d ↦{fullShare} m (actLoc d) : sProp 𝕄) :=
  Transfers.pointsTo_toks_join fullShare 32

/-! ## A SparseCore's operands among its sixteen workers -/

theorem vecSplit : (K (F := F)).VecSplit' (P m) 0 := by
  intro d c
  show (bigSep Finset.univ fun i : Fin 16 => goW m d (wOf (Fin.cast nCore_zero c) i)) ⊢ |={Set.univ}=> iprop(
      (bigSep Finset.univ fun i : Fin ((K (F := F)).nSub 0) => goW m d (wOf (Fin.cast nCore_zero c) (Fin.cast nSub_zero i)))
      ∗ ((bigSep Finset.univ fun i : Fin ((K (F := F)).nSub 0) => tdW m d (wOf (Fin.cast nCore_zero c) (Fin.cast nSub_zero i)))
          -∗ (bigSep Finset.univ fun i : Fin 16 => tdW m d (wOf (Fin.cast nCore_zero c) i))))
  rw [bigSep_tasks (F := F) (fun i => goW m d (wOf (Fin.cast nCore_zero c) i)),
    bigSep_tasks (F := F) (fun i => tdW m d (wOf (Fin.cast nCore_zero c) i))]
  iintro H; imodintro
  isplitl [H]; · iexact H
  iintro H; iexact H

/-! ## The call's operands and results on the TensorCore's side -/

/-- What the two SparseCores take at the call: every worker's two read tokens, and the gathered array whole at the launch contents. -/
theorem st0_eq (d : Dev nD) :
    (bigSep Finset.univ fun c : Fin ((K (F := F)).nCore 0) => (P m).st 0 d c)
      = iprop((bigSep Finset.univ fun w : Fin 32 => predTokPts m d w) ∗ (bigSep Finset.univ fun w : Fin 32 => actTokPts m d w)
          ∗ valsLoc d ↦{fullShare} m (valsLoc d)) := by
  show (bigSep Finset.univ fun c : Fin ((K (F := F)).nCore 0) => bigSep Finset.univ fun i : Fin 16 => goW m d (wOf (Fin.cast nCore_zero c) i)) = _
  rw [bigSep_cores (F := F) (fun c => bigSep Finset.univ fun i : Fin 16 => goW m d (wOf c i)), bigSep_workers (fun w => goW m d w),
    bigSep_sep', bigSep_sep', valsPts_rows]

/-- What they bring back: every worker's token of the tokens, and the gathered array whole at the gathered values. -/
theorem dn0_eq (d : Dev nD) :
    (bigSep Finset.univ fun c : Fin ((K (F := F)).nCore 0) => (P m).dn 0 d c)
      = iprop((bigSep Finset.univ fun w : Fin 32 => actTokPts m d w) ∗ valsLoc d ↦{fullShare} Gv m d) := by
  show (bigSep Finset.univ fun c : Fin ((K (F := F)).nCore 0) => bigSep Finset.univ fun i : Fin 16 => tdW m d (wOf (Fin.cast nCore_zero c) i)) = _
  rw [bigSep_cores (F := F) (fun c => bigSep Finset.univ fun i : Fin 16 => tdW m d (wOf c i)), bigSep_workers (fun w => tdW m d w),
    bigSep_sep', valsPts_rows]

end Cert.Kernel.Launch

end
-- ==== Proof.KRedRun.lean ====
/-
  The reduction kernel's body, run once at its three staging buffers held whole.

  The body loads the gathered values and the tokens (both 32 × 512) whole, computes the loss as a pure term of the
  two, reads the result's word and stores the loss over it. Run from the two inputs at f0 and f1 it leaves them as
  they were and the result's buffer at the loss of f0 and f1; it waits for nothing, so what the core owes and the
  waits it has recorded are unchanged.
-/
import proofs.«212842_g47828755808845_cont_8to1c4_577_40_alg».proof.Proof.KSplit

noncomputable section

namespace Cert.Kernel.Launch

open Cert.Kernel Cert.Kernel.Gen Cert.Kernel.Common

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

attribute [local instance] Cert.Kernel.Gen.facts

/-- The staging buffers of the gathered values, of the tokens and of the result. -/
abbrev stg0 : Memref sig .tc .vmem S32x512 .f32 := Memref.whole cc1_stg0_0
abbrev stg1 : Memref sig .tc .vmem S32x512 .i32 := Memref.whole cc1_stg1_0
abbrev stg2 : Memref sig .tc .smem S1x1 .f32 := Memref.whole cc1_stg2_0

theorem kernelRun (c : Dev nD) (f0 : Buf (Elt F) (stg0.view.loc (c : Thread nD τ))) (f1 : Buf (Elt F) (stg1.view.loc (c : Thread nD τ)))
    (f2 : Buf (Elt F) (stg2.view.loc (c : Thread nD τ))) (O : CellTallies nD τ sig (HIx 1)) (W : Waits sig (HIx 1)) (Q : PUnit → sProp 𝕄) :
    iprop((stg0.view.loc (c : Thread nD τ) ↦{fullShare} f0) ∗ (stg1.view.loc (c : Thread nD τ) ↦{fullShare} f1) ∗ (stg2.view.loc (c : Thread nD τ) ↦{fullShare} f2)
      ∗ owes (c : Thread nD τ) O W
      ∗ (iprop((stg0.view.loc (c : Thread nD τ) ↦{fullShare} f0) ∗ (stg1.view.loc (c : Thread nD τ) ↦{fullShare} f1)
            ∗ (stg2.view.loc (c : Thread nD τ) ↦{fullShare} (fun _ => Spec.lossOf (F := F) f0 f1)) ∗ owes (c : Thread nD τ) O W) -∗ Q ⟨⟩))
    ⊢ wp frame (wpE (defs₀ (F := F)) Variants.none (c : Thread nD τ) none) Set.univ
        (cc1__tc_reduce_body stg0 (Memref.isWhole_whole _) stg1 (Memref.isWhole_whole _) stg2 (Memref.isWhole_whole _)) Q := by
  rw [cc1__tc_reduce_body_eq_skeleton]; unfold cc1__tc_reduce_body_skel
  rw [k1_part1_eq_skeleton, k1_part2_eq_skeleton]; unfold k1_part1_skel k1_part2_skel
  iintro ⟨H0, H1, H2, HO, Hk⟩
  sl_exec
  sl_step
  have hz2 : (![0, 0] : Fin S1x1.rank → ℕ) = fun _ => 0 := by funext a; fin_cases a <;> rfl
  have hz : (![0, 0] : Fin S32x512.rank → ℕ) = fun _ => 0 := by funext a; fin_cases a <;> rfl
  have e0 : View.readAt (Elt F) stg0.view (Rect.unit ![0, 0] S32x512.size inb_S32x512_S32x512_0_0).toLoadRect f0 = f0 :=
    Memref.readAt_unit_zero (Elt F) (cc1_stg0_0 : Ref sig .tc) hz inb_S32x512_S32x512_0_0 f0
  have e1 : View.readAt (Elt F) stg1.view (Rect.unit ![0, 0] S32x512.size inb_S32x512_S32x512_0_0).toLoadRect f1 = f1 :=
    Memref.readAt_unit_zero (Elt F) (cc1_stg1_0 : Ref sig .tc) hz inb_S32x512_S32x512_0_0 f1
  have h1 : Scalar.extui (Scalar.cmpi .sgt 4#32 0#32) = 1#32 := by decide
  rw [View.writes_singleton, show ∀ w, (stg2.view.slice (Rect.unit ![0, 0] S1x1.size inb_S1x1_S1x1_0_0)).write (Elt F) f2 w Finset.univ = w from
    fun w => Memref.write_access_unit_zero_univ (Elt F) (cc1_stg2_0 : Ref sig .tc) hz2 inb_S1x1_S1x1_0_0 f2 w, e0, e1]
  iapply Hk
  isplitl [H0]; · iexact H0
  isplitl [H1]; · iexact H1
  isplitl [H2]
  · unfold Spec.lossOf; rw [h1]; iexact H2
  iexact HO

end Cert.Kernel.Launch

end
-- ==== Proof.KRegion.lean ====
/-
  The reduction kernel's region on the TensorCore: one grid point, three windows each its whole array.

  The gathered values (32 × 512) and the tokens laid out the same way are staged whole into the kernel's two input
  buffers; the body computes the loss of the two and stores it in the result's one-word staging buffer, which is
  written back whole. So the region takes the gathered array, the tokens 32 × 512 and the result's array, and leaves
  the first two as they were and the result's array at the loss. The kernel signals nobody and waits for nobody; the
  TensorCore owes nothing around the region, and the waits the region records are on the staging cells at the
  kernel's own index, whose level is zero.
-/
import proofs.«212842_g47828755808845_cont_8to1c4_577_40_alg».proof.Proof.KSplit
import proofs.«212842_g47828755808845_cont_8to1c4_577_40_alg».proof.Proof.KRedRun
import proofs.«212842_g47828755808845_cont_8to1c4_577_40_alg».proof.Proof.Gen.Kernel.Launch
import proofs.«212842_g47828755808845_cont_8to1c4_577_40_alg».proof.Proof.Gen.Kernel.Points
import Idealize.ShloMosaic.Lib.Pipeline.Regions

noncomputable section

namespace Cert.Kernel.Launch

open Cert.Kernel Cert.Kernel.Gen Cert.Kernel.Common

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

attribute [local instance] Cert.Kernel.Gen.facts

variable (m : (ℓ : Loc nD τ sig) → Buf (Elt F) ℓ)

/-- The pipeline's rounds: the middle factor of the ghost state. -/
def ER : Emb UR (MT nD τ sig (HIx 1) (Elt F) ℕ UU ℕ) :=
  (Emb.inl : Emb UR (UR × Counters)).trans (embR : Emb (UR × Counters) (MT nD τ sig (HIx 1) (Elt F) ℕ UU ℕ))
instance ER_landsIn : (ER (F := F)).LandsIn (upEmb : UEmb _ 𝕄) := by unfold ER; infer_instance

abbrev adm : (p : Fin 1) → (pcfgs (F := F) p).Adm := fun p => (cfgs p).toPCfg_adm

/-- The tokens laid out 32 × 512, and the loss of the gathered values and those tokens. -/
abbrev act32 (c : Dev nD) : Vec F S32x512 .i32 := shapeCast S32x512 (m (actLoc c)) shapeCasts_S8x2048_S32x512
abbrev lossV (c : Dev nD) : F .f32 := Spec.lossOf (F := F) (Gv m c) (act32 m c)

def dats (_ : Fin 1) (c : Dev nD) : Pipeline.Dat τ (Elt F) (HIx 1) ℕ UU ℕ cfg1 c where
  A w := match w with
    | ⟨0, _⟩ => Gv m c
    | ⟨1, _⟩ => act32 m c
    | ⟨2, _⟩ => m ((c : Thread nD τ).loc main_v2)
    | ⟨_ + 3, h⟩ => absurd h (Nat.not_lt.2 (Nat.le_add_left _ _))
  after w _ := match w with
    | ⟨0, _⟩ => Gv m c
    | ⟨1, _⟩ => act32 m c
    | ⟨2, _⟩ => fun _ => lossV m c
    | ⟨_ + 3, h⟩ => absurd h (Nat.not_lt.2 (Nat.le_add_left _ _))
  Φ _ := iprop(emp)
  q _ := fullShare
  owed _ := 0
  recorded _ := {p | (Common.K (F := F)).lev ((c : Thread nD τ), p.1) p.2 ≤ 8}

/-- A whole-array window's block, read, is the array; written whole, is what was written. -/
theorem blkRead_0 (c : Dev nD) (f : Buf (Elt F) ((cfg1.win 0).arr.view.loc (c : Thread nD τ))) :
    ((cfg1.win 0).blk t1_0).view.read (Elt F) f = f :=
  Memref.read_access_unit_zero (Elt F) (main_v0 : Ref sig .tc) (funext fun a => Nat.zero_mul _) _ f
theorem blkRead_1 (c : Dev nD) (f : Buf (Elt F) ((cfg1.win 1).arr.view.loc (c : Thread nD τ))) :
    ((cfg1.win 1).blk t1_0).view.read (Elt F) f = f :=
  Memref.read_access_unit_zero (Elt F) (main_v1 : Ref sig .tc) (funext fun a => Nat.zero_mul _) _ f
theorem blkWrite_2 (c : Dev nD) (f w : Buf (Elt F) ((cfg1.win 2).arr.view.loc (c : Thread nD τ))) :
    ((cfg1.win 2).blk t1_0).view.write (Elt F) f w Finset.univ = w :=
  Memref.write_access_unit_zero_univ (Elt F) (main_v2 : Ref sig .tc) (funext fun a => Nat.zero_mul _) _ f w

theorem before_0 (c : Dev nD) (d) : (dats m 0 c).before 0 t1_0 d = Gv m c := by
  unfold Pipeline.Dat.before; rw [if_pos (fetch1_0 t1_0)]
  show (cfg1.win 0).fill _ d (((cfg1.win 0).blk t1_0).view.read (Elt F) (Gv m c)) = Gv m c
  rw [blkRead_0 c]; rfl
theorem before_1 (c : Dev nD) (d) : (dats m 0 c).before 1 t1_0 d = act32 m c := by
  unfold Pipeline.Dat.before; rw [if_pos (fetch1_1 t1_0)]
  show (cfg1.win 1).fill _ d (((cfg1.win 1).blk t1_0).view.read (Elt F) (act32 m c)) = act32 m c
  rw [blkRead_1 c]; rfl
theorem arrAt_0 (c : Dev nD) : (dats m 0 c).arrAt 0 cfg1.N = Gv m c := rfl
theorem arrAt_1 (c : Dev nD) : (dats m 0 c).arrAt 1 cfg1.N = act32 m c := rfl
theorem arrAt_2 (c : Dev nD) : (dats m 0 c).arrAt 2 cfg1.N = fun _ => lossV m c := by
  show (dats m 0 c).arrAt 2 (t1_0.val + 1) = _
  rw [Pipeline.Dat.arrAt_succ, if_pos (flush1_2 t1_0)]
  exact blkWrite_2 c _ _

/-- The body obligation at the one point: the two inputs' staging buffers hold the gathered values and the tokens, the
    kernel runs, the result's staging buffer holds the loss; nothing owed, no wait recorded. -/
theorem body_obligation (c : Dev nD) : Pipeline.BodyObligation (dats m 0 c) (defs₀ (F := F)) 𝒱₀ (none : HIx 1) Set.univ := fun t => by
  obtain rfl := fin_N1 t
  rw [bigSep_W1, bigSep_W1]
  simp only [owns_whole_eq]
  unfold Pipeline.Dat.owesAt Pipeline.owesWithin
  rewrite [show (dats m 0 c).Φ t1_0.succ = iprop(emp) from rfl]
  iintro ⟨-, ⟨%W, %hW, HO⟩, ⟨%d0, %f0, %hf0, H0⟩, ⟨%d1, %f1, %hf1, H1⟩, ⟨%d2, %f2, -, H2⟩⟩
  rw [before_0] at hf0; rw [before_1] at hf1
  subst hf0; subst hf1
  iapply (kernelRun c (Gv m c) (act32 m c) f2 0 W)
  isplitl [H0]; · iexact H0
  isplitl [H1]; · iexact H1
  isplitl [H2]; · iexact H2
  isplitl [HO]; · iexact HO
  iintro ⟨H0, H1, H2, HO⟩
  isplitr; · iempintro
  isplitl [HO]
  · iexists W; isplitr; · ipureintro; exact hW
    iexact HO
  isplitl [H0]; · iexists _; isplitr; swap; (· iexact H0); ipureintro; rfl
  isplitl [H1]; · iexists _; isplitr; swap; (· iexact H1); ipureintro; rfl
  iexists _; isplitr; swap; (· iexact H2); ipureintro; rfl

/-! ## The region -/

/-- What the TensorCore owes around the region: nothing, its recorded waits at the levels of the call before. -/
abbrev owesT (c : Dev nD) : sProp 𝕄 :=
  iprop(∃ W, ⌜(Common.K (F := F)).WBelow (T c) W (8 * 1)⌝ ∗ owes (T c) (0 : CellTallies nD τ sig (HIx 1)) W)

abbrev v1Loc (c : Dev nD) : Loc nD τ sig := (SparseCore.T c).loc main_v1
abbrev v2Loc (c : Dev nD) : Loc nD τ sig := (SparseCore.T c).loc main_v2

/-- Before the region: the gathered array, the tokens 32 × 512, the result's array at its launch contents.
    After it: the same, the result's array at the loss. -/
abbrev regPre (c : Dev nD) : sProp 𝕄 :=
  iprop((valsLoc c ↦{fullShare} Gv m c) ∗ (v1Loc c ↦{fullShare} act32 m c) ∗ (v2Loc c ↦{fullShare} m (v2Loc c)) ∗ owesT (F := F) c)
abbrev regPost (c : Dev nD) : sProp 𝕄 :=
  iprop((valsLoc c ↦{fullShare} Gv m c) ∗ (v1Loc c ↦{fullShare} act32 m c) ∗ (v2Loc c ↦{fullShare} fun _ => lossV m c) ∗ owesT (F := F) c)

theorem share_full (c : Dev nD) (w : Fin cfg1.W) : (dats m 0 c).share w = fullShare := (dats m 0 c).share_full (fun _ => rfl) w

theorem v2_exit (c : Dev nD) :
    (v2Loc c ↦{fullShare} (dats m 0 c).arrAt 2 cfg1.N : sProp 𝕄) ⊢ (v2Loc c ↦{fullShare} fun _ => lossV m c) := by
  rw [arrAt_2]

/-- The kernel has no semaphore of its own. -/
theorem ownSemFacts : Pipeline.OwnSemFacts spec1 (fun k : Fin 0 => (k.elim0 : SemLoc sig)) := by decide

set_option backward.isDefEq.respectTransparency.types false in
def reg : Pipeline.RegionSeg (pcfgs (F := F)) adm (dats m) (none : HIx 1) defs₀ 𝒱₀ (Common.K (F := F)).L (Common.K (F := F)).lev 0 where
  win := launch1.win.to₀
  block_pos := launch1.block_pos
  stage_whole := launch1.stage_whole
  K := Fin 0
  osem := fun k => k.elim0
  ho := ownSemFacts
  hbody c := (body_obligation m c).loose
  hwaits := Pipeline.hwaits_of_owed_zero _ _ _ _ _ _ 0 fun _ _ => rfl
  pre c := regPre m c
  post c := regPost m c
  X _ := iprop(emp)
  Y _ := iprop(emp)
  Z _ := iprop(emp)
  hentry c := by
    rw [Pipeline.arrays_eq cfgs (dats m) 0 c launch1.arr_whole (share_full m c), bigSep_W1]
    iintro ⟨⟨H0, H1, H2, ⟨%W, %hW, HO⟩⟩, -, -⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p (Finset.mem_coe.mp hp))
      iexact HO
    isplitr <;> iempintro
  hin c := by
    rewrite [show (dats m 0 c).Φ 0 = iprop(emp) from rfl]
    iintro -; iempintro
  hout c := by
    rewrite [show (dats m 0 c).Φ (Fin.last cfg1.N) = iprop(emp) from rfl, scopedRest1_eq,
      Pipeline.ownSems0_eq_of_list c (fun k : Fin 0 => k.elim0) [] (by decide) (by decide)]
    iintro -
    isplitr; · iempintro
    isplitr <;> iempintro
  hexit c := by
    rw [Pipeline.arrays_eq cfgs (dats m) 0 c launch1.arr_whole (share_full m c), bigSep_W1]
    iintro ⟨⟨H0, H1, H2⟩, ⟨%W, %hW, HO⟩, -, -⟩
    imodintro
    isplitl [H0]; · iexact H0
    isplitl [H1]; · iexact H1
    isplitl [H2]; · iapply (v2_exit m c); iexact H2
    iexists W; isplitr; swap; (· iexact HO)
    ipureintro
    intro p hp
    rcases hW (Finset.mem_coe.mpr hp) with h | ⟨w, s, rfl⟩
    · exact h
    · exact Nat.zero_le _

/-- The region's step on a device's TensorCore, in the pipeline's own signature. -/
theorem region_wp (c : Dev nD) {α : Type} (k : PUnit → Prog (TpuEff nD τ sig (Elt F) (ΛP (F := F)) .tc) α) (Q : α → sProp 𝕄) :
    iprop((iprop(boundary (c : Thread nD τ) ∗ regPost m c) -∗ wp frame (wpE (D (F := F)) 𝒱 (c : Thread nD τ) none) Set.univ (k ⟨⟩) Q)
        ∗ boundary (c : Thread nD τ) ∗ regPre m c ∗ levAts (Common.K (F := F)).L (Common.K (F := F)).lev
        ∗ Pipeline.cellsGhost cfgs (ER (F := F)) 0 c ∗ Pipeline.toksInit cfgs (ER (F := F)) 0 c)
      ⊢ wp frame (wpE (D (F := F)) 𝒱 (c : Thread nD τ) none) Set.univ (.op (.customCall (Pipeline.entry 0) ()) k) Q :=
  Pipeline.RegionSeg.wp (pcfgs (F := F)) adm (dats m) (none : HIx 1) cellOf_inj ER defs₀ 𝒱₀ (Common.K (F := F)).L (Common.K (F := F)).lev
    (reg m) c none (fun _ h => nomatch h) k Q

end Cert.Kernel.Launch

end
-- ==== Proof.KLaunch.lean ====
/-
  The launch of the kernel program: @main on each TensorCore, and the program's run.

  @main is four statements. The SparseCore call: the TensorCore splits its full share of the probabilities and of the
  tokens into the 32 workers' read tokens and a remainder, hands the two SparseCores the tokens and the gathered array
  whole, and takes back the tokens' read tokens and the gathered array at the gathered values; the tokens' share is
  rejoined, the probabilities' remainder is kept to the end. A reshape lays the tokens out 32 × 512. The reduction
  kernel's region takes the gathered array, those tokens and the result's array, and leaves the result's array at the
  loss. A last reshape makes the result a scalar. At the end the final memory holds the result at the loss of the
  gathered values and the tokens, and the two arguments as they were: a points-to at any share says what the memory
  holds there.

  The launch element of the ghost state is the handshakes' rounds, the reduction kernel's staging cells' rounds, and
  the unit of the transfers' counters, which nobody on the TensorCore's side uses.
-/
import proofs.«212842_g47828755808845_cont_8to1c4_577_40_alg».proof.Proof.KSplit
import proofs.«212842_g47828755808845_cont_8to1c4_577_40_alg».proof.Proof.KRedRun
import proofs.«212842_g47828755808845_cont_8to1c4_577_40_alg».proof.Proof.KRegion
import proofs.«212842_g47828755808845_cont_8to1c4_577_40_alg».proof.Proof.Gen.Kernel.Launch
import proofs.«212842_g47828755808845_cont_8to1c4_577_40_alg».proof.Proof.Gen.Kernel.Points
import Idealize.ShloMosaic.Lib.Pipeline.Regions

noncomputable section

namespace Cert.Kernel.Launch

open Cert.Kernel Cert.Kernel.Gen Cert.Kernel.Common

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

attribute [local instance] Cert.Kernel.Gen.facts

variable (m : (ℓ : Loc nD τ sig) → Buf (Elt F) ℓ) (ρ : Dev nD → PrngReg)

/-! ## The launch element of the ghost state -/

def u₀ : UU :=
  (initOf (K (F := F)).hsCells (K (F := F)).hsToks, (initOf (Pipeline.cells cfgs cellOf_inj) (Pipeline.launchToks cfgs cellOf_inj), 1))

/-- What the launch deals each TensorCore beside its handshake state: the staging cells' ghost state and the loop's duty tokens. -/
abbrev G (d : Dev nD) : sProp 𝕄 :=
  iprop((bigSep Finset.univ fun p : Fin 1 => Pipeline.cellsGhost cfgs (ER (F := F)) p d) ∗ (bigSep Finset.univ fun p : Fin 1 => Pipeline.toksInit cfgs (ER (F := F)) p d))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells cfgs cellOf_inj) (Pipeline.launchToks cfgs cellOf_inj), 1) : UR × Counters)) $$ Hu
  icases H with ⟨HH, HR⟩
  ihave HR' := (own_pair_emb (embR : Emb (UR × Counters) 𝕄) (initOf (Pipeline.cells cfgs cellOf_inj) (Pipeline.launchToks cfgs cellOf_inj)) (1 : Counters)) $$ HR
  icases HR' with ⟨HP, -⟩
  ihave HP := (show (BI.own (((Emb.inl : Emb UR (UR × Counters)).trans (embR : Emb (UR × Counters) 𝕄)) (initOf (Pipeline.cells cfgs cellOf_inj) (Pipeline.launchToks cfgs cellOf_inj))) : sProp 𝕄)
      ⊢ BI.own ((ER (F := F)) (initOf (Pipeline.cells cfgs cellOf_inj) (Pipeline.launchToks cfgs cellOf_inj))) from BI.Entails.refl _) $$ HP
  imod (Pipeline.fund_ghost cfgs (ER (F := F)) cellOf_inj) $$ HP with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The TensorCore's arrays -/

abbrev v3Loc (d : Dev nD) : Loc nD τ sig := (SparseCore.T d).loc main_v3

theorem unscopedBufs_eq (d : Dev nD) (W : (b : Ref sig .tc) → Buf (Elt F) ((d.tc : Thread nD τ).loc b)) :
    (unscopedBufs d W : sProp 𝕄) = iprop((predLoc d ↦{fullShare} W main_arg0) ∗ (actLoc d ↦{fullShare} W main_arg1) ∗ (valsLoc d ↦{fullShare} W main_v0)
      ∗ (v1Loc d ↦{fullShare} W main_v1) ∗ (v2Loc d ↦{fullShare} W main_v2) ∗ (v3Loc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-! ## The two reshapes -/

abbrev a1' : DevRef τ sig := Proc.devRef .tc (main_arg1 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev opR1 : HloOp τ sig (Elt F) := StableHlo.reshape main_arg1 main_v1 rfl shapeCasts_S8x2048_S32x512
abbrev opR2 : HloOp τ sig (Elt F) := StableHlo.reshape main_v2 main_v3 rfl shapeCasts_S1x1_S_
abbrev SA : Finset (DevRef τ sig) := {a1', v1'}
abbrev SB : Finset (DevRef τ sig) := {v2', v3'}

theorem held_SA (d : Dev nD) (W : Valuation τ sig (Elt F)) :
    (held (T d) SA W : sProp 𝕄) = iprop((actLoc d ↦{fullShare} W a1') ∗ (v1Loc d ↦{fullShare} W v1')) := by
  unfold held SA; rw [SparseCore.bigSep_insert' (by decide), bigSep_singleton]
theorem held_SB (d : Dev nD) (W : Valuation τ sig (Elt F)) :
    (held (T d) SB W : sProp 𝕄) = iprop((v2Loc d ↦{fullShare} W v2') ∗ (v3Loc d ↦{fullShare} W v3')) := by
  unfold held SB; rw [SparseCore.bigSep_insert' (by decide), bigSep_singleton]

/-- The launch valuation; and the one before the last reshape, the result's array at the loss. -/
def V0 (d : Dev nD) : Valuation τ sig (Elt F) := fun b => m (d, b)
def V1 (d : Dev nD) : Valuation τ sig (Elt F) := Function.update (V0 m d) v2' (fun _ => lossV m d)

theorem hR1 : (opR1 (F := F)).bufs ⊆ SA := show ({a1', v1'} : Finset (DevRef τ sig)) ⊆ SA by decide
theorem hR2 : (opR2 (F := F)).bufs ⊆ SB := show ({v2', v3'} : Finset (DevRef τ sig)) ⊆ SB by decide

theorem R1_a1 (d : Dev nD) : (opR1 (F := F)).result (V0 m d) a1' = m (actLoc d) :=
  (opR1 (F := F)).result_of_not_mem (V0 m d) (b := a1') (show a1' ∉ ({v1'} : Finset (DevRef τ sig)) by decide)
theorem R1_v1 (d : Dev nD) : (opR1 (F := F)).result (V0 m d) v1' = act32 m d :=
  StableHlo.reshape_result main_arg1 main_v1 rfl shapeCasts_S8x2048_S32x512 ⟨by decide, rfl⟩ ⟨by decide, rfl⟩ (V0 m d)
theorem R2_v3 (d : Dev nD) : (opR2 (F := F)).result (V1 m d) v3' = fun _ => lossV m d :=
  (StableHlo.reshape_result main_v2 main_v3 rfl shapeCasts_S1x1_S_ ⟨by decide, rfl⟩ ⟨by decide, rfl⟩ (V1 m d)).trans (by
    funext i; show _ = lossV m d; rw [show V1 m d v2' = fun _ => lossV m d from Function.update_self _ _ _]; rfl)

/-! ## The region, as @main states it -/

/-- The region's call in the pipeline's signature, and lifted. -/
abbrev callP : Prog (TpuEff nD τ sig (Elt F) (ΛP (F := F)) .tc) PUnit := .op (.customCall (Pipeline.entry 0) ()) fun _ => .ret ⟨⟩

theorem lift_callP : SparseCore.liftProg (Q := 1) (callP (F := F)) = Prog.lift (TpuEff.customCall (SparseCore.inner (Pipeline.entry 0)) ()) := rfl

theorem lifted (d : Dev nD) (Φ : PUnit → sProp 𝕄) :
    wp frame (wpE (D (F := F)) 𝒱 (SparseCore.T d) none) Set.univ (callP (F := F)) Φ
      ⊢ wp frame (wpE ((K (F := F)).defs (D (F := F))) 𝒱 (SparseCore.T d) none) Set.univ
          (Prog.lift (TpuEff.customCall (SparseCore.inner (Pipeline.entry 0)) ())) Φ := by
  have h := (K (F := F)).wp_liftProg (D (F := F)) 𝒱 (SparseCore.T d) Set.univ none (callP (F := F)) Φ
  rw [lift_callP] at h
  exact h

theorem region_sc (d : Dev nD) (Φ : PUnit → sProp 𝕄) :
    iprop((iprop(boundary (SparseCore.T d) ∗ regPost m d) -∗ Φ ⟨⟩) ∗ boundary (SparseCore.T d) ∗ regPre m d
        ∗ levAts (K (F := F)).L (K (F := F)).lev ∗ Pipeline.cellsGhost cfgs (ER (F := F)) 0 d ∗ Pipeline.toksInit cfgs (ER (F := F)) 0 d)
      ⊢ wp frame (wpE ((K (F := F)).defs (D (F := F))) 𝒱 (SparseCore.T d) none) Set.univ
          (Prog.lift (TpuEff.customCall (SparseCore.inner (Pipeline.entry 0)) ())) Φ := by
  have h2 := region_wp m d (fun _ => (.ret ⟨⟩ : Prog (TpuEff nD τ sig (Elt F) (ΛP (F := F)) .tc) PUnit)) Φ
  have h1 := lifted d Φ
  refine BI.Entails.trans ?_ (h2.trans h1)
  show (_ : sProp 𝕄) ⊢ _
  iintro ⟨Hk, Hrest⟩
  isplitl [Hk]
  · iintro H; rw [wp_ret]; imodintro; iapply Hk; iexact H
  iexact Hrest

theorem V1_v2 (d : Dev nD) : V1 m d v2' = fun _ => lossV m d := Function.update_self _ _ _
theorem V1_v3 (d : Dev nD) : V1 m d v3' = m (v3Loc d) := Function.update_of_ne (show v3' ≠ v2' by decide) _ _

/-! ## @main on the TensorCore -/

/-- What @main leaves the claim: the probabilities at the share the TensorCore kept, the tokens whole, the result. -/
abbrev FIN (d : Dev nD) : sProp 𝕄 :=
  iprop((predLoc d ↦{dropQ} m (predLoc d)) ∗ (actLoc d ↦{fullShare} m (actLoc d)) ∗ (v3Loc d ↦{fullShare} fun _ => lossV m d))

set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hp, Ha, Hv0, Hv1, Hv2, Hv3⟩, -, -⟩, ⟨Hg, Ht⟩⟩
  ihave Hlev := (SparseCore.Cfg.ctx_levAts (K := K (F := F)) (EH := EH) (P := P m) κ) $$ Hctx
  ihave Hp' := (predPts_split m d) $$ Hp
  icases Hp' with ⟨Hpd, Hpt⟩
  ihave Ha' := (actPts_split m d) $$ Ha
  icases Ha' with ⟨Had, Hat⟩
  -- the SparseCore call
  iapply ((K (F := F)).wp_run (D (F := F)) 𝒱 (EH := EH) (P := P m) κ d 0) $$ [Hst Hpt Hat Hv0 Hb Hpd Had Hv1 Hv2 Hv3 Hg Ht Hlev]
  isplitr; · iexact Hctx
  isplitl [Hst]; · iexact Hst
  isplitl [Hpt Hat Hv0]
  · rw [st0_eq]
    isplitl [Hpt]; · iexact Hpt
    isplitl [Hat]; · iexact Hat
    iexact Hv0
  iintro ⟨Hst, Hdn⟩
  ihave Hdn' := (Entails.of_eq (dn0_eq m d)) $$ Hdn
  icases Hdn' with ⟨Hat, Hv0⟩
  ihave Ha := (actPts_join m d) $$ [Had Hat]
  · isplitl [Had] <;> iassumption
  -- the tokens reshaped to 32 × 512
  iapply (wp_hlo_within 𝒱 (SparseCore.T d) none Set.univ (op := opR1) (S := SA) hR1 (V := V0 m d)) $$ [Hb Ha Hv1]
  · isplitl [Hb]; · iexact Hb
    rw [held_SA]
    isplitl [Ha]; · iexact Ha
    iexact Hv1
  iintro ⟨Hb, Hheld⟩
  ihave Hh := (Entails.of_eq (held_SA (F := F) d _)) $$ Hheld
  icases Hh with ⟨Ha, Hv1⟩
  rw [R1_a1, R1_v1]
  rw [wp_ret]; imodintro
  -- the reduction kernel's region
  ihave Hg := (Entails.of_eq (bigSep_univ_of_subsingleton (0 : Fin 1) (Φ := fun p : Fin 1 => (Pipeline.cellsGhost cfgs (ER (F := F)) p d : sProp 𝕄)))) $$ Hg
  ihave Ht := (Entails.of_eq (bigSep_univ_of_subsingleton (0 : Fin 1) (Φ := fun p : Fin 1 => (Pipeline.toksInit cfgs (ER (F := F)) p d : sProp 𝕄)))) $$ Ht
  unfold SparseCore.Cfg.tcSt
  icases Hst with ⟨⟨%W, %hW, HO⟩, Hrest⟩
  rw [(K (F := F)).Otc_end d (n := ((0 : Fin 1) : ℕ) + 1) (Nat.le_refl 1)]
  iapply (region_sc m d _) $$ [Hb Hv0 Hv1 Hv2 HO Hg Ht Hlev Ha Hv3 Hpd Hrest]
  isplitr [Hb Hv0 Hv1 Hv2 HO Hg Ht]
  swap
  · isplitl [Hb]; · iexact Hb
    isplitl [Hv0 Hv1 Hv2 HO]
    · isplitl [Hv0]; · iexact Hv0
      isplitl [Hv1]; · iexact Hv1
      isplitl [Hv2]; · iexact Hv2
      iexists W; isplitr; · ipureintro; exact hW
      iexact HO
    isplitr; · iexact Hlev
    isplitl [Hg]; · iexact Hg
    iexact Ht
  iintro ⟨Hb, Hv0, Hv1, Hv2, ⟨%W', %hW', HO⟩⟩
  -- the result reshaped to a scalar
  iapply (wp_hlo_within 𝒱 (SparseCore.T d) none Set.univ (op := opR2) (S := SB) hR2 (V := V1 m d)) $$ [Hb Hv2 Hv3]
  · isplitl [Hb]; · iexact Hb
    rw [held_SB, V1_v2, V1_v3]
    isplitl [Hv2]; · iexact Hv2
    iexact Hv3
  iintro ⟨Hb, Hheld⟩
  ihave Hh := (Entails.of_eq (held_SB (F := F) d _)) $$ Hheld
  icases Hh with ⟨-, Hv3⟩
  rw [R2_v3]
  rw [wp_ret]; imodintro; imodintro
  rw [(K (F := F)).Otc_end d (n := 1) (Nat.le_refl 1)]
  isplitl [HO Hrest]
  · isplitl [HO]
    · iexists W'; isplitr; · ipureintro; exact hW'
      iexact HO
    iexact Hrest
  isplitl [Hpd]; · iexact Hpd
  isplitl [Ha]; · iexact Ha
  iexact Hv3

/-! ## The final memory -/

def fq (d : Dev nD) (s' : Phys nD τ sig (Elt F)) : Prop :=
  s'.mem.mem (v3Loc d) = (fun _ => lossV m d) ∧ s'.mem.mem (predLoc d) = m (predLoc d) ∧ s'.mem.mem (actLoc d) = m (actLoc d)

theorem hfin (d : Dev nD) (s' : Phys nD τ sig (Elt F)) : iprop(FIN m d ∗ SI s') ⊢ (⌜fq m d s'⌝ : sProp 𝕄) := by
  iintro ⟨⟨Hp, Ha, Hv3⟩, HSI⟩
  ihave H := (persistent_entails_right (SI_pointsTo_agree (st := s') (ℓ := predLoc d) (I := Finset.univ) (q := dropQ) (f := m (predLoc d)))) $$ [HSI Hp]
  · isplitl [HSI] <;> iassumption
  icases H with ⟨%h1, HSI, -⟩
  ihave H := (persistent_entails_right (SI_pointsTo_agree (st := s') (ℓ := actLoc d) (I := Finset.univ) (q := fullShare) (f := m (actLoc d)))) $$ [HSI Ha]
  · isplitl [HSI] <;> iassumption
  icases H with ⟨%h2, HSI, -⟩
  ihave H := (SI_pointsTo_agree (st := s') (ℓ := v3Loc d) (I := Finset.univ) (q := fullShare) (f := fun _ => lossV m d)) $$ [HSI Hv3]
  · isplitl [HSI] <;> iassumption
  icases H with %h3
  ipureintro
  have e1 : s'.mem.mem (predLoc d) = m (predLoc d) := funext fun (i : Idx (predLoc d)) => h1 i (by simp)
  have e2 : s'.mem.mem (actLoc d) = m (actLoc d) := funext fun (i : Idx (actLoc d)) => h2 i (by simp)
  have e3 : s'.mem.mem (v3Loc d) = (fun _ => lossV m d) := funext fun (i : Idx (v3Loc d)) => h3 i (by simp)
  exact ⟨e3, e1, e2⟩

/-! ## The program's run -/

def QC : PUnit × MemSt nD τ sig (Elt F) → Prop := fun r => ∀ c : Dev nD,
  r.2.mem ((c.tc : Thread nD τ).loc main_v3) = Cert.Kernel.Spec.result (F := F) (m ((c.tc : Thread nD τ).loc main_arg0)) (m ((c.tc : Thread nD τ).loc main_arg1))
  ∧ r.2.mem ((c.tc : Thread nD τ).loc main_arg0) = m ((c.tc : Thread nD τ).loc main_arg0)
  ∧ r.2.mem ((c.tc : Thread nD τ).loc main_arg1) = m ((c.tc : Thread nD τ).loc main_arg1)

theorem run_main [∀ e, Nonempty (Elt F e)] (hpre : Common.PreOK m)
    (hTile : (Common.K (F := F)).TileObl (Common.D (F := F)) Common.𝒱 (Common.P m) Common.v₀ 0) :
    θ_run (Cert.Kernel.defs (F := F)) (Cert.Kernel.threads (F := F)) ⟨m, fun _ => 0, ρ⟩ (fun r => ∀ c : Dev nD,
        r.2.mem ((c.tc : Thread nD τ).loc main_v3) = Cert.Kernel.Spec.result (F := F) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P m) facts v₀
    (fun q hq => match q with | 0 => nomatch hq)
    (fun q _ => match q with | 0 => hTile)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m)
    (fun _ h c => ⟨(h c).1, (h c).2.1, (h c).2.2⟩)

end Cert.Kernel.Launch

end
-- ==== Proof.lean ====
/-
  The certificate: a masked mean of negated picked probabilities, computed by a gather on the SparseCores followed by a
  reduction on the TensorCore, equals the reference's.

  Inputs: probabilities pred[8, 2048, 8192] and tokens act[8, 2048] (0 is the pad token), every probability a real
  number and every token between 0 and 8191. A row's length is the number of its non-pad tokens; position (b, t) is
  live when t is below row b's length; the loss is minus the sum over the live positions of pred[b, t, act[b, t]],
  divided by the number of live positions (Proof/Clean.lean states this once, over the 8 × 2048 grid).

  The kernel. The 16384 positions are dealt to the 32 vector subcores, 512 consecutive positions of one row each.
  Worker w copies its 512 tokens in, and for each fetches the 8 × 128 block of the probabilities that holds the entry the
  token selects, reads that entry out of the block, and writes row w of a 32 × 512 array: at (w, p) the probability of
  the token at position (w / 4, (w % 4) · 512 + p). One worker's run is Proof/TileBody.lean; the launch theorem puts the
  32 runs together (Proof/TileObl.lean, Proof/Split.lean, Proof/Launch.lean): the probabilities and the tokens are only
  read, through shares handed to the workers, and the rows of the gathered array are disjoint. The reduction kernel
  then receives the gathered array and the tokens in the same 32 × 512 arrangement, recomputes the row lengths (a sum of
  0/1 words over the four workers of a row), masks, sums, counts and divides: its body is one term of its two inputs
  (Proof/Spec.lean), and that term is the plain loss (Proof/KerValue.lean: the lengths and the count are counts of
  ones, the 32 × 512 arrangement is a re-indexing of the 8 × 2048 grid, and the kernel negates the sum once).

  The reference. Its run ends at the composed term of its 47 operations (Proof/RefRun.lean); read one operation at a
  time that term is the plain loss as well (Proof/RefValue.lean): the lengths and the count are the same counts, a token
  in range passes the gather's range test and clamp unchanged, and the reference negates each summand where the plain
  form negates the sum — equal because every summand is a real number, the one place where the finiteness of the
  probabilities is used. The range of the tokens is used on both sides: for the kernel's block copies to lie inside the
  array, and for the reference's gather to take the entry and not its fill value.

  The frames: each program runs to completion with its arguments unchanged — the two kernel programs (the printed one
  and its reading at the ideal values, the same text) by the launch theorem, the reference by its run. The ideal pass
  rewrote no operation, so nothing is to be preserved between the two kernel programs.
-/
import proofs.«212842_g47828755808845_cont_8to1c4_577_40_alg».proof.Defs
import proofs.«212842_g47828755808845_cont_8to1c4_577_40_alg».proof.Proof.Gen.Kernel
import proofs.«212842_g47828755808845_cont_8to1c4_577_40_alg».proof.Proof.Gen.Kernel.Skeleton
import proofs.«212842_g47828755808845_cont_8to1c4_577_40_alg».proof.Proof.Gen.Kernel.Launch
import proofs.«212842_g47828755808845_cont_8to1c4_577_40_alg».proof.Proof.Gen.Kernel.Points
import proofs.«212842_g47828755808845_cont_8to1c4_577_40_alg».proof.Proof.Gen.KernelIdeal
import proofs.«212842_g47828755808845_cont_8to1c4_577_40_alg».proof.Proof.Gen.KernelIdeal.Skeleton
import proofs.«212842_g47828755808845_cont_8to1c4_577_40_alg».proof.Proof.Gen.KernelIdeal.Launch
import proofs.«212842_g47828755808845_cont_8to1c4_577_40_alg».proof.Proof.Gen.KernelIdeal.Points
import proofs.«212842_g47828755808845_cont_8to1c4_577_40_alg».proof.Proof.Gen.ReferenceIdeal
import proofs.«212842_g47828755808845_cont_8to1c4_577_40_alg».proof.Proof.Gen.Pre_input_domain
import proofs.«212842_g47828755808845_cont_8to1c4_577_40_alg».proof.Proof.PreFacts
import proofs.«212842_g47828755808845_cont_8to1c4_577_40_alg».proof.Proof.RefValue
import proofs.«212842_g47828755808845_cont_8to1c4_577_40_alg».proof.Proof.KerValue
import proofs.«212842_g47828755808845_cont_8to1c4_577_40_alg».proof.Proof.TileObl
import proofs.«212842_g47828755808845_cont_8to1c4_577_40_alg».proof.Proof.KTileObl
import proofs.«212842_g47828755808845_cont_8to1c4_577_40_alg».proof.Proof.TileBody
import proofs.«212842_g47828755808845_cont_8to1c4_577_40_alg».proof.Proof.KTileBody
import proofs.«212842_g47828755808845_cont_8to1c4_577_40_alg».proof.Proof.Launch
import proofs.«212842_g47828755808845_cont_8to1c4_577_40_alg».proof.Proof.KLaunch
import Idealize.ShloMosaic.Adequacy
import Idealize.ShloMosaic.Init

noncomputable section

namespace Cert.Proof

open Idealize.ShloMosaic Idealize.SL.Sem

/-- The printed kernel program runs and leaves its arguments unchanged: the launch theorem's run, the value dropped.
    What the run asks of the launch memory (every token at most 8191) is the second half of the precondition. -/
theorem frame_k : Cert.frame_Kernel (hKernel := Cert.Kernel.Gen.facts) (hPre_input_domain := Cert.Pre_input_domain.Gen.facts) :=
  fun m ρ hpre =>
    have hok : Cert.Kernel.Common.PreOK (F := Bits) m := fun d i => PreFacts.tokens_le (F := Bits) _ _ (hpre d) i
    (θ_run Cert.Kernel.defs _ _).mono (fun _ h c => (h c).2)
      (Cert.Kernel.Launch.run_main (F := Bits) m ρ hok
        (Cert.Kernel.Tile.tileObl m hok fun d L O W qa qp a0 ta0 tb0 o0 =>
          Cert.Kernel.Tile.tile_run m d L hok O W qa qp a0 ta0 tb0 o0))

/-- The kernel program's run at the ideal values: the result is the program's term of the two arguments. -/
theorem run_ki (m : (ℓ : Loc Cert.KernelIdeal.nD Cert.KernelIdeal.τ Cert.KernelIdeal.sig) → Buf (Elt Ideal) ℓ)
    (ρ : Dev Cert.KernelIdeal.nD → PrngReg)
    (hpre : Cert.Pre_KernelIdeal (hPre_input_domain := Cert.Pre_input_domain.Gen.facts) m) :
    θ_run (Cert.KernelIdeal.defs (F := Ideal)) (Cert.KernelIdeal.threads (F := Ideal)) ⟨m, fun _ => 0, ρ⟩
      (fun r => ∀ c : Dev Cert.KernelIdeal.nD,
        r.2.mem ((c.tc : Thread Cert.KernelIdeal.nD Cert.KernelIdeal.τ).loc Cert.KernelIdeal.main_v3)
            = Cert.KernelIdeal.Spec.result (F := Ideal)
                (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) :=
  have hok : Cert.KernelIdeal.Common.PreOK (F := Ideal) m := fun d i => PreFacts.tokens_le (F := Ideal) _ _ (hpre d) i
  Cert.KernelIdeal.Launch.run_main (F := Ideal) m ρ hok
    (Cert.KernelIdeal.Tile.tileObl m hok fun d L O W qa qp a0 ta0 tb0 o0 =>
      Cert.KernelIdeal.Tile.tile_run m d L hok O W qa qp a0 ta0 tb0 o0)

/-- The same program read at the ideal values runs and leaves its arguments unchanged. -/
theorem frame_ki : Cert.frame_KernelIdeal (hKernelIdeal := Cert.KernelIdeal.Gen.facts)
    (hPre_input_domain := Cert.Pre_input_domain.Gen.facts) :=
  fun m ρ hpre => (θ_run Cert.KernelIdeal.defs _ _).mono (fun _ h c => (h c).2) (run_ki m ρ hpre)

/-- At the ideal values the kernel program and the reference, from memories that agree on the arguments, both end with
    the plain loss of the arguments as their result: the kernel's term is it, and so is the reference's under the range of
    the tokens and the finiteness of the probabilities, both read off the precondition and carried to the reference's
    memory along the agreement. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  refine ⟨fun c => fun _ => Cert.KernelIdeal.Clean.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.Proof.KerValue.result_eq _ _), (h c).2⟩) (run_ki m ρ hpre)
  · have hr : ∀ (c : Dev Cert.ReferenceIdeal.nD) i,
        (m' ((c.tc : Thread _ Cert.ReferenceIdeal.τ).loc Cert.ReferenceIdeal.main_arg1) i).toNat ≤ 8191 := fun c i => by
      rw [(hagree c).2]; exact PreFacts.tokens_le (F := Ideal) _ _ (hpre c) i
    have hf : ∀ (c : Dev Cert.ReferenceIdeal.nD) i, ∃ r : ℝ,
        m' ((c.tc : Thread _ Cert.ReferenceIdeal.τ).loc Cert.ReferenceIdeal.main_arg0) i = (r : EReal) := fun c i => by
      rw [(hagree c).1]; exact PreFacts.probs_finite _ _ (hpre c) i
    exact (θ_run Cert.ReferenceIdeal.defs _ _).mono
      (fun _ h c => ⟨(h c).1.trans (by rw [(hagree c).1, (hagree c).2]; exact rfl), (h c).2⟩) (RefValue.ref_run m' ρ' hr hf)

theorem claim : Cert.Claim :=
  ⟨Cert.Kernel.Gen.facts, Cert.KernelIdeal.Gen.facts, Cert.ReferenceIdeal.Gen.facts, Cert.Pre_input_domain.Gen.facts,
    frame_k, frame_ki, RefValue.frame_ri, trivial, algebraic⟩

end Cert.Proof

end
